-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  IdealRules.truncf_extf.Statement Cert.KernelIdeal.S128x128 .f32 .bf16
  ∧ IdealRules.truncf_extf.Statement Cert.KernelIdeal.S128x128 .f32 .bf16
  ∧ IdealRules.truncf_extf.Statement Cert.KernelIdeal.S128x128 .f32 .bf16
  ∧ IdealRules.truncf_extf.Statement Cert.KernelIdeal.S128x128 .f32 .bf16
  ∧ IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part9 {F : FTy → Type} [FloatOps F] (main_arg2 : IVec S100000 32) (main_arg33 : FVec F S2 .f32) (main_v153 : IVec S_ 1) : IVec S_ 1 :=
  let main_v154 : FVec F S2 .f32 := Host.absf main_arg33
  let main_cst_60 : FVec F S_ .f32 := constant S_ .f32 0x7F800000#32
  let main_v155 : FVec F S2 .f32 := broadcastInDim S2 ![] bcast_S_S2 main_cst_60
  let main_v156 : IVec S2 1 := cmpf .olt main_v154 main_v155
  let main_c_61 : IVec S_ 1 := constantI S_ 1 1#1
  let main_v157 : IVec S_ 1 := (fun x v => Host.reduce IntOp.andi x v reducesTo_S2_S_d0 h_S_) main_v156 main_c_61
  let main_v158 : IVec S_ 1 := andi main_v153 main_v157
  let main_c_62 : IVec S_ 32 := constantI S_ 32 0#32
  let main_v159 : IVec S100000 32 := broadcastInDim S100000 ![] bcast_S_S100000 main_c_62
  let main_v160 : IVec S100000 1 := cmpi .sge main_arg2 main_v159
  let main_c_63 : IVec S_ 32 := constantI S_ 32 128#32
  let main_v161 : IVec S100000 32 := broadcastInDim S100000 ![] bcast_S_S100000 main_c_63
  let main_v162 : IVec S100000 1 := cmpi .slt main_arg2 main_v161
  let main_v163 : IVec S100000 1 := andi main_v160 main_v162
  let main_c_64 : IVec S_ 1 := constantI S_ 1 1#1
  let main_v164 : IVec S_ 1 := (fun x v => Host.reduce IntOp.andi x v reducesTo_S100000_S_d0 h_S_) main_v163 main_c_64
  let main_v165 : IVec S_ 1 := andi main_v158 main_v164
  main_v165

def fn_part8 {F : FTy → Type} [FloatOps F] (main_arg2 : IVec S100000 32) (main_arg30 : FVec F S128x128 .f32) (main_arg31 : FVec F S128 .f32) (main_arg32 : FVec F S128x2 .f32) (main_arg33 : FVec F S2 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg30
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x2 .f32 := Host.absf main_arg32
  let main_cst_58 : FVec F S_ .f32 := constant S_ .f32 0x7F800000#32
  let main_v150 : FVec F S128x2 .f32 := broadcastInDim S128x2 ![] bcast_S_S128x2 main_cst_58
  let main_v151 : IVec S128x2 1 := cmpf .olt main_v149 main_v150
  let main_c_59 : IVec S_ 1 := constantI S_ 1 1#1
  let main_v152 : IVec S_ 1 := (fun x v => Host.reduce IntOp.andi x v reducesTo_S128x2_S_d0_1 h_S_) main_v151 main_c_59
  let main_v153 : IVec S_ 1 := andi main_v148 main_v152
  fn_part9 (F := F) main_arg2 main_arg33 main_v153

def fn_part7 {F : FTy → Type} [FloatOps F] (main_arg2 : IVec S100000 32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg28
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg2 main_arg30 main_arg31 main_arg32 main_arg33 main_v133 main_v136

def fn_part6 {F : FTy → Type} [FloatOps F] (main_arg2 : IVec S100000 32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg26
  fn_part7 (F := F) main_arg2 main_arg27 main_arg28 main_arg29 main_arg30 main_arg31 main_arg32 main_arg33 main_v118 main_v119

def fn_part5 {F : FTy → Type} [FloatOps F] (main_arg2 : IVec S100000 32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg2 main_arg23 main_arg24 main_arg25 main_arg26 main_arg27 main_arg28 main_arg29 main_arg30 main_arg31 main_arg32 main_arg33 main_v98 main_v101 main_c_39

def fn_part4 {F : FTy → Type} [FloatOps F] (main_arg2 : IVec S100000 32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg2 : IVec S100000 32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg2 : IVec S100000 32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg2 : IVec S100000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x128 .f32) (main_arg1 : FVec F S100000x128 .f32) (main_arg2 : IVec S100000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S10x1x10000 : Shape := ⟨3, ![10, 1, 10000]⟩
abbrev S_ : Shape := ⟨0, ![]⟩
abbrev S1 : Shape := ⟨1, ![1]⟩
abbrev S1x128 : Shape := ⟨2, ![1, 128]⟩
abbrev S1x2 : Shape := ⟨2, ![1, 2]⟩
abbrev S10000x128 : Shape := ⟨2, ![10000, 128]⟩
abbrev S1x1x10000 : Shape := ⟨3, ![1, 1, 10000]⟩
abbrev S128x1 : Shape := ⟨2, ![128, 1]⟩
abbrev S1x10000 : Shape := ⟨2, ![1, 10000]⟩
abbrev S128x10000 : Shape := ⟨2, ![128, 10000]⟩

abbrev nBuf : Space → Nat
  | .hbm => 65
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x128, .f32⟩
  | .hbm, ⟨29, _⟩ => ⟨S128, .f32⟩
  | .hbm, ⟨30, _⟩ => ⟨S128x128, .f32⟩
  | .hbm, ⟨31, _⟩ => ⟨S128, .f32⟩
  | .hbm, ⟨32, _⟩ => ⟨S128x2, .f32⟩
  | .hbm, ⟨33, _⟩ => ⟨S2, .f32⟩
  | .hbm, ⟨34, _⟩ => ⟨S10x1x10000, .i32⟩
  | .hbm, ⟨35, _⟩ => ⟨S10x1x10000, .i32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S_, .i32⟩
  | .hbm, ⟨41, _⟩ => ⟨S1, .i32⟩
  | .hbm, ⟨42, _⟩ => ⟨S128x128, .f32⟩
  | .hbm, ⟨43, _⟩ => ⟨S_, .f32⟩
  | .hbm, ⟨44, _⟩ => ⟨S1x128, .f32⟩
  | .hbm, ⟨45, _⟩ => ⟨S_, .i32⟩
  | .hbm, ⟨46, _⟩ => ⟨S1, .i32⟩
  | .hbm, ⟨47, _⟩ => ⟨S1x2, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S128x128, .f32⟩
  | .hbm, ⟨64, _⟩ => ⟨S128x2, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x1x10000, .i32⟩
  | .local _ .vmem, ⟨5, _⟩ => ⟨S1x1x10000, .i32⟩
  | .local _ .vmem, ⟨6, _⟩ => ⟨S1x1x10000, .i32⟩
  | .local _ .vmem, ⟨7, _⟩ => ⟨S1x1x10000, .i32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S128x128, .f32⟩
  | .local _ .vmem, ⟨43, _⟩ => ⟨S128x1, .f32⟩
  | .local _ .vmem, ⟨44, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst : Ref sig .tc := ⟨.hbm, 38, rfl⟩
abbrev main_v4 : Ref sig .tc := ⟨.hbm, 39, rfl⟩
abbrev main_c : Ref sig .tc := ⟨.hbm, 40, rfl⟩
abbrev main_v5 : Ref sig .tc := ⟨.hbm, 41, rfl⟩
abbrev main_v6 : Ref sig .tc := ⟨.hbm, 42, rfl⟩
abbrev main_cst_0 : Ref sig .tc := ⟨.hbm, 43, rfl⟩
abbrev main_v7 : Ref sig .tc := ⟨.hbm, 44, rfl⟩
abbrev main_c_1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg31_0 : Ref sig .tc := ⟨.vmem, 35, rfl⟩
abbrev cc0_stg32_0 : Ref sig .tc := ⟨.vmem, 36, rfl⟩
abbrev cc0_stg33_0 : Ref sig .tc := ⟨.vmem, 37, rfl⟩
abbrev cc0_stg34_0 : Ref sig .tc := ⟨.vmem, 38, rfl⟩
abbrev cc0_stg35_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem31_0 : DmaSem sig := 35
abbrev cc0_sem32_0 : DmaSem sig := 36
abbrev cc0_sem33_0 : DmaSem sig := 37
abbrev cc0_sem34_0 : DmaSem sig := 38
abbrev cc0_sem35_0 : DmaSem sig := 39

abbrev nD : Nat := 1
abbrev τ : Topo := Topo.v7x

variable {F : FTy → Type} [FloatOps F]

abbrev grid0 : Pipeline.Grid := ⟨2, ![2, 10], ![false, false]⟩

def k0_cond5 (i : grid0.Coords) : BitVec 1 :=
  let arg0 : BitVec 32 := BitVec.ofNat 32 (i 0).val
  let c1_i32_8 : BitVec 32 := 1#32
  let v16 : BitVec 1 := Scalar.cmpi .eq arg0 c1_i32_8
  let arg1 : BitVec 32 := BitVec.ofNat 32 (i 1).val
  let c9_i32 : BitVec 32 := 9#32
  let v17 : BitVec 1 := Scalar.cmpi .eq arg1 c9_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x10000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x10000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]

abbrev stage0_35 : Fin 1 → Memref sig .tc .vmem S128x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false, false]

class Facts₀ : Prop where
  shapeCasts_S100000_S10x1x10000 : S100000.ShapeCasts S10x1x10000
  slices_S256x128_S128x128_0_0 : S256x128.Slices ![0, 0] S128x128
  slices_S256x128_S128x128_128_0 : S256x128.Slices ![128, 0] S128x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  bcast_S2_S1x2_1 : S2.BroadcastsInDim S1x2 (![1] : Fin 1 → Fin S1x2.rank)
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x1x10000 : S1x1x10000.ShapeCasts S1x1x10000
  shapeCasts_S1x1x10000_S1x10000 : S1x1x10000.ShapeCasts S1x10000
  iota_S128x10000_d0_w32 : S128x10000.Iotas .tc 32 [0]
  broadcasts_S1x10000_S128x10000 : S1x10000.Broadcasts S128x10000
  natLt_1_32 : 1 < 32
  reduces_S128x10000_S128 : S128x10000.Reduces [1] S128
  shapeCasts_S128_S128x1 : S128.ShapeCasts S128x1
  bitsLt_bf16_f32 : FTy.bits .bf16 < FTy.bits .f32
  broadcasts_S128x1_S128x128 : S128x1.Broadcasts S128x128
  broadcasts_S1x128_S128x128 : S1x128.Broadcasts S128x128
  slices_S128x128_S128x2_0_0 : S128x128.Slices ![0, 0] S128x2
  scatter_S128x128_S1_S128x2_01_n_1_0_wf : ScatterDims.WF S128x128 S1 S128x2 [0, 1] [] [1] 0
  scatter_S1x128_S1_S1x2_01_n_1_0_wf : ScatterDims.WF S1x128 S1 S1x2 [0, 1] [] [1] 0
  dot_S10000x128_S128x128_S10000x128_1_0_0_1_n_n_wf : DotDims.WF S10000x128 S128x128 S10000x128 [1] [0] [0] [1] [] []
  dot_S128x10000_S10000x128_S128x128_1_0_0_1_n_n_wf : DotDims.WF S128x10000 S10000x128 S128x128 [1] [0] [0] [1] [] []
  dot_S128x128_S128x128_S128x128_1_0_0_1_n_n_wf : DotDims.WF S128x128 S128x128 S128x128 [1] [0] [0] [1] [] []
  dot_S128x10000_S128x128_S10000x128_0_0_1_1_n_n_wf : DotDims.WF S128x10000 S128x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x10000.size a ≤ S10x1x10000.size a
  hwx0_2 : ∀ i : grid0.Coords, EltTy.bits .i32 = 32 ∨ (Rect.block (s := S10x1x10000) S1x1x10000.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10000.size a ≤ S10x1x10000.size a
  hwx0_3 : ∀ i : grid0.Coords, EltTy.bits .i32 = 32 ∨ (Rect.block (s := S10x1x10000) S1x1x10000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x128.size a ≤ S128x128.size a
  hwx0_23 : ∀ i : grid0.Coords, EltTy.bits .f32 = 32 ∨ (Rect.block (s := S128x128) S128x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x128.size a ≤ S128x128.size a
  hwx0_25 : ∀ i : grid0.Coords, EltTy.bits .f32 = 32 ∨ (Rect.block (s := S128x128) S128x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .f32 = 32 ∨ (Rect.block (s := S128x128) S128x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x128.size a ≤ S128x128.size a
  hwx0_29 : ∀ i : grid0.Coords, EltTy.bits .f32 = 32 ∨ (Rect.block (s := S128x128) S128x128.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x128.size a ≤ S1x128.size a
  hwx0_30 : ∀ i : grid0.Coords, EltTy.bits .f32 = 32 ∨ (Rect.block (s := S1x128) S1x128.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S128x128.size a ≤ S128x128.size a
  hwx0_31 : ∀ i : grid0.Coords, EltTy.bits .f32 = 32 ∨ (Rect.block (s := S128x128) S128x128.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x128.size a ≤ S1x128.size a
  hwx0_32 : ∀ i : grid0.Coords, EltTy.bits .f32 = 32 ∨ (Rect.block (s := S1x128) S1x128.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S128x128.size a ≤ S128x128.size a
  hwx0_33 : ∀ i : grid0.Coords, EltTy.bits .f32 = 32 ∨ (Rect.block (s := S128x128) S128x128.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x128.size a ≤ S1x128.size a
  hwx0_34 : ∀ i : grid0.Coords, EltTy.bits .f32 = 32 ∨ (Rect.block (s := S1x128) S1x128.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S128x128.size a ≤ S128x128.size a
  hwx0_35 : ∀ i : grid0.Coords, EltTy.bits .f32 = 32 ∨ (Rect.block (s := S128x128) S128x128.size (cc0_transform_35 i) (hinb0_35 i)).WholeWords (EltTy.packing .f32)

variable [Facts₀]

def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S1x128_S1_S1x2_01_n_1_0 : ScatterDims S1x128 S1 S1x2 where
  updateWindowDims := [0, 1]
  insertedWindowDims := []
  scatterDimsToOperandDims := [1]
  indexVectorDim := 0
  wf := scatter_S1x128_S1_S1x2_01_n_1_0_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x10000_S128x128_S10000x128_0_0_1_1_n_n : DotDims S128x10000 S128x128 S10000x128 where
  lhsContracting := [0]
  rhsContracting := [0]
  lhsNonContracting := [1]
  rhsNonContracting := [1]
  lhsBatch := []
  rhsBatch := []
  wf := dot_S128x10000_S128x128_S10000x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v2) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v3) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v18) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg20) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg22) S128x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v20) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg24) S128x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v21) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg26) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v22) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg28) S128x128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v23) S1x128.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg30) S128x128.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v24) S1x128.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v6) S128x128.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v10) S1x128.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_v25) S128x128.size cc0_transform_35 reads0_35 true true 1 stage0_35 sem0_35
    hrank0 hreads0_35 hinb0_35 nbuf0_35 (Memref.isWhole_whole _) hwx0_35 hstage0_35

abbrev win0 : Fin 36 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | ⟨_ + 36, h⟩ => absurd h (Nat.not_lt.2 (Nat.le_add_left _ _))
abbrev spec0 : Fin 36 → Pipeline.WinSpec sig grid0.rank := fun w => (win0 w).toWinSpec

abbrev idle0 : Fin 36 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun _ => false | 30 => fun _ => false | 31 => fun _ => false | 32 => fun _ => false | 33 => fun _ => false | 34 => fun _ => false | 35 => fun i => !(k0_cond5 i == 1#1) | ⟨_ + 36, h⟩ => absurd h (Nat.not_lt.2 (Nat.le_add_left _ _))

class Facts : Prop extends Facts₀ where

variable [Facts]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S1x128 : Shape := ⟨2, ![1, 128]⟩
abbrev S_ : Shape := ⟨0, ![]⟩
abbrev S100000x1 : Shape := ⟨2, ![100000, 1]⟩
abbrev S100000x256 : Shape := ⟨2, ![100000, 256]⟩
abbrev S1x2 : Shape := ⟨2, ![1, 2]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S100000x128, .f32⟩
  | 2 => ⟨S100000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S128x128, .f32⟩
  | 31 => ⟨S128, .f32⟩
  | 32 => ⟨S128x2, .f32⟩
  | 33 => ⟨S2, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128x128, .f32⟩
  | 54 => ⟨S100000x1, .i32⟩
  | 55 => ⟨S128x128, .f32⟩
  | 56 => ⟨S128x128, .f32⟩
  | 57 => ⟨S1x128, .f32⟩
  | 58 => ⟨S128x128, .f32⟩
  | 59 => ⟨S128x128, .f32⟩
  | 60 => ⟨S_, .f32⟩
  | 61 => ⟨S128x128, .f32⟩
  | 62 => ⟨S128x128, .f32⟩
  | 63 => ⟨S128x128, .f32⟩
  | 64 => ⟨S1x128, .f32⟩
  | 65 => ⟨S128x128, .f32⟩
  | 66 => ⟨S128x128, .f32⟩
  | 67 => ⟨S_, .f32⟩
  | 68 => ⟨S128x128, .f32⟩
  | 69 => ⟨S128x128, .f32⟩
  | 70 => ⟨S128x128, .f32⟩
  | 71 => ⟨S1x128, .f32⟩
  | 72 => ⟨S128x128, .f32⟩
  | 73 => ⟨S128x128, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x128, .f32⟩
  | 83 => ⟨S100000x256, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128x128, .f32⟩
  | 104 => ⟨S100000x1, .i32⟩
  | 105 => ⟨S128x128, .f32⟩
  | 106 => ⟨S128x128, .f32⟩
  | 107 => ⟨S1x128, .f32⟩
  | 108 => ⟨S128x128, .f32⟩
  | 109 => ⟨S128x128, .f32⟩
  | 110 => ⟨S_, .f32⟩
  | 111 => ⟨S128x128, .f32⟩
  | 112 => ⟨S128x128, .f32⟩
  | 113 => ⟨S128x128, .f32⟩
  | 114 => ⟨S1x128, .f32⟩
  | 115 => ⟨S128x128, .f32⟩
  | 116 => ⟨S128x128, .f32⟩
  | 117 => ⟨S_, .f32⟩
  | 118 => ⟨S128x128, .f32⟩
  | 119 => ⟨S128x128, .f32⟩
  | 120 => ⟨S128x128, .f32⟩
  | 121 => ⟨S1x128, .f32⟩
  | 122 => ⟨S128x128, .f32⟩
  | 123 => ⟨S128x128, .f32⟩
  | 124 => ⟨S128x128, .f32⟩
  | 125 => ⟨S1x128, .f32⟩
  | 126 => ⟨S128x128, .f32⟩
  | 127 => ⟨S128x128, .f32⟩
  | _ => ⟨S100000x128, .f32⟩

abbrev hbmTy0_1 (i : Nat) : BufTy := match i % 128 with
  | 0 => ⟨S_, .f32⟩
  | 1 => ⟨S128x128, .f32⟩
  | 2 => ⟨S128x128, .f32⟩
  | 3 => ⟨S128x128, .f32⟩
  | 4 => ⟨S1x128, .f32⟩
  | 5 => ⟨S128x128, .f32⟩
  | 6 => ⟨S128x128, .f32⟩
  | 7 => ⟨S_, .f32⟩
  | 8 => ⟨S128x128, .f32⟩
  | 9 => ⟨S128x128, .f32⟩
  | 10 => ⟨S128x2, .f32⟩
  | 11 => ⟨S1x2, .f32⟩
  | 12 => ⟨S128x2, .f32⟩
  | 13 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_call0_cst : Ref sig .tc := ⟨.hbm, 38, rfl⟩
abbrev main_call0_v0 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_call1_cst : Ref sig .tc := ⟨.hbm, 45, rfl⟩
abbrev main_call1_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_call2_cst : Ref sig .tc := ⟨.hbm, 60, rfl⟩
abbrev main_call2_v0 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_cst : Ref sig .tc := ⟨.hbm, 67, rfl⟩
abbrev main_call3_v0 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c : Ref sig .tc := ⟨.hbm, 74, rfl⟩
abbrev main_v31 : Ref sig .tc := ⟨.hbm, 75, rfl⟩
abbrev main_v32 : Ref sig .tc := ⟨.hbm, 76, rfl⟩
abbrev main_c_0 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call4_cst : Ref sig .tc := ⟨.hbm, 88, rfl⟩
abbrev main_call4_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_call5_cst : Ref sig .tc := ⟨.hbm, 95, rfl⟩
abbrev main_call5_v0 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_1 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call6_cst : Ref sig .tc := ⟨.hbm, 110, rfl⟩
abbrev main_call6_v0 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_call7_cst : Ref sig .tc := ⟨.hbm, 117, rfl⟩
abbrev main_call7_v0 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call8_cst : Ref sig .tc := ⟨.hbm, 128, rfl⟩
abbrev main_call8_v0 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_call9_cst : Ref sig .tc := ⟨.hbm, 135, rfl⟩
abbrev main_call9_v0 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S1x128_S128x128_0_1 : S1x128.BroadcastsInDim S128x128 (![0, 1] : Fin 2 → Fin S128x128.rank)
  bcast_S_S100000 : S_.BroadcastsInDim S100000 (![] : Fin 0 → Fin S100000.rank)
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  dot_S128x128_S128x128_S128x128_1_0_0_1_n_n_wf : DotDims.WF S128x128 S128x128 S128x128 [1] [0] [0] [1] [] []
  gather_S128x128_S100000x1_S100000x128_1_0_n_n_0_1_1128_wf : GatherDims.WF S128x128 S100000x1 S100000x128 [1] [0] [] [0] [] 1 ![1, 128]
  dot_S100000x256_S256x128_S100000x128_1_0_0_1_n_n_wf : DotDims.WF S100000x256 S256x128 S100000x128 [1] [0] [0] [1] [] []
  dot_S128x128_S128x2_S128x2_1_0_0_1_n_n_wf : DotDims.WF S128x128 S128x2 S128x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.K.Pre.lean ====
/-
  The grid has twenty points, ten for each of the two phases. Which of the body's five guarded parts run at a
  point is decided by its position: the reset and the first phase's accumulation at point 0, the accumulation alone
  at points 1 to 9, the graph-level network of the first stage and the second phase's accumulation at point 10,
  that accumulation alone at points 11 to 18, and with the final networks at point 19. The output window is
  written, and written back, at point 19 only.
-/
import proofs.«159474_g3393024163881_fold_wed_m_362_30_alg».proof.Proof.Gen.Kernel.Frame
import proofs.«159474_g3393024163881_fold_wed_m_362_30_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The guards, decided over the grid -/

abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val = 0 :=
  (by decide +kernel : ∀ t : Fin grid0.N, cond0 (grid0.coords t) ↔ t.val = 0)
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val < 10 :=
  (by decide +kernel : ∀ t : Fin grid0.N, cond1 (grid0.coords t) ↔ t.val < 10)
abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcond2 : ∀ t : Fin cfg0.N, cond2 (grid0.coords t) ↔ t.val = 10 :=
  (by decide +kernel : ∀ t : Fin grid0.N, cond2 (grid0.coords t) ↔ t.val = 10)
abbrev cond3 (i : grid0.Coords) : Prop := (Scalar.cmpi .ne (Scalar.extui (Scalar.cmpi .eq (BitVec.ofNat 32 (i 0).val) 1#32)) 0#32) = 1#1
theorem hcond3 : ∀ t : Fin cfg0.N, cond3 (grid0.coords t) ↔ 10 ≤ t.val :=
  (by decide +kernel : ∀ t : Fin grid0.N, cond3 (grid0.coords t) ↔ 10 ≤ t.val)
abbrev cond4 (i : grid0.Coords) : Prop := k0_cond5 i = 1#1
theorem hcond4 : ∀ t : Fin cfg0.N, cond4 (grid0.coords t) ↔ t.val = 19 :=
  (by decide +kernel : ∀ t : Fin grid0.N, cond4 (grid0.coords t) ↔ t.val = 19)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl
theorem live13 : ∀ t : Fin cfg0.N, cfg0.idle 13 (grid0.coords t) = false := fun _ => rfl
theorem live14 : ∀ t : Fin cfg0.N, cfg0.idle 14 (grid0.coords t) = false := fun _ => rfl
theorem live15 : ∀ t : Fin cfg0.N, cfg0.idle 15 (grid0.coords t) = false := fun _ => rfl
theorem live16 : ∀ t : Fin cfg0.N, cfg0.idle 16 (grid0.coords t) = false := fun _ => rfl
theorem live17 : ∀ t : Fin cfg0.N, cfg0.idle 17 (grid0.coords t) = false := fun _ => rfl
theorem live18 : ∀ t : Fin cfg0.N, cfg0.idle 18 (grid0.coords t) = false := fun _ => rfl
theorem live19 : ∀ t : Fin cfg0.N, cfg0.idle 19 (grid0.coords t) = false := fun _ => rfl
theorem live20 : ∀ t : Fin cfg0.N, cfg0.idle 20 (grid0.coords t) = false := fun _ => rfl
theorem live21 : ∀ t : Fin cfg0.N, cfg0.idle 21 (grid0.coords t) = false := fun _ => rfl
theorem live22 : ∀ t : Fin cfg0.N, cfg0.idle 22 (grid0.coords t) = false := fun _ => rfl
theorem live23 : ∀ t : Fin cfg0.N, cfg0.idle 23 (grid0.coords t) = false := fun _ => rfl
theorem live24 : ∀ t : Fin cfg0.N, cfg0.idle 24 (grid0.coords t) = false := fun _ => rfl
theorem live25 : ∀ t : Fin cfg0.N, cfg0.idle 25 (grid0.coords t) = false := fun _ => rfl
theorem live26 : ∀ t : Fin cfg0.N, cfg0.idle 26 (grid0.coords t) = false := fun _ => rfl
theorem live27 : ∀ t : Fin cfg0.N, cfg0.idle 27 (grid0.coords t) = false := fun _ => rfl
theorem live28 : ∀ t : Fin cfg0.N, cfg0.idle 28 (grid0.coords t) = false := fun _ => rfl
theorem live29 : ∀ t : Fin cfg0.N, cfg0.idle 29 (grid0.coords t) = false := fun _ => rfl
theorem live30 : ∀ t : Fin cfg0.N, cfg0.idle 30 (grid0.coords t) = false := fun _ => rfl
theorem live31 : ∀ t : Fin cfg0.N, cfg0.idle 31 (grid0.coords t) = false := fun _ => rfl
theorem live32 : ∀ t : Fin cfg0.N, cfg0.idle 32 (grid0.coords t) = false := fun _ => rfl
theorem live33 : ∀ t : Fin cfg0.N, cfg0.idle 33 (grid0.coords t) = false := fun _ => rfl
theorem live34 : ∀ t : Fin cfg0.N, cfg0.idle 34 (grid0.coords t) = false := fun _ => rfl
theorem idle35 : ∀ t : Fin cfg0.N, ¬cond4 (grid0.coords t) → cfg0.idle 35 (grid0.coords t) = true := by decide +kernel
theorem noFlush35 : ∀ t : Fin cfg0.N, ¬cond4 (grid0.coords t) → (cfg0.win 35).flush t = false := by decide +kernel
theorem live35 : ∀ t : Fin cfg0.N, cond4 (grid0.coords t) → cfg0.idle 35 (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x10000 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x10000 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S128x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x128 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S128x128 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x128 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S128x128 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S1x128 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S128x128 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S1x128 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S128x128 .f32 := win0_25.stage (cfg0.slots t 25)
abbrev hs25 (t : Fin cfg0.N) : (ms25 t).IsWhole := hstage0_25 ((cfg0.slots t 25).cast nbuf0_25)
abbrev ms26 (t : Fin cfg0.N) : Memref sig .tc .vmem S1x128 .f32 := win0_26.stage (cfg0.slots t 26)
abbrev hs26 (t : Fin cfg0.N) : (ms26 t).IsWhole := hstage0_26 ((cfg0.slots t 26).cast nbuf0_26)
abbrev ms27 (t : Fin cfg0.N) : Memref sig .tc .vmem S128x128 .f32 := win0_27.stage (cfg0.slots t 27)
abbrev hs27 (t : Fin cfg0.N) : (ms27 t).IsWhole := hstage0_27 ((cfg0.slots t 27).cast nbuf0_27)
abbrev ms28 (t : Fin cfg0.N) : Memref sig .tc .vmem S1x128 .f32 := win0_28.stage (cfg0.slots t 28)
abbrev hs28 (t : Fin cfg0.N) : (ms28 t).IsWhole := hstage0_28 ((cfg0.slots t 28).cast nbuf0_28)
abbrev ms29 (t : Fin cfg0.N) : Memref sig .tc .vmem S128x128 .f32 := win0_29.stage (cfg0.slots t 29)
abbrev hs29 (t : Fin cfg0.N) : (ms29 t).IsWhole := hstage0_29 ((cfg0.slots t 29).cast nbuf0_29)
abbrev ms30 (t : Fin cfg0.N) : Memref sig .tc .vmem S1x128 .f32 := win0_30.stage (cfg0.slots t 30)
abbrev hs30 (t : Fin cfg0.N) : (ms30 t).IsWhole := hstage0_30 ((cfg0.slots t 30).cast nbuf0_30)
abbrev ms31 (t : Fin cfg0.N) : Memref sig .tc .vmem S128x128 .f32 := win0_31.stage (cfg0.slots t 31)
abbrev hs31 (t : Fin cfg0.N) : (ms31 t).IsWhole := hstage0_31 ((cfg0.slots t 31).cast nbuf0_31)
abbrev ms32 (t : Fin cfg0.N) : Memref sig .tc .vmem S1x128 .f32 := win0_32.stage (cfg0.slots t 32)
abbrev hs32 (t : Fin cfg0.N) : (ms32 t).IsWhole := hstage0_32 ((cfg0.slots t 32).cast nbuf0_32)
abbrev ms33 (t : Fin cfg0.N) : Memref sig .tc .vmem S128x128 .f32 := win0_33.stage (cfg0.slots t 33)
abbrev hs33 (t : Fin cfg0.N) : (ms33 t).IsWhole := hstage0_33 ((cfg0.slots t 33).cast nbuf0_33)
abbrev ms34 (t : Fin cfg0.N) : Memref sig .tc .vmem S1x128 .f32 := win0_34.stage (cfg0.slots t 34)
abbrev hs34 (t : Fin cfg0.N) : (ms34 t).IsWhole := hstage0_34 ((cfg0.slots t 34).cast nbuf0_34)
abbrev ms35 (t : Fin cfg0.N) : Memref sig .tc .vmem S128x128 .f32 := win0_35.stage (cfg0.slots t 35)
abbrev hs35 (t : Fin cfg0.N) : (ms35 t).IsWhole := hstage0_35 ((cfg0.slots t 35).cast nbuf0_35)
abbrev sc0 : Memref sig .tc .vmem S128x128 .f32 := Memref.whole cc0_scratch0
abbrev VS0 : View sig .tc .vmem S128x128 .f32 := (sc0 : Memref sig .tc .vmem S128x128 .f32).view
abbrev sc1 : Memref sig .tc .vmem S128x128 .f32 := Memref.whole cc0_scratch1
abbrev VS1 : View sig .tc .vmem S128x128 .f32 := (sc1 : Memref sig .tc .vmem S128x128 .f32).view
abbrev sc2 : Memref sig .tc .vmem S128x128 .f32 := Memref.whole cc0_scratch2
abbrev VS2 : View sig .tc .vmem S128x128 .f32 := (sc2 : Memref sig .tc .vmem S128x128 .f32).view
abbrev sc3 : Memref sig .tc .vmem S128x1 .f32 := Memref.whole cc0_scratch3
abbrev VS3 : View sig .tc .vmem S128x1 .f32 := (sc3 : Memref sig .tc .vmem S128x1 .f32).view
abbrev sc4 : Memref sig .tc .vmem S128x1 .f32 := Memref.whole cc0_scratch4
abbrev VS4 : View sig .tc .vmem S128x1 .f32 := (sc4 : Memref sig .tc .vmem S128x1 .f32).view
abbrev VO35 : View sig .tc .vmem S128x128 .f32 := (Memref.whole cc0_stg35_0 : Memref sig .tc .vmem S128x128 .f32).view

/-- The region's invariant with the five scratch buffers as whole memrefs at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.Kernel.Body

end
-- ==== Proof.K.RunA.lean ====
/-
  The kernel body run at a point of case A: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.K.Pre

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i)
    (x0 : Vec F S10000x128 .f32) (x2 : Vec F S1x1x10000 .i32) (x4 : Vec F S128x128 .f32) (x5 : Vec F S1x128 .f32) (x6 : Vec F S128x128 .f32) (x7 : Vec F S1x128 .f32)  :
    Σ' (LS0 : List (View.Piece (Elt F) S128x128 .f32)) (LS2 : List (View.Piece (Elt F) S128x128 .f32)) (LS3 : List (View.Piece (Elt F) S128x1 .f32)), { LS4 : List (View.Piece (Elt F) S128x1 .f32) //
      ∀ (E : Set ℕ) (K : PUnit → sProp 𝕄),
        iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg38 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg38.view.loc (c : Thread nD τ) ↦[arg38.view.set]{fullShare} arg38.view.writes (Elt F) f LS0) ∗ (∃ f, arg40.view.loc (c : Thread nD τ) ↦[arg40.view.set]{fullShare} arg40.view.writes (Elt F) f LS2) ∗ (∃ f, arg41.view.loc (c : Thread nD τ) ↦[arg41.view.set]{fullShare} arg41.view.writes (Elt F) f LS3) ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f2, %hf2, H2⟩, ⟨%f4, %hf4, H4⟩, ⟨%f5, %hf5, H5⟩, ⟨%f6, %hf6, H6⟩, ⟨%f7, %hf7, H7⟩, ⟨%ds0, %fs0, -, HS0⟩, ⟨%ds2, %fs2, -, HS2⟩, ⟨%ds3, %fs3, -, HS3⟩, ⟨%ds4, %fs4, -, HS4⟩, Hk⟩
    obtain rfl := harg2.eq_unread hf0; obtain rfl := harg4.eq_unread hf2; obtain rfl := harg6.eq_unread hf4; obtain rfl := harg7.eq_unread hf5; obtain rfl := harg8.eq_unread hf6; obtain rfl := harg9.eq_unread hf7
    sl_exec (disch := first | exact hc0 | exact hc1 | exact hc2 | exact hc3 | exact hc4)
    sl_step
    iapply Hk
    isplitl [H0]
    · iexists _; isplitr; · ipureintro; exact harg2.read_unread _
      iexact H0
    isplitl [H2]
    · iexists _; isplitr; · ipureintro; exact harg4.read_unread _
      iexact H2
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS2]
    · iexists _; iexact HS2
    isplitl [HS3]
    · iexists _; iexact HS3
    iexists _; iexact HS4

end Cert.Kernel.Body

end
-- ==== Proof.K.RunB.lean ====
/-
  The kernel body run at a point of case B: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i)
    (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) :
    Σ' (LS0 : List (View.Piece (Elt F) S128x128 .f32)), { LS3 : List (View.Piece (Elt F) S128x1 .f32) //
      ∀ (E : Set ℕ) (K : PUnit → sProp 𝕄),
        iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg38 fullShare xs0 ∗ owns (c : Thread nD τ) arg41 fullShare xs3
            ∗ (iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg38.view.loc (c : Thread nD τ) ↦[arg38.view.set]{fullShare} arg38.view.writes (Elt F) f LS0) ∗ (∃ f, arg41.view.loc (c : Thread nD τ) ↦[arg41.view.set]{fullShare} arg41.view.writes (Elt F) f LS3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f2, %hf2, H2⟩, ⟨%f4, %hf4, H4⟩, ⟨%f5, %hf5, H5⟩, ⟨%f6, %hf6, H6⟩, ⟨%f7, %hf7, H7⟩, ⟨%fs0, %hfs0, HS0⟩, ⟨%fs3, %hfs3, HS3⟩, Hk⟩
    obtain rfl := harg2.eq_unread hf0; obtain rfl := harg4.eq_unread hf2; obtain rfl := harg6.eq_unread hf4; obtain rfl := harg7.eq_unread hf5; obtain rfl := harg8.eq_unread hf6; obtain rfl := harg9.eq_unread hf7; obtain rfl := harg38.eq_unread hfs0; obtain rfl := harg41.eq_unread hfs3
    sl_exec (disch := first | exact hc0 | exact hc1 | exact hc2 | exact hc3 | exact hc4)
    sl_step
    iapply Hk
    isplitl [H0]
    · iexists _; isplitr; · ipureintro; exact harg2.read_unread _
      iexact H0
    isplitl [H2]
    · iexists _; isplitr; · ipureintro; exact harg4.read_unread _
      iexact H2
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS3

end Cert.Kernel.Body

end
-- ==== Proof.K.RunC.lean ====
/-
  The kernel body run at a point of case C: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i)
    (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) :
    Σ' (LS1 : List (View.Piece (Elt F) S128x128 .f32)) (LS2 : List (View.Piece (Elt F) S128x128 .f32)), { LS4 : List (View.Piece (Elt F) S128x1 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg38 fullShare xs0 ∗ (∃ d, owns (c : Thread nD τ) arg39 fullShare d) ∗ owns (c : Thread nD τ) arg40 fullShare xs2 ∗ owns (c : Thread nD τ) arg41 fullShare xs3 ∗ owns (c : Thread nD τ) arg42 fullShare xs4
            ∗ (iprop(owns (c : Thread nD τ) arg3 fullShare x1 ∗ owns (c : Thread nD τ) arg4 fullShare x2 ∗ owns (c : Thread nD τ) arg5 fullShare x3 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg38 fullShare xs0 ∗ (∃ f, arg39.view.loc (c : Thread nD τ) ↦[arg39.view.set]{fullShare} arg39.view.writes (Elt F) f LS1) ∗ (∃ f, arg40.view.loc (c : Thread nD τ) ↦[arg40.view.set]{fullShare} arg40.view.writes (Elt F) f LS2) ∗ owns (c : Thread nD τ) arg41 fullShare xs3 ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg3.eq_unread hf1; obtain rfl := harg4.eq_unread hf2; obtain rfl := harg5.eq_unread hf3; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg38.eq_unread hfs0; obtain rfl := harg40.eq_unread hfs2; obtain rfl := harg41.eq_unread hfs3; obtain rfl := harg42.eq_unread hfs4
    sl_exec (disch := first | exact hc0 | exact hc1 | exact hc2 | exact hc3 | exact hc4)
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS0]
    · iexists _; isplitr; · ipureintro; exact harg38.read_unread _
      iexact HS0
    isplitl [HS1]
    · iexists _; iexact HS1
    isplitl [HS2]
    · iexists _; iexact HS2
    isplitl [HS3]
    · iexists _; isplitr; · ipureintro; exact harg41.read_unread _
      iexact HS3
    iexists _; iexact HS4

end Cert.Kernel.Body

end
-- ==== Proof.K.RunD.lean ====
/-
  The kernel body run at a point of case D: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunD (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i)
    (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) :
    Σ' (LS2 : List (View.Piece (Elt F) S128x128 .f32)), { LS4 : List (View.Piece (Elt F) S128x1 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg39 fullShare xs1 ∗ owns (c : Thread nD τ) arg40 fullShare xs2 ∗ owns (c : Thread nD τ) arg42 fullShare xs4
            ∗ (iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg39 fullShare xs1 ∗ (∃ f, arg40.view.loc (c : Thread nD τ) ↦[arg40.view.set]{fullShare} arg40.view.writes (Elt F) f LS2) ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f16, %hf16, H16⟩, ⟨%f17, %hf17, H17⟩, ⟨%f18, %hf18, H18⟩, ⟨%f19, %hf19, H19⟩, ⟨%f20, %hf20, H20⟩, ⟨%fs1, %hfs1, HS1⟩, ⟨%fs2, %hfs2, HS2⟩, ⟨%fs4, %hfs4, HS4⟩, Hk⟩
    obtain rfl := harg3.eq_unread hf1; obtain rfl := harg4.eq_unread hf2; obtain rfl := harg5.eq_unread hf3; obtain rfl := harg18.eq_unread hf16; obtain rfl := harg19.eq_unread hf17; obtain rfl := harg20.eq_unread hf18; obtain rfl := harg21.eq_unread hf19; obtain rfl := harg22.eq_unread hf20; obtain rfl := harg39.eq_unread hfs1; obtain rfl := harg40.eq_unread hfs2; obtain rfl := harg42.eq_unread hfs4
    sl_exec (disch := first | exact hc0 | exact hc1 | exact hc2 | exact hc3 | exact hc4)
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS1]
    · iexists _; isplitr; · ipureintro; exact harg39.read_unread _
      iexact HS1
    isplitl [HS2]
    · iexists _; iexact HS2
    iexists _; iexact HS4

end Cert.Kernel.Body

end
-- ==== Proof.K.RunE.lean ====
/-
  The kernel body run at a point of case E: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.K.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunE (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i)
    (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) :
    Σ' (L35 : List (View.Piece (Elt F) S128x128 .f32)) (LS2 : List (View.Piece (Elt F) S128x128 .f32)), { LS4 : List (View.Piece (Elt F) S128x1 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ (∃ d, owns (c : Thread nD τ) arg37 fullShare d) ∗ owns (c : Thread nD τ) arg39 fullShare xs1 ∗ owns (c : Thread nD τ) arg40 fullShare xs2 ∗ owns (c : Thread nD τ) arg42 fullShare xs4
            ∗ (iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ (∃ f, arg37.view.loc (c : Thread nD τ) ↦[arg37.view.set]{fullShare} arg37.view.writes (Elt F) f L35) ∗ owns (c : Thread nD τ) arg39 fullShare xs1 ∗ (∃ f, arg40.view.loc (c : Thread nD τ) ↦[arg40.view.set]{fullShare} arg40.view.writes (Elt F) f LS2) ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%fs1, %hfs1, HS1⟩, ⟨%fs2, %hfs2, HS2⟩, ⟨%fs4, %hfs4, HS4⟩, Hk⟩
    obtain rfl := harg3.eq_unread hf1; obtain rfl := harg4.eq_unread hf2; obtain rfl := harg5.eq_unread hf3; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg39.eq_unread hfs1; obtain rfl := harg40.eq_unread hfs2; obtain rfl := harg42.eq_unread hfs4
    sl_exec (disch := first | exact hc0 | exact hc1 | exact hc2 | exact hc3 | exact hc4)
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; iexact H35
    isplitl [HS1]
    · iexists _; isplitr; · ipureintro; exact harg39.read_unread _
      iexact HS1
    isplitl [HS2]
    · iexists _; iexact HS2
    iexists _; iexact HS4

end Cert.Kernel.Body

end
-- ==== Proof.K.Body.lean ====
/-
  The body obligation of the fused kernel. What the five scratch buffers and the output block hold after each grid
  point is defined by recursion on the point: the case the point is in, run on the point's input blocks and on what
  the point before left. The region's invariant keeps the scratch buffers at those contents (the embedding buffer
  at anything until point 10 writes it); the body, run by cases, re-establishes it.
-/
import proofs.«159474_g3393024163881_fold_wed_m_362_30_alg».proof.Proof.K.RunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards at a point of each case -/
theorem cA0 (t : Fin cfg0.N) (h : t.val = 0) : cond0 (grid0.coords t) := (hcond0 t).mpr (by omega)
theorem cA1 (t : Fin cfg0.N) (h : t.val = 0) : cond1 (grid0.coords t) := (hcond1 t).mpr (by omega)
theorem cA2 (t : Fin cfg0.N) (h : t.val = 0) : ¬cond2 (grid0.coords t) := fun h' => absurd ((hcond2 t).mp h') (by omega)
theorem cA3 (t : Fin cfg0.N) (h : t.val = 0) : ¬cond3 (grid0.coords t) := fun h' => absurd ((hcond3 t).mp h') (by omega)
theorem cA4 (t : Fin cfg0.N) (h : t.val = 0) : ¬cond4 (grid0.coords t) := fun h' => absurd ((hcond4 t).mp h') (by omega)
theorem cB0 (t : Fin cfg0.N) (h : 0 < t.val ∧ t.val < 10) : ¬cond0 (grid0.coords t) := fun h' => absurd ((hcond0 t).mp h') (by omega)
theorem cB1 (t : Fin cfg0.N) (h : 0 < t.val ∧ t.val < 10) : cond1 (grid0.coords t) := (hcond1 t).mpr (by omega)
theorem cB2 (t : Fin cfg0.N) (h : 0 < t.val ∧ t.val < 10) : ¬cond2 (grid0.coords t) := fun h' => absurd ((hcond2 t).mp h') (by omega)
theorem cB3 (t : Fin cfg0.N) (h : 0 < t.val ∧ t.val < 10) : ¬cond3 (grid0.coords t) := fun h' => absurd ((hcond3 t).mp h') (by omega)
theorem cB4 (t : Fin cfg0.N) (h : 0 < t.val ∧ t.val < 10) : ¬cond4 (grid0.coords t) := fun h' => absurd ((hcond4 t).mp h') (by omega)
theorem cC0 (t : Fin cfg0.N) (h : t.val = 10) : ¬cond0 (grid0.coords t) := fun h' => absurd ((hcond0 t).mp h') (by omega)
theorem cC1 (t : Fin cfg0.N) (h : t.val = 10) : ¬cond1 (grid0.coords t) := fun h' => absurd ((hcond1 t).mp h') (by omega)
theorem cC2 (t : Fin cfg0.N) (h : t.val = 10) : cond2 (grid0.coords t) := (hcond2 t).mpr (by omega)
theorem cC3 (t : Fin cfg0.N) (h : t.val = 10) : cond3 (grid0.coords t) := (hcond3 t).mpr (by omega)
theorem cC4 (t : Fin cfg0.N) (h : t.val = 10) : ¬cond4 (grid0.coords t) := fun h' => absurd ((hcond4 t).mp h') (by omega)
theorem cD0 (t : Fin cfg0.N) (h : 10 < t.val ∧ t.val < 19) : ¬cond0 (grid0.coords t) := fun h' => absurd ((hcond0 t).mp h') (by omega)
theorem cD1 (t : Fin cfg0.N) (h : 10 < t.val ∧ t.val < 19) : ¬cond1 (grid0.coords t) := fun h' => absurd ((hcond1 t).mp h') (by omega)
theorem cD2 (t : Fin cfg0.N) (h : 10 < t.val ∧ t.val < 19) : ¬cond2 (grid0.coords t) := fun h' => absurd ((hcond2 t).mp h') (by omega)
theorem cD3 (t : Fin cfg0.N) (h : 10 < t.val ∧ t.val < 19) : cond3 (grid0.coords t) := (hcond3 t).mpr (by omega)
theorem cD4 (t : Fin cfg0.N) (h : 10 < t.val ∧ t.val < 19) : ¬cond4 (grid0.coords t) := fun h' => absurd ((hcond4 t).mp h') (by omega)
theorem cE0 (t : Fin cfg0.N) (h : t.val = 19) : ¬cond0 (grid0.coords t) := fun h' => absurd ((hcond0 t).mp h') (by omega)
theorem cE1 (t : Fin cfg0.N) (h : t.val = 19) : ¬cond1 (grid0.coords t) := fun h' => absurd ((hcond1 t).mp h') (by omega)
theorem cE2 (t : Fin cfg0.N) (h : t.val = 19) : ¬cond2 (grid0.coords t) := fun h' => absurd ((hcond2 t).mp h') (by omega)
theorem cE3 (t : Fin cfg0.N) (h : t.val = 19) : cond3 (grid0.coords t) := (hcond3 t).mpr (by omega)
theorem cE4 (t : Fin cfg0.N) (h : t.val = 19) : cond4 (grid0.coords t) := (hcond4 t).mpr (by omega)

/-! ## The runs at a point, and what they leave -/

/-- What the carried buffers hold: the five scratch buffers and the output block. -/
structure St (F : FTy → Type) [FloatOps F] where
  s0 : Vec F S128x128 .f32
  s1 : Vec F S128x128 .f32
  s2 : Vec F S128x128 .f32
  s3 : Vec F S128x1 .f32
  s4 : Vec F S128x1 .f32
  out : Vec F S128x128 .f32

/-- The run of case A at point `t`. -/
abbrev runA (c : Dev nD) (t : Fin cfg0.N) (h : t.val = 0)  :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cA0 t h) (cA1 t h) (cA2 t h) (cA3 t h) (cA4 t h) (iblk m c 0 t) (iblk m c 2 t) (iblk m c 4 t) (iblk m c 5 t) (iblk m c 6 t) (iblk m c 7 t)
theorem coverA_LS0 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x128.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).1 S128x128.size (by sl_kernel_rfl) y
def vA_LS0 (c : Dev nD) (t : Fin cfg0.N) (h : t.val = 0)  : Vec F S128x128 .f32 :=
  VS0.read (Elt F) (VS0.writes (Elt F) VS0.junk (runA m c t h ).1)
theorem coverA_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x128.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.1 S128x128.size (by sl_kernel_rfl) y
def vA_LS2 (c : Dev nD) (t : Fin cfg0.N) (h : t.val = 0)  : Vec F S128x128 .f32 :=
  VS2.read (Elt F) (VS2.writes (Elt F) VS2.junk (runA m c t h ).2.1)
theorem coverA_LS3 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x1.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.1 S128x1.size (by sl_kernel_rfl) y
def vA_LS3 (c : Dev nD) (t : Fin cfg0.N) (h : t.val = 0)  : Vec F S128x1 .f32 :=
  VS3.read (Elt F) (VS3.writes (Elt F) VS3.junk (runA m c t h ).2.2.1)
theorem coverA_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x1.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.2.1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.2.1 S128x1.size (by sl_kernel_rfl) y
def vA_LS4 (c : Dev nD) (t : Fin cfg0.N) (h : t.val = 0)  : Vec F S128x1 .f32 :=
  VS4.read (Elt F) (VS4.writes (Elt F) VS4.junk (runA m c t h ).2.2.2.1)
/-- What the carried buffers hold after a point of case A. -/
def stepA (c : Dev nD) (t : Fin cfg0.N) (h : t.val = 0)  : St F where
  s0 := vA_LS0 m c t h
  s1 := VS1.read (Elt F) VS1.junk
  s2 := vA_LS2 m c t h
  s3 := vA_LS3 m c t h
  s4 := vA_LS4 m c t h
  out := VO35.read (Elt F) VO35.junk

/-- The run of case B at point `t`. -/
abbrev runB (c : Dev nD) (t : Fin cfg0.N) (h : 0 < t.val ∧ t.val < 10) (xs0 : Vec F S128x128 .f32) (xs3 : Vec F S128x1 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cB0 t h) (cB1 t h) (cB2 t h) (cB3 t h) (cB4 t h) (iblk m c 0 t) (iblk m c 2 t) (iblk m c 4 t) (iblk m c 5 t) (iblk m c 6 t) (iblk m c 7 t) xs0 xs3
theorem coverB_LS0 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) (y : S128x128.Idx) :
    ∃ pc ∈ (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).1, y ∈ pc.1.set :=
  View.cover_of_tiledL (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).1 S128x128.size (by sl_kernel_rfl) y
def vB_LS0 (c : Dev nD) (t : Fin cfg0.N) (h : 0 < t.val ∧ t.val < 10) (xs0 : Vec F S128x128 .f32) (xs3 : Vec F S128x1 .f32) : Vec F S128x128 .f32 :=
  VS0.read (Elt F) (VS0.writes (Elt F) VS0.junk (runB m c t h xs0 xs3).1)
theorem coverB_LS3 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) (y : S128x1.Idx) :
    ∃ pc ∈ (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).2.1, y ∈ pc.1.set :=
  View.cover_of_tiledL (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).2.1 S128x1.size (by sl_kernel_rfl) y
def vB_LS3 (c : Dev nD) (t : Fin cfg0.N) (h : 0 < t.val ∧ t.val < 10) (xs0 : Vec F S128x128 .f32) (xs3 : Vec F S128x1 .f32) : Vec F S128x1 .f32 :=
  VS3.read (Elt F) (VS3.writes (Elt F) VS3.junk (runB m c t h xs0 xs3).2.1)
/-- What the carried buffers hold after a point of case B. -/
def stepB (c : Dev nD) (t : Fin cfg0.N) (h : 0 < t.val ∧ t.val < 10) (p : St F) : St F where
  s0 := vB_LS0 m c t h p.s0 p.s3
  s1 := p.s1
  s2 := p.s2
  s3 := vB_LS3 m c t h p.s0 p.s3
  s4 := p.s4
  out := p.out

/-- The run of case C at point `t`. -/
abbrev runC (c : Dev nD) (t : Fin cfg0.N) (h : t.val = 10) (xs0 : Vec F S128x128 .f32) (xs2 : Vec F S128x128 .f32) (xs3 : Vec F S128x1 .f32) (xs4 : Vec F S128x1 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cC0 t h) (cC1 t h) (cC2 t h) (cC3 t h) (cC4 t h) (iblk m c 1 t) (iblk m c 2 t) (iblk m c 3 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs0 xs2 xs3 xs4
theorem coverC_LS1 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) (y : S128x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).1 S128x128.size (by sl_kernel_rfl) y
def vC_LS1 (c : Dev nD) (t : Fin cfg0.N) (h : t.val = 10) (xs0 : Vec F S128x128 .f32) (xs2 : Vec F S128x128 .f32) (xs3 : Vec F S128x1 .f32) (xs4 : Vec F S128x1 .f32) : Vec F S128x128 .f32 :=
  VS1.read (Elt F) (VS1.writes (Elt F) VS1.junk (runC m c t h xs0 xs2 xs3 xs4).1)
theorem coverC_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) (y : S128x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.1 S128x128.size (by sl_kernel_rfl) y
def vC_LS2 (c : Dev nD) (t : Fin cfg0.N) (h : t.val = 10) (xs0 : Vec F S128x128 .f32) (xs2 : Vec F S128x128 .f32) (xs3 : Vec F S128x1 .f32) (xs4 : Vec F S128x1 .f32) : Vec F S128x128 .f32 :=
  VS2.read (Elt F) (VS2.writes (Elt F) VS2.junk (runC m c t h xs0 xs2 xs3 xs4).2.1)
theorem coverC_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) (y : S128x1.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.2.1 S128x1.size (by sl_kernel_rfl) y
def vC_LS4 (c : Dev nD) (t : Fin cfg0.N) (h : t.val = 10) (xs0 : Vec F S128x128 .f32) (xs2 : Vec F S128x128 .f32) (xs3 : Vec F S128x1 .f32) (xs4 : Vec F S128x1 .f32) : Vec F S128x1 .f32 :=
  VS4.read (Elt F) (VS4.writes (Elt F) VS4.junk (runC m c t h xs0 xs2 xs3 xs4).2.2.1)
/-- What the carried buffers hold after a point of case C. -/
def stepC (c : Dev nD) (t : Fin cfg0.N) (h : t.val = 10) (p : St F) : St F where
  s0 := p.s0
  s1 := vC_LS1 m c t h p.s0 p.s2 p.s3 p.s4
  s2 := vC_LS2 m c t h p.s0 p.s2 p.s3 p.s4
  s3 := p.s3
  s4 := vC_LS4 m c t h p.s0 p.s2 p.s3 p.s4
  out := p.out

/-- The run of case D at point `t`. -/
abbrev runD (c : Dev nD) (t : Fin cfg0.N) (h : 10 < t.val ∧ t.val < 19) (xs1 : Vec F S128x128 .f32) (xs2 : Vec F S128x128 .f32) (xs4 : Vec F S128x1 .f32) :=
  kernelRunD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cD0 t h) (cD1 t h) (cD2 t h) (cD3 t h) (cD4 t h) (iblk m c 1 t) (iblk m c 2 t) (iblk m c 3 t) (iblk m c 16 t) (iblk m c 17 t) (iblk m c 18 t) (iblk m c 19 t) (iblk m c 20 t) xs1 xs2 xs4
theorem coverD_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) (y : S128x128.Idx) :
    ∃ pc ∈ (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).1, y ∈ pc.1.set :=
  View.cover_of_tiledL (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).1 S128x128.size (by sl_kernel_rfl) y
def vD_LS2 (c : Dev nD) (t : Fin cfg0.N) (h : 10 < t.val ∧ t.val < 19) (xs1 : Vec F S128x128 .f32) (xs2 : Vec F S128x128 .f32) (xs4 : Vec F S128x1 .f32) : Vec F S128x128 .f32 :=
  VS2.read (Elt F) (VS2.writes (Elt F) VS2.junk (runD m c t h xs1 xs2 xs4).1)
theorem coverD_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) (y : S128x1.Idx) :
    ∃ pc ∈ (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).2.1, y ∈ pc.1.set :=
  View.cover_of_tiledL (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).2.1 S128x1.size (by sl_kernel_rfl) y
def vD_LS4 (c : Dev nD) (t : Fin cfg0.N) (h : 10 < t.val ∧ t.val < 19) (xs1 : Vec F S128x128 .f32) (xs2 : Vec F S128x128 .f32) (xs4 : Vec F S128x1 .f32) : Vec F S128x1 .f32 :=
  VS4.read (Elt F) (VS4.writes (Elt F) VS4.junk (runD m c t h xs1 xs2 xs4).2.1)
/-- What the carried buffers hold after a point of case D. -/
def stepD (c : Dev nD) (t : Fin cfg0.N) (h : 10 < t.val ∧ t.val < 19) (p : St F) : St F where
  s0 := p.s0
  s1 := p.s1
  s2 := vD_LS2 m c t h p.s1 p.s2 p.s4
  s3 := p.s3
  s4 := vD_LS4 m c t h p.s1 p.s2 p.s4
  out := p.out

/-- The run of case E at point `t`. -/
abbrev runE (c : Dev nD) (t : Fin cfg0.N) (h : t.val = 19) (xs1 : Vec F S128x128 .f32) (xs2 : Vec F S128x128 .f32) (xs4 : Vec F S128x1 .f32) :=
  kernelRunE (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cE0 t h) (cE1 t h) (cE2 t h) (cE3 t h) (cE4 t h) (iblk m c 1 t) (iblk m c 2 t) (iblk m c 3 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xs1 xs2 xs4
theorem coverE_L35 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) (y : S128x128.Idx) :
    ∃ pc ∈ (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).1, y ∈ pc.1.set :=
  View.cover_of_tiledL (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).1 S128x128.size (by sl_kernel_rfl) y
def vE_L35 (c : Dev nD) (t : Fin cfg0.N) (h : t.val = 19) (xs1 : Vec F S128x128 .f32) (xs2 : Vec F S128x128 .f32) (xs4 : Vec F S128x1 .f32) : Vec F S128x128 .f32 :=
  VO35.read (Elt F) (VO35.writes (Elt F) VO35.junk (runE m c t h xs1 xs2 xs4).1)
theorem coverE_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) (y : S128x128.Idx) :
    ∃ pc ∈ (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.1, y ∈ pc.1.set :=
  View.cover_of_tiledL (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.1 S128x128.size (by sl_kernel_rfl) y
def vE_LS2 (c : Dev nD) (t : Fin cfg0.N) (h : t.val = 19) (xs1 : Vec F S128x128 .f32) (xs2 : Vec F S128x128 .f32) (xs4 : Vec F S128x1 .f32) : Vec F S128x128 .f32 :=
  VS2.read (Elt F) (VS2.writes (Elt F) VS2.junk (runE m c t h xs1 xs2 xs4).2.1)
theorem coverE_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) (y : S128x1.Idx) :
    ∃ pc ∈ (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.2.1, y ∈ pc.1.set :=
  View.cover_of_tiledL (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.2.1 S128x1.size (by sl_kernel_rfl) y
def vE_LS4 (c : Dev nD) (t : Fin cfg0.N) (h : t.val = 19) (xs1 : Vec F S128x128 .f32) (xs2 : Vec F S128x128 .f32) (xs4 : Vec F S128x1 .f32) : Vec F S128x1 .f32 :=
  VS4.read (Elt F) (VS4.writes (Elt F) VS4.junk (runE m c t h xs1 xs2 xs4).2.2.1)
/-- What the carried buffers hold after a point of case E. -/
def stepE (c : Dev nD) (t : Fin cfg0.N) (h : t.val = 19) (p : St F) : St F where
  s0 := p.s0
  s1 := p.s1
  s2 := vE_LS2 m c t h p.s1 p.s2 p.s4
  s3 := p.s3
  s4 := vE_LS4 m c t h p.s1 p.s2 p.s4
  out := vE_L35 m c t h p.s1 p.s2 p.s4

/-- What the carried buffers hold after the point at position `n`. -/
def stAt (c : Dev nD) : (n : ℕ) → n < cfg0.N → St F
  | 0, hn => stepA m c ⟨0, hn⟩ rfl
  | n + 1, hn =>
    if h1 : n + 1 < 10 then stepB m c ⟨n + 1, hn⟩ ⟨Nat.succ_pos n, h1⟩ (stAt c n (Nat.lt_of_succ_lt hn))
    else if h2 : n + 1 = 10 then stepC m c ⟨n + 1, hn⟩ h2 (stAt c n (Nat.lt_of_succ_lt hn))
    else if h3 : n + 1 < 19 then stepD m c ⟨n + 1, hn⟩ ⟨show 10 < n + 1 by omega, h3⟩ (stAt c n (Nat.lt_of_succ_lt hn))
    else stepE m c ⟨n + 1, hn⟩ (show n + 1 = 19 by have hN : n + 1 < 20 := lt_of_lt_of_eq hn (show cfg0.N = 20 from N_0); omega) (stAt c n (Nat.lt_of_succ_lt hn))

theorem stAt_A (c : Dev nD) (t : Fin cfg0.N) (h : t.val = 0) : stAt m c t.val t.isLt = stepA m c t h := by
  obtain ⟨n, hn⟩ := t
  cases n with
  | zero => rfl
  | succ n => exact absurd h (Nat.succ_ne_zero n)
theorem stAt_B (c : Dev nD) (t : Fin cfg0.N) (h : 0 < t.val ∧ t.val < 10) :
    stAt m c t.val t.isLt = stepB m c t h (stAt m c (t.val - 1) (Nat.lt_of_le_of_lt (Nat.sub_le _ _) t.isLt)) := by
  obtain ⟨n, hn⟩ := t
  cases n with
  | zero => exact absurd h.1 (Nat.lt_irrefl 0)
  | succ n => exact (dif_pos h.2).trans rfl
theorem stAt_C (c : Dev nD) (t : Fin cfg0.N) (h : t.val = 10) :
    stAt m c t.val t.isLt = stepC m c t h (stAt m c (t.val - 1) (Nat.lt_of_le_of_lt (Nat.sub_le _ _) t.isLt)) := by
  obtain ⟨n, hn⟩ := t
  cases n with
  | zero => exact absurd h (show ¬ (0 : ℕ) = 10 by omega)
  | succ n => exact (dif_neg (show ¬ n + 1 < 10 by have : n + 1 = 10 := h; omega)).trans ((dif_pos h).trans rfl)
theorem stAt_D (c : Dev nD) (t : Fin cfg0.N) (h : 10 < t.val ∧ t.val < 19) :
    stAt m c t.val t.isLt = stepD m c t h (stAt m c (t.val - 1) (Nat.lt_of_le_of_lt (Nat.sub_le _ _) t.isLt)) := by
  obtain ⟨n, hn⟩ := t
  cases n with
  | zero => exact absurd h.1 (show ¬ 10 < (0 : ℕ) by omega)
  | succ n => exact (dif_neg (show ¬ n + 1 < 10 by have := h.1; simp only at this; omega)).trans ((dif_neg (show ¬ n + 1 = 10 by have := h.1; simp only at this; omega)).trans ((dif_pos h.2).trans rfl))
theorem stAt_E (c : Dev nD) (t : Fin cfg0.N) (h : t.val = 19) :
    stAt m c t.val t.isLt = stepE m c t h (stAt m c (t.val - 1) (Nat.lt_of_le_of_lt (Nat.sub_le _ _) t.isLt)) := by
  obtain ⟨n, hn⟩ := t
  cases n with
  | zero => exact absurd h (show ¬ (0 : ℕ) = 19 by omega)
  | succ n => exact (dif_neg (show ¬ n + 1 < 10 by have : n + 1 = 19 := h; omega)).trans ((dif_neg (show ¬ n + 1 = 10 by have : n + 1 = 19 := h; omega)).trans ((dif_neg (show ¬ n + 1 < 19 by have : n + 1 = 19 := h; omega)).trans rfl))

/-! ## The invariant -/

/-- The embedding buffer: at its named contents once point 10 has written it, at anything before. -/
def u1Held (c : Dev nD) (n : ℕ) (x : Vec F S128x128 .f32) : sProp 𝕄 :=
  if 10 ≤ n then owns (c : Thread nD τ) sc1 fullShare x else iprop(∃ d, owns (c : Thread nD τ) sc1 fullShare d)
theorem u1Held_ge (c : Dev nD) (n : ℕ) (x : Vec F S128x128 .f32) (h : 10 ≤ n) : u1Held (F := F) c n x = owns (c : Thread nD τ) sc1 fullShare x := if_pos h
theorem u1Held_lt (c : Dev nD) (n : ℕ) (x : Vec F S128x128 .f32) (h : ¬10 ≤ n) : u1Held (F := F) c n x = iprop(∃ d, owns (c : Thread nD τ) sc1 fullShare d) := if_neg h

/-- The scratch buffers at what the state says. -/
def held (c : Dev nD) (n : ℕ) (s : St F) : sProp 𝕄 :=
  iprop(iprop(owns (c : Thread nD τ) sc0 fullShare s.s0 ∗ u1Held c n s.s1 ∗ owns (c : Thread nD τ) sc2 fullShare s.s2 ∗ owns (c : Thread nD τ) sc3 fullShare s.s3 ∗ owns (c : Thread nD τ) sc4 fullShare s.s4) ∗ (∃ r, prngReg c r))

/-- The region's invariant before the point at position `n`. -/
def PhiS (c : Dev nD) : (n : ℕ) → n ≤ cfg0.N → sProp 𝕄
  | 0, _ => Pipeline.ΦA spec0 c
  | n + 1, hn => held c n (stAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = held c n (stAt m c n hn) := rfl
theorem PhiS_pos (c : Dev nD) (n : ℕ) (h : n ≤ cfg0.N) (hz : n ≠ 0) :
    PhiS m c n h = held c (n - 1) (stAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => (stAt m c t.val t.isLt).out
    | ⟨_ + 36, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = (stAt m c t.val t.isLt).out := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d
theorem before19 (c : Dev nD) (t : Fin cfg0.N) (d) : (dats m 0 c).before 19 t d = iblk m c 19 t :=
  before0_19_of m (dats m 0 c) (A_eq m c 19) (after19 m c) t d
theorem before20 (c : Dev nD) (t : Fin cfg0.N) (d) : (dats m 0 c).before 20 t d = iblk m c 20 t :=
  before0_20_of m (dats m 0 c) (A_eq m c 20) (after20 m c) t d
theorem before21 (c : Dev nD) (t : Fin cfg0.N) (d) : (dats m 0 c).before 21 t d = iblk m c 21 t :=
  before0_21_of m (dats m 0 c) (A_eq m c 21) (after21 m c) t d
theorem before22 (c : Dev nD) (t : Fin cfg0.N) (d) : (dats m 0 c).before 22 t d = iblk m c 22 t :=
  before0_22_of m (dats m 0 c) (A_eq m c 22) (after22 m c) t d
theorem before23 (c : Dev nD) (t : Fin cfg0.N) (d) : (dats m 0 c).before 23 t d = iblk m c 23 t :=
  before0_23_of m (dats m 0 c) (A_eq m c 23) (after23 m c) t d
theorem before24 (c : Dev nD) (t : Fin cfg0.N) (d) : (dats m 0 c).before 24 t d = iblk m c 24 t :=
  before0_24_of m (dats m 0 c) (A_eq m c 24) (after24 m c) t d
theorem before25 (c : Dev nD) (t : Fin cfg0.N) (d) : (dats m 0 c).before 25 t d = iblk m c 25 t :=
  before0_25_of m (dats m 0 c) (A_eq m c 25) (after25 m c) t d
theorem before26 (c : Dev nD) (t : Fin cfg0.N) (d) : (dats m 0 c).before 26 t d = iblk m c 26 t :=
  before0_26_of m (dats m 0 c) (A_eq m c 26) (after26 m c) t d
theorem before27 (c : Dev nD) (t : Fin cfg0.N) (d) : (dats m 0 c).before 27 t d = iblk m c 27 t :=
  before0_27_of m (dats m 0 c) (A_eq m c 27) (after27 m c) t d
theorem before28 (c : Dev nD) (t : Fin cfg0.N) (d) : (dats m 0 c).before 28 t d = iblk m c 28 t :=
  before0_28_of m (dats m 0 c) (A_eq m c 28) (after28 m c) t d
theorem before29 (c : Dev nD) (t : Fin cfg0.N) (d) : (dats m 0 c).before 29 t d = iblk m c 29 t :=
  before0_29_of m (dats m 0 c) (A_eq m c 29) (after29 m c) t d
theorem before30 (c : Dev nD) (t : Fin cfg0.N) (d) : (dats m 0 c).before 30 t d = iblk m c 30 t :=
  before0_30_of m (dats m 0 c) (A_eq m c 30) (after30 m c) t d
theorem before31 (c : Dev nD) (t : Fin cfg0.N) (d) : (dats m 0 c).before 31 t d = iblk m c 31 t :=
  before0_31_of m (dats m 0 c) (A_eq m c 31) (after31 m c) t d
theorem before32 (c : Dev nD) (t : Fin cfg0.N) (d) : (dats m 0 c).before 32 t d = iblk m c 32 t :=
  before0_32_of m (dats m 0 c) (A_eq m c 32) (after32 m c) t d
theorem before33 (c : Dev nD) (t : Fin cfg0.N) (d) : (dats m 0 c).before 33 t d = iblk m c 33 t :=
  before0_33_of m (dats m 0 c) (A_eq m c 33) (after33 m c) t d
theorem before34 (c : Dev nD) (t : Fin cfg0.N) (d) : (dats m 0 c).before 34 t d = iblk m c 34 t :=
  before0_34_of m (dats m 0 c) (A_eq m c 34) (after34 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d))
    ∗ (∃ d, owns (c : Thread nD τ) (ms26 t) fullShare ((dats m 0 c).before 26 t d))
    ∗ (∃ d, owns (c : Thread nD τ) (ms27 t) fullShare ((dats m 0 c).before 27 t d))
    ∗ (∃ d, owns (c : Thread nD τ) (ms28 t) fullShare ((dats m 0 c).before 28 t d))
    ∗ (∃ d, owns (c : Thread nD τ) (ms29 t) fullShare ((dats m 0 c).before 29 t d))
    ∗ (∃ d, owns (c : Thread nD τ) (ms30 t) fullShare ((dats m 0 c).before 30 t d))
    ∗ (∃ d, owns (c : Thread nD τ) (ms31 t) fullShare ((dats m 0 c).before 31 t d))
    ∗ (∃ d, owns (c : Thread nD τ) (ms32 t) fullShare ((dats m 0 c).before 32 t d))
    ∗ (∃ d, owns (c : Thread nD τ) (ms33 t) fullShare ((dats m 0 c).before 33 t d))
    ∗ (∃ d, owns (c : Thread nD τ) (ms34 t) fullShare ((dats m 0 c).before 34 t d))
    ∗ (∃ d, owns (c : Thread nD τ) (ms35 t) fullShare ((dats m 0 c).before 35 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t)

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27, before28, before29, before30, before31, before32, before33, before34]
  rw [show (dats m 0 c).owesAt () t.succ = (dats m 0 c).owesAt () t.castSucc from rfl]
  rw [show (dats m 0 c).Φ t.succ = PhiS m c (t.val + 1) t.isLt from rfl, PhiS_succ]; unfold held
  have hN : t.val < 20 := lt_of_lt_of_eq t.isLt (show cfg0.N = 20 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  rw [show (dats m 0 c).leavesExact 14 t = owns (c : Thread nD τ) (ms14 t) fullShare ((dats m 0 c).after 14 t) from by
    unfold Dat.leavesExact; rw [live14 t], after14]
  rw [show (dats m 0 c).leavesExact 15 t = owns (c : Thread nD τ) (ms15 t) fullShare ((dats m 0 c).after 15 t) from by
    unfold Dat.leavesExact; rw [live15 t], after15]
  rw [show (dats m 0 c).leavesExact 16 t = owns (c : Thread nD τ) (ms16 t) fullShare ((dats m 0 c).after 16 t) from by
    unfold Dat.leavesExact; rw [live16 t], after16]
  rw [show (dats m 0 c).leavesExact 17 t = owns (c : Thread nD τ) (ms17 t) fullShare ((dats m 0 c).after 17 t) from by
    unfold Dat.leavesExact; rw [live17 t], after17]
  rw [show (dats m 0 c).leavesExact 18 t = owns (c : Thread nD τ) (ms18 t) fullShare ((dats m 0 c).after 18 t) from by
    unfold Dat.leavesExact; rw [live18 t], after18]
  rw [show (dats m 0 c).leavesExact 19 t = owns (c : Thread nD τ) (ms19 t) fullShare ((dats m 0 c).after 19 t) from by
    unfold Dat.leavesExact; rw [live19 t], after19]
  rw [show (dats m 0 c).leavesExact 20 t = owns (c : Thread nD τ) (ms20 t) fullShare ((dats m 0 c).after 20 t) from by
    unfold Dat.leavesExact; rw [live20 t], after20]
  rw [show (dats m 0 c).leavesExact 21 t = owns (c : Thread nD τ) (ms21 t) fullShare ((dats m 0 c).after 21 t) from by
    unfold Dat.leavesExact; rw [live21 t], after21]
  rw [show (dats m 0 c).leavesExact 22 t = owns (c : Thread nD τ) (ms22 t) fullShare ((dats m 0 c).after 22 t) from by
    unfold Dat.leavesExact; rw [live22 t], after22]
  rw [show (dats m 0 c).leavesExact 23 t = owns (c : Thread nD τ) (ms23 t) fullShare ((dats m 0 c).after 23 t) from by
    unfold Dat.leavesExact; rw [live23 t], after23]
  rw [show (dats m 0 c).leavesExact 24 t = owns (c : Thread nD τ) (ms24 t) fullShare ((dats m 0 c).after 24 t) from by
    unfold Dat.leavesExact; rw [live24 t], after24]
  rw [show (dats m 0 c).leavesExact 25 t = owns (c : Thread nD τ) (ms25 t) fullShare ((dats m 0 c).after 25 t) from by
    unfold Dat.leavesExact; rw [live25 t], after25]
  rw [show (dats m 0 c).leavesExact 26 t = owns (c : Thread nD τ) (ms26 t) fullShare ((dats m 0 c).after 26 t) from by
    unfold Dat.leavesExact; rw [live26 t], after26]
  rw [show (dats m 0 c).leavesExact 27 t = owns (c : Thread nD τ) (ms27 t) fullShare ((dats m 0 c).after 27 t) from by
    unfold Dat.leavesExact; rw [live27 t], after27]
  rw [show (dats m 0 c).leavesExact 28 t = owns (c : Thread nD τ) (ms28 t) fullShare ((dats m 0 c).after 28 t) from by
    unfold Dat.leavesExact; rw [live28 t], after28]
  rw [show (dats m 0 c).leavesExact 29 t = owns (c : Thread nD τ) (ms29 t) fullShare ((dats m 0 c).after 29 t) from by
    unfold Dat.leavesExact; rw [live29 t], after29]
  rw [show (dats m 0 c).leavesExact 30 t = owns (c : Thread nD τ) (ms30 t) fullShare ((dats m 0 c).after 30 t) from by
    unfold Dat.leavesExact; rw [live30 t], after30]
  rw [show (dats m 0 c).leavesExact 31 t = owns (c : Thread nD τ) (ms31 t) fullShare ((dats m 0 c).after 31 t) from by
    unfold Dat.leavesExact; rw [live31 t], after31]
  rw [show (dats m 0 c).leavesExact 32 t = owns (c : Thread nD τ) (ms32 t) fullShare ((dats m 0 c).after 32 t) from by
    unfold Dat.leavesExact; rw [live32 t], after32]
  rw [show (dats m 0 c).leavesExact 33 t = owns (c : Thread nD τ) (ms33 t) fullShare ((dats m 0 c).after 33 t) from by
    unfold Dat.leavesExact; rw [live33 t], after33]
  rw [show (dats m 0 c).leavesExact 34 t = owns (c : Thread nD τ) (ms34 t) fullShare ((dats m 0 c).after 34 t) from by
    unfold Dat.leavesExact; rw [live34 t], after34]
  by_cases hA : t.val = 0
  · -- point 0
    rw [Dat.leavesExact_idle (dats m 0 c) 35 t (idle35 t (cA4 t hA)) (noFlush35 t (cA4 t hA))]
    rw [stAt_A m c t hA]
    unfold stepA vA_LS0 vA_LS2 vA_LS3 vA_LS4; (try dsimp only)
    rw [PhiS_castSucc m c t, PhiS_zero m c _ _ hA, PhiA_eq]
    rw [u1Held_lt c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runA m c t hA ).2.2.2.2 Set.univ _)
    isplitl [H0]; · iexact H0
    isplitl [H2]; · iexact H2
    isplitl [H4]; · iexact H4
    isplitl [H5]; · iexact H5
    isplitl [H6]; · iexact H6
    isplitl [H7]; · iexact H7
    isplitl [HS0]; · iexact HS0
    isplitl [HS2]; · iexact HS2
    isplitl [HS3]; · iexact HS3
    isplitl [HS4]; · iexact HS4
    iintro ⟨H0, H2, H4, H5, H6, H7, ⟨%es0, HS0⟩, ⟨%es2, HS2⟩, ⟨%es3, HS3⟩, ⟨%es4, HS4⟩⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (coverA_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · iexact HS1
        isplitl [HS2]
        · unfold owns; iexists _; isplitr
          swap; · iexact HS2
          ipureintro; exact View.read_writes_of_cover _ _ _ _ _ (coverA_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverA_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverA_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  by_cases hB1 : t.val < 10
  · have hB : 0 < t.val ∧ t.val < 10 := ⟨Nat.pos_of_ne_zero hA, hB1⟩
    rw [Dat.leavesExact_idle (dats m 0 c) 35 t (idle35 t (cB4 t hB)) (noFlush35 t (cB4 t hB))]
    rw [stAt_B m c t hB]
    unfold stepB vB_LS0 vB_LS3; (try dsimp only)
    rw [PhiS_castSucc m c t, PhiS_pos m c _ _ (by omega)]; unfold held
    rw [u1Held_lt c (t.val - 1) _ (by omega)]
    rw [u1Held_lt c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runB m c t hB _ _).2.2 Set.univ _)
    isplitl [H0]; · iexact H0
    isplitl [H2]; · iexact H2
    isplitl [H4]; · iexact H4
    isplitl [H5]; · iexact H5
    isplitl [H6]; · iexact H6
    isplitl [H7]; · iexact H7
    isplitl [HS0]; · iexact HS0
    isplitl [HS3]; · iexact HS3
    iintro ⟨H0, H2, H4, H5, H6, H7, ⟨%es0, HS0⟩, ⟨%es3, HS3⟩⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (coverB_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · iexact HS1
        isplitl [HS2]
        · iexact HS2
        isplitl [HS3]
        · unfold owns; iexists _; isplitr
          swap; · iexact HS3
          ipureintro; exact View.read_writes_of_cover _ _ _ _ _ (coverB_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  by_cases hC : t.val = 10
  · -- point 10
    rw [Dat.leavesExact_idle (dats m 0 c) 35 t (idle35 t (cC4 t hC)) (noFlush35 t (cC4 t hC))]
    rw [stAt_C m c t hC]
    unfold stepC vC_LS1 vC_LS2 vC_LS4; (try dsimp only)
    rw [PhiS_castSucc m c t, PhiS_pos m c _ _ (by omega)]; unfold held
    rw [u1Held_lt c (t.val - 1) _ (by omega)]
    rw [u1Held_ge c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runC m c t hC _ _ _ _).2.2.2 Set.univ _)
    isplitl [H1]; · iexact H1
    isplitl [H2]; · iexact H2
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [HS0]; · iexact HS0
    isplitl [HS1]; · iexact HS1
    isplitl [HS2]; · iexact HS2
    isplitl [HS3]; · iexact HS3
    isplitl [HS4]; · iexact HS4
    iintro ⟨H1, H2, H3, H8, H9, H10, H11, H12, H13, H14, H15, H16, H17, H18, H19, H20, HS0, ⟨%es1, HS1⟩, ⟨%es2, HS2⟩, HS3, ⟨%es4, HS4⟩⟩
    isplitl [HS0 HS1 HS2 HS3 HS4 Hg]
    · isplitl [HS0 HS1 HS2 HS3 HS4]
      · isplitl [HS0]
        · iexact HS0
        isplitl [HS1]
        · unfold owns; iexists _; isplitr
          swap; · iexact HS1
          ipureintro; exact View.read_writes_of_cover _ _ _ _ _ (coverC_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverC_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · iexact HS3
        unfold owns; iexists _; isplitr
        swap; · iexact HS4
        ipureintro; exact View.read_writes_of_cover _ _ _ _ _ (coverC_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  by_cases hD1 : t.val < 19
  · have hD : 10 < t.val ∧ t.val < 19 := ⟨by omega, hD1⟩
    rw [Dat.leavesExact_idle (dats m 0 c) 35 t (idle35 t (cD4 t hD)) (noFlush35 t (cD4 t hD))]
    rw [stAt_D m c t hD]
    unfold stepD vD_LS2 vD_LS4; (try dsimp only)
    rw [PhiS_castSucc m c t, PhiS_pos m c _ _ (by omega)]; unfold held
    rw [u1Held_ge c (t.val - 1) _ (by omega)]
    rw [u1Held_ge c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runD m c t hD _ _ _).2.2 Set.univ _)
    isplitl [H1]; · iexact H1
    isplitl [H2]; · iexact H2
    isplitl [H3]; · iexact H3
    isplitl [H16]; · iexact H16
    isplitl [H17]; · iexact H17
    isplitl [H18]; · iexact H18
    isplitl [H19]; · iexact H19
    isplitl [H20]; · iexact H20
    isplitl [HS1]; · iexact HS1
    isplitl [HS2]; · iexact HS2
    isplitl [HS4]; · iexact HS4
    iintro ⟨H1, H2, H3, H16, H17, H18, H19, H20, HS1, ⟨%es2, HS2⟩, ⟨%es4, HS4⟩⟩
    isplitl [HS0 HS1 HS2 HS3 HS4 Hg]
    · isplitl [HS0 HS1 HS2 HS3 HS4]
      · isplitl [HS0]
        · iexact HS0
        isplitl [HS1]
        · iexact HS1
        isplitl [HS2]
        · unfold owns; iexists _; isplitr
          swap; · iexact HS2
          ipureintro; exact View.read_writes_of_cover _ _ _ _ _ (coverD_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · iexact HS3
        unfold owns; iexists _; isplitr
        swap; · iexact HS4
        ipureintro; exact View.read_writes_of_cover _ _ _ _ _ (coverD_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  have hE : t.val = 19 := by omega
  rw [show (dats m 0 c).leavesExact 35 t = owns (c : Thread nD τ) (ms35 t) fullShare ((dats m 0 c).after 35 t) from by
    unfold Dat.leavesExact; rw [live35 t (cE4 t hE)], after35]
  rw [stAt_E m c t hE]
  unfold stepE vE_L35 vE_LS2 vE_LS4; (try dsimp only)
  rw [PhiS_castSucc m c t, PhiS_pos m c _ _ (by omega)]; unfold held
  rw [u1Held_ge c (t.val - 1) _ (by omega)]
  rw [u1Held_ge c t.val _ (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((runE m c t hE _ _ _).2.2.2 Set.univ _)
  isplitl [H1]; · iexact H1
  isplitl [H2]; · iexact H2
  isplitl [H3]; · iexact H3
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexists _; iexact H35
  isplitl [HS1]; · iexact HS1
  isplitl [HS2]; · iexact HS2
  isplitl [HS4]; · iexact HS4
  iintro ⟨H1, H2, H3, H16, H17, H18, H19, H20, H21, H22, H23, H24, H25, H26, H27, H28, H29, H30, H31, H32, H33, H34, ⟨%e35, H35⟩, HS1, ⟨%es2, HS2⟩, ⟨%es4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (coverE_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS3]
      · iexact HS3
      unfold owns; iexists _; isplitr
      swap; · iexact HS4
      ipureintro; exact View.read_writes_of_cover _ _ _ _ _ (coverE_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  unfold owns; iexists _; isplitr
  swap; · iexact H35
  ipureintro; exact View.read_writes_of_cover _ _ _ _ _ (coverE_L35 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem body_obligation (c : Dev nD) : BodyObligation (dats (F := F) m 0 c) (defs₀ (F := F)) Variants.none () Set.univ := fun t => by
  rw [bigSep_W0, bigSep_W0]
  exact sound_body m c t

set_option maxHeartbeats 4000000 in
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option maxHeartbeats 4000000 in
theorem hout (c : Dev nD) : (dats m 0 c).Φ (Fin.last cfg0.N) ⊢ Pipeline.ΦA spec0 c := by
  have hN : cfg0.N = 20 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]; unfold held
  rw [u1Held_ge c _ _ (by rw [Fin.val_last]; omega)]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run -/

set_option maxHeartbeats 4000000 in
set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Body

end
-- ==== Proof.KI.Pre.lean ====
/-
  The grid has twenty points, ten for each of the two phases. Which of the body's five guarded parts run at a
  point is decided by its position: the reset and the first phase's accumulation at point 0, the accumulation alone
  at points 1 to 9, the graph-level network of the first stage and the second phase's accumulation at point 10,
  that accumulation alone at points 11 to 18, and with the final networks at point 19. The output window is
  written, and written back, at point 19 only.
-/
import proofs.«159474_g3393024163881_fold_wed_m_362_30_alg».proof.Proof.Gen.KernelIdeal.Frame
import proofs.«159474_g3393024163881_fold_wed_m_362_30_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The guards, decided over the grid -/

abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val = 0 :=
  (by decide +kernel : ∀ t : Fin grid0.N, cond0 (grid0.coords t) ↔ t.val = 0)
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val < 10 :=
  (by decide +kernel : ∀ t : Fin grid0.N, cond1 (grid0.coords t) ↔ t.val < 10)
abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcond2 : ∀ t : Fin cfg0.N, cond2 (grid0.coords t) ↔ t.val = 10 :=
  (by decide +kernel : ∀ t : Fin grid0.N, cond2 (grid0.coords t) ↔ t.val = 10)
abbrev cond3 (i : grid0.Coords) : Prop := (Scalar.cmpi .ne (Scalar.extui (Scalar.cmpi .eq (BitVec.ofNat 32 (i 0).val) 1#32)) 0#32) = 1#1
theorem hcond3 : ∀ t : Fin cfg0.N, cond3 (grid0.coords t) ↔ 10 ≤ t.val :=
  (by decide +kernel : ∀ t : Fin grid0.N, cond3 (grid0.coords t) ↔ 10 ≤ t.val)
abbrev cond4 (i : grid0.Coords) : Prop := k0_cond5 i = 1#1
theorem hcond4 : ∀ t : Fin cfg0.N, cond4 (grid0.coords t) ↔ t.val = 19 :=
  (by decide +kernel : ∀ t : Fin grid0.N, cond4 (grid0.coords t) ↔ t.val = 19)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl
theorem live13 : ∀ t : Fin cfg0.N, cfg0.idle 13 (grid0.coords t) = false := fun _ => rfl
theorem live14 : ∀ t : Fin cfg0.N, cfg0.idle 14 (grid0.coords t) = false := fun _ => rfl
theorem live15 : ∀ t : Fin cfg0.N, cfg0.idle 15 (grid0.coords t) = false := fun _ => rfl
theorem live16 : ∀ t : Fin cfg0.N, cfg0.idle 16 (grid0.coords t) = false := fun _ => rfl
theorem live17 : ∀ t : Fin cfg0.N, cfg0.idle 17 (grid0.coords t) = false := fun _ => rfl
theorem live18 : ∀ t : Fin cfg0.N, cfg0.idle 18 (grid0.coords t) = false := fun _ => rfl
theorem live19 : ∀ t : Fin cfg0.N, cfg0.idle 19 (grid0.coords t) = false := fun _ => rfl
theorem live20 : ∀ t : Fin cfg0.N, cfg0.idle 20 (grid0.coords t) = false := fun _ => rfl
theorem live21 : ∀ t : Fin cfg0.N, cfg0.idle 21 (grid0.coords t) = false := fun _ => rfl
theorem live22 : ∀ t : Fin cfg0.N, cfg0.idle 22 (grid0.coords t) = false := fun _ => rfl
theorem live23 : ∀ t : Fin cfg0.N, cfg0.idle 23 (grid0.coords t) = false := fun _ => rfl
theorem live24 : ∀ t : Fin cfg0.N, cfg0.idle 24 (grid0.coords t) = false := fun _ => rfl
theorem live25 : ∀ t : Fin cfg0.N, cfg0.idle 25 (grid0.coords t) = false := fun _ => rfl
theorem live26 : ∀ t : Fin cfg0.N, cfg0.idle 26 (grid0.coords t) = false := fun _ => rfl
theorem live27 : ∀ t : Fin cfg0.N, cfg0.idle 27 (grid0.coords t) = false := fun _ => rfl
theorem live28 : ∀ t : Fin cfg0.N, cfg0.idle 28 (grid0.coords t) = false := fun _ => rfl
theorem live29 : ∀ t : Fin cfg0.N, cfg0.idle 29 (grid0.coords t) = false := fun _ => rfl
theorem live30 : ∀ t : Fin cfg0.N, cfg0.idle 30 (grid0.coords t) = false := fun _ => rfl
theorem live31 : ∀ t : Fin cfg0.N, cfg0.idle 31 (grid0.coords t) = false := fun _ => rfl
theorem live32 : ∀ t : Fin cfg0.N, cfg0.idle 32 (grid0.coords t) = false := fun _ => rfl
theorem live33 : ∀ t : Fin cfg0.N, cfg0.idle 33 (grid0.coords t) = false := fun _ => rfl
theorem live34 : ∀ t : Fin cfg0.N, cfg0.idle 34 (grid0.coords t) = false := fun _ => rfl
theorem idle35 : ∀ t : Fin cfg0.N, ¬cond4 (grid0.coords t) → cfg0.idle 35 (grid0.coords t) = true := by decide +kernel
theorem noFlush35 : ∀ t : Fin cfg0.N, ¬cond4 (grid0.coords t) → (cfg0.win 35).flush t = false := by decide +kernel
theorem live35 : ∀ t : Fin cfg0.N, cond4 (grid0.coords t) → cfg0.idle 35 (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x10000 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x10000 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S128x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x128 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S128x128 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x128 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S128x128 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S1x128 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S128x128 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S1x128 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S128x128 .f32 := win0_25.stage (cfg0.slots t 25)
abbrev hs25 (t : Fin cfg0.N) : (ms25 t).IsWhole := hstage0_25 ((cfg0.slots t 25).cast nbuf0_25)
abbrev ms26 (t : Fin cfg0.N) : Memref sig .tc .vmem S1x128 .f32 := win0_26.stage (cfg0.slots t 26)
abbrev hs26 (t : Fin cfg0.N) : (ms26 t).IsWhole := hstage0_26 ((cfg0.slots t 26).cast nbuf0_26)
abbrev ms27 (t : Fin cfg0.N) : Memref sig .tc .vmem S128x128 .f32 := win0_27.stage (cfg0.slots t 27)
abbrev hs27 (t : Fin cfg0.N) : (ms27 t).IsWhole := hstage0_27 ((cfg0.slots t 27).cast nbuf0_27)
abbrev ms28 (t : Fin cfg0.N) : Memref sig .tc .vmem S1x128 .f32 := win0_28.stage (cfg0.slots t 28)
abbrev hs28 (t : Fin cfg0.N) : (ms28 t).IsWhole := hstage0_28 ((cfg0.slots t 28).cast nbuf0_28)
abbrev ms29 (t : Fin cfg0.N) : Memref sig .tc .vmem S128x128 .f32 := win0_29.stage (cfg0.slots t 29)
abbrev hs29 (t : Fin cfg0.N) : (ms29 t).IsWhole := hstage0_29 ((cfg0.slots t 29).cast nbuf0_29)
abbrev ms30 (t : Fin cfg0.N) : Memref sig .tc .vmem S1x128 .f32 := win0_30.stage (cfg0.slots t 30)
abbrev hs30 (t : Fin cfg0.N) : (ms30 t).IsWhole := hstage0_30 ((cfg0.slots t 30).cast nbuf0_30)
abbrev ms31 (t : Fin cfg0.N) : Memref sig .tc .vmem S128x128 .f32 := win0_31.stage (cfg0.slots t 31)
abbrev hs31 (t : Fin cfg0.N) : (ms31 t).IsWhole := hstage0_31 ((cfg0.slots t 31).cast nbuf0_31)
abbrev ms32 (t : Fin cfg0.N) : Memref sig .tc .vmem S1x128 .f32 := win0_32.stage (cfg0.slots t 32)
abbrev hs32 (t : Fin cfg0.N) : (ms32 t).IsWhole := hstage0_32 ((cfg0.slots t 32).cast nbuf0_32)
abbrev ms33 (t : Fin cfg0.N) : Memref sig .tc .vmem S128x128 .f32 := win0_33.stage (cfg0.slots t 33)
abbrev hs33 (t : Fin cfg0.N) : (ms33 t).IsWhole := hstage0_33 ((cfg0.slots t 33).cast nbuf0_33)
abbrev ms34 (t : Fin cfg0.N) : Memref sig .tc .vmem S1x128 .f32 := win0_34.stage (cfg0.slots t 34)
abbrev hs34 (t : Fin cfg0.N) : (ms34 t).IsWhole := hstage0_34 ((cfg0.slots t 34).cast nbuf0_34)
abbrev ms35 (t : Fin cfg0.N) : Memref sig .tc .vmem S128x128 .f32 := win0_35.stage (cfg0.slots t 35)
abbrev hs35 (t : Fin cfg0.N) : (ms35 t).IsWhole := hstage0_35 ((cfg0.slots t 35).cast nbuf0_35)
abbrev sc0 : Memref sig .tc .vmem S128x128 .f32 := Memref.whole cc0_scratch0
abbrev VS0 : View sig .tc .vmem S128x128 .f32 := (sc0 : Memref sig .tc .vmem S128x128 .f32).view
abbrev sc1 : Memref sig .tc .vmem S128x128 .f32 := Memref.whole cc0_scratch1
abbrev VS1 : View sig .tc .vmem S128x128 .f32 := (sc1 : Memref sig .tc .vmem S128x128 .f32).view
abbrev sc2 : Memref sig .tc .vmem S128x128 .f32 := Memref.whole cc0_scratch2
abbrev VS2 : View sig .tc .vmem S128x128 .f32 := (sc2 : Memref sig .tc .vmem S128x128 .f32).view
abbrev sc3 : Memref sig .tc .vmem S128x1 .f32 := Memref.whole cc0_scratch3
abbrev VS3 : View sig .tc .vmem S128x1 .f32 := (sc3 : Memref sig .tc .vmem S128x1 .f32).view
abbrev sc4 : Memref sig .tc .vmem S128x1 .f32 := Memref.whole cc0_scratch4
abbrev VS4 : View sig .tc .vmem S128x1 .f32 := (sc4 : Memref sig .tc .vmem S128x1 .f32).view
abbrev VO35 : View sig .tc .vmem S128x128 .f32 := (Memref.whole cc0_stg35_0 : Memref sig .tc .vmem S128x128 .f32).view

/-- The region's invariant with the five scratch buffers as whole memrefs at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Body

end
-- ==== Proof.KI.RunA.lean ====
/-
  The kernel body run at a point of case A: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.KI.Pre

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i)
    (x0 : Vec F S10000x128 .f32) (x2 : Vec F S1x1x10000 .i32) (x4 : Vec F S128x128 .f32) (x5 : Vec F S1x128 .f32) (x6 : Vec F S128x128 .f32) (x7 : Vec F S1x128 .f32)  :
    Σ' (LS0 : List (View.Piece (Elt F) S128x128 .f32)) (LS2 : List (View.Piece (Elt F) S128x128 .f32)) (LS3 : List (View.Piece (Elt F) S128x1 .f32)), { LS4 : List (View.Piece (Elt F) S128x1 .f32) //
      ∀ (E : Set ℕ) (K : PUnit → sProp 𝕄),
        iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg38 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg38.view.loc (c : Thread nD τ) ↦[arg38.view.set]{fullShare} arg38.view.writes (Elt F) f LS0) ∗ (∃ f, arg40.view.loc (c : Thread nD τ) ↦[arg40.view.set]{fullShare} arg40.view.writes (Elt F) f LS2) ∗ (∃ f, arg41.view.loc (c : Thread nD τ) ↦[arg41.view.set]{fullShare} arg41.view.writes (Elt F) f LS3) ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f2, %hf2, H2⟩, ⟨%f4, %hf4, H4⟩, ⟨%f5, %hf5, H5⟩, ⟨%f6, %hf6, H6⟩, ⟨%f7, %hf7, H7⟩, ⟨%ds0, %fs0, -, HS0⟩, ⟨%ds2, %fs2, -, HS2⟩, ⟨%ds3, %fs3, -, HS3⟩, ⟨%ds4, %fs4, -, HS4⟩, Hk⟩
    obtain rfl := harg2.eq_unread hf0; obtain rfl := harg4.eq_unread hf2; obtain rfl := harg6.eq_unread hf4; obtain rfl := harg7.eq_unread hf5; obtain rfl := harg8.eq_unread hf6; obtain rfl := harg9.eq_unread hf7
    sl_exec (disch := first | exact hc0 | exact hc1 | exact hc2 | exact hc3 | exact hc4)
    sl_step
    iapply Hk
    isplitl [H0]
    · iexists _; isplitr; · ipureintro; exact harg2.read_unread _
      iexact H0
    isplitl [H2]
    · iexists _; isplitr; · ipureintro; exact harg4.read_unread _
      iexact H2
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS2]
    · iexists _; iexact HS2
    isplitl [HS3]
    · iexists _; iexact HS3
    iexists _; iexact HS4

end Cert.KernelIdeal.Body

end
-- ==== Proof.KI.RunB.lean ====
/-
  The kernel body run at a point of case B: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i)
    (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) :
    Σ' (LS0 : List (View.Piece (Elt F) S128x128 .f32)), { LS3 : List (View.Piece (Elt F) S128x1 .f32) //
      ∀ (E : Set ℕ) (K : PUnit → sProp 𝕄),
        iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg38 fullShare xs0 ∗ owns (c : Thread nD τ) arg41 fullShare xs3
            ∗ (iprop(owns (c : Thread nD τ) arg2 fullShare x0 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg38.view.loc (c : Thread nD τ) ↦[arg38.view.set]{fullShare} arg38.view.writes (Elt F) f LS0) ∗ (∃ f, arg41.view.loc (c : Thread nD τ) ↦[arg41.view.set]{fullShare} arg41.view.writes (Elt F) f LS3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f2, %hf2, H2⟩, ⟨%f4, %hf4, H4⟩, ⟨%f5, %hf5, H5⟩, ⟨%f6, %hf6, H6⟩, ⟨%f7, %hf7, H7⟩, ⟨%fs0, %hfs0, HS0⟩, ⟨%fs3, %hfs3, HS3⟩, Hk⟩
    obtain rfl := harg2.eq_unread hf0; obtain rfl := harg4.eq_unread hf2; obtain rfl := harg6.eq_unread hf4; obtain rfl := harg7.eq_unread hf5; obtain rfl := harg8.eq_unread hf6; obtain rfl := harg9.eq_unread hf7; obtain rfl := harg38.eq_unread hfs0; obtain rfl := harg41.eq_unread hfs3
    sl_exec (disch := first | exact hc0 | exact hc1 | exact hc2 | exact hc3 | exact hc4)
    sl_step
    iapply Hk
    isplitl [H0]
    · iexists _; isplitr; · ipureintro; exact harg2.read_unread _
      iexact H0
    isplitl [H2]
    · iexists _; isplitr; · ipureintro; exact harg4.read_unread _
      iexact H2
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS3

end Cert.KernelIdeal.Body

end
-- ==== Proof.KI.RunC.lean ====
/-
  The kernel body run at a point of case C: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i)
    (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) :
    Σ' (LS1 : List (View.Piece (Elt F) S128x128 .f32)) (LS2 : List (View.Piece (Elt F) S128x128 .f32)), { LS4 : List (View.Piece (Elt F) S128x1 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg38 fullShare xs0 ∗ (∃ d, owns (c : Thread nD τ) arg39 fullShare d) ∗ owns (c : Thread nD τ) arg40 fullShare xs2 ∗ owns (c : Thread nD τ) arg41 fullShare xs3 ∗ owns (c : Thread nD τ) arg42 fullShare xs4
            ∗ (iprop(owns (c : Thread nD τ) arg3 fullShare x1 ∗ owns (c : Thread nD τ) arg4 fullShare x2 ∗ owns (c : Thread nD τ) arg5 fullShare x3 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg38 fullShare xs0 ∗ (∃ f, arg39.view.loc (c : Thread nD τ) ↦[arg39.view.set]{fullShare} arg39.view.writes (Elt F) f LS1) ∗ (∃ f, arg40.view.loc (c : Thread nD τ) ↦[arg40.view.set]{fullShare} arg40.view.writes (Elt F) f LS2) ∗ owns (c : Thread nD τ) arg41 fullShare xs3 ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg3.eq_unread hf1; obtain rfl := harg4.eq_unread hf2; obtain rfl := harg5.eq_unread hf3; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg38.eq_unread hfs0; obtain rfl := harg40.eq_unread hfs2; obtain rfl := harg41.eq_unread hfs3; obtain rfl := harg42.eq_unread hfs4
    sl_exec (disch := first | exact hc0 | exact hc1 | exact hc2 | exact hc3 | exact hc4)
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS0]
    · iexists _; isplitr; · ipureintro; exact harg38.read_unread _
      iexact HS0
    isplitl [HS1]
    · iexists _; iexact HS1
    isplitl [HS2]
    · iexists _; iexact HS2
    isplitl [HS3]
    · iexists _; isplitr; · ipureintro; exact harg41.read_unread _
      iexact HS3
    iexists _; iexact HS4

end Cert.KernelIdeal.Body

end
-- ==== Proof.KI.RunD.lean ====
/-
  The kernel body run at a point of case D: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunD (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i)
    (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) :
    Σ' (LS2 : List (View.Piece (Elt F) S128x128 .f32)), { LS4 : List (View.Piece (Elt F) S128x1 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg39 fullShare xs1 ∗ owns (c : Thread nD τ) arg40 fullShare xs2 ∗ owns (c : Thread nD τ) arg42 fullShare xs4
            ∗ (iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg39 fullShare xs1 ∗ (∃ f, arg40.view.loc (c : Thread nD τ) ↦[arg40.view.set]{fullShare} arg40.view.writes (Elt F) f LS2) ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f16, %hf16, H16⟩, ⟨%f17, %hf17, H17⟩, ⟨%f18, %hf18, H18⟩, ⟨%f19, %hf19, H19⟩, ⟨%f20, %hf20, H20⟩, ⟨%fs1, %hfs1, HS1⟩, ⟨%fs2, %hfs2, HS2⟩, ⟨%fs4, %hfs4, HS4⟩, Hk⟩
    obtain rfl := harg3.eq_unread hf1; obtain rfl := harg4.eq_unread hf2; obtain rfl := harg5.eq_unread hf3; obtain rfl := harg18.eq_unread hf16; obtain rfl := harg19.eq_unread hf17; obtain rfl := harg20.eq_unread hf18; obtain rfl := harg21.eq_unread hf19; obtain rfl := harg22.eq_unread hf20; obtain rfl := harg39.eq_unread hfs1; obtain rfl := harg40.eq_unread hfs2; obtain rfl := harg42.eq_unread hfs4
    sl_exec (disch := first | exact hc0 | exact hc1 | exact hc2 | exact hc3 | exact hc4)
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS1]
    · iexists _; isplitr; · ipureintro; exact harg39.read_unread _
      iexact HS1
    isplitl [HS2]
    · iexists _; iexact HS2
    iexists _; iexact HS4

end Cert.KernelIdeal.Body

end
-- ==== Proof.KI.RunE.lean ====
/-
  The kernel body run at a point of case E: on whole memrefs holding the point's input blocks and what the
  earlier points left in the scratch buffers, the body runs to its end, leaves what it only reads as it was and
  each buffer it stores into with the stored pieces written. Buffers the case does not touch are not mentioned.
-/
import proofs.«159474_g3393024163881_fold_wed_m_362_30_alg».proof.Proof.KI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunE (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i)
    (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) :
    Σ' (L35 : List (View.Piece (Elt F) S128x128 .f32)) (LS2 : List (View.Piece (Elt F) S128x128 .f32)), { LS4 : List (View.Piece (Elt F) S128x1 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ (∃ d, owns (c : Thread nD τ) arg37 fullShare d) ∗ owns (c : Thread nD τ) arg39 fullShare xs1 ∗ owns (c : Thread nD τ) arg40 fullShare xs2 ∗ owns (c : Thread nD τ) arg42 fullShare xs4
            ∗ (iprop(owns (c : Thread nD τ) arg3 fullShare x1 ∗ owns (c : Thread nD τ) arg4 fullShare x2 ∗ owns (c : Thread nD τ) arg5 fullShare x3 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ (∃ f, arg37.view.loc (c : Thread nD τ) ↦[arg37.view.set]{fullShare} arg37.view.writes (Elt F) f L35) ∗ owns (c : Thread nD τ) arg39 fullShare xs1 ∗ (∃ f, arg40.view.loc (c : Thread nD τ) ↦[arg40.view.set]{fullShare} arg40.view.writes (Elt F) f LS2) ∗ (∃ f, arg42.view.loc (c : Thread nD τ) ↦[arg42.view.set]{fullShare} arg42.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%fs1, %hfs1, HS1⟩, ⟨%fs2, %hfs2, HS2⟩, ⟨%fs4, %hfs4, HS4⟩, Hk⟩
    obtain rfl := harg3.eq_unread hf1; obtain rfl := harg4.eq_unread hf2; obtain rfl := harg5.eq_unread hf3; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg39.eq_unread hfs1; obtain rfl := harg40.eq_unread hfs2; obtain rfl := harg42.eq_unread hfs4
    sl_exec (disch := first | exact hc0 | exact hc1 | exact hc2 | exact hc3 | exact hc4)
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; iexact H35
    isplitl [HS1]
    · iexists _; isplitr; · ipureintro; exact harg39.read_unread _
      iexact HS1
    isplitl [HS2]
    · iexists _; iexact HS2
    iexists _; iexact HS4

end Cert.KernelIdeal.Body

end
-- ==== Proof.KI.Body.lean ====
/-
  The body obligation of the fused kernel. What the five scratch buffers and the output block hold after each grid
  point is defined by recursion on the point: the case the point is in, run on the point's input blocks and on what
  the point before left. The region's invariant keeps the scratch buffers at those contents (the embedding buffer
  at anything until point 10 writes it); the body, run by cases, re-establishes it.
-/
import proofs.«159474_g3393024163881_fold_wed_m_362_30_alg».proof.Proof.KI.RunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards at a point of each case -/
theorem cA0 (t : Fin cfg0.N) (h : t.val = 0) : cond0 (grid0.coords t) := (hcond0 t).mpr (by omega)
theorem cA1 (t : Fin cfg0.N) (h : t.val = 0) : cond1 (grid0.coords t) := (hcond1 t).mpr (by omega)
theorem cA2 (t : Fin cfg0.N) (h : t.val = 0) : ¬cond2 (grid0.coords t) := fun h' => absurd ((hcond2 t).mp h') (by omega)
theorem cA3 (t : Fin cfg0.N) (h : t.val = 0) : ¬cond3 (grid0.coords t) := fun h' => absurd ((hcond3 t).mp h') (by omega)
theorem cA4 (t : Fin cfg0.N) (h : t.val = 0) : ¬cond4 (grid0.coords t) := fun h' => absurd ((hcond4 t).mp h') (by omega)
theorem cB0 (t : Fin cfg0.N) (h : 0 < t.val ∧ t.val < 10) : ¬cond0 (grid0.coords t) := fun h' => absurd ((hcond0 t).mp h') (by omega)
theorem cB1 (t : Fin cfg0.N) (h : 0 < t.val ∧ t.val < 10) : cond1 (grid0.coords t) := (hcond1 t).mpr (by omega)
theorem cB2 (t : Fin cfg0.N) (h : 0 < t.val ∧ t.val < 10) : ¬cond2 (grid0.coords t) := fun h' => absurd ((hcond2 t).mp h') (by omega)
theorem cB3 (t : Fin cfg0.N) (h : 0 < t.val ∧ t.val < 10) : ¬cond3 (grid0.coords t) := fun h' => absurd ((hcond3 t).mp h') (by omega)
theorem cB4 (t : Fin cfg0.N) (h : 0 < t.val ∧ t.val < 10) : ¬cond4 (grid0.coords t) := fun h' => absurd ((hcond4 t).mp h') (by omega)
theorem cC0 (t : Fin cfg0.N) (h : t.val = 10) : ¬cond0 (grid0.coords t) := fun h' => absurd ((hcond0 t).mp h') (by omega)
theorem cC1 (t : Fin cfg0.N) (h : t.val = 10) : ¬cond1 (grid0.coords t) := fun h' => absurd ((hcond1 t).mp h') (by omega)
theorem cC2 (t : Fin cfg0.N) (h : t.val = 10) : cond2 (grid0.coords t) := (hcond2 t).mpr (by omega)
theorem cC3 (t : Fin cfg0.N) (h : t.val = 10) : cond3 (grid0.coords t) := (hcond3 t).mpr (by omega)
theorem cC4 (t : Fin cfg0.N) (h : t.val = 10) : ¬cond4 (grid0.coords t) := fun h' => absurd ((hcond4 t).mp h') (by omega)
theorem cD0 (t : Fin cfg0.N) (h : 10 < t.val ∧ t.val < 19) : ¬cond0 (grid0.coords t) := fun h' => absurd ((hcond0 t).mp h') (by omega)
theorem cD1 (t : Fin cfg0.N) (h : 10 < t.val ∧ t.val < 19) : ¬cond1 (grid0.coords t) := fun h' => absurd ((hcond1 t).mp h') (by omega)
theorem cD2 (t : Fin cfg0.N) (h : 10 < t.val ∧ t.val < 19) : ¬cond2 (grid0.coords t) := fun h' => absurd ((hcond2 t).mp h') (by omega)
theorem cD3 (t : Fin cfg0.N) (h : 10 < t.val ∧ t.val < 19) : cond3 (grid0.coords t) := (hcond3 t).mpr (by omega)
theorem cD4 (t : Fin cfg0.N) (h : 10 < t.val ∧ t.val < 19) : ¬cond4 (grid0.coords t) := fun h' => absurd ((hcond4 t).mp h') (by omega)
theorem cE0 (t : Fin cfg0.N) (h : t.val = 19) : ¬cond0 (grid0.coords t) := fun h' => absurd ((hcond0 t).mp h') (by omega)
theorem cE1 (t : Fin cfg0.N) (h : t.val = 19) : ¬cond1 (grid0.coords t) := fun h' => absurd ((hcond1 t).mp h') (by omega)
theorem cE2 (t : Fin cfg0.N) (h : t.val = 19) : ¬cond2 (grid0.coords t) := fun h' => absurd ((hcond2 t).mp h') (by omega)
theorem cE3 (t : Fin cfg0.N) (h : t.val = 19) : cond3 (grid0.coords t) := (hcond3 t).mpr (by omega)
theorem cE4 (t : Fin cfg0.N) (h : t.val = 19) : cond4 (grid0.coords t) := (hcond4 t).mpr (by omega)

/-! ## The runs at a point, and what they leave -/

/-- What the carried buffers hold: the five scratch buffers and the output block. -/
structure St (F : FTy → Type) [FloatOps F] where
  s0 : Vec F S128x128 .f32
  s1 : Vec F S128x128 .f32
  s2 : Vec F S128x128 .f32
  s3 : Vec F S128x1 .f32
  s4 : Vec F S128x1 .f32
  out : Vec F S128x128 .f32

/-- The run of case A at point `t`. -/
abbrev runA (c : Dev nD) (t : Fin cfg0.N) (h : t.val = 0)  :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cA0 t h) (cA1 t h) (cA2 t h) (cA3 t h) (cA4 t h) (iblk m c 0 t) (iblk m c 2 t) (iblk m c 4 t) (iblk m c 5 t) (iblk m c 6 t) (iblk m c 7 t)
theorem coverA_LS0 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x128.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).1 S128x128.size (by sl_kernel_rfl) y
def vA_LS0 (c : Dev nD) (t : Fin cfg0.N) (h : t.val = 0)  : Vec F S128x128 .f32 :=
  VS0.read (Elt F) (VS0.writes (Elt F) VS0.junk (runA m c t h ).1)
theorem coverA_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x128.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.1 S128x128.size (by sl_kernel_rfl) y
def vA_LS2 (c : Dev nD) (t : Fin cfg0.N) (h : t.val = 0)  : Vec F S128x128 .f32 :=
  VS2.read (Elt F) (VS2.writes (Elt F) VS2.junk (runA m c t h ).2.1)
theorem coverA_LS3 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x1.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.1 S128x1.size (by sl_kernel_rfl) y
def vA_LS3 (c : Dev nD) (t : Fin cfg0.N) (h : t.val = 0)  : Vec F S128x1 .f32 :=
  VS3.read (Elt F) (VS3.writes (Elt F) VS3.junk (runA m c t h ).2.2.1)
theorem coverA_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32)  (y : S128x1.Idx) :
    ∃ pc ∈ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.2.1, y ∈ pc.1.set :=
  View.cover_of_tiledL (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 ).2.2.2.1 S128x1.size (by sl_kernel_rfl) y
def vA_LS4 (c : Dev nD) (t : Fin cfg0.N) (h : t.val = 0)  : Vec F S128x1 .f32 :=
  VS4.read (Elt F) (VS4.writes (Elt F) VS4.junk (runA m c t h ).2.2.2.1)
/-- What the carried buffers hold after a point of case A. -/
def stepA (c : Dev nD) (t : Fin cfg0.N) (h : t.val = 0)  : St F where
  s0 := vA_LS0 m c t h
  s1 := VS1.read (Elt F) VS1.junk
  s2 := vA_LS2 m c t h
  s3 := vA_LS3 m c t h
  s4 := vA_LS4 m c t h
  out := VO35.read (Elt F) VO35.junk

/-- The run of case B at point `t`. -/
abbrev runB (c : Dev nD) (t : Fin cfg0.N) (h : 0 < t.val ∧ t.val < 10) (xs0 : Vec F S128x128 .f32) (xs3 : Vec F S128x1 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cB0 t h) (cB1 t h) (cB2 t h) (cB3 t h) (cB4 t h) (iblk m c 0 t) (iblk m c 2 t) (iblk m c 4 t) (iblk m c 5 t) (iblk m c 6 t) (iblk m c 7 t) xs0 xs3
theorem coverB_LS0 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) (y : S128x128.Idx) :
    ∃ pc ∈ (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).1, y ∈ pc.1.set :=
  View.cover_of_tiledL (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).1 S128x128.size (by sl_kernel_rfl) y
def vB_LS0 (c : Dev nD) (t : Fin cfg0.N) (h : 0 < t.val ∧ t.val < 10) (xs0 : Vec F S128x128 .f32) (xs3 : Vec F S128x1 .f32) : Vec F S128x128 .f32 :=
  VS0.read (Elt F) (VS0.writes (Elt F) VS0.junk (runB m c t h xs0 xs3).1)
theorem coverB_LS3 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) (y : S128x1.Idx) :
    ∃ pc ∈ (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).2.1, y ∈ pc.1.set :=
  View.cover_of_tiledL (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).2.1 S128x1.size (by sl_kernel_rfl) y
def vB_LS3 (c : Dev nD) (t : Fin cfg0.N) (h : 0 < t.val ∧ t.val < 10) (xs0 : Vec F S128x128 .f32) (xs3 : Vec F S128x1 .f32) : Vec F S128x1 .f32 :=
  VS3.read (Elt F) (VS3.writes (Elt F) VS3.junk (runB m c t h xs0 xs3).2.1)
/-- What the carried buffers hold after a point of case B. -/
def stepB (c : Dev nD) (t : Fin cfg0.N) (h : 0 < t.val ∧ t.val < 10) (p : St F) : St F where
  s0 := vB_LS0 m c t h p.s0 p.s3
  s1 := p.s1
  s2 := p.s2
  s3 := vB_LS3 m c t h p.s0 p.s3
  s4 := p.s4
  out := p.out

/-- The run of case C at point `t`. -/
abbrev runC (c : Dev nD) (t : Fin cfg0.N) (h : t.val = 10) (xs0 : Vec F S128x128 .f32) (xs2 : Vec F S128x128 .f32) (xs3 : Vec F S128x1 .f32) (xs4 : Vec F S128x1 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cC0 t h) (cC1 t h) (cC2 t h) (cC3 t h) (cC4 t h) (iblk m c 1 t) (iblk m c 2 t) (iblk m c 3 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs0 xs2 xs3 xs4
theorem coverC_LS1 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) (y : S128x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).1 S128x128.size (by sl_kernel_rfl) y
def vC_LS1 (c : Dev nD) (t : Fin cfg0.N) (h : t.val = 10) (xs0 : Vec F S128x128 .f32) (xs2 : Vec F S128x128 .f32) (xs3 : Vec F S128x1 .f32) (xs4 : Vec F S128x1 .f32) : Vec F S128x128 .f32 :=
  VS1.read (Elt F) (VS1.writes (Elt F) VS1.junk (runC m c t h xs0 xs2 xs3 xs4).1)
theorem coverC_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) (y : S128x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.1 S128x128.size (by sl_kernel_rfl) y
def vC_LS2 (c : Dev nD) (t : Fin cfg0.N) (h : t.val = 10) (xs0 : Vec F S128x128 .f32) (xs2 : Vec F S128x128 .f32) (xs3 : Vec F S128x1 .f32) (xs4 : Vec F S128x1 .f32) : Vec F S128x128 .f32 :=
  VS2.read (Elt F) (VS2.writes (Elt F) VS2.junk (runC m c t h xs0 xs2 xs3 xs4).2.1)
theorem coverC_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) (y : S128x1.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.2.1 S128x1.size (by sl_kernel_rfl) y
def vC_LS4 (c : Dev nD) (t : Fin cfg0.N) (h : t.val = 10) (xs0 : Vec F S128x128 .f32) (xs2 : Vec F S128x128 .f32) (xs3 : Vec F S128x1 .f32) (xs4 : Vec F S128x1 .f32) : Vec F S128x1 .f32 :=
  VS4.read (Elt F) (VS4.writes (Elt F) VS4.junk (runC m c t h xs0 xs2 xs3 xs4).2.2.1)
/-- What the carried buffers hold after a point of case C. -/
def stepC (c : Dev nD) (t : Fin cfg0.N) (h : t.val = 10) (p : St F) : St F where
  s0 := p.s0
  s1 := vC_LS1 m c t h p.s0 p.s2 p.s3 p.s4
  s2 := vC_LS2 m c t h p.s0 p.s2 p.s3 p.s4
  s3 := p.s3
  s4 := vC_LS4 m c t h p.s0 p.s2 p.s3 p.s4
  out := p.out

/-- The run of case D at point `t`. -/
abbrev runD (c : Dev nD) (t : Fin cfg0.N) (h : 10 < t.val ∧ t.val < 19) (xs1 : Vec F S128x128 .f32) (xs2 : Vec F S128x128 .f32) (xs4 : Vec F S128x1 .f32) :=
  kernelRunD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cD0 t h) (cD1 t h) (cD2 t h) (cD3 t h) (cD4 t h) (iblk m c 1 t) (iblk m c 2 t) (iblk m c 3 t) (iblk m c 16 t) (iblk m c 17 t) (iblk m c 18 t) (iblk m c 19 t) (iblk m c 20 t) xs1 xs2 xs4
theorem coverD_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) (y : S128x128.Idx) :
    ∃ pc ∈ (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).1, y ∈ pc.1.set :=
  View.cover_of_tiledL (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).1 S128x128.size (by sl_kernel_rfl) y
def vD_LS2 (c : Dev nD) (t : Fin cfg0.N) (h : 10 < t.val ∧ t.val < 19) (xs1 : Vec F S128x128 .f32) (xs2 : Vec F S128x128 .f32) (xs4 : Vec F S128x1 .f32) : Vec F S128x128 .f32 :=
  VS2.read (Elt F) (VS2.writes (Elt F) VS2.junk (runD m c t h xs1 xs2 xs4).1)
theorem coverD_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) (y : S128x1.Idx) :
    ∃ pc ∈ (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).2.1, y ∈ pc.1.set :=
  View.cover_of_tiledL (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).2.1 S128x1.size (by sl_kernel_rfl) y
def vD_LS4 (c : Dev nD) (t : Fin cfg0.N) (h : 10 < t.val ∧ t.val < 19) (xs1 : Vec F S128x128 .f32) (xs2 : Vec F S128x128 .f32) (xs4 : Vec F S128x1 .f32) : Vec F S128x1 .f32 :=
  VS4.read (Elt F) (VS4.writes (Elt F) VS4.junk (runD m c t h xs1 xs2 xs4).2.1)
/-- What the carried buffers hold after a point of case D. -/
def stepD (c : Dev nD) (t : Fin cfg0.N) (h : 10 < t.val ∧ t.val < 19) (p : St F) : St F where
  s0 := p.s0
  s1 := p.s1
  s2 := vD_LS2 m c t h p.s1 p.s2 p.s4
  s3 := p.s3
  s4 := vD_LS4 m c t h p.s1 p.s2 p.s4
  out := p.out

/-- The run of case E at point `t`. -/
abbrev runE (c : Dev nD) (t : Fin cfg0.N) (h : t.val = 19) (xs1 : Vec F S128x128 .f32) (xs2 : Vec F S128x128 .f32) (xs4 : Vec F S128x1 .f32) :=
  kernelRunE (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cE0 t h) (cE1 t h) (cE2 t h) (cE3 t h) (cE4 t h) (iblk m c 1 t) (iblk m c 2 t) (iblk m c 3 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xs1 xs2 xs4
theorem coverE_L35 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) (y : S128x128.Idx) :
    ∃ pc ∈ (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).1, y ∈ pc.1.set :=
  View.cover_of_tiledL (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).1 S128x128.size (by sl_kernel_rfl) y
def vE_L35 (c : Dev nD) (t : Fin cfg0.N) (h : t.val = 19) (xs1 : Vec F S128x128 .f32) (xs2 : Vec F S128x128 .f32) (xs4 : Vec F S128x1 .f32) : Vec F S128x128 .f32 :=
  VO35.read (Elt F) (VO35.writes (Elt F) VO35.junk (runE m c t h xs1 xs2 xs4).1)
theorem coverE_LS2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) (y : S128x128.Idx) :
    ∃ pc ∈ (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.1, y ∈ pc.1.set :=
  View.cover_of_tiledL (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.1 S128x128.size (by sl_kernel_rfl) y
def vE_LS2 (c : Dev nD) (t : Fin cfg0.N) (h : t.val = 19) (xs1 : Vec F S128x128 .f32) (xs2 : Vec F S128x128 .f32) (xs4 : Vec F S128x1 .f32) : Vec F S128x128 .f32 :=
  VS2.read (Elt F) (VS2.writes (Elt F) VS2.junk (runE m c t h xs1 xs2 xs4).2.1)
theorem coverE_LS4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) (y : S128x1.Idx) :
    ∃ pc ∈ (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.2.1, y ∈ pc.1.set :=
  View.cover_of_tiledL (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.2.1 S128x1.size (by sl_kernel_rfl) y
def vE_LS4 (c : Dev nD) (t : Fin cfg0.N) (h : t.val = 19) (xs1 : Vec F S128x128 .f32) (xs2 : Vec F S128x128 .f32) (xs4 : Vec F S128x1 .f32) : Vec F S128x1 .f32 :=
  VS4.read (Elt F) (VS4.writes (Elt F) VS4.junk (runE m c t h xs1 xs2 xs4).2.2.1)
/-- What the carried buffers hold after a point of case E. -/
def stepE (c : Dev nD) (t : Fin cfg0.N) (h : t.val = 19) (p : St F) : St F where
  s0 := p.s0
  s1 := p.s1
  s2 := vE_LS2 m c t h p.s1 p.s2 p.s4
  s3 := p.s3
  s4 := vE_LS4 m c t h p.s1 p.s2 p.s4
  out := vE_L35 m c t h p.s1 p.s2 p.s4

/-- What the carried buffers hold after the point at position `n`. -/
def stAt (c : Dev nD) : (n : ℕ) → n < cfg0.N → St F
  | 0, hn => stepA m c ⟨0, hn⟩ rfl
  | n + 1, hn =>
    if h1 : n + 1 < 10 then stepB m c ⟨n + 1, hn⟩ ⟨Nat.succ_pos n, h1⟩ (stAt c n (Nat.lt_of_succ_lt hn))
    else if h2 : n + 1 = 10 then stepC m c ⟨n + 1, hn⟩ h2 (stAt c n (Nat.lt_of_succ_lt hn))
    else if h3 : n + 1 < 19 then stepD m c ⟨n + 1, hn⟩ ⟨show 10 < n + 1 by omega, h3⟩ (stAt c n (Nat.lt_of_succ_lt hn))
    else stepE m c ⟨n + 1, hn⟩ (show n + 1 = 19 by have hN : n + 1 < 20 := lt_of_lt_of_eq hn (show cfg0.N = 20 from N_0); omega) (stAt c n (Nat.lt_of_succ_lt hn))

theorem stAt_A (c : Dev nD) (t : Fin cfg0.N) (h : t.val = 0) : stAt m c t.val t.isLt = stepA m c t h := by
  obtain ⟨n, hn⟩ := t
  cases n with
  | zero => rfl
  | succ n => exact absurd h (Nat.succ_ne_zero n)
theorem stAt_B (c : Dev nD) (t : Fin cfg0.N) (h : 0 < t.val ∧ t.val < 10) :
    stAt m c t.val t.isLt = stepB m c t h (stAt m c (t.val - 1) (Nat.lt_of_le_of_lt (Nat.sub_le _ _) t.isLt)) := by
  obtain ⟨n, hn⟩ := t
  cases n with
  | zero => exact absurd h.1 (Nat.lt_irrefl 0)
  | succ n => exact (dif_pos h.2).trans rfl
theorem stAt_C (c : Dev nD) (t : Fin cfg0.N) (h : t.val = 10) :
    stAt m c t.val t.isLt = stepC m c t h (stAt m c (t.val - 1) (Nat.lt_of_le_of_lt (Nat.sub_le _ _) t.isLt)) := by
  obtain ⟨n, hn⟩ := t
  cases n with
  | zero => exact absurd h (show ¬ (0 : ℕ) = 10 by omega)
  | succ n => exact (dif_neg (show ¬ n + 1 < 10 by have : n + 1 = 10 := h; omega)).trans ((dif_pos h).trans rfl)
theorem stAt_D (c : Dev nD) (t : Fin cfg0.N) (h : 10 < t.val ∧ t.val < 19) :
    stAt m c t.val t.isLt = stepD m c t h (stAt m c (t.val - 1) (Nat.lt_of_le_of_lt (Nat.sub_le _ _) t.isLt)) := by
  obtain ⟨n, hn⟩ := t
  cases n with
  | zero => exact absurd h.1 (show ¬ 10 < (0 : ℕ) by omega)
  | succ n => exact (dif_neg (show ¬ n + 1 < 10 by have := h.1; simp only at this; omega)).trans ((dif_neg (show ¬ n + 1 = 10 by have := h.1; simp only at this; omega)).trans ((dif_pos h.2).trans rfl))
theorem stAt_E (c : Dev nD) (t : Fin cfg0.N) (h : t.val = 19) :
    stAt m c t.val t.isLt = stepE m c t h (stAt m c (t.val - 1) (Nat.lt_of_le_of_lt (Nat.sub_le _ _) t.isLt)) := by
  obtain ⟨n, hn⟩ := t
  cases n with
  | zero => exact absurd h (show ¬ (0 : ℕ) = 19 by omega)
  | succ n => exact (dif_neg (show ¬ n + 1 < 10 by have : n + 1 = 19 := h; omega)).trans ((dif_neg (show ¬ n + 1 = 10 by have : n + 1 = 19 := h; omega)).trans ((dif_neg (show ¬ n + 1 < 19 by have : n + 1 = 19 := h; omega)).trans rfl))

/-! ## The invariant -/

/-- The embedding buffer: at its named contents once point 10 has written it, at anything before. -/
def u1Held (c : Dev nD) (n : ℕ) (x : Vec F S128x128 .f32) : sProp 𝕄 :=
  if 10 ≤ n then owns (c : Thread nD τ) sc1 fullShare x else iprop(∃ d, owns (c : Thread nD τ) sc1 fullShare d)
theorem u1Held_ge (c : Dev nD) (n : ℕ) (x : Vec F S128x128 .f32) (h : 10 ≤ n) : u1Held (F := F) c n x = owns (c : Thread nD τ) sc1 fullShare x := if_pos h
theorem u1Held_lt (c : Dev nD) (n : ℕ) (x : Vec F S128x128 .f32) (h : ¬10 ≤ n) : u1Held (F := F) c n x = iprop(∃ d, owns (c : Thread nD τ) sc1 fullShare d) := if_neg h

/-- The scratch buffers at what the state says. -/
def held (c : Dev nD) (n : ℕ) (s : St F) : sProp 𝕄 :=
  iprop(iprop(owns (c : Thread nD τ) sc0 fullShare s.s0 ∗ u1Held c n s.s1 ∗ owns (c : Thread nD τ) sc2 fullShare s.s2 ∗ owns (c : Thread nD τ) sc3 fullShare s.s3 ∗ owns (c : Thread nD τ) sc4 fullShare s.s4) ∗ (∃ r, prngReg c r))

/-- The region's invariant before the point at position `n`. -/
def PhiS (c : Dev nD) : (n : ℕ) → n ≤ cfg0.N → sProp 𝕄
  | 0, _ => Pipeline.ΦA spec0 c
  | n + 1, hn => held c n (stAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = held c n (stAt m c n hn) := rfl
theorem PhiS_pos (c : Dev nD) (n : ℕ) (h : n ≤ cfg0.N) (hz : n ≠ 0) :
    PhiS m c n h = held c (n - 1) (stAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => (stAt m c t.val t.isLt).out
    | ⟨_ + 36, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = (stAt m c t.val t.isLt).out := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d
theorem before19 (c : Dev nD) (t : Fin cfg0.N) (d) : (dats m 0 c).before 19 t d = iblk m c 19 t :=
  before0_19_of m (dats m 0 c) (A_eq m c 19) (after19 m c) t d
theorem before20 (c : Dev nD) (t : Fin cfg0.N) (d) : (dats m 0 c).before 20 t d = iblk m c 20 t :=
  before0_20_of m (dats m 0 c) (A_eq m c 20) (after20 m c) t d
theorem before21 (c : Dev nD) (t : Fin cfg0.N) (d) : (dats m 0 c).before 21 t d = iblk m c 21 t :=
  before0_21_of m (dats m 0 c) (A_eq m c 21) (after21 m c) t d
theorem before22 (c : Dev nD) (t : Fin cfg0.N) (d) : (dats m 0 c).before 22 t d = iblk m c 22 t :=
  before0_22_of m (dats m 0 c) (A_eq m c 22) (after22 m c) t d
theorem before23 (c : Dev nD) (t : Fin cfg0.N) (d) : (dats m 0 c).before 23 t d = iblk m c 23 t :=
  before0_23_of m (dats m 0 c) (A_eq m c 23) (after23 m c) t d
theorem before24 (c : Dev nD) (t : Fin cfg0.N) (d) : (dats m 0 c).before 24 t d = iblk m c 24 t :=
  before0_24_of m (dats m 0 c) (A_eq m c 24) (after24 m c) t d
theorem before25 (c : Dev nD) (t : Fin cfg0.N) (d) : (dats m 0 c).before 25 t d = iblk m c 25 t :=
  before0_25_of m (dats m 0 c) (A_eq m c 25) (after25 m c) t d
theorem before26 (c : Dev nD) (t : Fin cfg0.N) (d) : (dats m 0 c).before 26 t d = iblk m c 26 t :=
  before0_26_of m (dats m 0 c) (A_eq m c 26) (after26 m c) t d
theorem before27 (c : Dev nD) (t : Fin cfg0.N) (d) : (dats m 0 c).before 27 t d = iblk m c 27 t :=
  before0_27_of m (dats m 0 c) (A_eq m c 27) (after27 m c) t d
theorem before28 (c : Dev nD) (t : Fin cfg0.N) (d) : (dats m 0 c).before 28 t d = iblk m c 28 t :=
  before0_28_of m (dats m 0 c) (A_eq m c 28) (after28 m c) t d
theorem before29 (c : Dev nD) (t : Fin cfg0.N) (d) : (dats m 0 c).before 29 t d = iblk m c 29 t :=
  before0_29_of m (dats m 0 c) (A_eq m c 29) (after29 m c) t d
theorem before30 (c : Dev nD) (t : Fin cfg0.N) (d) : (dats m 0 c).before 30 t d = iblk m c 30 t :=
  before0_30_of m (dats m 0 c) (A_eq m c 30) (after30 m c) t d
theorem before31 (c : Dev nD) (t : Fin cfg0.N) (d) : (dats m 0 c).before 31 t d = iblk m c 31 t :=
  before0_31_of m (dats m 0 c) (A_eq m c 31) (after31 m c) t d
theorem before32 (c : Dev nD) (t : Fin cfg0.N) (d) : (dats m 0 c).before 32 t d = iblk m c 32 t :=
  before0_32_of m (dats m 0 c) (A_eq m c 32) (after32 m c) t d
theorem before33 (c : Dev nD) (t : Fin cfg0.N) (d) : (dats m 0 c).before 33 t d = iblk m c 33 t :=
  before0_33_of m (dats m 0 c) (A_eq m c 33) (after33 m c) t d
theorem before34 (c : Dev nD) (t : Fin cfg0.N) (d) : (dats m 0 c).before 34 t d = iblk m c 34 t :=
  before0_34_of m (dats m 0 c) (A_eq m c 34) (after34 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d))
    ∗ (∃ d, owns (c : Thread nD τ) (ms26 t) fullShare ((dats m 0 c).before 26 t d))
    ∗ (∃ d, owns (c : Thread nD τ) (ms27 t) fullShare ((dats m 0 c).before 27 t d))
    ∗ (∃ d, owns (c : Thread nD τ) (ms28 t) fullShare ((dats m 0 c).before 28 t d))
    ∗ (∃ d, owns (c : Thread nD τ) (ms29 t) fullShare ((dats m 0 c).before 29 t d))
    ∗ (∃ d, owns (c : Thread nD τ) (ms30 t) fullShare ((dats m 0 c).before 30 t d))
    ∗ (∃ d, owns (c : Thread nD τ) (ms31 t) fullShare ((dats m 0 c).before 31 t d))
    ∗ (∃ d, owns (c : Thread nD τ) (ms32 t) fullShare ((dats m 0 c).before 32 t d))
    ∗ (∃ d, owns (c : Thread nD τ) (ms33 t) fullShare ((dats m 0 c).before 33 t d))
    ∗ (∃ d, owns (c : Thread nD τ) (ms34 t) fullShare ((dats m 0 c).before 34 t d))
    ∗ (∃ d, owns (c : Thread nD τ) (ms35 t) fullShare ((dats m 0 c).before 35 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t)

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27, before28, before29, before30, before31, before32, before33, before34]
  rw [show (dats m 0 c).owesAt () t.succ = (dats m 0 c).owesAt () t.castSucc from rfl]
  rw [show (dats m 0 c).Φ t.succ = PhiS m c (t.val + 1) t.isLt from rfl, PhiS_succ]; unfold held
  have hN : t.val < 20 := lt_of_lt_of_eq t.isLt (show cfg0.N = 20 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  rw [show (dats m 0 c).leavesExact 14 t = owns (c : Thread nD τ) (ms14 t) fullShare ((dats m 0 c).after 14 t) from by
    unfold Dat.leavesExact; rw [live14 t], after14]
  rw [show (dats m 0 c).leavesExact 15 t = owns (c : Thread nD τ) (ms15 t) fullShare ((dats m 0 c).after 15 t) from by
    unfold Dat.leavesExact; rw [live15 t], after15]
  rw [show (dats m 0 c).leavesExact 16 t = owns (c : Thread nD τ) (ms16 t) fullShare ((dats m 0 c).after 16 t) from by
    unfold Dat.leavesExact; rw [live16 t], after16]
  rw [show (dats m 0 c).leavesExact 17 t = owns (c : Thread nD τ) (ms17 t) fullShare ((dats m 0 c).after 17 t) from by
    unfold Dat.leavesExact; rw [live17 t], after17]
  rw [show (dats m 0 c).leavesExact 18 t = owns (c : Thread nD τ) (ms18 t) fullShare ((dats m 0 c).after 18 t) from by
    unfold Dat.leavesExact; rw [live18 t], after18]
  rw [show (dats m 0 c).leavesExact 19 t = owns (c : Thread nD τ) (ms19 t) fullShare ((dats m 0 c).after 19 t) from by
    unfold Dat.leavesExact; rw [live19 t], after19]
  rw [show (dats m 0 c).leavesExact 20 t = owns (c : Thread nD τ) (ms20 t) fullShare ((dats m 0 c).after 20 t) from by
    unfold Dat.leavesExact; rw [live20 t], after20]
  rw [show (dats m 0 c).leavesExact 21 t = owns (c : Thread nD τ) (ms21 t) fullShare ((dats m 0 c).after 21 t) from by
    unfold Dat.leavesExact; rw [live21 t], after21]
  rw [show (dats m 0 c).leavesExact 22 t = owns (c : Thread nD τ) (ms22 t) fullShare ((dats m 0 c).after 22 t) from by
    unfold Dat.leavesExact; rw [live22 t], after22]
  rw [show (dats m 0 c).leavesExact 23 t = owns (c : Thread nD τ) (ms23 t) fullShare ((dats m 0 c).after 23 t) from by
    unfold Dat.leavesExact; rw [live23 t], after23]
  rw [show (dats m 0 c).leavesExact 24 t = owns (c : Thread nD τ) (ms24 t) fullShare ((dats m 0 c).after 24 t) from by
    unfold Dat.leavesExact; rw [live24 t], after24]
  rw [show (dats m 0 c).leavesExact 25 t = owns (c : Thread nD τ) (ms25 t) fullShare ((dats m 0 c).after 25 t) from by
    unfold Dat.leavesExact; rw [live25 t], after25]
  rw [show (dats m 0 c).leavesExact 26 t = owns (c : Thread nD τ) (ms26 t) fullShare ((dats m 0 c).after 26 t) from by
    unfold Dat.leavesExact; rw [live26 t], after26]
  rw [show (dats m 0 c).leavesExact 27 t = owns (c : Thread nD τ) (ms27 t) fullShare ((dats m 0 c).after 27 t) from by
    unfold Dat.leavesExact; rw [live27 t], after27]
  rw [show (dats m 0 c).leavesExact 28 t = owns (c : Thread nD τ) (ms28 t) fullShare ((dats m 0 c).after 28 t) from by
    unfold Dat.leavesExact; rw [live28 t], after28]
  rw [show (dats m 0 c).leavesExact 29 t = owns (c : Thread nD τ) (ms29 t) fullShare ((dats m 0 c).after 29 t) from by
    unfold Dat.leavesExact; rw [live29 t], after29]
  rw [show (dats m 0 c).leavesExact 30 t = owns (c : Thread nD τ) (ms30 t) fullShare ((dats m 0 c).after 30 t) from by
    unfold Dat.leavesExact; rw [live30 t], after30]
  rw [show (dats m 0 c).leavesExact 31 t = owns (c : Thread nD τ) (ms31 t) fullShare ((dats m 0 c).after 31 t) from by
    unfold Dat.leavesExact; rw [live31 t], after31]
  rw [show (dats m 0 c).leavesExact 32 t = owns (c : Thread nD τ) (ms32 t) fullShare ((dats m 0 c).after 32 t) from by
    unfold Dat.leavesExact; rw [live32 t], after32]
  rw [show (dats m 0 c).leavesExact 33 t = owns (c : Thread nD τ) (ms33 t) fullShare ((dats m 0 c).after 33 t) from by
    unfold Dat.leavesExact; rw [live33 t], after33]
  rw [show (dats m 0 c).leavesExact 34 t = owns (c : Thread nD τ) (ms34 t) fullShare ((dats m 0 c).after 34 t) from by
    unfold Dat.leavesExact; rw [live34 t], after34]
  by_cases hA : t.val = 0
  · -- point 0
    rw [Dat.leavesExact_idle (dats m 0 c) 35 t (idle35 t (cA4 t hA)) (noFlush35 t (cA4 t hA))]
    rw [stAt_A m c t hA]
    unfold stepA vA_LS0 vA_LS2 vA_LS3 vA_LS4; (try dsimp only)
    rw [PhiS_castSucc m c t, PhiS_zero m c _ _ hA, PhiA_eq]
    rw [u1Held_lt c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runA m c t hA ).2.2.2.2 Set.univ _)
    isplitl [H0]; · iexact H0
    isplitl [H2]; · iexact H2
    isplitl [H4]; · iexact H4
    isplitl [H5]; · iexact H5
    isplitl [H6]; · iexact H6
    isplitl [H7]; · iexact H7
    isplitl [HS0]; · iexact HS0
    isplitl [HS2]; · iexact HS2
    isplitl [HS3]; · iexact HS3
    isplitl [HS4]; · iexact HS4
    iintro ⟨H0, H2, H4, H5, H6, H7, ⟨%es0, HS0⟩, ⟨%es2, HS2⟩, ⟨%es3, HS3⟩, ⟨%es4, HS4⟩⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (coverA_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · iexact HS1
        isplitl [HS2]
        · unfold owns; iexists _; isplitr
          swap; · iexact HS2
          ipureintro; exact View.read_writes_of_cover _ _ _ _ _ (coverA_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverA_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (coverA_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  by_cases hB1 : t.val < 10
  · have hB : 0 < t.val ∧ t.val < 10 := ⟨Nat.pos_of_ne_zero hA, hB1⟩
    rw [Dat.leavesExact_idle (dats m 0 c) 35 t (idle35 t (cB4 t hB)) (noFlush35 t (cB4 t hB))]
    rw [stAt_B m c t hB]
    unfold stepB vB_LS0 vB_LS3; (try dsimp only)
    rw [PhiS_castSucc m c t, PhiS_pos m c _ _ (by omega)]; unfold held
    rw [u1Held_lt c (t.val - 1) _ (by omega)]
    rw [u1Held_lt c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runB m c t hB _ _).2.2 Set.univ _)
    isplitl [H0]; · iexact H0
    isplitl [H2]; · iexact H2
    isplitl [H4]; · iexact H4
    isplitl [H5]; · iexact H5
    isplitl [H6]; · iexact H6
    isplitl [H7]; · iexact H7
    isplitl [HS0]; · iexact HS0
    isplitl [HS3]; · iexact HS3
    iintro ⟨H0, H2, H4, H5, H6, H7, ⟨%es0, HS0⟩, ⟨%es3, HS3⟩⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (coverB_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · iexact HS1
        isplitl [HS2]
        · iexact HS2
        isplitl [HS3]
        · unfold owns; iexists _; isplitr
          swap; · iexact HS3
          ipureintro; exact View.read_writes_of_cover _ _ _ _ _ (coverB_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  by_cases hC : t.val = 10
  · -- point 10
    rw [Dat.leavesExact_idle (dats m 0 c) 35 t (idle35 t (cC4 t hC)) (noFlush35 t (cC4 t hC))]
    rw [stAt_C m c t hC]
    unfold stepC vC_LS1 vC_LS2 vC_LS4; (try dsimp only)
    rw [PhiS_castSucc m c t, PhiS_pos m c _ _ (by omega)]; unfold held
    rw [u1Held_lt c (t.val - 1) _ (by omega)]
    rw [u1Held_ge c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runC m c t hC _ _ _ _).2.2.2 Set.univ _)
    isplitl [H1]; · iexact H1
    isplitl [H2]; · iexact H2
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [HS0]; · iexact HS0
    isplitl [HS1]; · iexact HS1
    isplitl [HS2]; · iexact HS2
    isplitl [HS3]; · iexact HS3
    isplitl [HS4]; · iexact HS4
    iintro ⟨H1, H2, H3, H8, H9, H10, H11, H12, H13, H14, H15, H16, H17, H18, H19, H20, HS0, ⟨%es1, HS1⟩, ⟨%es2, HS2⟩, HS3, ⟨%es4, HS4⟩⟩
    isplitl [HS0 HS1 HS2 HS3 HS4 Hg]
    · isplitl [HS0 HS1 HS2 HS3 HS4]
      · isplitl [HS0]
        · iexact HS0
        isplitl [HS1]
        · unfold owns; iexists _; isplitr
          swap; · iexact HS1
          ipureintro; exact View.read_writes_of_cover _ _ _ _ _ (coverC_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverC_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · iexact HS3
        unfold owns; iexists _; isplitr
        swap; · iexact HS4
        ipureintro; exact View.read_writes_of_cover _ _ _ _ _ (coverC_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  by_cases hD1 : t.val < 19
  · have hD : 10 < t.val ∧ t.val < 19 := ⟨by omega, hD1⟩
    rw [Dat.leavesExact_idle (dats m 0 c) 35 t (idle35 t (cD4 t hD)) (noFlush35 t (cD4 t hD))]
    rw [stAt_D m c t hD]
    unfold stepD vD_LS2 vD_LS4; (try dsimp only)
    rw [PhiS_castSucc m c t, PhiS_pos m c _ _ (by omega)]; unfold held
    rw [u1Held_ge c (t.val - 1) _ (by omega)]
    rw [u1Held_ge c t.val _ (by omega)]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runD m c t hD _ _ _).2.2 Set.univ _)
    isplitl [H1]; · iexact H1
    isplitl [H2]; · iexact H2
    isplitl [H3]; · iexact H3
    isplitl [H16]; · iexact H16
    isplitl [H17]; · iexact H17
    isplitl [H18]; · iexact H18
    isplitl [H19]; · iexact H19
    isplitl [H20]; · iexact H20
    isplitl [HS1]; · iexact HS1
    isplitl [HS2]; · iexact HS2
    isplitl [HS4]; · iexact HS4
    iintro ⟨H1, H2, H3, H16, H17, H18, H19, H20, HS1, ⟨%es2, HS2⟩, ⟨%es4, HS4⟩⟩
    isplitl [HS0 HS1 HS2 HS3 HS4 Hg]
    · isplitl [HS0 HS1 HS2 HS3 HS4]
      · isplitl [HS0]
        · iexact HS0
        isplitl [HS1]
        · iexact HS1
        isplitl [HS2]
        · unfold owns; iexists _; isplitr
          swap; · iexact HS2
          ipureintro; exact View.read_writes_of_cover _ _ _ _ _ (coverD_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · iexact HS3
        unfold owns; iexists _; isplitr
        swap; · iexact HS4
        ipureintro; exact View.read_writes_of_cover _ _ _ _ _ (coverD_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexists _; iexact H35

  have hE : t.val = 19 := by omega
  rw [show (dats m 0 c).leavesExact 35 t = owns (c : Thread nD τ) (ms35 t) fullShare ((dats m 0 c).after 35 t) from by
    unfold Dat.leavesExact; rw [live35 t (cE4 t hE)], after35]
  rw [stAt_E m c t hE]
  unfold stepE vE_L35 vE_LS2 vE_LS4; (try dsimp only)
  rw [PhiS_castSucc m c t, PhiS_pos m c _ _ (by omega)]; unfold held
  rw [u1Held_ge c (t.val - 1) _ (by omega)]
  rw [u1Held_ge c t.val _ (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((runE m c t hE _ _ _).2.2.2 Set.univ _)
  isplitl [H1]; · iexact H1
  isplitl [H2]; · iexact H2
  isplitl [H3]; · iexact H3
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexists _; iexact H35
  isplitl [HS1]; · iexact HS1
  isplitl [HS2]; · iexact HS2
  isplitl [HS4]; · iexact HS4
  iintro ⟨H1, H2, H3, H16, H17, H18, H19, H20, H21, H22, H23, H24, H25, H26, H27, H28, H29, H30, H31, H32, H33, H34, ⟨%e35, H35⟩, HS1, ⟨%es2, HS2⟩, ⟨%es4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (coverE_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS3]
      · iexact HS3
      unfold owns; iexists _; isplitr
      swap; · iexact HS4
      ipureintro; exact View.read_writes_of_cover _ _ _ _ _ (coverE_LS4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  unfold owns; iexists _; isplitr
  swap; · iexact H35
  ipureintro; exact View.read_writes_of_cover _ _ _ _ _ (coverE_L35 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem body_obligation (c : Dev nD) : BodyObligation (dats (F := F) m 0 c) (defs₀ (F := F)) Variants.none () Set.univ := fun t => by
  rw [bigSep_W0, bigSep_W0]
  exact sound_body m c t

set_option maxHeartbeats 4000000 in
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option maxHeartbeats 4000000 in
theorem hout (c : Dev nD) : (dats m 0 c).Φ (Fin.last cfg0.N) ⊢ Pipeline.ΦA spec0 c := by
  have hN : cfg0.N = 20 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]; unfold held
  rw [u1Held_ge c _ _ (by rw [Fin.val_last]; omega)]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run -/

set_option maxHeartbeats 4000000 in
set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.KI.Tail.lean ====
/-
  From the kernel's run to its result.

  The region's one output window holds the whole 128 × 128 array as a single block, at block index (0, 0) at every
  grid point, and the block is written back at the last grid point only.  So after the region the array holds
  exactly what the body left in the block at the last point: the write-back covers every index, and reading the
  block back out of a whole-array function returns that function.  The one operation after the region keeps the
  first two columns of that array; it is the program's result.  The arguments end as they were launched: no
  operation writes them and the region stages them as inputs or leaves them alone.
-/
import proofs.«159474_g3393024163881_fold_wed_m_362_30_alg».proof.Proof.Gen.KernelIdeal.Frame
import Idealize.ShloMosaic.Lib.Pipeline.Value
import Idealize.ShloMosaic.Lib.ValueIdx

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The last grid point. -/
abbrev t19 : Fin cfg0.N := ⟨19, by decide⟩

/-- The output window's block index is (0, 0) at every grid point. -/
theorem idx35 : ∀ t : Fin cfg0.N, win0_35.index t (0 : Fin 2) = 0 ∧ win0_35.index t (1 : Fin 2) = 0 :=
  (by decide +kernel : ∀ t : Fin grid0.N, _)

/-- An index of the array is in point `t`'s block iff each coordinate is in the block's range on its axis. -/
theorem mem_blk35 (t : Fin cfg0.N) (i : S128x128.Idx) :
    i ∈ ((cfg0.win 35).blk t).view.set ↔ ∀ a : Fin 2, win0_35.index t a * S128x128.size a ≤ (i a).val ∧ (i a).val < win0_35.index t a * S128x128.size a + S128x128.size a := by
  show i ∈ ((View.whole main_v25).slice (win0_35.rect t)).set ↔ _
  rw [View.set_slice_whole, Rect.mem_set_unit]
  exact Iff.rfl

/-- The output array after the region is what the body left in the output block at the last grid point: that point
    is the only one that writes back, its block is the whole array, and block position (j₀, j₁) is array position
    (0 · 128 + j₀, 0 · 128 + j₁). -/
theorem final35 (dats : (p : Fin 1) → (c : Dev nD) → Dat τ (Elt F) Unit ℕ (UR sig nD τ) ℕ (cfgs p) c)
    (X : Dev nD → Vec F S128x128 .f32) (hX : ∀ c, (dats 0 c).after 35 ⟨19, by decide⟩ = X c) (c : Dev nD) :
    (dats 0 c).arrAt 35 cfg0.N = X c := by
  obtain ⟨e0, e1⟩ := idx35 t19
  refine (dats 0 c).arrAt_eq_of_cover 35 (X c) (fun t ht => ?_) (fun i => ?_)
  · have h19 : t.val % 20 = 19 := (flush0_35 t).mp ht
    have hlt : t.val < 20 := lt_of_lt_of_eq t.isLt N_0
    obtain rfl : t = t19 := Fin.ext (by show t.val = 19; omega)
    show (cfg0.win 35).cut (grid0.coords t19) ((dats 0 c).after 35 t19) = _
    rw [hX c]
    funext j
    show X c j = X c _
    refine congrArg (X c) (funext fun a => Fin.ext ?_)
    match a with
    | ⟨0, _⟩ => show (j 0).val = win0_35.index t19 (0 : Fin 2) * 128 + 1 * (j 0).val; omega
    | ⟨1, _⟩ => show (j 1).val = win0_35.index t19 (1 : Fin 2) * 128 + 1 * (j 1).val; omega
  · refine ⟨t19, (flush0_35 _).mpr rfl, ?_⟩
    have hi0 : (i 0).val < 128 := (i 0).isLt
    have hi1 : (i 1).val < 128 := (i 1).isLt
    rw [mem_blk35]
    intro a
    match a with
    | ⟨0, _⟩ => show win0_35.index t19 (0 : Fin 2) * 128 ≤ (i 0).val ∧ (i 0).val < win0_35.index t19 (0 : Fin 2) * 128 + 128; omega
    | ⟨1, _⟩ => show win0_35.index t19 (1 : Fin 2) * 128 ≤ (i 1).val ∧ (i 1).val < win0_35.index t19 (1 : Fin 2) * 128 + 128; omega

/-- The result buffer after the operation that follows the region: the first two columns of the output array as the
    region leaves it. -/
theorem tail_v26 (dats : (p : Fin 1) → (c : Dev nD) → Dat τ (Elt F) Unit ℕ (UR sig nD τ) ℕ (cfgs p) c) (c : Dev nD) :
    Pipeline.afterTail₀ cfgs dats 0 (V0 m) [hostOps1] c main_v26
      = extractStridedSlice S128x2 ![0, 0] ((dats 0 c).arrAt 35 cfg0.N) slices_S128x128_S128x2_0_0 := by
  unfold Pipeline.afterTail₀
  show StableHlo.after hostOps1 _ (Proc.devRef .tc main_v26) = _
  after_results
  exact congrArg (fun x => extractStridedSlice S128x2 ![0, 0] x slices_S128x128_S128x2_0_0)
    (Pipeline.withArrays_arr spec0 launch0.win.arr_inj c _ _ 35)

/-- The first two columns of a 128 × 128 array, read at an index: the array at the same row and column. -/
theorem slice_read (x : Vec F S128x128 .f32) (i : S128x2.Idx) :
    extractStridedSlice S128x2 ![0, 0] x slices_S128x128_S128x2_0_0 i
      = x (ValueIdx.ix2 (i 0) ⟨(i 1).val, lt_of_lt_of_le (i 1).isLt (by decide)⟩) := by
  refine extractStridedSlice_apply ![0, 0] x slices_S128x128_S128x2_0_0 i _ (fun a => ?_)
  match a with
  | ⟨0, _⟩ => show (i 0).val = 0 + (i 0).val; omega
  | ⟨1, _⟩ => show (i 1).val = 0 + (i 1).val; omega

set_option maxHeartbeats 2160000 in
/-- The program's result and its arguments after a run: from a frame run of any proof data whose arrays are the region-entry contents and whose
    output block after the last grid point is `X c`, the program's result is the first two columns of `X c` and
    every argument is unchanged. -/
theorem result_of_run (dats : (p : Fin 1) → (c : Dev nD) → Dat τ (Elt F) Unit ℕ (UR sig nD τ) ℕ (cfgs p) c)
    (hA : ∀ c w, (dats 0 c).A w = V m c (Pipeline.arrRef spec0 w))
    (X : Dev nD → Vec F S128x128 .f32) (hX : ∀ c, (dats 0 c).after 35 ⟨19, by decide⟩ = X c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v26) = (fun i : S128x2.Idx => X c (ValueIdx.ix2 (i 0) ⟨(i 1).val, lt_of_lt_of_le (i 1).isLt (by decide)⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun _ h c => ⟨
      ((h c).2 main_v26 (Pipeline.mem_restRefs_of main_v26 (by decide) (by decide))).trans
        ((tail_v26 m dats c).trans (by rw [final35 dats X hX c]; exact funext fun i => slice_read (X c) i)),
      ((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 4).trans (((dats 0 c).arrAt_in 4 rfl _).trans ((hA c 4).trans (V_main_arg4 m c))),
      (((h c).2 main_arg5 (Pipeline.mem_restRefs_of main_arg5 (by decide) (by decide))).trans (W_main_arg5 m dats c)),
      ((h c).1 6).trans (((dats 0 c).arrAt_in 6 rfl _).trans ((hA c 6).trans (V_main_arg6 m c))),
      (((h c).2 main_arg7 (Pipeline.mem_restRefs_of main_arg7 (by decide) (by decide))).trans (W_main_arg7 m dats c)),
      ((h c).1 8).trans (((dats 0 c).arrAt_in 8 rfl _).trans ((hA c 8).trans (V_main_arg8 m c))),
      (((h c).2 main_arg9 (Pipeline.mem_restRefs_of main_arg9 (by decide) (by decide))).trans (W_main_arg9 m dats c)),
      ((h c).1 10).trans (((dats 0 c).arrAt_in 10 rfl _).trans ((hA c 10).trans (V_main_arg10 m c))),
      (((h c).2 main_arg11 (Pipeline.mem_restRefs_of main_arg11 (by decide) (by decide))).trans (W_main_arg11 m dats c)),
      ((h c).1 12).trans (((dats 0 c).arrAt_in 12 rfl _).trans ((hA c 12).trans (V_main_arg12 m c))),
      (((h c).2 main_arg13 (Pipeline.mem_restRefs_of main_arg13 (by decide) (by decide))).trans (W_main_arg13 m dats c)),
      ((h c).1 14).trans (((dats 0 c).arrAt_in 14 rfl _).trans ((hA c 14).trans (V_main_arg14 m c))),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c)),
      ((h c).1 19).trans (((dats 0 c).arrAt_in 19 rfl _).trans ((hA c 19).trans (V_main_arg18 m c))),
      (((h c).2 main_arg19 (Pipeline.mem_restRefs_of main_arg19 (by decide) (by decide))).trans (W_main_arg19 m dats c)),
      ((h c).1 21).trans (((dats 0 c).arrAt_in 21 rfl _).trans ((hA c 21).trans (V_main_arg20 m c))),
      (((h c).2 main_arg21 (Pipeline.mem_restRefs_of main_arg21 (by decide) (by decide))).trans (W_main_arg21 m dats c)),
      ((h c).1 23).trans (((dats 0 c).arrAt_in 23 rfl _).trans ((hA c 23).trans (V_main_arg22 m c))),
      (((h c).2 main_arg23 (Pipeline.mem_restRefs_of main_arg23 (by decide) (by decide))).trans (W_main_arg23 m dats c)),
      ((h c).1 25).trans (((dats 0 c).arrAt_in 25 rfl _).trans ((hA c 25).trans (V_main_arg24 m c))),
      (((h c).2 main_arg25 (Pipeline.mem_restRefs_of main_arg25 (by decide) (by decide))).trans (W_main_arg25 m dats c)),
      ((h c).1 27).trans (((dats 0 c).arrAt_in 27 rfl _).trans ((hA c 27).trans (V_main_arg26 m c))),
      (((h c).2 main_arg27 (Pipeline.mem_restRefs_of main_arg27 (by decide) (by decide))).trans (W_main_arg27 m dats c)),
      ((h c).1 29).trans (((dats 0 c).arrAt_in 29 rfl _).trans ((hA c 29).trans (V_main_arg28 m c))),
      (((h c).2 main_arg29 (Pipeline.mem_restRefs_of main_arg29 (by decide) (by decide))).trans (W_main_arg29 m dats c)),
      ((h c).1 31).trans (((dats 0 c).arrAt_in 31 rfl _).trans ((hA c 31).trans (V_main_arg30 m c))),
      (((h c).2 main_arg31 (Pipeline.mem_restRefs_of main_arg31 (by decide) (by decide))).trans (W_main_arg31 m dats c)),
      (((h c).2 main_arg32 (Pipeline.mem_restRefs_of main_arg32 (by decide) (by decide))).trans (W_main_arg32 m dats c)),
      (((h c).2 main_arg33 (Pipeline.mem_restRefs_of main_arg33 (by decide) (by decide))).trans (W_main_arg33 m dats c))⟩) h

end Cert.KernelIdeal.Tail

end
-- ==== Proof.KI.Pieces.lean ====
/-
  What the stores of one run of the body leave in each buffer it writes, read back whole.

  In every case each buffer is stored into once, through the whole buffer at offset zero, so what the buffer holds
  afterwards is the value stored: the payload of that store applied to the blocks the run loaded and, where the run
  loads a buffer it has just stored into, to the value it stored there.
-/
import proofs.«159474_g3393024163881_fold_wed_m_362_30_alg».proof.Proof.KI.RunE
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a rank-2 buffer, as the stores spell it. -/
theorem hz2 : (![0, 0] : Fin 2 → ℕ) = fun _ => 0 := by funext a; fin_cases a <;> rfl
/-- The zero offset of a rank-3 buffer, as the loads spell it. -/
theorem hz3 : (![0, 0, 0] : Fin 3 → ℕ) = fun _ => 0 := by funext a; fin_cases a <;> rfl

/-! ## The first point: the accumulators are zeroed, then the first block is pooled into those of the first stage -/

/-- The first stage's sums: the first block pooled into the zeroed sums. -/
theorem pieceA_S0 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) :
    VS0.read (Elt F) (VS0.writes (Elt F) VS0.junk (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7).1) = k0_pay12 x0 x4 x5 x6 x7 x2 (k0_pay1 (F := F)) := by
  rw [View.read_writes_eq_canon _ _ _ (fun y => View.cover_of_tiledL _ S128x128.size (by sl_kernel_rfl) y)]
  unfold kernelRunA
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The second stage's sums: zeroed. -/
theorem pieceA_S2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) :
    VS2.read (Elt F) (VS2.writes (Elt F) VS2.junk (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7).2.1) = k0_pay2 (F := F) := by
  rw [View.read_writes_eq_canon _ _ _ (fun y => View.cover_of_tiledL _ S128x128.size (by sl_kernel_rfl) y)]
  unfold kernelRunA
  dsimp only
  sl_unfold_run_names
  rw [View.canon_cons_unit_zero hz2]

/-- The first stage's counts: the first block counted into the zeroed counts. -/
theorem pieceA_S3 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) :
    VS3.read (Elt F) (VS3.writes (Elt F) VS3.junk (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7).2.2.1) = k0_pay5 (k0_pay3 (F := F)) (k0_pay13 x2) := by
  rw [View.read_writes_eq_canon _ _ _ (fun y => View.cover_of_tiledL _ S128x1.size (by sl_kernel_rfl) y)]
  unfold kernelRunA
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The second stage's counts: zeroed. -/
theorem pieceA_S4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) :
    VS4.read (Elt F) (VS4.writes (Elt F) VS4.junk (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7).2.2.2.1) = k0_pay4 (F := F) := by
  rw [View.read_writes_eq_canon _ _ _ (fun y => View.cover_of_tiledL _ S128x1.size (by sl_kernel_rfl) y)]
  unfold kernelRunA
  dsimp only
  sl_unfold_run_names
  rw [View.canon_cons_unit_zero hz2]

/-! ## A later point of the first stage: one more block pooled and counted -/

/-- The first stage's sums after one more block. -/
theorem pieceB_S0 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) :
    VS0.read (Elt F) (VS0.writes (Elt F) VS0.junk (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).1) = k0_pay12 x0 x4 x5 x6 x7 x2 xs0 := by
  rw [View.read_writes_eq_canon _ _ _ (fun y => View.cover_of_tiledL _ S128x128.size (by sl_kernel_rfl) y)]
  unfold kernelRunB
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The first stage's counts after one more block. -/
theorem pieceB_S3 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : cond1 i) (hc2 : ¬cond2 i) (hc3 : ¬cond3 i) (hc4 : ¬cond4 i) (x0 : Vec F S10000x128 .f32) (x2 : Vec F S1x1x10000 .i32) (x4 : Vec F S128x128 .f32) (x5 : Vec F S1x128 .f32) (x6 : Vec F S128x128 .f32) (x7 : Vec F S1x128 .f32) (xs0 : Vec F S128x128 .f32) (xs3 : Vec F S128x1 .f32) :
    VS3.read (Elt F) (VS3.writes (Elt F) VS3.junk (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x0 x2 x4 x5 x6 x7 xs0 xs3).2.1) = k0_pay5 xs3 (k0_pay13 x2) := by
  rw [View.read_writes_eq_canon _ _ _ (fun y => View.cover_of_tiledL _ S128x1.size (by sl_kernel_rfl) y)]
  unfold kernelRunB
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-! ## The first point of the second stage: the first stage's embeddings are made, then the first block is pooled -/

/-- The segment embeddings of the first stage. -/
theorem pieceC_S1 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) :
    VS1.read (Elt F) (VS1.writes (Elt F) VS1.junk (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).1) = (k0_pay6 x12 (k0_pay14 x13) x14 (k0_pay15 x15) (k0_pay16 xs0 xs3 x8 x9 x10 x11) (constant S128x128 .f32 0x00000000#32)) := by
  rw [View.read_writes_eq_canon _ _ _ (fun y => View.cover_of_tiledL _ S128x128.size (by sl_kernel_rfl) y)]
  unfold kernelRunC
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The second stage's sums: the first block, with the embeddings just made, pooled in. -/
theorem pieceC_S2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) :
    VS2.read (Elt F) (VS2.writes (Elt F) VS2.junk (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.1) = k0_pay8 (k0_pay17 x2 (k0_pay6 x12 (k0_pay14 x13) x14 (k0_pay15 x15) (k0_pay16 xs0 xs3 x8 x9 x10 x11) (constant S128x128 .f32 0x00000000#32)) x1 x16 x17 x18 x19 x20) (k0_pay18 x3) xs2 := by
  rw [View.read_writes_eq_canon _ _ _ (fun y => View.cover_of_tiledL _ S128x128.size (by sl_kernel_rfl) y)]
  unfold kernelRunC
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The second stage's counts after the first block. -/
theorem pieceC_S4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : cond2 i) (hc3 : cond3 i) (hc4 : ¬cond4 i) (x1 : Vec F S10000x128 .f32) (x2 : Vec F S1x1x10000 .i32) (x3 : Vec F S1x1x10000 .i32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (xs0 : Vec F S128x128 .f32) (xs2 : Vec F S128x128 .f32) (xs3 : Vec F S128x1 .f32) (xs4 : Vec F S128x1 .f32) :
    VS4.read (Elt F) (VS4.writes (Elt F) VS4.junk (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x8 x9 x10 x11 x12 x13 x14 x15 x16 x17 x18 x19 x20 xs0 xs2 xs3 xs4).2.2.1) = k0_pay9 (k0_pay18 x3) xs4 := by
  rw [View.read_writes_eq_canon _ _ _ (fun y => View.cover_of_tiledL _ S128x1.size (by sl_kernel_rfl) y)]
  unfold kernelRunC
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-! ## A later point of the second stage -/

/-- The second stage's sums after one more block. -/
theorem pieceD_S2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) :
    VS2.read (Elt F) (VS2.writes (Elt F) VS2.junk (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).1) = k0_pay8 (k0_pay17 x2 xs1 x1 x16 x17 x18 x19 x20) (k0_pay18 x3) xs2 := by
  rw [View.read_writes_eq_canon _ _ _ (fun y => View.cover_of_tiledL _ S128x128.size (by sl_kernel_rfl) y)]
  unfold kernelRunD
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The second stage's counts after one more block. -/
theorem pieceD_S4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : ¬cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (xs1 : Vec F S128x128 .f32) (xs2 : Vec F S128x128 .f32) (xs4 : Vec F S128x1 .f32) :
    VS4.read (Elt F) (VS4.writes (Elt F) VS4.junk (kernelRunD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 xs1 xs2 xs4).2.1) = k0_pay9 (k0_pay18 x3) xs4 := by
  rw [View.read_writes_eq_canon _ _ _ (fun y => View.cover_of_tiledL _ S128x1.size (by sl_kernel_rfl) y)]
  unfold kernelRunD
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-! ## The last point: the last block is pooled, then the result is made from the sums and counts just stored -/

/-- The second stage's sums after the last block. -/
theorem pieceE_S2 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) :
    VS2.read (Elt F) (VS2.writes (Elt F) VS2.junk (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.1) = k0_pay8 (k0_pay17 x2 xs1 x1 x16 x17 x18 x19 x20) (k0_pay18 x3) xs2 := by
  rw [View.read_writes_eq_canon _ _ _ (fun y => View.cover_of_tiledL _ S128x128.size (by sl_kernel_rfl) y)]
  unfold kernelRunE
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The second stage's counts after the last block. -/
theorem pieceE_S4 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) :
    VS4.read (Elt F) (VS4.writes (Elt F) VS4.junk (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).2.2.1) = k0_pay9 (k0_pay18 x3) xs4 := by
  rw [View.read_writes_eq_canon _ _ _ (fun y => View.cover_of_tiledL _ S128x1.size (by sl_kernel_rfl) y)]
  unfold kernelRunE
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

/-- The output block: the rest of the network applied to the sums and counts just stored. -/
theorem pieceE_O35 (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole) (arg41 : Memref sig .tc .vmem S128x1 .f32) (harg41 : arg41.IsWhole) (arg42 : Memref sig .tc .vmem S128x1 .f32) (harg42 : arg42.IsWhole) (hc0 : ¬cond0 i) (hc1 : ¬cond1 i) (hc2 : ¬cond2 i) (hc3 : cond3 i) (hc4 : cond4 i) (x1 : Vec F S10000x128 .f32) (x2 : Vec F S1x1x10000 .i32) (x3 : Vec F S1x1x10000 .i32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xs1 : Vec F S128x128 .f32) (xs2 : Vec F S128x128 .f32) (xs4 : Vec F S128x1 .f32) :
    VO35.read (Elt F) (VO35.writes (Elt F) VO35.junk (kernelRunE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 hc2 hc3 hc4 x1 x2 x3 x16 x17 x18 x19 x20 x21 x22 x23 x24 x25 x26 x27 x28 x29 x30 x31 x32 x33 x34 xs1 xs2 xs4).1) = k0_pay10 x25 (k0_pay19 x26) x27 (k0_pay20 x28) (k0_pay21 (k0_pay8 (k0_pay17 x2 xs1 x1 x16 x17 x18 x19 x20) (k0_pay18 x3) xs2) (k0_pay9 (k0_pay18 x3) xs4) x21 x22 x23 x24) (constant S128x128 .f32 0x00000000#32) x29 x30 x31 x32 x33 x34 := by
  rw [View.read_writes_eq_canon _ _ _ (fun y => View.cover_of_tiledL _ S128x128.size (by sl_kernel_rfl) y)]
  unfold kernelRunE
  dsimp only
  sl_unfold_run_names
  rw [View.canon_cons_unit_zero hz2]
  simp only [View.readAt_eq_ld, Memref.IsWhole.read_unread, View.ld_unit_zero (S := S10000x128) hz2,
    View.ld_unit_zero (S := S128x128) hz2, View.ld_unit_zero (S := S128x1) hz2, View.ld_unit_zero (S := S1x128) hz2,
    View.ld_unit_zero (S := S1x1x10000) hz3, View.readCov_unit_zero (S := S128x128) _ hz2,
    View.readCov_unit_zero (S := S128x1) _ hz2]

end Cert.KernelIdeal.Body

end
-- ==== Proof.Spec.lean ====
/-
  The two programs as plain functions over the extended reals.

  A dense layer is a matrix product plus a bias row; the rectifier is the maximum with zero; a three-layer
  perceptron is two rectified dense layers and a linear one.  The reference pools the perceptron's rows per
  segment (a row joins segment `g` when its label, read as a signed word, is `g`), and hands each node of the
  second stage the pooled embedding of the segment its first label names.  The kernel pools the activations
  BEFORE the last (linear) layer, block by block, with a one-hot matrix, counts the rows of each segment, and
  applies the last layer once to the pooled sums; it fetches a node's segment embedding by a product with the
  transposed one-hot matrix, splits the first weight matrix of the second stage in two instead of
  concatenating, and carries the final two-column head padded with zero columns.
-/
import Mathlib.Data.EReal.Operations
import Mathlib.Algebra.BigOperators.Fin

noncomputable section

namespace Cert.Spec

open scoped BigOperators

variable {M K N : ℕ}

/-- The matrix product. -/
def mm (x : Fin M → Fin K → EReal) (w : Fin K → Fin N → EReal) : Fin M → Fin N → EReal :=
  fun p q => ∑ k, x p k * w k q

/-- A dense layer: the product plus a bias row. -/
def dense (x : Fin M → Fin K → EReal) (w : Fin K → Fin N → EReal) (b : Fin N → EReal) : Fin M → Fin N → EReal :=
  fun p q => mm x w p q + b q

/-- The rectifier. -/
def relu (x : Fin M → Fin N → EReal) : Fin M → Fin N → EReal := fun p q => max (x p q) 0

/-- The weights of a three-layer perceptron. -/
structure Mlp (I H1 H2 O : ℕ) where
  w0 : Fin I → Fin H1 → EReal
  b0 : Fin H1 → EReal
  w1 : Fin H1 → Fin H2 → EReal
  b1 : Fin H2 → EReal
  w2 : Fin H2 → Fin O → EReal
  b2 : Fin O → EReal

variable {I H1 H2 O : ℕ}

/-- The activations before the last layer. -/
def Mlp.hid (p : Mlp I H1 H2 O) (x : Fin M → Fin I → EReal) : Fin M → Fin H2 → EReal :=
  relu (dense (relu (dense x p.w0 p.b0)) p.w1 p.b1)

/-- The perceptron. -/
def Mlp.apply (p : Mlp I H1 H2 O) (x : Fin M → Fin I → EReal) : Fin M → Fin O → EReal :=
  dense (p.hid x) p.w2 p.b2

/-- Every entry is a real number. -/
def IsRealM (x : Fin M → Fin N → EReal) : Prop := ∀ p q, ∃ r : ℝ, x p q = (r : EReal)
/-- Every entry is a real number. -/
def IsRealV (b : Fin N → EReal) : Prop := ∀ q, ∃ r : ℝ, b q = (r : EReal)
/-- Every weight is a real number. -/
def Mlp.IsReal (p : Mlp I H1 H2 O) : Prop :=
  IsRealM p.w0 ∧ IsRealV p.b0 ∧ IsRealM p.w1 ∧ IsRealV p.b1 ∧ IsRealM p.w2 ∧ IsRealV p.b2

/-! ## The reference -/

/-- Sum pooling: segment `g` collects the rows whose label, read as a signed word, is `g`. -/
def pool {E G C : ℕ} (ids : Fin E → BitVec 32) (h : Fin E → Fin C → EReal) : Fin G → Fin C → EReal :=
  fun g c => ∑ e, if (ids e).toInt = (g.val : ℤ) then h e c else 0

/-- A node's features beside the embedding of the segment `row n`. -/
def beside (x2 : Fin 100000 → Fin 128 → EReal) (u : Fin 128 → Fin 128 → EReal) (row : Fin 100000 → Fin 128) :
    Fin 100000 → Fin 256 → EReal :=
  fun n k => if h : k.val < 128 then x2 n ⟨k.val, h⟩ else u (row n) ⟨k.val - 128, by omega⟩

/-- The reference's result. -/
def referenceOut (x1 x2 : Fin 100000 → Fin 128 → EReal) (ids1 ids2 : Fin 100000 → BitVec 32) (row : Fin 100000 → Fin 128)
    (e1 r1 : Mlp 128 128 128 128) (e2 : Mlp 256 128 128 128) (r2 : Mlp 128 128 128 128) (hd : Mlp 128 128 128 2) :
    Fin 128 → Fin 2 → EReal :=
  let u1 := r1.apply (pool (G := 128) ids1 (e1.apply x1))
  let u2 := r2.apply (pool (G := 128) ids2 (e2.apply (beside x2 u1 row)))
  hd.apply u2

/-! ## The kernel -/

/-- Node `r` of block `i`. -/
def node (i : Fin 10) (r : Fin 10000) : Fin 100000 := ⟨10000 * i.val + r.val, by omega⟩

/-- The one-hot entry: one when node `e`'s label, read as a signed word, is `g`. -/
def onehot {E G : ℕ} (ids : Fin E → BitVec 32) (g : Fin G) (e : Fin E) : EReal :=
  if (ids e).toInt = (g.val : ℤ) then 1 else 0

/-- The pooled sums, one block after the other. -/
def blockPool (ids : Fin 100000 → BitVec 32) (y : Fin 100000 → Fin 128 → EReal) : Fin 128 → Fin 128 → EReal :=
  fun g k => ∑ i : Fin 10, ∑ r : Fin 10000, onehot ids g (node i r) * y (node i r) k

/-- The segments' sizes, one block after the other. -/
def blockCount (ids : Fin 100000 → BitVec 32) : Fin 128 → EReal :=
  fun g => ∑ i : Fin 10, ∑ r : Fin 10000, onehot ids g (node i r)

/-- The last layer applied to pooled sums: the sums in three passes (the sums, their difference with
    themselves, and that difference's with itself), plus the bias once per row of the segment. -/
def applyLast (s : Fin 128 → Fin 128 → EReal) (c : Fin 128 → EReal) (w : Fin 128 → Fin 128 → EReal) (b : Fin 128 → EReal) :
    Fin 128 → Fin 128 → EReal :=
  fun g q => ((mm s w g q + mm (fun a k => s a k - s a k) w g q)
    + mm (fun a k => (s a k - s a k) - (s a k - s a k)) w g q) + c g * b q

/-- The segment embedding of each node by the transposed one-hot product. -/
def fetch (ids : Fin 100000 → BitVec 32) (u : Fin 128 → Fin 128 → EReal) : Fin 100000 → Fin 128 → EReal :=
  fun n k => ∑ g : Fin 128, onehot ids g n * u g k

/-- The second stage's activations before its last layer, the first weight matrix in its two halves. -/
def hid2 (e2 : Mlp 256 128 128 128) (x2 ug : Fin 100000 → Fin 128 → EReal) : Fin 100000 → Fin 128 → EReal :=
  relu (dense (relu (fun n q =>
    (mm x2 (fun k q => e2.w0 ⟨k.val, by omega⟩ q) n q + mm ug (fun k q => e2.w0 ⟨128 + k.val, by omega⟩ q) n q) + e2.b0 q))
    e2.w1 e2.b1)

/-- The two-column head padded with zero columns. -/
def padW (w : Fin 128 → Fin 2 → EReal) : Fin 128 → Fin 128 → EReal :=
  fun k q => if h : q.val < 2 then w k ⟨q.val, h⟩ else 0
/-- The two-entry bias padded with zeros. -/
def padB (b : Fin 2 → EReal) : Fin 128 → EReal :=
  fun q => if h : q.val < 2 then b ⟨q.val, h⟩ else 0

/-- The kernel's padded result (all 128 columns). -/
def kernelWide (x1 x2 : Fin 100000 → Fin 128 → EReal) (ids1 ids2 : Fin 100000 → BitVec 32)
    (e1 r1 : Mlp 128 128 128 128) (e2 : Mlp 256 128 128 128) (r2 : Mlp 128 128 128 128) (hd : Mlp 128 128 128 2) :
    Fin 128 → Fin 128 → EReal :=
  let a1 := applyLast (blockPool ids1 (e1.hid x1)) (blockCount ids1) e1.w2 e1.b2
  let u1 := r1.apply a1
  let a2 := applyLast (blockPool ids2 (hid2 e2 x2 (fetch ids1 u1))) (blockCount ids2) e2.w2 e2.b2
  let u2 := r2.apply a2
  dense (hd.hid u2) (padW hd.w2) (padB hd.b2)

/-- The kernel's result: the first two columns. -/
def kernelOut (x1 x2 : Fin 100000 → Fin 128 → EReal) (ids1 ids2 : Fin 100000 → BitVec 32)
    (e1 r1 : Mlp 128 128 128 128) (e2 : Mlp 256 128 128 128) (r2 : Mlp 128 128 128 128) (hd : Mlp 128 128 128 2) :
    Fin 128 → Fin 2 → EReal :=
  fun g j => kernelWide x1 x2 ids1 ids2 e1 r1 e2 r2 hd g ⟨j.val, by omega⟩

end Cert.Spec

end
-- ==== Proof.Glue.lean ====
/-
  Arrays as functions of their coordinates: a rank-2 array read at a pair, a rank-1 array at one coordinate, six
  arrays as one perceptron's weights, and the segment a label names when the label is one of the 128 segments.
-/
import proofs.«159474_g3393024163881_fold_wed_m_362_30_alg».proof.Proof.Spec
import Idealize.ShloMosaic.Lib.ValueIdx

noncomputable section

namespace Cert.Glue

open Idealize.ShloMosaic Idealize.ShloMosaic.ValueIdx

/-- A rank-2 array as a function of its two coordinates. -/
def mat {a b : ℕ} {α : Type} (x : (⟨2, ![a, b]⟩ : Shape).Idx → α) : Fin a → Fin b → α := fun p q => x (ix2 p q)

/-- A rank-1 array as a function of its coordinate. -/
def vec {a : ℕ} {α : Type} (x : (⟨1, ![a]⟩ : Shape).Idx → α) : Fin a → α := fun p => x (ix1 p)

/-- Six arrays as the weights of one perceptron. -/
def mlp {I H1 H2 O : ℕ} (w0 : (⟨2, ![I, H1]⟩ : Shape).Idx → EReal) (b0 : (⟨1, ![H1]⟩ : Shape).Idx → EReal)
    (w1 : (⟨2, ![H1, H2]⟩ : Shape).Idx → EReal) (b1 : (⟨1, ![H2]⟩ : Shape).Idx → EReal)
    (w2 : (⟨2, ![H2, O]⟩ : Shape).Idx → EReal) (b2 : (⟨1, ![O]⟩ : Shape).Idx → EReal) : Cert.Spec.Mlp I H1 H2 O :=
  ⟨mat w0, vec b0, mat w1, vec b1, mat w2, vec b2⟩

/-- The segment a label names: its value as a signed word, kept below 128. -/
def rowOf (w : BitVec 32) : Fin 128 := ⟨min w.toInt.toNat 127, by omega⟩

/-- A label between 0 and 127 is the number of the segment it names. -/
theorem rowOf_spec (w : BitVec 32) (h0 : 0 ≤ w.toInt) (h1 : w.toInt < 128) : w.toInt = ((rowOf w).val : ℤ) := by
  unfold rowOf
  simp only
  omega

end Cert.Glue

end
-- ==== Proof.KI.Conv.lean ====
/-
  The kernel's small blocks as plain functions: a [1,128] bias row, a [128,1] column of counts, and a [1,1,10000]
  block of labels, each read at its one free coordinate.
-/
import proofs.«159474_g3393024163881_fold_wed_m_362_30_alg».proof.KernelIdeal
import proofs.«159474_g3393024163881_fold_wed_m_362_30_alg».proof.Proof.Glue

noncomputable section

namespace Cert.KernelIdeal.Conv

open Cert.KernelIdeal Idealize.ShloMosaic Idealize.ShloMosaic.ValueIdx

/-- A bias row read at its column. -/
def row (b : Vec Ideal S1x128 .f32) : Fin 128 → EReal := fun q => b (ix2 0 q)
/-- A column read at its row. -/
def col (v : Vec Ideal S128x1 .f32) : Fin 128 → EReal := fun g => v (ix2 g 0)
/-- A block of labels read at its position. -/
def lab (ids : Vec Ideal S1x1x10000 .i32) : Fin 10000 → BitVec 32 := fun r => ids (ix3 0 0 r)

end Cert.KernelIdeal.Conv

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Reductions along the rows of a matrix, read at one row, over the extended reals.

  For an `[a, n]` matrix `Y` reduced over its second axis to an `[a]` vector, entry `p` of the result depends on row
  `p` only:
  * a vector maximum reduction from the accumulator pattern `acc` is the fold of `max` from `acc`'s value over
    `Y (p, 0), …, Y (p, n − 1)`;
  * a vector sum reduction from the zero accumulator is `Σ_j Y (p, j)`;
  * the host's reduce with a maximum body from the initial value `init` is the same fold from `init`.
  The point put back into the reduced index `p` at coordinate `k` of the reduced axis is `(p, k)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `p` with coordinate `k` of the second axis put back is `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A vector maximum reduction along the rows, at row `p`: the fold of `max` from the accumulator's value over the row. -/
theorem laneMax_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) Y acc h hφ hacc (ix1 p)
      = (Finset.univ : Finset (Fin n)).fold max (Ideal.ofBits .f32 acc) (fun j => Y (ix2 p j)) := by
  rw [Ideal.multiReduction_maximumf_single]
  have hf : (Y ∘ h.lift (ix1 p)) = fun k : Fin n => Y (ix2 p k) := funext fun k => congrArg Y (lift_row h p k)
  exact congrArg (fun f => Finset.fold max (Ideal.ofBits .f32 acc) f (Finset.univ : Finset (Fin n))) hf

/-- A vector sum reduction along the rows, at row `p`: the sum of the row. -/
theorem laneSum_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (p : Fin a) :
    multiReduction .add [1] (⟨1, ![a]⟩ : Shape) Y acc h hφ hacc (ix1 p) = ∑ j : Fin n, Y (ix2 p j) := by
  rw [Ideal.multiReduction_add_single]
  exact Finset.sum_congr rfl fun k _ => congrArg Y (lift_row h p k)

/-- The host's reduce with a maximum body along the rows, at row `p`: the fold of `max` from the initial value over the row. -/
theorem hostMax_apply {a n : ℕ} (Y : FVec Ideal ⟨2, ![a, n]⟩ .f32) (init : (⟨0, ![]⟩ : Shape).Idx → Ideal .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf Y init h' hu (ix1 p)
      = (Finset.univ : Finset (Fin n)).fold max (init (Shape.Idx.first hu)) (fun j => Y (ix2 p j)) := by
  rw [Host.reduce_eq_fold_single FloatOps.maximumf Y _ h' h hu]
  have hf : (Y ∘ h.lift (ix1 p)) = fun k : Fin n => Y (ix2 p k) := funext fun k => congrArg Y (lift_row h p k)
  exact congrArg (fun f => Finset.fold max (init (Shape.Idx.first hu)) f (Finset.univ : Finset (Fin n))) hf

end Cert.Lib

end
-- ==== Proof.KI.PayOps.lean ====
/-
  The kernel's vector operations read as operations on plain functions of coordinates.

  Over the extended reals a matrix product into a zero accumulator is the sum of products over the contracted
  coordinate; adding a broadcast bias row makes it a dense layer; the maximum with the zero word is the rectifier.
  The one-hot tile compares a row counter with the labels: its entry at (g, r) is one exactly when the label of
  position r, read as a signed word, is g. The product that contracts the FIRST axis of both operands reads the
  left operand transposed.
-/
import proofs.«159474_g3393024163881_fold_wed_m_362_30_alg».proof.Proof.Gen.KernelIdeal.Skeleton
import proofs.«159474_g3393024163881_fold_wed_m_362_30_alg».proof.Proof.Glue
import proofs.«159474_g3393024163881_fold_wed_m_362_30_alg».proof.Proof.KI.Conv
import proofs.«159474_g3393024163881_fold_wed_m_362_30_alg».proof.Proof.LibMatmulPlain
import proofs.«159474_g3393024163881_fold_wed_m_362_30_alg».proof.Proof.LibColumn
import proofs.«159474_g3393024163881_fold_wed_m_362_30_alg».proof.Proof.LibRowReduce
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

open scoped BigOperators

namespace Cert.KernelIdeal.PayOps

open Cert.KernelIdeal Cert.KernelIdeal.Gen Cert.KernelIdeal.Conv Cert.Spec Cert.Glue
open Idealize.ShloMosaic Idealize.ShloMosaic.ValueIdx

variable {M K N : ℕ}

/-! ## Products, bias rows, the rectifier -/

/-- A plain product into the zero accumulator is the matrix product of the operands. -/
theorem mat_matmul (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) :
    mat (matmul D none l r (constant (F := Ideal) ⟨2, ![M, N]⟩ .f32 0x00000000#32)) = mm (mat l) (mat r) := by
  subst hD
  funext p q
  exact Cert.Lib.matmul_plain_zero_apply M K N none l r p q

/-- A sum of two arrays is the entrywise sum. -/
theorem mat_addf (a b : FVec Ideal ⟨2, ![M, N]⟩ .f32) : mat (addf a b) = fun p q => mat a p q + mat b p q := rfl

/-- A difference of two arrays is the entrywise difference. -/
theorem mat_subf (a b : FVec Ideal ⟨2, ![M, N]⟩ .f32) : mat (subf a b) = fun p q => mat a p q - mat b p q := rfl

/-- A product of two arrays is the entrywise product. -/
theorem mat_mulf (a b : FVec Ideal ⟨2, ![M, N]⟩ .f32) : mat (mulf a b) = fun p q => mat a p q * mat b p q := rfl

/-- A bias row broadcast over the rows reads the row at the column. -/
theorem mat_bias (b : FVec Ideal ⟨2, ![1, N]⟩ .f32) (h : (⟨2, ![1, N]⟩ : Shape).Broadcasts ⟨2, ![M, N]⟩) :
    mat (broadcastTo ⟨2, ![M, N]⟩ b h) = fun _ q => b (ix2 0 q) := by
  funext p q
  exact broadcastTo_1b_ab_apply b h p q

/-- A column broadcast over the columns reads the column at the row. -/
theorem mat_column (v : FVec Ideal ⟨2, ![M, 1]⟩ .f32) (h : (⟨2, ![M, 1]⟩ : Shape).Broadcasts ⟨2, ![M, N]⟩) :
    mat (broadcastTo ⟨2, ![M, N]⟩ v h) = fun p _ => v (ix2 p 0) := by
  funext p q
  exact Cert.Lib.broadcastTo_a1_ab_apply v h p q

/-- The maximum with the broadcast zero word is the rectifier. -/
theorem mat_relu (x : FVec Ideal ⟨2, ![M, N]⟩ .f32) :
    mat (maximumf x (broadcast ⟨2, ![M, N]⟩ (Scalar.ofBits (F := Ideal) .f32 0x00000000#32))) = relu (mat x) := by
  funext p q
  show max (x (ix2 p q)) (Ideal.ofBits .f32 0x00000000#32) = max (x (ix2 p q)) 0
  rw [Ideal.ofBits_zero_f32]

/-- A product plus a broadcast bias row is a dense layer. -/
theorem mat_dense (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨2, ![1, N]⟩ .f32)
    (h : (⟨2, ![1, N]⟩ : Shape).Broadcasts ⟨2, ![M, N]⟩) :
    mat (addf (matmul D none l r (constant (F := Ideal) ⟨2, ![M, N]⟩ .f32 0x00000000#32)) (broadcastTo ⟨2, ![M, N]⟩ b h))
      = dense (mat l) (mat r) (fun q => b (ix2 0 q)) := by
  rw [mat_addf, mat_matmul D hD, mat_bias]
  rfl

/-! ## The one-hot tile -/

/-- The counter word of a segment number below 128 reads, signed, that number. -/
theorem toInt_counter (g : Fin 128) : (BitVec.ofNat 32 g.val).toInt = (g.val : ℤ) := by
  have hg := g.isLt
  rw [BitVec.toInt_eq_toNat_of_lt (by rw [BitVec.toNat_ofNat]; omega), BitVec.toNat_ofNat]
  omega

/-- One entry of the tile: the comparison bit of the counter with a label, widened and converted, is one when the
    label read as a signed word is the segment's number, else zero. -/
theorem onehot_word (g : Fin 128) (w : BitVec 32) :
    Scalar.sitofp (F := Ideal) .f32 ((IntOp.cmpi .eq (BitVec.ofNat 32 g.val) w).setWidth 32)
      = if w.toInt = (g.val : ℤ) then (1 : EReal) else 0 := by
  by_cases hw : BitVec.ofNat 32 g.val = w
  · have h1 : IntOp.cmpi .eq (BitVec.ofNat 32 g.val) w = 1#1 := IntOp.cmpi_eq.mpr hw
    have h2 : ((1#1 : BitVec 1).setWidth 32).toInt = 1 := by decide
    rw [h1, if_pos (by rw [← hw, toInt_counter])]
    show ((((1#1 : BitVec 1).setWidth 32).toInt : ℝ) : EReal) = 1
    rw [h2]
    simp
  · have h0 : IntOp.cmpi .eq (BitVec.ofNat 32 g.val) w = 0#1 :=
      eq_zero_of_ne_one fun h => hw (IntOp.cmpi_eq.mp h)
    have h2 : ((0#1 : BitVec 1).setWidth 32).toInt = 0 := by decide
    rw [h0, if_neg fun h => hw (BitVec.eq_of_toInt_eq ((toInt_counter g).trans h.symm))]
    show ((((0#1 : BitVec 1).setWidth 32).toInt : ℝ) : EReal) = 0
    rw [h2]
    simp

/-- The tile built from a block of labels is the one-hot matrix of those labels. -/
theorem mat_tile (ids : IVec S1x1x10000 32) : mat (k0_pay7 (F := Ideal) ids) = fun g r => onehot (lab ids) g r := by
  funext g r
  unfold k0_pay7
  show Scalar.sitofp (F := Ideal) .f32
      ((IntOp.cmpi .eq (iota .tc S128x10000 32 [0] iota_S128x10000_d0_w32 (ix2 g r))
        (broadcastTo S128x10000 (shapeCast S1x10000 ids shapeCasts_S1x1x10000_S1x10000) broadcasts_S1x10000_S128x10000 (ix2 g r))).setWidth 32)
    = onehot (lab ids) g r
  rw [iota_single_apply, broadcastTo_1b_ab_apply, shapeCast_1ab_ab_apply]
  exact onehot_word g (ids (ix3 0 0 r))

/-- The tile built from a block of labels behind an identity reshape is the same one-hot matrix. -/
theorem mat_tile' (ids : IVec S1x1x10000 32) : mat (k0_pay11 (F := Ideal) ids) = fun g r => onehot (lab ids) g r := by
  simp only [k0_pay11, shapeCast_self]
  exact mat_tile ids

/-! ## Counting: the row sums of a tile, kept as a column -/

/-- The sum along the rows of a 128 × 10000 array, reshaped to a column, reads at row g the sum of row g. -/
theorem col_rowsum (t : FVec Ideal S128x10000 .f32) (hφ : FKind.Formats .f32)
    (hacc : (0x00000000#32 : BitVec 32) = FKind.add.neutral .f32 hφ) :
    col (shapeCast S128x1 (multiReduction (F := Ideal) .add [1] S128 t 0x00000000#32 reduces_S128x10000_S128 hφ hacc)
        shapeCasts_S128_S128x1) = fun g => ∑ r : Fin 10000, mat t g r := by
  funext g
  exact (Cert.Lib.shapeCast_a_a1_apply _ shapeCasts_S128_S128x1 g 0).trans
    (Cert.Lib.laneSum_apply t 0x00000000#32 reduces_S128x10000_S128 hφ hacc g)

/-! ## The product that contracts the first axis of both operands -/

/-- The left operand's index at output entry (r, k) and contraction coordinate g is (g, r). -/
theorem dotT_lhsIdx (r : Fin 10000) (k : Fin 128) (g : Fin 128) :
    dot_S128x10000_S128x128_S10000x128_0_0_1_1_n_n.lhsIdx (ix2 r k)
      ((contrEquiv1 dot_S128x10000_S128x128_S10000x128_0_0_1_1_n_n 128 rfl rfl).symm g) = ix2 g r := by
  have hk := contrEquiv1_symm_val dot_S128x10000_S128x128_S10000x128_0_0_1_1_n_n 128 rfl rfl g
  funext a
  refine Fin.ext ?_
  match a with
  | ⟨0, _⟩ => exact (dot_S128x10000_S128x128_S10000x128_0_0_1_1_n_n.lhsIdx_val_of_single rfl (ix2 r k) _).trans hk
  | ⟨1, _⟩ => rfl

/-- The right operand's index there is (g, k). -/
theorem dotT_rhsIdx (r : Fin 10000) (k : Fin 128) (g : Fin 128) :
    dot_S128x10000_S128x128_S10000x128_0_0_1_1_n_n.rhsIdx (ix2 r k)
      ((contrEquiv1 dot_S128x10000_S128x128_S10000x128_0_0_1_1_n_n 128 rfl rfl).symm g) = ix2 g k := by
  have hk := contrEquiv1_symm_val dot_S128x10000_S128x128_S10000x128_0_0_1_1_n_n 128 rfl rfl g
  funext a
  refine Fin.ext ?_
  match a with
  | ⟨0, _⟩ => exact (dot_S128x10000_S128x128_S10000x128_0_0_1_1_n_n.rhsIdx_val_of_single rfl (ix2 r k) _).trans hk
  | ⟨1, _⟩ => rfl

/-- Entry (r, k) of that product into the zero accumulator: the sum over g of t (g, r) · u (g, k). -/
theorem mat_matmulT (t : FVec Ideal S128x10000 .f32) (u : FVec Ideal S128x128 .f32) :
    mat (matmul dot_S128x10000_S128x128_S10000x128_0_0_1_1_n_n none t u (constant (F := Ideal) S10000x128 .f32 0x00000000#32))
      = fun r k => ∑ g : Fin 128, mat t g r * mat u g k := by
  funext r k
  show FloatOps.matmul dot_S128x10000_S128x128_S10000x128_0_0_1_1_n_n none t u
      (constant (F := Ideal) S10000x128 .f32 0x00000000#32) (ix2 r k) = _
  rw [Ideal.matmul_constant_zero_apply,
    ← Equiv.sum_comp (contrEquiv1 dot_S128x10000_S128x128_S10000x128_0_0_1_1_n_n 128 rfl rfl).symm]
  refine Finset.sum_congr rfl fun g _ => ?_
  rw [dotT_lhsIdx, dotT_rhsIdx]
  rfl

/-! ## The generated dimension numbers are the plain ones -/

theorem dot_dense_plain : dot_S128x128_S128x128_S128x128_1_0_0_1_n_n = DotDims.plain 128 128 128 := rfl
theorem dot_rows_plain : dot_S10000x128_S128x128_S10000x128_1_0_0_1_n_n = DotDims.plain 10000 128 128 := rfl
theorem dot_pool_plain : dot_S128x10000_S10000x128_S128x128_1_0_0_1_n_n = DotDims.plain 128 10000 128 := rfl

end Cert.KernelIdeal.PayOps

end
-- ==== Proof.KI.PayVal.lean ====
/-
  The kernel's payloads over the extended reals, as plain functions of coordinates.

  Each payload is the arithmetic between the loads and one store of the body. Read entry by entry it is built from
  matrix products into zero accumulators, broadcast bias rows, rectifiers, the one-hot tile of a block of labels and
  its row sums: dense layers applied to a block of rows, the tile's product with the activations added to the
  running sums, the row sums added to the running counts, the last layer applied once to the pooled sums, and the
  second stage's first layer with its weight matrix in two halves, the second half applied to the segment
  embeddings fetched through the transposed tile.
-/
import proofs.«159474_g3393024163881_fold_wed_m_362_30_alg».proof.Proof.KI.PayOps

noncomputable section

open scoped BigOperators

namespace Cert.KernelIdeal.PayVal

open Cert.KernelIdeal Cert.KernelIdeal.Gen Cert.KernelIdeal.Conv Cert.KernelIdeal.PayOps Cert.Spec Cert.Glue
open Idealize.ShloMosaic Idealize.ShloMosaic.ValueIdx

/-! ## The accumulators' first contents -/

theorem pay1 : mat (k0_pay1 (F := Ideal)) = fun _ _ => (0 : EReal) := by
  funext p q
  simp only [k0_pay1, shapeCast_self]
  exact Ideal.ofBits_zero_f32

theorem pay2 : mat (k0_pay2 (F := Ideal)) = fun _ _ => (0 : EReal) := by
  funext p q
  simp only [k0_pay2, shapeCast_self]
  exact Ideal.ofBits_zero_f32

theorem pay3 : col (k0_pay3 (F := Ideal)) = fun _ => (0 : EReal) := by
  funext g
  simp only [k0_pay3, shapeCast_self]
  exact Ideal.ofBits_zero_f32

theorem pay4 : col (k0_pay4 (F := Ideal)) = fun _ => (0 : EReal) := by
  funext g
  simp only [k0_pay4, shapeCast_self]
  exact Ideal.ofBits_zero_f32

/-! ## The first stage: one block of rows pooled into the running sums and counts -/

/-- The running sums after a block: the sums before plus the tile times the block's activations. -/
theorem pay12 (x : FVec Ideal S10000x128 .f32) (w0 : FVec Ideal S128x128 .f32) (b0 : FVec Ideal S1x128 .f32)
    (w1 : FVec Ideal S128x128 .f32) (b1 : FVec Ideal S1x128 .f32) (ids : IVec S1x1x10000 32)
    (agg : FVec Ideal S128x128 .f32) :
    mat (k0_pay12 (F := Ideal) x w0 b0 w1 b1 ids agg) = fun g k => mat agg g k
      + ∑ r : Fin 10000, onehot (lab ids) g r
          * relu (dense (relu (dense (mat x) (mat w0) (row b0))) (mat w1) (row b1)) r k := by
  simp only [k0_pay12, shapeCast_self]
  rw [mat_addf, mat_matmul dot_S128x10000_S10000x128_S128x128_1_0_0_1_n_n dot_pool_plain, mat_tile', mat_relu,
    mat_dense dot_S10000x128_S128x128_S10000x128_1_0_0_1_n_n dot_rows_plain, mat_relu, mat_dense dot_S10000x128_S128x128_S10000x128_1_0_0_1_n_n dot_rows_plain]
  rfl

/-- The running counts after a block: the counts before plus the tile's row sums. -/
theorem pay5_13 (cnt : FVec Ideal S128x1 .f32) (ids : IVec S1x1x10000 32) :
    col (k0_pay5 (F := Ideal) cnt (k0_pay13 ids)) = fun g => col cnt g + ∑ r : Fin 10000, onehot (lab ids) g r := by
  funext g
  simp only [k0_pay5, k0_pay13, shapeCast_self]
  refine (congrArg (cnt (ix2 g 0) + ·) (congrFun (col_rowsum (k0_pay11 (F := Ideal) ids) (.inl rfl) rfl) g)).trans ?_
  rw [mat_tile']
  rfl

/-! ## The last layer applied once to the pooled sums, and the next perceptron's first layer -/

/-- The sums in three passes plus the bias once per row of the segment. -/
theorem pooled_last (agg : FVec Ideal S128x128 .f32) (cnt : FVec Ideal S128x1 .f32) (w2 : FVec Ideal S128x128 .f32)
    (b2 : FVec Ideal S1x128 .f32) :
    mat (addf (addf (addf
          (matmul dot_S128x128_S128x128_S128x128_1_0_0_1_n_n none agg w2 (constant (F := Ideal) S128x128 .f32 0x00000000#32))
          (matmul dot_S128x128_S128x128_S128x128_1_0_0_1_n_n none (subf agg agg) w2 (constant (F := Ideal) S128x128 .f32 0x00000000#32)))
          (matmul dot_S128x128_S128x128_S128x128_1_0_0_1_n_n none (subf (subf agg agg) (subf agg agg)) w2 (constant (F := Ideal) S128x128 .f32 0x00000000#32)))
        (mulf (broadcastTo S128x128 cnt broadcasts_S128x1_S128x128) (broadcastTo S128x128 b2 broadcasts_S1x128_S128x128)))
      = applyLast (mat agg) (col cnt) (mat w2) (row b2) := by
  rw [mat_addf, mat_addf, mat_addf, mat_mulf, mat_column, mat_bias,
    mat_matmul dot_S128x128_S128x128_S128x128_1_0_0_1_n_n dot_dense_plain, mat_matmul dot_S128x128_S128x128_S128x128_1_0_0_1_n_n dot_dense_plain, mat_matmul dot_S128x128_S128x128_S128x128_1_0_0_1_n_n dot_dense_plain]
  rfl

theorem pay16 (agg : FVec Ideal S128x128 .f32) (cnt : FVec Ideal S128x1 .f32) (w2 : FVec Ideal S128x128 .f32)
    (b2 : FVec Ideal S1x128 .f32) (rw0 : FVec Ideal S128x128 .f32) (rb0 : FVec Ideal S1x128 .f32) :
    mat (k0_pay16 (F := Ideal) agg cnt w2 b2 rw0 rb0)
      = relu (dense (applyLast (mat agg) (col cnt) (mat w2) (row b2)) (mat rw0) (row rb0)) := by
  simp only [k0_pay16, shapeCast_self]
  rw [mat_relu, mat_dense dot_S128x128_S128x128_S128x128_1_0_0_1_n_n dot_dense_plain, pooled_last]
  rfl

theorem pay21 (agg : FVec Ideal S128x128 .f32) (cnt : FVec Ideal S128x1 .f32) (w2 : FVec Ideal S128x128 .f32)
    (b2 : FVec Ideal S1x128 .f32) (rw0 : FVec Ideal S128x128 .f32) (rb0 : FVec Ideal S1x128 .f32) :
    mat (k0_pay21 (F := Ideal) agg cnt w2 b2 rw0 rb0)
      = relu (dense (applyLast (mat agg) (col cnt) (mat w2) (row b2)) (mat rw0) (row rb0)) := by
  simp only [k0_pay21, shapeCast_self]
  rw [mat_relu, mat_dense dot_S128x128_S128x128_S128x128_1_0_0_1_n_n dot_dense_plain, pooled_last]
  rfl

/-- The rest of a perceptron after its first rectified layer: a rectified dense layer and a linear one. -/
theorem pay6 (w1 : FVec Ideal S128x128 .f32) (b1 : FVec Ideal S1x128 .f32) (w2 : FVec Ideal S128x128 .f32)
    (b2 : FVec Ideal S1x128 .f32) (h : FVec Ideal S128x128 .f32) :
    mat (k0_pay6 (F := Ideal) w1 (k0_pay14 b1) w2 (k0_pay15 b2) h (constant (F := Ideal) S128x128 .f32 0x00000000#32))
      = dense (relu (dense (mat h) (mat w1) (row b1))) (mat w2) (row b2) := by
  simp only [k0_pay6, k0_pay14, k0_pay15, shapeCast_self]
  rw [mat_dense dot_S128x128_S128x128_S128x128_1_0_0_1_n_n dot_dense_plain, mat_relu, mat_dense dot_S128x128_S128x128_S128x128_1_0_0_1_n_n dot_dense_plain]
  rfl

/-! ## The second stage -/

/-- A block's activations before the last layer: the first weight matrix in two halves, the second half applied
    to the segment embeddings fetched through the transposed tile. -/
theorem pay17 (ids : IVec S1x1x10000 32) (u : FVec Ideal S128x128 .f32) (x2 : FVec Ideal S10000x128 .f32)
    (w0a w0b : FVec Ideal S128x128 .f32) (b0 : FVec Ideal S1x128 .f32) (w1 : FVec Ideal S128x128 .f32)
    (b1 : FVec Ideal S1x128 .f32) :
    mat (k0_pay17 (F := Ideal) ids u x2 w0a w0b b0 w1 b1)
      = relu (dense (relu (fun n q =>
          (mm (mat x2) (mat w0a) n q
            + mm (fun r k => ∑ g : Fin 128, onehot (lab ids) g r * mat u g k) (mat w0b) n q) + row b0 q))
          (mat w1) (row b1)) := by
  have e : k0_pay17 (F := Ideal) ids u x2 w0a w0b b0 w1 b1
      = maximumf (addf (matmul dot_S10000x128_S128x128_S10000x128_1_0_0_1_n_n none
          (maximumf (addf (addf
              (matmul dot_S10000x128_S128x128_S10000x128_1_0_0_1_n_n none x2 w0a (constant (F := Ideal) S10000x128 .f32 0x00000000#32))
              (matmul dot_S10000x128_S128x128_S10000x128_1_0_0_1_n_n none
                (matmul dot_S128x10000_S128x128_S10000x128_0_0_1_1_n_n none (k0_pay7 (F := Ideal) ids) u
                  (constant (F := Ideal) S10000x128 .f32 0x00000000#32))
                w0b (constant (F := Ideal) S10000x128 .f32 0x00000000#32)))
              (broadcastTo S10000x128 b0 broadcasts_S1x128_S10000x128))
            (broadcast S10000x128 (Scalar.ofBits (F := Ideal) .f32 0x00000000#32)))
          w1 (constant (F := Ideal) S10000x128 .f32 0x00000000#32))
          (broadcastTo S10000x128 b1 broadcasts_S1x128_S10000x128))
        (broadcast S10000x128 (Scalar.ofBits (F := Ideal) .f32 0x00000000#32)) := by
    simp only [k0_pay17, k0_pay7, shapeCast_self]
  rw [e, mat_relu, mat_dense dot_S10000x128_S128x128_S10000x128_1_0_0_1_n_n dot_rows_plain, mat_relu, mat_addf, mat_addf, mat_bias,
    mat_matmul dot_S10000x128_S128x128_S10000x128_1_0_0_1_n_n dot_rows_plain, mat_matmul dot_S10000x128_S128x128_S10000x128_1_0_0_1_n_n dot_rows_plain, mat_matmulT, mat_tile]
  rfl

/-- The running sums after a block of the second stage. -/
theorem pay8_18 (y : FVec Ideal S10000x128 .f32) (ids : IVec S1x1x10000 32) (agg : FVec Ideal S128x128 .f32) :
    mat (k0_pay8 (F := Ideal) y (k0_pay18 (F := Ideal) ids) agg)
      = fun g k => mat agg g k + ∑ r : Fin 10000, onehot (lab ids) g r * mat y r k := by
  simp only [k0_pay8, k0_pay18, shapeCast_self]
  rw [mat_addf, mat_matmul dot_S128x10000_S10000x128_S128x128_1_0_0_1_n_n dot_pool_plain, mat_tile]
  rfl

/-- The running counts after a block of the second stage. -/
theorem pay9_18 (ids : IVec S1x1x10000 32) (cnt : FVec Ideal S128x1 .f32) :
    col (k0_pay9 (F := Ideal) (k0_pay18 (F := Ideal) ids) cnt)
      = fun g => col cnt g + ∑ r : Fin 10000, onehot (lab ids) g r := by
  funext g
  simp only [k0_pay9, k0_pay18, shapeCast_self]
  refine (congrArg (cnt (ix2 g 0) + ·) (congrFun (col_rowsum (k0_pay7 (F := Ideal) ids) (.inl rfl) rfl) g)).trans ?_
  rw [mat_tile]
  rfl

/-- The rest of the second perceptron and the whole of the head, padded. -/
theorem pay10 (w1 : FVec Ideal S128x128 .f32) (b1 : FVec Ideal S1x128 .f32) (w2 : FVec Ideal S128x128 .f32)
    (b2 : FVec Ideal S1x128 .f32) (h : FVec Ideal S128x128 .f32) (m0 : FVec Ideal S128x128 .f32)
    (mb0 : FVec Ideal S1x128 .f32) (m1 : FVec Ideal S128x128 .f32) (mb1 : FVec Ideal S1x128 .f32)
    (m2 : FVec Ideal S128x128 .f32) (mb2 : FVec Ideal S1x128 .f32) :
    mat (k0_pay10 (F := Ideal) w1 (k0_pay19 b1) w2 (k0_pay20 b2) h (constant (F := Ideal) S128x128 .f32 0x00000000#32)
        m0 mb0 m1 mb1 m2 mb2)
      = dense (relu (dense (relu (dense (dense (relu (dense (mat h) (mat w1) (row b1))) (mat w2) (row b2))
          (mat m0) (row mb0))) (mat m1) (row mb1))) (mat m2) (row mb2) := by
  simp only [k0_pay10, k0_pay19, k0_pay20, shapeCast_self]
  rw [mat_dense dot_S128x128_S128x128_S128x128_1_0_0_1_n_n dot_dense_plain, mat_relu, mat_dense dot_S128x128_S128x128_S128x128_1_0_0_1_n_n dot_dense_plain, mat_relu,
    mat_dense dot_S128x128_S128x128_S128x128_1_0_0_1_n_n dot_dense_plain, mat_dense dot_S128x128_S128x128_S128x128_1_0_0_1_n_n dot_dense_plain, mat_relu, mat_dense dot_S128x128_S128x128_S128x128_1_0_0_1_n_n dot_dense_plain]
  rfl

end Cert.KernelIdeal.PayVal

end
-- ==== Proof.LibFoldUpdate.lean ====
/-
  A left fold of point updates, read at one entry.

  Each element `n` of a list updates at most one entry of a function `r : κ → α`: with a target `g n = some i` it
  replaces `r i` by `f (r i) (v n)`, with no target it changes nothing. Folding the list from the left, an entry no
  element targets keeps its value; an entry exactly one element `n₀` of a duplicate-free list targets ends as
  `f` of its value and `v n₀`.
-/
import Mathlib.Data.List.Nodup

namespace Cert.Lib

section FoldUpdate

variable {ι κ α : Type} [DecidableEq κ]

/-- A left fold of single-entry updates leaves entry `i'` alone when no element of the list targets it.
    `step` is the update one list element `n` makes: with a target `g n = some i` it replaces entry `i` by
    `f (r i) (v n)`, with no target it changes nothing. -/
theorem foldl_update_miss (g : ι → Option κ) (v : ι → α) (f : α → α → α) (step : (κ → α) → ι → κ → α)
    (hsome : ∀ r n i, g n = some i → step r n = fun i' => if i' = i then f (r i) (v n) else r i')
    (hnone : ∀ r n, g n = none → step r n = r)
    (i' : κ) (L : List ι) (r : κ → α) (hL : ∀ n ∈ L, g n ≠ some i') :
    L.foldl step r i' = r i' := by
  induction L generalizing r with
  | nil => rfl
  | cons a L ih =>
    rw [List.foldl_cons, ih (step r a) fun n hn => hL n (List.mem_cons_of_mem a hn)]
    cases hg : g a with
    | none => rw [hnone r a hg]
    | some i =>
      have hne : i' ≠ i := fun e => hL a List.mem_cons_self (by rw [hg, e])
      rw [hsome r a i hg]
      exact if_neg hne

/-- The same fold gives entry `i'` the value `f (r i') (v n₀)` when exactly one element `n₀` of the duplicate-free list
    targets it: the steps before `n₀` leave the entry alone, the step of `n₀` sets it, the steps after leave it alone. -/
theorem foldl_update_hit (g : ι → Option κ) (v : ι → α) (f : α → α → α) (step : (κ → α) → ι → κ → α)
    (hsome : ∀ r n i, g n = some i → step r n = fun i' => if i' = i then f (r i) (v n) else r i')
    (hnone : ∀ r n, g n = none → step r n = r)
    (i' : κ) (n₀ : ι) (hn₀ : g n₀ = some i') (L : List ι) (r : κ → α) (hnd : L.Nodup) (hmem : n₀ ∈ L)
    (huniq : ∀ n ∈ L, g n = some i' → n = n₀) :
    L.foldl step r i' = f (r i') (v n₀) := by
  induction L generalizing r with
  | nil => exact absurd hmem List.not_mem_nil
  | cons a L ih =>
    rw [List.foldl_cons]
    have hnd' := List.nodup_cons.1 hnd
    by_cases ha : a = n₀
    · subst ha
      rw [foldl_update_miss g v f step hsome hnone i' L (step r a) fun n hn e =>
        hnd'.1 ((huniq n (List.mem_cons_of_mem a hn) e) ▸ hn)]
      rw [hsome r a i' hn₀]
      exact if_pos rfl
    · have hmem' : n₀ ∈ L := (List.mem_cons.1 hmem).resolve_left fun e => ha e.symm
      have hga : g a ≠ some i' := fun e => ha (huniq a List.mem_cons_self e)
      rw [ih (step r a) hnd'.2 hmem' fun n hn => huniq n (List.mem_cons_of_mem a hn)]
      congr 1
      cases hg : g a with
      | none => rw [hnone r a hg]
      | some i =>
        have hne : i' ≠ i := fun e => hga (by rw [hg, e])
        rw [hsome r a i hg]
        exact if_neg hne

end FoldUpdate

end Cert.Lib
-- ==== Proof.LibScatterSet.lean ====
/-
  A scatter read at one entry.

  The scatter folds the update's entries in row-major order, each replacing the operand's entry it lands at
  by the body of that entry and the update's. An entry no update index lands at keeps the operand's value; an
  entry exactly one update index lands at ends as the body of the operand's value and that update.
-/
import Idealize.ShloMosaic.PureOps.ShapeOps
import proofs.«159474_g3393024163881_fold_wed_m_362_30_alg».proof.Proof.LibFoldUpdate

namespace Cert.Lib

open Idealize.ShloMosaic

section ScatterRead

variable {s si u : Shape} {w : ℕ} {α : Type}

/-- An entry no update index lands at keeps the operand's value. -/
theorem scatter_miss (d : ScatterDims s si u) (f : α → α → α) (x : s.Idx → α) (idx : IVec si w) (upd : u.Idx → α)
    (i' : s.Idx) (h : ∀ j, d.resultIdx? j idx ≠ some i') :
    Host.scatter d f x idx upd i' = x i' := by
  unfold Host.scatter
  exact foldl_update_miss (fun n => d.resultIdx? (u.rowMajor.symm n) idx) (fun n => upd (u.rowMajor.symm n)) f
    (fun (r : s.Idx → α) (n : Fin u.numel) =>
      match d.resultIdx? (u.rowMajor.symm n) idx with
      | some i => fun i' => if i' = i then f (r i) (upd (u.rowMajor.symm n)) else r i'
      | none => r)
    (fun r n i hg => by simp only [hg]) (fun r n hg => by simp only [hg])
    i' _ x (fun n _ => h _)

/-- An entry exactly one update index lands at ends as the body of the operand's value there and that update. -/
theorem scatter_hit (d : ScatterDims s si u) (f : α → α → α) (x : s.Idx → α) (idx : IVec si w) (upd : u.Idx → α)
    (i' : s.Idx) (j₀ : u.Idx) (h₀ : d.resultIdx? j₀ idx = some i')
    (huniq : ∀ j, d.resultIdx? j idx = some i' → j = j₀) :
    Host.scatter d f x idx upd i' = f (x i') (upd j₀) := by
  unfold Host.scatter
  have key := foldl_update_hit (fun n => d.resultIdx? (u.rowMajor.symm n) idx) (fun n => upd (u.rowMajor.symm n)) f
    (fun (r : s.Idx → α) (n : Fin u.numel) =>
      match d.resultIdx? (u.rowMajor.symm n) idx with
      | some i => fun i' => if i' = i then f (r i) (upd (u.rowMajor.symm n)) else r i'
      | none => r)
    (fun r n i hg => by simp only [hg]) (fun r n hg => by simp only [hg])
    i' (u.rowMajor j₀) (by simp only [Equiv.symm_apply_apply]; exact h₀)
    (List.finRange u.numel) x (List.nodup_finRange _) (List.mem_finRange _)
    (fun n _ hn => by
      have e := huniq _ hn
      rw [← e, Equiv.apply_symm_apply])
  simp only [Equiv.symm_apply_apply] at key
  exact key

end ScatterRead

end Cert.Lib
-- ==== Proof.KI.EntryVals.lean ====
/-
  What the kernel's input windows hold at each point of the grid.

  The grid has 2 × 10 points; point `t` is block `t mod 10` of the first half (`t < 10`) or of the second.
  The two feature windows hold rows `10000·i, …, 10000·i + 9999` of their argument in the half that uses
  them; the two label windows hold the labels of block `t mod 10` (the argument reshaped to ten rows); every
  weight matrix is its whole argument and every bias row its argument reshaped to one row, at every point;
  the first weight matrix of the second stage arrives as its upper and its lower half (two slices); and the
  head's weight and bias arrive written over zeros, which is the head padded with zero columns.

  Each fact is read off the window's array as the region finds it: an argument no host line writes is found
  as launched; a reshape is the argument at the same row-major position; a slice is the argument at the
  offset; and the scatter that pads the head has one index, zero, so entry `(k, q)` of the update lands at
  `(k, q)` and every other entry keeps the zero it had.
-/
import proofs.«159474_g3393024163881_fold_wed_m_362_30_alg».proof.Proof.Gen.KernelIdeal.Frame
import proofs.«159474_g3393024163881_fold_wed_m_362_30_alg».proof.Proof.KI.Conv
import proofs.«159474_g3393024163881_fold_wed_m_362_30_alg».proof.Proof.Glue
import proofs.«159474_g3393024163881_fold_wed_m_362_30_alg».proof.Proof.Spec
import proofs.«159474_g3393024163881_fold_wed_m_362_30_alg».proof.Proof.LibScatterSet
import Idealize.ShloMosaic.Lib.Pipeline.Value
import Idealize.ShloMosaic.PureOps.Ideal.Laws

set_option maxRecDepth 16384

noncomputable section

namespace Cert.KernelIdeal.EntryVals

open Cert.KernelIdeal Cert.KernelIdeal.Gen Cert.KernelIdeal.Conv Cert.Glue
open Idealize.ShloMosaic Idealize.ShloMosaic.TcCoe Idealize.ShloMosaic.Tactic Idealize.ShloMosaic.ValueIdx

variable (m : (ℓ : Loc nD τ sig) → Buf (Elt Ideal) ℓ) (c : Dev nD)

/-! ## The node features: block `i` of ten, in the half of the grid that uses it -/

/-- In the first half of the grid window 0 moves with the point; its column block is always the first. -/
theorem idx0 : ∀ t : Fin cfg0.N, (t.val < 10 → win0_0.index t (0 : Fin 2) = t.val) ∧ win0_0.index t (1 : Fin 2) = 0 :=
  (by decide +kernel : ∀ t : Fin grid0.N, _)

/-- In the second half of the grid window 1 moves with the point; its column block is always the first. -/
theorem idx1 : ∀ t : Fin cfg0.N, (10 ≤ t.val → win0_1.index t (0 : Fin 2) = t.val - 10) ∧ win0_1.index t (1 : Fin 2) = 0 :=
  (by decide +kernel : ∀ t : Fin grid0.N, _)

/-- At point `t < 10` the first features' block holds rows `10000·t, …, 10000·t + 9999` of the argument. -/
theorem E0 (t : Fin cfg0.N) (ht : t.val < 10) (r : Fin 10000) (k : Fin 128) :
    mat (iblk m c 0 t : Vec Ideal S10000x128 .f32) r k
      = mat (m ((c : Thread nD τ).loc main_arg0)) (Cert.Spec.node ⟨t.val, ht⟩ r) k := by
  show V m c main_arg0 (((cfg0.win 0).blk t).view.emb (ix2 r k)) = _
  rw [V_main_arg0]
  unfold mat
  refine congrArg _ ?_
  obtain ⟨e0, e1⟩ := idx0 t
  funext a
  apply Fin.ext
  match a with
  | ⟨0, _⟩ =>
    show win0_0.index t (0 : Fin 2) * 10000 + 1 * r.val = 10000 * t.val + r.val
    rw [e0 ht]; omega
  | ⟨1, _⟩ =>
    show win0_0.index t (1 : Fin 2) * 128 + 1 * k.val = k.val
    rw [e1]; omega

/-- At point `t ≥ 10` the second features' block holds rows `10000·(t - 10), …` of the argument. -/
theorem E1 (t : Fin cfg0.N) (ht : 10 ≤ t.val) (r : Fin 10000) (k : Fin 128) :
    mat (iblk m c 1 t : Vec Ideal S10000x128 .f32) r k
      = mat (m ((c : Thread nD τ).loc main_arg1))
          (Cert.Spec.node ⟨t.val - 10, by have := t.isLt; show t.val - 10 < 10; have h20 : t.val < 20 := this; omega⟩ r) k := by
  show V m c main_arg1 (((cfg0.win 1).blk t).view.emb (ix2 r k)) = _
  rw [V_main_arg1]
  unfold mat
  refine congrArg _ ?_
  obtain ⟨e0, e1⟩ := idx1 t
  funext a
  apply Fin.ext
  match a with
  | ⟨0, _⟩ =>
    show win0_1.index t (0 : Fin 2) * 10000 + 1 * r.val = 10000 * (t.val - 10) + r.val
    rw [e0 ht]; omega
  | ⟨1, _⟩ =>
    show win0_1.index t (1 : Fin 2) * 128 + 1 * k.val = k.val
    rw [e1]; omega

/-! ## The labels: the arguments reshaped to ten rows, row `t mod 10` at point `t` -/

/-- The first labels as the region finds them: the argument's entries in row-major order, ten rows of 10000. -/
theorem V_v0 : (V m c main_v0 : S10x1x10000.Idx → Elt Ideal .i32)
    = fun i => shapeCast S10x1x10000 (m ((c : Thread nD τ).loc main_arg2)) shapeCasts_S100000_S10x1x10000 i := by
  show StableHlo.after hostOps0 (fun b => m (c, b)) (Proc.devRef .tc main_v0) = _
  after_results
  rfl

/-- The second labels as the region finds them, likewise. -/
theorem V_v1 : (V m c main_v1 : S10x1x10000.Idx → Elt Ideal .i32)
    = fun i => shapeCast S10x1x10000 (m ((c : Thread nD τ).loc main_arg3)) shapeCasts_S100000_S10x1x10000 i := by
  show StableHlo.after hostOps0 (fun b => m (c, b)) (Proc.devRef .tc main_v1) = _
  after_results
  rfl

/-- Window 2 takes row `t mod 10`. -/
theorem idx2 : ∀ t : Fin cfg0.N, win0_2.index t (0 : Fin 3) = t.val % 10 ∧ win0_2.index t (1 : Fin 3) = 0
    ∧ win0_2.index t (2 : Fin 3) = 0 :=
  (by decide +kernel : ∀ t : Fin grid0.N, _)

/-- Window 3 takes row `t mod 10`. -/
theorem idx3 : ∀ t : Fin cfg0.N, win0_3.index t (0 : Fin 3) = t.val % 10 ∧ win0_3.index t (1 : Fin 3) = 0
    ∧ win0_3.index t (2 : Fin 3) = 0 :=
  (by decide +kernel : ∀ t : Fin grid0.N, _)

/-- At point `t` the first labels' block holds the labels of the nodes of block `t mod 10`. -/
theorem E2 (t : Fin cfg0.N) (r : Fin 10000) :
    lab (iblk m c 2 t : Vec Ideal S1x1x10000 .i32) r
      = vec (m ((c : Thread nD τ).loc main_arg2)) (Cert.Spec.node ⟨t.val % 10, Nat.mod_lt _ (by decide)⟩ r) := by
  show V m c main_v0 (((cfg0.win 2).blk t).view.emb (ix3 0 0 r)) = _
  refine (congrFun (V_v0 m c) _).trans ?_
  unfold vec
  refine shapeCast_apply _ _ _ _ ?_
  refine (Shape.rowMajor_val_one (d := ![100000]) _).trans
    (Eq.trans ?_ (Shape.rowMajor_val_three (d := ![10, 1, 10000]) _).symm)
  obtain ⟨e0, e1, e2⟩ := idx2 t
  show 10000 * (t.val % 10) + r.val
    = ((win0_2.index t (0 : Fin 3) * 1 + 1 * 0) * 1 + (win0_2.index t (1 : Fin 3) * 1 + 1 * 0)) * 10000
      + (win0_2.index t (2 : Fin 3) * 10000 + 1 * r.val)
  rw [e0, e1, e2]
  omega

/-- At point `t` the second labels' block holds the labels of the nodes of block `t mod 10`. -/
theorem E3 (t : Fin cfg0.N) (r : Fin 10000) :
    lab (iblk m c 3 t : Vec Ideal S1x1x10000 .i32) r
      = vec (m ((c : Thread nD τ).loc main_arg3)) (Cert.Spec.node ⟨t.val % 10, Nat.mod_lt _ (by decide)⟩ r) := by
  show V m c main_v1 (((cfg0.win 3).blk t).view.emb (ix3 0 0 r)) = _
  refine (congrFun (V_v1 m c) _).trans ?_
  unfold vec
  refine shapeCast_apply _ _ _ _ ?_
  refine (Shape.rowMajor_val_one (d := ![100000]) _).trans
    (Eq.trans ?_ (Shape.rowMajor_val_three (d := ![10, 1, 10000]) _).symm)
  obtain ⟨e0, e1, e2⟩ := idx3 t
  show 10000 * (t.val % 10) + r.val
    = ((win0_3.index t (0 : Fin 3) * 1 + 1 * 0) * 1 + (win0_3.index t (1 : Fin 3) * 1 + 1 * 0)) * 10000
      + (win0_3.index t (2 : Fin 3) * 10000 + 1 * r.val)
  rw [e0, e1, e2]
  omega

/-! ## The weight matrices and bias rows: whole arrays at every point -/

/-- A window that is a whole [128,128] argument array: its block at every point is the array. -/
local macro "weight_window " nm:ident w:num win:ident arg:ident varg:ident : command =>
  `(theorem $nm (m : (ℓ : Loc nD τ sig) → Buf (Elt Ideal) ℓ) (c : Dev nD) (t : Fin cfg0.N) :
      mat (iblk m c $w t : Vec Ideal S128x128 .f32) = mat (m ((c : Thread nD τ).loc $arg)) := by
    have hidx : ∀ t : Fin cfg0.N, ($win).index t (0 : Fin 2) = 0 ∧ ($win).index t (1 : Fin 2) = 0 :=
      (by decide +kernel : ∀ t : Fin grid0.N, _)
    funext p q
    show V m c $arg (((cfg0.win $w).blk t).view.emb (ix2 p q)) = _
    rw [$varg:ident]
    unfold mat
    refine congrArg _ ?_
    obtain ⟨e0, e1⟩ := hidx t
    funext a
    apply Fin.ext
    match a with
    | ⟨0, _⟩ =>
      show ($win).index t (0 : Fin 2) * 128 + 1 * p.val = p.val
      rw [e0]; omega
    | ⟨1, _⟩ =>
      show ($win).index t (1 : Fin 2) * 128 + 1 * q.val = q.val
      rw [e1]; omega)

/-- A window that is a [128] argument array reshaped to one row: the array as the region finds it is the
    argument in row-major order, and the window's block at every point is that row. -/
local macro "bias_window " nm:ident vnm:ident w:num win:ident arg:ident v:ident : command =>
  `(theorem $vnm (m : (ℓ : Loc nD τ sig) → Buf (Elt Ideal) ℓ) (c : Dev nD) :
      (V m c $v : S1x128.Idx → Elt Ideal .f32)
        = fun i => shapeCast S1x128 (m ((c : Thread nD τ).loc $arg)) shapeCasts_S128_S1x128 i := by
    show StableHlo.after hostOps0 (fun b => m (c, b)) (Proc.devRef .tc $v) = _
    after_results
    rfl
   theorem $nm (m : (ℓ : Loc nD τ sig) → Buf (Elt Ideal) ℓ) (c : Dev nD) (t : Fin cfg0.N) :
      row (iblk m c $w t : Vec Ideal S1x128 .f32) = vec (m ((c : Thread nD τ).loc $arg)) := by
    have hidx : ∀ t : Fin cfg0.N, ($win).index t (0 : Fin 2) = 0 ∧ ($win).index t (1 : Fin 2) = 0 :=
      (by decide +kernel : ∀ t : Fin grid0.N, _)
    funext q
    show V m c $v (((cfg0.win $w).blk t).view.emb (ix2 0 q)) = _
    refine (congrFun ($vnm m c) _).trans ?_
    unfold vec
    refine shapeCast_apply _ _ _ _ ?_
    refine (Shape.rowMajor_val_one (d := ![128]) _).trans
      (Eq.trans ?_ (Shape.rowMajor_val_two (d := ![1, 128]) _).symm)
    obtain ⟨e0, e1⟩ := hidx t
    show q.val = (($win).index t (0 : Fin 2) * 1 + 1 * 0) * 128 + (($win).index t (1 : Fin 2) * 128 + 1 * q.val)
    rw [e0, e1]; omega)

weight_window E4 4 win0_4 main_arg4 V_main_arg4
weight_window E6 6 win0_6 main_arg6 V_main_arg6
weight_window E8 8 win0_8 main_arg8 V_main_arg8
weight_window E10 10 win0_10 main_arg10 V_main_arg10
weight_window E12 12 win0_12 main_arg12 V_main_arg12
weight_window E14 14 win0_14 main_arg14 V_main_arg14
weight_window E19 19 win0_19 main_arg18 V_main_arg18
weight_window E21 21 win0_21 main_arg20 V_main_arg20
weight_window E23 23 win0_23 main_arg22 V_main_arg22
weight_window E25 25 win0_25 main_arg24 V_main_arg24
weight_window E27 27 win0_27 main_arg26 V_main_arg26
weight_window E29 29 win0_29 main_arg28 V_main_arg28
weight_window E31 31 win0_31 main_arg30 V_main_arg30

bias_window E5 V_v11 5 win0_5 main_arg5 main_v11
bias_window E7 V_v12 7 win0_7 main_arg7 main_v12
bias_window E9 V_v13 9 win0_9 main_arg9 main_v13
bias_window E11 V_v14 11 win0_11 main_arg11 main_v14
bias_window E13 V_v15 13 win0_13 main_arg13 main_v15
bias_window E15 V_v16 15 win0_15 main_arg15 main_v16
bias_window E18 V_v17 18 win0_18 main_arg17 main_v17
bias_window E20 V_v18 20 win0_20 main_arg19 main_v18
bias_window E22 V_v19 22 win0_22 main_arg21 main_v19
bias_window E24 V_v20 24 win0_24 main_arg23 main_v20
bias_window E26 V_v21 26 win0_26 main_arg25 main_v21
bias_window E28 V_v22 28 win0_28 main_arg27 main_v22
bias_window E30 V_v23 30 win0_30 main_arg29 main_v23
bias_window E32 V_v24 32 win0_32 main_arg31 main_v24

/-! ## The two halves of the second stage's first weight matrix -/

/-- The upper half as the region finds it. -/
theorem V_v2 : (V m c main_v2 : S128x128.Idx → Elt Ideal .f32)
    = extractStridedSlice S128x128 ![0, 0] (m ((c : Thread nD τ).loc main_arg16)) slices_S256x128_S128x128_0_0 := by
  show StableHlo.after hostOps0 (fun b => m (c, b)) (Proc.devRef .tc main_v2) = _
  after_results

/-- The lower half as the region finds it. -/
theorem V_v3 : (V m c main_v3 : S128x128.Idx → Elt Ideal .f32)
    = extractStridedSlice S128x128 ![128, 0] (m ((c : Thread nD τ).loc main_arg16)) slices_S256x128_S128x128_128_0 := by
  show StableHlo.after hostOps0 (fun b => m (c, b)) (Proc.devRef .tc main_v3) = _
  after_results

theorem idx16 : ∀ t : Fin cfg0.N, win0_16.index t (0 : Fin 2) = 0 ∧ win0_16.index t (1 : Fin 2) = 0 :=
  (by decide +kernel : ∀ t : Fin grid0.N, _)

theorem idx17 : ∀ t : Fin cfg0.N, win0_17.index t (0 : Fin 2) = 0 ∧ win0_17.index t (1 : Fin 2) = 0 :=
  (by decide +kernel : ∀ t : Fin grid0.N, _)

/-- Window 16 holds rows 0 … 127 of the matrix. -/
theorem E16 (t : Fin cfg0.N) :
    mat (iblk m c 16 t : Vec Ideal S128x128 .f32)
      = fun k q => mat (m ((c : Thread nD τ).loc main_arg16)) ⟨k.val, by omega⟩ q := by
  funext k q
  show V m c main_v2 (((cfg0.win 16).blk t).view.emb (ix2 k q)) = _
  refine (congrFun (V_v2 m c) _).trans ?_
  unfold mat extractStridedSlice
  refine congrArg _ ?_
  obtain ⟨e0, e1⟩ := idx16 t
  funext a
  apply Fin.ext
  match a with
  | ⟨0, _⟩ =>
    show 0 + (win0_16.index t (0 : Fin 2) * 128 + 1 * k.val) = k.val
    rw [e0]; omega
  | ⟨1, _⟩ =>
    show 0 + (win0_16.index t (1 : Fin 2) * 128 + 1 * q.val) = q.val
    rw [e1]; omega

/-- Window 17 holds rows 128 … 255 of the matrix. -/
theorem E17 (t : Fin cfg0.N) :
    mat (iblk m c 17 t : Vec Ideal S128x128 .f32)
      = fun k q => mat (m ((c : Thread nD τ).loc main_arg16)) ⟨128 + k.val, by omega⟩ q := by
  funext k q
  show V m c main_v3 (((cfg0.win 17).blk t).view.emb (ix2 k q)) = _
  refine (congrFun (V_v3 m c) _).trans ?_
  unfold mat extractStridedSlice
  refine congrArg _ ?_
  obtain ⟨e0, e1⟩ := idx17 t
  funext a
  apply Fin.ext
  match a with
  | ⟨0, _⟩ =>
    show 128 + (win0_17.index t (0 : Fin 2) * 128 + 1 * k.val) = 128 + k.val
    rw [e0]; omega
  | ⟨1, _⟩ =>
    show 0 + (win0_17.index t (1 : Fin 2) * 128 + 1 * q.val) = q.val
    rw [e1]; omega

/-! ## The padded head: the two columns written over zeros -/

/-- The one scatter index of the padding: zero. -/
abbrev zeroIdx : IVec S1 32 := broadcastInDim S1 ![] bcast_S_S1 (constantI S_ 32 0#32)

/-- The padded head weights as the region finds them: the two-column head written over zeros. -/
theorem V_v6 : (V m c main_v6 : S128x128.Idx → Elt Ideal .f32)
    = Host.scatter scatter_S128x128_S1_S128x2_01_n_1_0 (fun _ b => b)
        (broadcastInDim S128x128 ![] bcast_S_S128x128 (constant (F := Ideal) S_ .f32 0x00000000#32))
        zeroIdx (m ((c : Thread nD τ).loc main_arg32)) := by
  show StableHlo.after hostOps0 (fun b => m (c, b)) (Proc.devRef .tc main_v6) = _
  after_results

/-- The padded head bias as the region finds it: the two entries written over a row of zeros. -/
theorem V_v10 : (V m c main_v10 : S1x128.Idx → Elt Ideal .f32)
    = Host.scatter scatter_S1x128_S1_S1x2_01_n_1_0 (fun _ b => b)
        (broadcastInDim S1x128 ![] bcast_S_S1x128 (constant (F := Ideal) S_ .f32 0x00000000#32))
        zeroIdx (broadcastInDim S1x2 ![1] bcast_S2_S1x2_1 (m ((c : Thread nD τ).loc main_arg33))) := by
  show StableHlo.after hostOps0 (fun b => m (c, b)) (Proc.devRef .tc main_v10) = _
  after_results

/-- With the scatter index zero, entry `(k, q)` of the [128,2] update lands at `(k, q)`. -/
theorem resultIdx_pad2 (j : S128x2.Idx) :
    scatter_S128x128_S1_S128x2_01_n_1_0.resultIdx? j zeroIdx
      = some (ix2 ⟨(j 0).val, (j 0).isLt⟩ ⟨(j 1).val, by have := (j 1).isLt; show (j 1).val < 128; have h2 : (j 1).val < 2 := this; omega⟩) := by
  have hst : ∀ a, scatter_S128x128_S1_S128x2_01_n_1_0.start j zeroIdx a = 0 := by
    intro a
    unfold ScatterDims.start
    split_ifs
    · rfl
    · rfl
  have hw0 : scatter_S128x128_S1_S128x2_01_n_1_0.window j (0 : Fin 2) = (j 0).val := rfl
  have hw1 : scatter_S128x128_S1_S128x2_01_n_1_0.window j (1 : Fin 2) = (j 1).val := rfl
  have h0 : (j 0).val < 128 := (j 0).isLt
  have h1 : (j 1).val < 2 := (j 1).isLt
  unfold ScatterDims.resultIdx?
  rw [dif_pos (by
    intro a
    rw [hst a]
    match a with
    | ⟨0, _⟩ => show 0 ≤ (0 : ℤ) + (scatter_S128x128_S1_S128x2_01_n_1_0.window j (0 : Fin 2) : ℤ) ∧ (0 : ℤ) + (scatter_S128x128_S1_S128x2_01_n_1_0.window j (0 : Fin 2) : ℤ) < (128 : ℕ); rw [hw0]; omega
    | ⟨1, _⟩ => show 0 ≤ (0 : ℤ) + (scatter_S128x128_S1_S128x2_01_n_1_0.window j (1 : Fin 2) : ℤ) ∧ (0 : ℤ) + (scatter_S128x128_S1_S128x2_01_n_1_0.window j (1 : Fin 2) : ℤ) < (128 : ℕ); rw [hw1]; omega)]
  refine congrArg some (funext fun a => Fin.ext ?_)
  match a with
  | ⟨0, _⟩ =>
    show (scatter_S128x128_S1_S128x2_01_n_1_0.start j zeroIdx (0 : Fin 2) + (scatter_S128x128_S1_S128x2_01_n_1_0.window j (0 : Fin 2) : ℤ)).toNat = (j 0).val
    rw [hst, hw0]; omega
  | ⟨1, _⟩ =>
    show (scatter_S128x128_S1_S128x2_01_n_1_0.start j zeroIdx (1 : Fin 2) + (scatter_S128x128_S1_S128x2_01_n_1_0.window j (1 : Fin 2) : ℤ)).toNat = (j 1).val
    rw [hst, hw1]; omega

/-- With the scatter index zero, entry `(0, q)` of the [1,2] update lands at `(0, q)`. -/
theorem resultIdx_pad1 (j : S1x2.Idx) :
    scatter_S1x128_S1_S1x2_01_n_1_0.resultIdx? j zeroIdx
      = some (ix2 ⟨(j 0).val, (j 0).isLt⟩ ⟨(j 1).val, by have := (j 1).isLt; show (j 1).val < 128; have h2 : (j 1).val < 2 := this; omega⟩) := by
  have hst : ∀ a, scatter_S1x128_S1_S1x2_01_n_1_0.start j zeroIdx a = 0 := by
    intro a
    unfold ScatterDims.start
    split_ifs
    · rfl
    · rfl
  have hw0 : scatter_S1x128_S1_S1x2_01_n_1_0.window j (0 : Fin 2) = (j 0).val := rfl
  have hw1 : scatter_S1x128_S1_S1x2_01_n_1_0.window j (1 : Fin 2) = (j 1).val := rfl
  have h0 : (j 0).val < 1 := (j 0).isLt
  have h1 : (j 1).val < 2 := (j 1).isLt
  unfold ScatterDims.resultIdx?
  rw [dif_pos (by
    intro a
    rw [hst a]
    match a with
    | ⟨0, _⟩ => show 0 ≤ (0 : ℤ) + (scatter_S1x128_S1_S1x2_01_n_1_0.window j (0 : Fin 2) : ℤ) ∧ (0 : ℤ) + (scatter_S1x128_S1_S1x2_01_n_1_0.window j (0 : Fin 2) : ℤ) < (1 : ℕ); rw [hw0]; omega
    | ⟨1, _⟩ => show 0 ≤ (0 : ℤ) + (scatter_S1x128_S1_S1x2_01_n_1_0.window j (1 : Fin 2) : ℤ) ∧ (0 : ℤ) + (scatter_S1x128_S1_S1x2_01_n_1_0.window j (1 : Fin 2) : ℤ) < (128 : ℕ); rw [hw1]; omega)]
  refine congrArg some (funext fun a => Fin.ext ?_)
  match a with
  | ⟨0, _⟩ =>
    show (scatter_S1x128_S1_S1x2_01_n_1_0.start j zeroIdx (0 : Fin 2) + (scatter_S1x128_S1_S1x2_01_n_1_0.window j (0 : Fin 2) : ℤ)).toNat = (j 0).val
    rw [hst, hw0]; omega
  | ⟨1, _⟩ =>
    show (scatter_S1x128_S1_S1x2_01_n_1_0.start j zeroIdx (1 : Fin 2) + (scatter_S1x128_S1_S1x2_01_n_1_0.window j (1 : Fin 2) : ℤ)).toNat = (j 1).val
    rw [hst, hw1]; omega

theorem idx33 : ∀ t : Fin cfg0.N, win0_33.index t (0 : Fin 2) = 0 ∧ win0_33.index t (1 : Fin 2) = 0 :=
  (by decide +kernel : ∀ t : Fin grid0.N, _)

theorem idx34 : ∀ t : Fin cfg0.N, win0_34.index t (0 : Fin 2) = 0 ∧ win0_34.index t (1 : Fin 2) = 0 :=
  (by decide +kernel : ∀ t : Fin grid0.N, _)

/-- Window 33 holds the head's weight matrix in its first two columns and zeros in the others. -/
theorem E33 (t : Fin cfg0.N) :
    mat (iblk m c 33 t : Vec Ideal S128x128 .f32) = Cert.Spec.padW (mat (m ((c : Thread nD τ).loc main_arg32))) := by
  funext k q
  show V m c main_v6 (((cfg0.win 33).blk t).view.emb (ix2 k q)) = _
  have hemb : ((cfg0.win 33).blk t).view.emb (ix2 k q) = ix2 k q := by
    obtain ⟨e0, e1⟩ := idx33 t
    funext a
    apply Fin.ext
    match a with
    | ⟨0, _⟩ =>
      show win0_33.index t (0 : Fin 2) * 128 + 1 * k.val = k.val
      rw [e0]; omega
    | ⟨1, _⟩ =>
      show win0_33.index t (1 : Fin 2) * 128 + 1 * q.val = q.val
      rw [e1]; omega
  refine (congrArg (V m c main_v6) hemb).trans ?_
  refine (congrFun (V_v6 m c) _).trans ?_
  unfold Cert.Spec.padW
  by_cases hq : q.val < 2
  · rw [dif_pos hq]
    refine (Cert.Lib.scatter_hit _ _ _ _ _ (ix2 k q) (ix2 k ⟨q.val, hq⟩) ((resultIdx_pad2 _).trans rfl) ?_).trans rfl
    intro j hj
    rw [resultIdx_pad2] at hj
    have hj' := Option.some.inj hj
    have c0 : (j 0).val = k.val := congrArg Fin.val (congrFun hj' 0)
    have c1 : (j 1).val = q.val := congrArg Fin.val (congrFun hj' 1)
    funext a
    apply Fin.ext
    match a with
    | ⟨0, _⟩ => exact c0
    | ⟨1, _⟩ => exact c1
  · rw [dif_neg hq]
    refine (Cert.Lib.scatter_miss _ _ _ _ _ (ix2 k q) ?_).trans ?_
    · intro j hj
      rw [resultIdx_pad2] at hj
      have c1 : (j 1).val = q.val := congrArg Fin.val (congrFun (Option.some.inj hj) 1)
      have h1 : (j 1).val < 2 := (j 1).isLt
      omega
    · exact Ideal.ofBits_zero_f32

/-- Window 34 holds the head's bias in its first two entries and zeros in the others. -/
theorem E34 (t : Fin cfg0.N) :
    row (iblk m c 34 t : Vec Ideal S1x128 .f32) = Cert.Spec.padB (vec (m ((c : Thread nD τ).loc main_arg33))) := by
  funext q
  show V m c main_v10 (((cfg0.win 34).blk t).view.emb (ix2 0 q)) = _
  have hemb : ((cfg0.win 34).blk t).view.emb (ix2 0 q) = ix2 0 q := by
    obtain ⟨e0, e1⟩ := idx34 t
    funext a
    apply Fin.ext
    match a with
    | ⟨0, _⟩ =>
      show win0_34.index t (0 : Fin 2) * 1 + 1 * 0 = 0
      rw [e0]
    | ⟨1, _⟩ =>
      show win0_34.index t (1 : Fin 2) * 128 + 1 * q.val = q.val
      rw [e1]; omega
  refine (congrArg (V m c main_v10) hemb).trans ?_
  refine (congrFun (V_v10 m c) _).trans ?_
  unfold Cert.Spec.padB
  by_cases hq : q.val < 2
  · rw [dif_pos hq]
    refine (Cert.Lib.scatter_hit _ _ _ _ _ (ix2 0 q) (ix2 0 ⟨q.val, hq⟩) ((resultIdx_pad1 _).trans rfl) ?_).trans ?_
    · intro j hj
      rw [resultIdx_pad1] at hj
      have hj' := Option.some.inj hj
      have c0 : (j 0).val = 0 := congrArg Fin.val (congrFun hj' 0)
      have c1 : (j 1).val = q.val := congrArg Fin.val (congrFun hj' 1)
      funext a
      apply Fin.ext
      match a with
      | ⟨0, _⟩ => exact c0
      | ⟨1, _⟩ => exact c1
    · show broadcastInDim S1x2 ![1] bcast_S2_S1x2_1 (m ((c : Thread nD τ).loc main_arg33)) (ix2 0 ⟨q.val, hq⟩) = _
      unfold vec
      refine broadcastInDim_apply _ _ _ _ (ix1 ⟨q.val, hq⟩) ?_
      intro a
      match a with
      | ⟨0, _⟩ => rfl
  · rw [dif_neg hq]
    refine (Cert.Lib.scatter_miss _ _ _ _ _ (ix2 0 q) ?_).trans ?_
    · intro j hj
      rw [resultIdx_pad1] at hj
      have c1 : (j 1).val = q.val := congrArg Fin.val (congrFun (Option.some.inj hj) 1)
      have h1 : (j 1).val < 2 := (j 1).isLt
      omega
    · exact Ideal.ofBits_zero_f32

end Cert.KernelIdeal.EntryVals

end
-- ==== Proof.KI.KernelMath.lean ====
/-
  The kernel's sums, one block after the other.

  The kernel adds to its running sums the contribution of one block of 10000 nodes per grid point.  The sum
  after the first n blocks is a sum over the first n natural numbers of the block's contribution (nothing
  past the tenth block): it starts at zero, grows by one block's contribution per point, and after ten blocks
  is the specification's pooled sum.  A row of a dense or rectified layer depends only on the same row of the
  layer's input, so the activations computed from a block of rows are the activations of the whole array at
  those rows.
-/
import proofs.«159474_g3393024163881_fold_wed_m_362_30_alg».proof.Proof.KI.PayVal

noncomputable section

open scoped BigOperators

namespace Cert.KernelIdeal.Value2

open Cert.Spec Cert.Glue Cert.KernelIdeal Cert.KernelIdeal.Gen Cert.KernelIdeal.Conv Cert.KernelIdeal.PayVal
open Idealize.ShloMosaic

/-! ## Rows of a layer -/

section Rows
variable {M M' I H1 H2 O : ℕ}

/-- The activations before the last layer, computed from rows of the input, are the whole array's at those rows. -/
theorem hid_rows (p : Mlp I H1 H2 O) (X : Fin M → Fin I → EReal) (xb : Fin M' → Fin I → EReal) (f : Fin M' → Fin M)
    (hx : ∀ r k, xb r k = X (f r) k) (r : Fin M') (q : Fin H2) :
    relu (dense (relu (dense xb p.w0 p.b0)) p.w1 p.b1) r q = p.hid X (f r) q := by
  simp only [Mlp.hid, relu, dense, mm, hx]

end Rows

/-- The second stage's activations before its last layer, computed from a block of node rows, the block's labels
    and the segment embeddings, are the whole array's at those rows. -/
theorem hid2_rows (e2 : Mlp 256 128 128 128) (X2 : Fin 100000 → Fin 128 → EReal) (ids : Fin 100000 → BitVec 32)
    (u : Fin 128 → Fin 128 → EReal) (xb : Fin 10000 → Fin 128 → EReal) (lb : Fin 10000 → BitVec 32)
    (f : Fin 10000 → Fin 100000) (hx : ∀ r k, xb r k = X2 (f r) k) (hl : ∀ r, lb r = ids (f r))
    (r : Fin 10000) (q : Fin 128) :
    relu (dense (relu (fun n q =>
        (mm xb (fun k q => e2.w0 ⟨k.val, by omega⟩ q) n q
          + mm (fun r k => ∑ g : Fin 128, onehot lb g r * u g k) (fun k q => e2.w0 ⟨128 + k.val, by omega⟩ q) n q) + e2.b0 q))
        e2.w1 e2.b1) r q
      = hid2 e2 X2 (fetch ids u) (f r) q := by
  simp only [hid2, fetch, relu, dense, mm, onehot, hx, hl]

/-! ## The running sums -/

/-- The contribution of block `j` to the pooled sums (nothing past the tenth block). -/
def blockTerm (ids : Fin 100000 → BitVec 32) (y : Fin 100000 → Fin 128 → EReal) (j : ℕ) : Fin 128 → Fin 128 → EReal :=
  fun g k => if h : j < 10 then ∑ r : Fin 10000, onehot ids g (node ⟨j, h⟩ r) * y (node ⟨j, h⟩ r) k else 0

/-- The contribution of block `j` to the segments' sizes. -/
def countTerm (ids : Fin 100000 → BitVec 32) (j : ℕ) : Fin 128 → EReal :=
  fun g => if h : j < 10 then ∑ r : Fin 10000, onehot ids g (node ⟨j, h⟩ r) else 0

/-- The pooled sums after the first `n` blocks. -/
def poolUpTo (ids : Fin 100000 → BitVec 32) (y : Fin 100000 → Fin 128 → EReal) (n : ℕ) : Fin 128 → Fin 128 → EReal :=
  fun g k => ∑ j ∈ Finset.range n, blockTerm ids y j g k

/-- The segments' sizes after the first `n` blocks. -/
def countUpTo (ids : Fin 100000 → BitVec 32) (n : ℕ) : Fin 128 → EReal :=
  fun g => ∑ j ∈ Finset.range n, countTerm ids j g

variable (ids : Fin 100000 → BitVec 32) (y : Fin 100000 → Fin 128 → EReal)

theorem poolUpTo_zero : poolUpTo ids y 0 = fun _ _ => 0 := by
  funext g k; simp only [poolUpTo, Finset.range_zero, Finset.sum_empty]

theorem countUpTo_zero : countUpTo ids 0 = fun _ => 0 := by
  funext g; simp only [countUpTo, Finset.range_zero, Finset.sum_empty]

/-- One more block: the sums so far plus the block's contribution. -/
theorem poolUpTo_succ (n : ℕ) (h : n < 10) :
    poolUpTo ids y (n + 1)
      = fun g k => poolUpTo ids y n g k + ∑ r : Fin 10000, onehot ids g (node ⟨n, h⟩ r) * y (node ⟨n, h⟩ r) k := by
  funext g k
  simp only [poolUpTo, Finset.sum_range_succ, blockTerm, dif_pos h]

theorem countUpTo_succ (n : ℕ) (h : n < 10) :
    countUpTo ids (n + 1) = fun g => countUpTo ids n g + ∑ r : Fin 10000, onehot ids g (node ⟨n, h⟩ r) := by
  funext g
  simp only [countUpTo, Finset.sum_range_succ, countTerm, dif_pos h]

/-- After ten blocks the sums are the specification's. -/
theorem poolUpTo_ten : poolUpTo ids y 10 = blockPool ids y := by
  funext g k
  simp only [poolUpTo, blockPool]
  rw [← Fin.sum_univ_eq_sum_range (fun j => blockTerm ids y j g k) 10]
  refine Finset.sum_congr rfl fun i _ => ?_
  simp only [blockTerm, dif_pos i.isLt]

theorem countUpTo_ten : countUpTo ids 10 = blockCount ids := by
  funext g
  simp only [countUpTo, blockCount]
  rw [← Fin.sum_univ_eq_sum_range (fun j => countTerm ids j g) 10]
  refine Finset.sum_congr rfl fun i _ => ?_
  simp only [countTerm, dif_pos i.isLt]

/-- One point of the running sums: what was there is the sum of the first `n` blocks, what is there now is that
    plus block `n`'s contribution, so it is the sum of the first `n + 1` blocks. -/
theorem pool_step (n : ℕ) (h : n < 10) (agg new : Fin 128 → Fin 128 → EReal) (ha : agg = poolUpTo ids y n)
    (hn : new = fun g k => agg g k + ∑ r : Fin 10000, onehot ids g (node ⟨n, h⟩ r) * y (node ⟨n, h⟩ r) k) :
    new = poolUpTo ids y (n + 1) := by
  rw [hn, ha]
  exact (poolUpTo_succ ids y n h).symm

theorem count_step (n : ℕ) (h : n < 10) (cnt new : Fin 128 → EReal) (ha : cnt = countUpTo ids n)
    (hn : new = fun g => cnt g + ∑ r : Fin 10000, onehot ids g (node ⟨n, h⟩ r)) :
    new = countUpTo ids (n + 1) := by
  rw [hn, ha]
  exact (countUpTo_succ ids n h).symm

/-! ## One point's stores, over blocks that hold rows of the arguments -/

section Blocks
variable (X : Fin 100000 → Fin 128 → EReal) (lbl : Fin 100000 → BitVec 32) (i : Fin 10)

/-- The first stage's running sums after a point: the sums so far plus the block's one-hot product with the
    activations of the block's rows. -/
theorem sums1_step (e1 : Mlp 128 128 128 128) (x : FVec Ideal S10000x128 .f32) (w0 : FVec Ideal S128x128 .f32)
    (b0 : FVec Ideal S1x128 .f32) (w1 : FVec Ideal S128x128 .f32) (b1 : FVec Ideal S1x128 .f32) (ids : IVec S1x1x10000 32)
    (agg : FVec Ideal S128x128 .f32)
    (hx : ∀ r k, mat x r k = X (node i r) k) (hw0 : mat w0 = e1.w0) (hb0 : row b0 = e1.b0) (hw1 : mat w1 = e1.w1)
    (hb1 : row b1 = e1.b1) (hid : ∀ r, lab ids r = lbl (node i r)) :
    mat (k0_pay12 (F := Ideal) x w0 b0 w1 b1 ids agg)
      = fun g k => mat agg g k + ∑ r : Fin 10000, onehot lbl g (node i r) * e1.hid X (node i r) k := by
  rw [pay12, hw0, hb0, hw1, hb1]
  funext g k
  refine congrArg (mat agg g k + ·) (Finset.sum_congr rfl fun r _ => ?_)
  rw [hid_rows e1 X (mat x) (node i) hx r k]
  simp only [onehot, hid]

/-- The segments' sizes after a point: the sizes so far plus the block's one-hot row sums. -/
theorem count1_step (cnt : FVec Ideal S128x1 .f32) (ids : IVec S1x1x10000 32) (hid : ∀ r, lab ids r = lbl (node i r)) :
    col (k0_pay5 (F := Ideal) cnt (k0_pay13 ids)) = fun g => col cnt g + ∑ r : Fin 10000, onehot lbl g (node i r) := by
  rw [pay5_13]
  funext g
  refine congrArg (col cnt g + ·) (Finset.sum_congr rfl fun r _ => ?_)
  simp only [onehot, hid]

/-- The second stage's running sums after a point. -/
theorem sums2_step (e2 : Mlp 256 128 128 128) (lbl1 : Fin 100000 → BitVec 32) (ids1 : IVec S1x1x10000 32)
    (u : FVec Ideal S128x128 .f32) (x : FVec Ideal S10000x128 .f32) (w0a w0b : FVec Ideal S128x128 .f32)
    (b0 : FVec Ideal S1x128 .f32) (w1 : FVec Ideal S128x128 .f32) (b1 : FVec Ideal S1x128 .f32) (ids : IVec S1x1x10000 32)
    (agg : FVec Ideal S128x128 .f32)
    (hx : ∀ r k, mat x r k = X (node i r) k) (hid1 : ∀ r, lab ids1 r = lbl1 (node i r))
    (hw0a : mat w0a = fun k q => e2.w0 ⟨k.val, by omega⟩ q) (hw0b : mat w0b = fun k q => e2.w0 ⟨128 + k.val, by omega⟩ q)
    (hb0 : row b0 = e2.b0) (hw1 : mat w1 = e2.w1) (hb1 : row b1 = e2.b1) (hid : ∀ r, lab ids r = lbl (node i r)) :
    mat (k0_pay8 (F := Ideal) (k0_pay17 (F := Ideal) ids1 u x w0a w0b b0 w1 b1) (k0_pay18 (F := Ideal) ids) agg)
      = fun g k => mat agg g k + ∑ r : Fin 10000, onehot lbl g (node i r) * hid2 e2 X (fetch lbl1 (mat u)) (node i r) k := by
  rw [pay8_18, pay17, hw0a, hw0b, hb0, hw1, hb1]
  funext g k
  refine congrArg (mat agg g k + ·) (Finset.sum_congr rfl fun r _ => ?_)
  rw [hid2_rows e2 X lbl1 (mat u) (mat x) (lab ids1) (node i) hx hid1 r k]
  simp only [onehot, hid]

/-- The second stage's segment sizes after a point. -/
theorem count2_step (ids : IVec S1x1x10000 32) (cnt : FVec Ideal S128x1 .f32) (hid : ∀ r, lab ids r = lbl (node i r)) :
    col (k0_pay9 (F := Ideal) (k0_pay18 (F := Ideal) ids) cnt) = fun g => col cnt g + ∑ r : Fin 10000, onehot lbl g (node i r) := by
  rw [pay9_18]
  funext g
  refine congrArg (col cnt g + ·) (Finset.sum_congr rfl fun r _ => ?_)
  simp only [onehot, hid]

end Blocks

/-- The segment embeddings: the first stage's last layer applied once to the pooled sums, then the next perceptron. -/
theorem embed_value (ew2 : Fin 128 → Fin 128 → EReal) (eb2 : Fin 128 → EReal) (r1 : Mlp 128 128 128 128) (agg : FVec Ideal S128x128 .f32) (cnt : FVec Ideal S128x1 .f32)
    (w2 : FVec Ideal S128x128 .f32) (b2 : FVec Ideal S1x128 .f32) (rw0 : FVec Ideal S128x128 .f32) (rb0 : FVec Ideal S1x128 .f32)
    (rw1 : FVec Ideal S128x128 .f32) (rb1 : FVec Ideal S1x128 .f32) (rw2 : FVec Ideal S128x128 .f32) (rb2 : FVec Ideal S1x128 .f32)
    (hw2 : mat w2 = ew2) (hb2 : row b2 = eb2) (h0 : mat rw0 = r1.w0) (hb0 : row rb0 = r1.b0) (h1 : mat rw1 = r1.w1)
    (hb1 : row rb1 = r1.b1) (h2 : mat rw2 = r1.w2) (hb2' : row rb2 = r1.b2) :
    mat (k0_pay6 (F := Ideal) rw1 (k0_pay14 rb1) rw2 (k0_pay15 rb2) (k0_pay16 (F := Ideal) agg cnt w2 b2 rw0 rb0)
        (constant (F := Ideal) S128x128 .f32 0x00000000#32))
      = r1.apply (applyLast (mat agg) (col cnt) ew2 eb2) := by
  rw [pay6, pay16, hw2, hb2, h0, hb0, h1, hb1, h2, hb2']
  rfl

/-- The result block: the second stage's last layer applied once to its pooled sums, the next perceptron, and the
    head with its last layer padded. -/
theorem result_value (ew2 : Fin 128 → Fin 128 → EReal) (eb2 : Fin 128 → EReal) (r2 : Mlp 128 128 128 128) (hd : Mlp 128 128 128 2) (agg : FVec Ideal S128x128 .f32)
    (cnt : FVec Ideal S128x1 .f32) (w2 : FVec Ideal S128x128 .f32) (b2 : FVec Ideal S1x128 .f32)
    (rw0 : FVec Ideal S128x128 .f32) (rb0 : FVec Ideal S1x128 .f32) (rw1 : FVec Ideal S128x128 .f32) (rb1 : FVec Ideal S1x128 .f32)
    (rw2 : FVec Ideal S128x128 .f32) (rb2 : FVec Ideal S1x128 .f32) (m0 : FVec Ideal S128x128 .f32) (mb0 : FVec Ideal S1x128 .f32)
    (m1 : FVec Ideal S128x128 .f32) (mb1 : FVec Ideal S1x128 .f32) (m2 : FVec Ideal S128x128 .f32) (mb2 : FVec Ideal S1x128 .f32)
    (hw2 : mat w2 = ew2) (hb2 : row b2 = eb2) (h0 : mat rw0 = r2.w0) (hb0 : row rb0 = r2.b0) (h1 : mat rw1 = r2.w1)
    (hb1 : row rb1 = r2.b1) (h2 : mat rw2 = r2.w2) (hb2' : row rb2 = r2.b2) (hm0 : mat m0 = hd.w0) (hmb0 : row mb0 = hd.b0)
    (hm1 : mat m1 = hd.w1) (hmb1 : row mb1 = hd.b1) (hm2 : mat m2 = padW hd.w2) (hmb2 : row mb2 = padB hd.b2) :
    mat (k0_pay10 (F := Ideal) rw1 (k0_pay19 rb1) rw2 (k0_pay20 rb2) (k0_pay21 (F := Ideal) agg cnt w2 b2 rw0 rb0)
        (constant (F := Ideal) S128x128 .f32 0x00000000#32) m0 mb0 m1 mb1 m2 mb2)
      = dense (hd.hid (r2.apply (applyLast (mat agg) (col cnt) ew2 eb2))) (padW hd.w2) (padB hd.b2) := by
  rw [pay10, pay21, hw2, hb2, h0, hb0, h1, hb1, h2, hb2', hm0, hmb0, hm1, hmb1, hm2, hmb2]
  rfl

end Cert.KernelIdeal.Value2

end
-- ==== Proof.KI.KernelValue.lean ====
/-
  What the kernel's output block holds after the last grid point.

  The grid's twenty points run in two phases of ten.  In the first phase each point adds to the first stage's
  running sums the one-hot product of a block of 10000 labels with the activations of the block's nodes, and the
  block's one-hot row sums to the segment sizes; by induction on the point the sums after point n are the sums
  over the first n + 1 blocks, so after point 9 they are the pooled sums and the sizes of the specification.  Point
  10 applies the first stage's last layer once to the pooled sums, then the next perceptron, and keeps the result,
  the segment embeddings; it and the nine points after it accumulate the second stage's sums the same way, each node
  fetching the embedding of its segment through the transposed one-hot product.  The last point applies the second
  stage's last layer to its pooled sums, the next perceptron and the padded head, and stores the result.
-/
import proofs.«159474_g3393024163881_fold_wed_m_362_30_alg».proof.Proof.KI.Body
import proofs.«159474_g3393024163881_fold_wed_m_362_30_alg».proof.Proof.KI.Pieces
import proofs.«159474_g3393024163881_fold_wed_m_362_30_alg».proof.Proof.KI.PayVal
import proofs.«159474_g3393024163881_fold_wed_m_362_30_alg».proof.Proof.KI.EntryVals
import proofs.«159474_g3393024163881_fold_wed_m_362_30_alg».proof.Proof.KI.KernelMath
import proofs.«159474_g3393024163881_fold_wed_m_362_30_alg».proof.Proof.Spec
import proofs.«159474_g3393024163881_fold_wed_m_362_30_alg».proof.Proof.Glue

set_option maxRecDepth 16384

noncomputable section

open scoped BigOperators

namespace Cert.KernelIdeal.Value2

open Cert.KernelIdeal Cert.KernelIdeal.Gen Cert.KernelIdeal.Body Cert.KernelIdeal.Conv Cert.KernelIdeal.PayVal
open Cert.KernelIdeal.EntryVals Cert.Spec Cert.Glue
open Idealize.ShloMosaic Idealize.ShloMosaic.TcCoe Idealize.ShloMosaic.ValueIdx

variable (m : (ℓ : Loc nD τ sig) → Buf (Elt Ideal) ℓ) (c : Dev nD)

/-! ## What each case's stores leave, as the payloads of the point's blocks -/

theorem vA_LS0_eq (t : Fin cfg0.N) (h : t.val = 0) :
    vA_LS0 (F := Ideal) m c t h = k0_pay12 (F := Ideal) (iblk m c 0 t) (iblk m c 4 t) (iblk m c 5 t) (iblk m c 6 t) (iblk m c 7 t) (iblk m c 2 t) (k0_pay1 (F := Ideal)) :=
  pieceA_S0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cA0 t h) (cA1 t h) (cA2 t h) (cA3 t h) (cA4 t h) (iblk m c 0 t) (iblk m c 2 t) (iblk m c 4 t) (iblk m c 5 t) (iblk m c 6 t) (iblk m c 7 t)

theorem vA_LS2_eq (t : Fin cfg0.N) (h : t.val = 0) :
    vA_LS2 (F := Ideal) m c t h = k0_pay2 (F := Ideal) :=
  pieceA_S2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cA0 t h) (cA1 t h) (cA2 t h) (cA3 t h) (cA4 t h) (iblk m c 0 t) (iblk m c 2 t) (iblk m c 4 t) (iblk m c 5 t) (iblk m c 6 t) (iblk m c 7 t)

theorem vA_LS3_eq (t : Fin cfg0.N) (h : t.val = 0) :
    vA_LS3 (F := Ideal) m c t h = k0_pay5 (F := Ideal) (k0_pay3 (F := Ideal)) (k0_pay13 (iblk m c 2 t)) :=
  pieceA_S3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cA0 t h) (cA1 t h) (cA2 t h) (cA3 t h) (cA4 t h) (iblk m c 0 t) (iblk m c 2 t) (iblk m c 4 t) (iblk m c 5 t) (iblk m c 6 t) (iblk m c 7 t)

theorem vA_LS4_eq (t : Fin cfg0.N) (h : t.val = 0) :
    vA_LS4 (F := Ideal) m c t h = k0_pay4 (F := Ideal) :=
  pieceA_S4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cA0 t h) (cA1 t h) (cA2 t h) (cA3 t h) (cA4 t h) (iblk m c 0 t) (iblk m c 2 t) (iblk m c 4 t) (iblk m c 5 t) (iblk m c 6 t) (iblk m c 7 t)

theorem vB_LS0_eq (t : Fin cfg0.N) (h : 0 < t.val ∧ t.val < 10) (xs0 : Vec Ideal S128x128 .f32) (xs3 : Vec Ideal S128x1 .f32) :
    vB_LS0 (F := Ideal) m c t h xs0 xs3 = k0_pay12 (F := Ideal) (iblk m c 0 t) (iblk m c 4 t) (iblk m c 5 t) (iblk m c 6 t) (iblk m c 7 t) (iblk m c 2 t) xs0 :=
  pieceB_S0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cB0 t h) (cB1 t h) (cB2 t h) (cB3 t h) (cB4 t h) (iblk m c 0 t) (iblk m c 2 t) (iblk m c 4 t) (iblk m c 5 t) (iblk m c 6 t) (iblk m c 7 t) xs0 xs3

theorem vB_LS3_eq (t : Fin cfg0.N) (h : 0 < t.val ∧ t.val < 10) (xs0 : Vec Ideal S128x128 .f32) (xs3 : Vec Ideal S128x1 .f32) :
    vB_LS3 (F := Ideal) m c t h xs0 xs3 = k0_pay5 (F := Ideal) xs3 (k0_pay13 (iblk m c 2 t)) :=
  pieceB_S3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cB0 t h) (cB1 t h) (cB2 t h) (cB3 t h) (cB4 t h) (iblk m c 0 t) (iblk m c 2 t) (iblk m c 4 t) (iblk m c 5 t) (iblk m c 6 t) (iblk m c 7 t) xs0 xs3

theorem vC_LS1_eq (t : Fin cfg0.N) (h : t.val = 10) (xs0 : Vec Ideal S128x128 .f32) (xs2 : Vec Ideal S128x128 .f32) (xs3 : Vec Ideal S128x1 .f32) (xs4 : Vec Ideal S128x1 .f32) :
    vC_LS1 (F := Ideal) m c t h xs0 xs2 xs3 xs4 = (k0_pay6 (F := Ideal) (iblk m c 12 t) (k0_pay14 (iblk m c 13 t)) (iblk m c 14 t) (k0_pay15 (iblk m c 15 t)) (k0_pay16 (F := Ideal) xs0 xs3 (iblk m c 8 t) (iblk m c 9 t) (iblk m c 10 t) (iblk m c 11 t)) (constant (F := Ideal) S128x128 .f32 0x00000000#32)) :=
  pieceC_S1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cC0 t h) (cC1 t h) (cC2 t h) (cC3 t h) (cC4 t h) (iblk m c 1 t) (iblk m c 2 t) (iblk m c 3 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs0 xs2 xs3 xs4

theorem vC_LS2_eq (t : Fin cfg0.N) (h : t.val = 10) (xs0 : Vec Ideal S128x128 .f32) (xs2 : Vec Ideal S128x128 .f32) (xs3 : Vec Ideal S128x1 .f32) (xs4 : Vec Ideal S128x1 .f32) :
    vC_LS2 (F := Ideal) m c t h xs0 xs2 xs3 xs4 = (k0_pay8 (F := Ideal) (k0_pay17 (F := Ideal) (iblk m c 2 t) (k0_pay6 (F := Ideal) (iblk m c 12 t) (k0_pay14 (iblk m c 13 t)) (iblk m c 14 t) (k0_pay15 (iblk m c 15 t)) (k0_pay16 (F := Ideal) xs0 xs3 (iblk m c 8 t) (iblk m c 9 t) (iblk m c 10 t) (iblk m c 11 t)) (constant (F := Ideal) S128x128 .f32 0x00000000#32)) (iblk m c 1 t) (iblk m c 16 t) (iblk m c 17 t) (iblk m c 18 t) (iblk m c 19 t) (iblk m c 20 t)) (k0_pay18 (F := Ideal) (iblk m c 3 t)) xs2) :=
  pieceC_S2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cC0 t h) (cC1 t h) (cC2 t h) (cC3 t h) (cC4 t h) (iblk m c 1 t) (iblk m c 2 t) (iblk m c 3 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs0 xs2 xs3 xs4

theorem vC_LS4_eq (t : Fin cfg0.N) (h : t.val = 10) (xs0 : Vec Ideal S128x128 .f32) (xs2 : Vec Ideal S128x128 .f32) (xs3 : Vec Ideal S128x1 .f32) (xs4 : Vec Ideal S128x1 .f32) :
    vC_LS4 (F := Ideal) m c t h xs0 xs2 xs3 xs4 = (k0_pay9 (F := Ideal) (k0_pay18 (F := Ideal) (iblk m c 3 t)) xs4) :=
  pieceC_S4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cC0 t h) (cC1 t h) (cC2 t h) (cC3 t h) (cC4 t h) (iblk m c 1 t) (iblk m c 2 t) (iblk m c 3 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs0 xs2 xs3 xs4

theorem vD_LS2_eq (t : Fin cfg0.N) (h : 10 < t.val ∧ t.val < 19) (xs1 : Vec Ideal S128x128 .f32) (xs2 : Vec Ideal S128x128 .f32) (xs4 : Vec Ideal S128x1 .f32) :
    vD_LS2 (F := Ideal) m c t h xs1 xs2 xs4 = (k0_pay8 (F := Ideal) (k0_pay17 (F := Ideal) (iblk m c 2 t) xs1 (iblk m c 1 t) (iblk m c 16 t) (iblk m c 17 t) (iblk m c 18 t) (iblk m c 19 t) (iblk m c 20 t)) (k0_pay18 (F := Ideal) (iblk m c 3 t)) xs2) :=
  pieceD_S2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cD0 t h) (cD1 t h) (cD2 t h) (cD3 t h) (cD4 t h) (iblk m c 1 t) (iblk m c 2 t) (iblk m c 3 t) (iblk m c 16 t) (iblk m c 17 t) (iblk m c 18 t) (iblk m c 19 t) (iblk m c 20 t) xs1 xs2 xs4

theorem vD_LS4_eq (t : Fin cfg0.N) (h : 10 < t.val ∧ t.val < 19) (xs1 : Vec Ideal S128x128 .f32) (xs2 : Vec Ideal S128x128 .f32) (xs4 : Vec Ideal S128x1 .f32) :
    vD_LS4 (F := Ideal) m c t h xs1 xs2 xs4 = (k0_pay9 (F := Ideal) (k0_pay18 (F := Ideal) (iblk m c 3 t)) xs4) :=
  pieceD_S4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cD0 t h) (cD1 t h) (cD2 t h) (cD3 t h) (cD4 t h) (iblk m c 1 t) (iblk m c 2 t) (iblk m c 3 t) (iblk m c 16 t) (iblk m c 17 t) (iblk m c 18 t) (iblk m c 19 t) (iblk m c 20 t) xs1 xs2 xs4

theorem vE_LS2_eq (t : Fin cfg0.N) (h : t.val = 19) (xs1 : Vec Ideal S128x128 .f32) (xs2 : Vec Ideal S128x128 .f32) (xs4 : Vec Ideal S128x1 .f32) :
    vE_LS2 (F := Ideal) m c t h xs1 xs2 xs4 = (k0_pay8 (F := Ideal) (k0_pay17 (F := Ideal) (iblk m c 2 t) xs1 (iblk m c 1 t) (iblk m c 16 t) (iblk m c 17 t) (iblk m c 18 t) (iblk m c 19 t) (iblk m c 20 t)) (k0_pay18 (F := Ideal) (iblk m c 3 t)) xs2) :=
  pieceE_S2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cE0 t h) (cE1 t h) (cE2 t h) (cE3 t h) (cE4 t h) (iblk m c 1 t) (iblk m c 2 t) (iblk m c 3 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xs1 xs2 xs4

theorem vE_LS4_eq (t : Fin cfg0.N) (h : t.val = 19) (xs1 : Vec Ideal S128x128 .f32) (xs2 : Vec Ideal S128x128 .f32) (xs4 : Vec Ideal S128x1 .f32) :
    vE_LS4 (F := Ideal) m c t h xs1 xs2 xs4 = (k0_pay9 (F := Ideal) (k0_pay18 (F := Ideal) (iblk m c 3 t)) xs4) :=
  pieceE_S4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cE0 t h) (cE1 t h) (cE2 t h) (cE3 t h) (cE4 t h) (iblk m c 1 t) (iblk m c 2 t) (iblk m c 3 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xs1 xs2 xs4

theorem vE_L35_eq (t : Fin cfg0.N) (h : t.val = 19) (xs1 : Vec Ideal S128x128 .f32) (xs2 : Vec Ideal S128x128 .f32) (xs4 : Vec Ideal S128x1 .f32) :
    vE_L35 (F := Ideal) m c t h xs1 xs2 xs4 = k0_pay10 (F := Ideal) (iblk m c 25 t) (k0_pay19 (iblk m c 26 t)) (iblk m c 27 t) (k0_pay20 (iblk m c 28 t)) (k0_pay21 (F := Ideal) (k0_pay8 (F := Ideal) (k0_pay17 (F := Ideal) (iblk m c 2 t) xs1 (iblk m c 1 t) (iblk m c 16 t) (iblk m c 17 t) (iblk m c 18 t) (iblk m c 19 t) (iblk m c 20 t)) (k0_pay18 (F := Ideal) (iblk m c 3 t)) xs2) (k0_pay9 (F := Ideal) (k0_pay18 (F := Ideal) (iblk m c 3 t)) xs4) (iblk m c 21 t) (iblk m c 22 t) (iblk m c 23 t) (iblk m c 24 t)) (constant (F := Ideal) S128x128 .f32 0x00000000#32) (iblk m c 29 t) (iblk m c 30 t) (iblk m c 31 t) (iblk m c 32 t) (iblk m c 33 t) (iblk m c 34 t) :=
  pieceE_O35 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) sc0 (Memref.isWhole_whole _) sc1 (Memref.isWhole_whole _) sc2 (Memref.isWhole_whole _) sc3 (Memref.isWhole_whole _) sc4 (Memref.isWhole_whole _) (cE0 t h) (cE1 t h) (cE2 t h) (cE3 t h) (cE4 t h) (iblk m c 1 t) (iblk m c 2 t) (iblk m c 3 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xs1 xs2 xs4

/-! ## The arguments -/

/-- The first stage's node features. -/
abbrev X1 : Fin 100000 → Fin 128 → EReal := mat (m ((c : Thread nD τ).loc main_arg0))
/-- The second stage's node features. -/
abbrev X2 : Fin 100000 → Fin 128 → EReal := mat (m ((c : Thread nD τ).loc main_arg1))
/-- The first stage's labels. -/
abbrev L1 : Fin 100000 → BitVec 32 := vec (m ((c : Thread nD τ).loc main_arg2))
/-- The second stage's labels. -/
abbrev L2 : Fin 100000 → BitVec 32 := vec (m ((c : Thread nD τ).loc main_arg3))
/-- The five perceptrons. -/
abbrev e1 : Mlp 128 128 128 128 := mlp (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev r1 : Mlp 128 128 128 128 := mlp (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
abbrev e2 : Mlp 256 128 128 128 := mlp (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
abbrev r2 : Mlp 128 128 128 128 := mlp (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))
abbrev hd : Mlp 128 128 128 2 := mlp (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33))
/-- The segment embeddings. -/
abbrev U1 : Fin 128 → Fin 128 → EReal :=
  (r1 m c).apply (applyLast (blockPool (L1 m c) ((e1 m c).hid (X1 m c))) (blockCount (L1 m c)) (e1 m c).w2 (e1 m c).b2)
/-- The second stage's activations before its last layer. -/
abbrev Y2 : Fin 100000 → Fin 128 → EReal := hid2 (e2 m c) (X2 m c) (fetch (L1 m c) (U1 m c))

/-! ## The blocks of a point, as rows of the arguments -/

theorem x0_at (t : Fin cfg0.N) (i : Fin 10) (hi : t.val = i.val) (r : Fin 10000) (k : Fin 128) :
    mat (iblk m c 0 t : Vec Ideal S10000x128 .f32) r k = X1 m c (node i r) k :=
  (E0 m c t (by have := i.isLt; omega) r k).trans (congrArg (fun j => X1 m c (node j r) k) (Fin.ext hi))

theorem x1_at (t : Fin cfg0.N) (i : Fin 10) (hi : t.val = 10 + i.val) (r : Fin 10000) (k : Fin 128) :
    mat (iblk m c 1 t : Vec Ideal S10000x128 .f32) r k = X2 m c (node i r) k :=
  (E1 m c t (by omega) r k).trans (congrArg (fun j => X2 m c (node j r) k) (Fin.ext (by show t.val - 10 = i.val; omega)))

theorem lab2_at (t : Fin cfg0.N) (i : Fin 10) (hi : t.val % 10 = i.val) (r : Fin 10000) :
    lab (iblk m c 2 t : Vec Ideal S1x1x10000 .i32) r = L1 m c (node i r) :=
  (E2 m c t r).trans (congrArg (fun j => L1 m c (node j r)) (Fin.ext hi))

theorem lab3_at (t : Fin cfg0.N) (i : Fin 10) (hi : t.val % 10 = i.val) (r : Fin 10000) :
    lab (iblk m c 3 t : Vec Ideal S1x1x10000 .i32) r = L2 m c (node i r) :=
  (E3 m c t r).trans (congrArg (fun j => L2 m c (node j r)) (Fin.ext hi))

/-! ## One point's stores -/

/-- The first stage's running sums after the point of block `i`. -/
theorem sums1_at (t : Fin cfg0.N) (i : Fin 10) (hi : t.val = i.val) (agg : Vec Ideal S128x128 .f32) :
    mat (k0_pay12 (F := Ideal) (iblk m c 0 t) (iblk m c 4 t) (iblk m c 5 t) (iblk m c 6 t) (iblk m c 7 t) (iblk m c 2 t) agg)
      = fun g k => mat agg g k + ∑ r : Fin 10000, onehot (L1 m c) g (node i r) * (e1 m c).hid (X1 m c) (node i r) k :=
  sums1_step (X1 m c) (L1 m c) i (e1 m c) (iblk m c 0 t) (iblk m c 4 t) (iblk m c 5 t) (iblk m c 6 t) (iblk m c 7 t) (iblk m c 2 t) agg
    (x0_at m c t i hi) (E4 m c t) (E5 m c t) (E6 m c t) (E7 m c t) (lab2_at m c t i (by have := i.isLt; omega))

theorem count1_at (t : Fin cfg0.N) (i : Fin 10) (hi : t.val = i.val) (cnt : Vec Ideal S128x1 .f32) :
    col (k0_pay5 (F := Ideal) cnt (k0_pay13 (iblk m c 2 t)))
      = fun g => col cnt g + ∑ r : Fin 10000, onehot (L1 m c) g (node i r) :=
  count1_step (L1 m c) i cnt (iblk m c 2 t) (lab2_at m c t i (by have := i.isLt; omega))

/-- The second stage's running sums after the point of block `i`. -/
theorem sums2_at (t : Fin cfg0.N) (i : Fin 10) (hi : t.val = 10 + i.val) (u agg : Vec Ideal S128x128 .f32) :
    mat (k0_pay8 (F := Ideal) (k0_pay17 (F := Ideal) (iblk m c 2 t) u (iblk m c 1 t) (iblk m c 16 t) (iblk m c 17 t) (iblk m c 18 t) (iblk m c 19 t) (iblk m c 20 t)) (k0_pay18 (F := Ideal) (iblk m c 3 t)) agg)
      = fun g k => mat agg g k
          + ∑ r : Fin 10000, onehot (L2 m c) g (node i r) * hid2 (e2 m c) (X2 m c) (fetch (L1 m c) (mat u)) (node i r) k :=
  sums2_step (X2 m c) (L2 m c) i (e2 m c) (L1 m c) (iblk m c 2 t) u (iblk m c 1 t) (iblk m c 16 t) (iblk m c 17 t) (iblk m c 18 t) (iblk m c 19 t) (iblk m c 20 t) (iblk m c 3 t) agg
    (x1_at m c t i hi) (lab2_at m c t i (by have := i.isLt; omega)) (E16 m c t) (E17 m c t) (E18 m c t) (E19 m c t) (E20 m c t)
    (lab3_at m c t i (by have := i.isLt; omega))

theorem count2_at (t : Fin cfg0.N) (i : Fin 10) (hi : t.val = 10 + i.val) (cnt : Vec Ideal S128x1 .f32) :
    col (k0_pay9 (F := Ideal) (k0_pay18 (F := Ideal) (iblk m c 3 t)) cnt)
      = fun g => col cnt g + ∑ r : Fin 10000, onehot (L2 m c) g (node i r) :=
  count2_step (L2 m c) i (iblk m c 3 t) cnt (lab3_at m c t i (by have := i.isLt; omega))

/-! ## The two phases -/

/-- After point `n` of the first phase: the first stage's sums over the first `n + 1` blocks, the second stage's
    sums still zero. -/
structure Inv1 (n : ℕ) (s : St Ideal) : Prop where
  s0 : mat s.s0 = poolUpTo (L1 m c) ((e1 m c).hid (X1 m c)) (n + 1)
  s3 : col s.s3 = countUpTo (L1 m c) (n + 1)
  s2 : mat s.s2 = fun _ _ => (0 : EReal)
  s4 : col s.s4 = fun _ => (0 : EReal)

/-- After point `10 + k` of the second phase: the segment embeddings, and the second stage's sums over the first
    `k + 1` blocks. -/
structure Inv2 (k : ℕ) (s : St Ideal) : Prop where
  s1 : mat s.s1 = U1 m c
  s2 : mat s.s2 = poolUpTo (L2 m c) (Y2 m c) (k + 1)
  s4 : col s.s4 = countUpTo (L2 m c) (k + 1)

set_option maxHeartbeats 1000000 in
theorem stepA_inv (t : Fin cfg0.N) (h : t.val = 0) : Inv1 m c 0 (stepA (F := Ideal) m c t h) := by
  refine ⟨?_, ?_, ?_, ?_⟩
  · show mat (vA_LS0 (F := Ideal) m c t h) = _
    rw [vA_LS0_eq m c t h, sums1_at m c t ⟨0, by decide⟩ h (k0_pay1 (F := Ideal)), pay1,
      poolUpTo_succ (L1 m c) ((e1 m c).hid (X1 m c)) 0 (by decide), poolUpTo_zero]
  · show col (vA_LS3 (F := Ideal) m c t h) = _
    rw [vA_LS3_eq m c t h, count1_at m c t ⟨0, by decide⟩ h (k0_pay3 (F := Ideal)), pay3,
      countUpTo_succ (L1 m c) 0 (by decide), countUpTo_zero]
  · show mat (vA_LS2 (F := Ideal) m c t h) = _
    rw [vA_LS2_eq m c t h, pay2]
  · show col (vA_LS4 (F := Ideal) m c t h) = _
    rw [vA_LS4_eq m c t h, pay4]

set_option maxHeartbeats 1000000 in
theorem stepB_inv (n : ℕ) (hn : n + 1 < 10) (t : Fin cfg0.N) (ht : t.val = n + 1) (h : 0 < t.val ∧ t.val < 10)
    (p : St Ideal) (ih : Inv1 m c n p) : Inv1 m c (n + 1) (stepB (F := Ideal) m c t h p) := by
  refine ⟨?_, ?_, ih.s2, ih.s4⟩
  · show mat (vB_LS0 (F := Ideal) m c t h p.s0 p.s3) = _
    rw [vB_LS0_eq m c t h p.s0 p.s3, sums1_at m c t ⟨n + 1, hn⟩ ht p.s0, ih.s0,
      poolUpTo_succ (L1 m c) ((e1 m c).hid (X1 m c)) (n + 1) hn]
  · show col (vB_LS3 (F := Ideal) m c t h p.s0 p.s3) = _
    rw [vB_LS3_eq m c t h p.s0 p.s3, count1_at m c t ⟨n + 1, hn⟩ ht p.s3, ih.s3,
      countUpTo_succ (L1 m c) (n + 1) hn]

set_option maxHeartbeats 1000000 in
theorem stepC_inv (t : Fin cfg0.N) (h : t.val = 10) (p : St Ideal) (ih : Inv1 m c 9 p) :
    Inv2 m c 0 (stepC (F := Ideal) m c t h p) := by
  have hs0 : mat p.s0 = blockPool (L1 m c) ((e1 m c).hid (X1 m c)) := ih.s0.trans (poolUpTo_ten _ _)
  have hs3 : col p.s3 = blockCount (L1 m c) := ih.s3.trans (countUpTo_ten _)
  have hU : mat (k0_pay6 (F := Ideal) (iblk m c 12 t) (k0_pay14 (iblk m c 13 t)) (iblk m c 14 t) (k0_pay15 (iblk m c 15 t)) (k0_pay16 (F := Ideal) p.s0 p.s3 (iblk m c 8 t) (iblk m c 9 t) (iblk m c 10 t) (iblk m c 11 t)) (constant (F := Ideal) S128x128 .f32 0x00000000#32)) = U1 m c := by
    rw [embed_value (e1 m c).w2 (e1 m c).b2 (r1 m c) p.s0 p.s3 (iblk m c 8 t) (iblk m c 9 t) (iblk m c 10 t) (iblk m c 11 t) (iblk m c 12 t) (iblk m c 13 t) (iblk m c 14 t) (iblk m c 15 t)
      (E8 m c t) (E9 m c t) (E10 m c t) (E11 m c t) (E12 m c t) (E13 m c t) (E14 m c t) (E15 m c t), hs0, hs3]
  refine ⟨?_, ?_, ?_⟩
  · show mat (vC_LS1 (F := Ideal) m c t h p.s0 p.s2 p.s3 p.s4) = _
    rw [vC_LS1_eq m c t h p.s0 p.s2 p.s3 p.s4, hU]
  · show mat (vC_LS2 (F := Ideal) m c t h p.s0 p.s2 p.s3 p.s4) = _
    rw [vC_LS2_eq m c t h p.s0 p.s2 p.s3 p.s4, sums2_at m c t ⟨0, by decide⟩ h (k0_pay6 (F := Ideal) (iblk m c 12 t) (k0_pay14 (iblk m c 13 t)) (iblk m c 14 t) (k0_pay15 (iblk m c 15 t)) (k0_pay16 (F := Ideal) p.s0 p.s3 (iblk m c 8 t) (iblk m c 9 t) (iblk m c 10 t) (iblk m c 11 t)) (constant (F := Ideal) S128x128 .f32 0x00000000#32)) p.s2, hU, ih.s2,
      poolUpTo_succ (L2 m c) (Y2 m c) 0 (by decide), poolUpTo_zero]
  · show col (vC_LS4 (F := Ideal) m c t h p.s0 p.s2 p.s3 p.s4) = _
    rw [vC_LS4_eq m c t h p.s0 p.s2 p.s3 p.s4, count2_at m c t ⟨0, by decide⟩ h p.s4, ih.s4,
      countUpTo_succ (L2 m c) 0 (by decide), countUpTo_zero]

set_option maxHeartbeats 1000000 in
theorem stepD_inv (k : ℕ) (hk : k + 1 < 10) (t : Fin cfg0.N) (ht : t.val = 10 + (k + 1)) (h : 10 < t.val ∧ t.val < 19)
    (p : St Ideal) (ih : Inv2 m c k p) : Inv2 m c (k + 1) (stepD (F := Ideal) m c t h p) := by
  refine ⟨ih.s1, ?_, ?_⟩
  · show mat (vD_LS2 (F := Ideal) m c t h p.s1 p.s2 p.s4) = _
    rw [vD_LS2_eq m c t h p.s1 p.s2 p.s4, sums2_at m c t ⟨k + 1, hk⟩ ht p.s1 p.s2, ih.s1, ih.s2,
      poolUpTo_succ (L2 m c) (Y2 m c) (k + 1) hk]
  · show col (vD_LS4 (F := Ideal) m c t h p.s1 p.s2 p.s4) = _
    rw [vD_LS4_eq m c t h p.s1 p.s2 p.s4, count2_at m c t ⟨k + 1, hk⟩ ht p.s4, ih.s4,
      countUpTo_succ (L2 m c) (k + 1) hk]

set_option maxHeartbeats 1000000 in
/-- The last point: the output block is the specification's padded result. -/
theorem stepE_out (t : Fin cfg0.N) (h : t.val = 19) (p : St Ideal) (ih : Inv2 m c 8 p) :
    mat (stepE (F := Ideal) m c t h p).out
      = kernelWide (X1 m c) (X2 m c) (L1 m c) (L2 m c) (e1 m c) (r1 m c) (e2 m c) (r2 m c) (hd m c) := by
  have hS2 : mat (k0_pay8 (F := Ideal) (k0_pay17 (F := Ideal) (iblk m c 2 t) p.s1 (iblk m c 1 t) (iblk m c 16 t) (iblk m c 17 t) (iblk m c 18 t) (iblk m c 19 t) (iblk m c 20 t)) (k0_pay18 (F := Ideal) (iblk m c 3 t)) p.s2) = blockPool (L2 m c) (Y2 m c) := by
    rw [sums2_at m c t ⟨9, by decide⟩ h p.s1 p.s2, ih.s1, ih.s2, ← poolUpTo_succ (L2 m c) (Y2 m c) 9 (by decide)]
    exact poolUpTo_ten _ _
  have hS4 : col (k0_pay9 (F := Ideal) (k0_pay18 (F := Ideal) (iblk m c 3 t)) p.s4) = blockCount (L2 m c) := by
    rw [count2_at m c t ⟨9, by decide⟩ h p.s4, ih.s4, ← countUpTo_succ (L2 m c) 9 (by decide)]
    exact countUpTo_ten _
  show mat (vE_L35 (F := Ideal) m c t h p.s1 p.s2 p.s4) = _
  rw [vE_L35_eq m c t h p.s1 p.s2 p.s4,
    result_value (e2 m c).w2 (e2 m c).b2 (r2 m c) (hd m c) (k0_pay8 (F := Ideal) (k0_pay17 (F := Ideal) (iblk m c 2 t) p.s1 (iblk m c 1 t) (iblk m c 16 t) (iblk m c 17 t) (iblk m c 18 t) (iblk m c 19 t) (iblk m c 20 t)) (k0_pay18 (F := Ideal) (iblk m c 3 t)) p.s2) (k0_pay9 (F := Ideal) (k0_pay18 (F := Ideal) (iblk m c 3 t)) p.s4) (iblk m c 21 t) (iblk m c 22 t) (iblk m c 23 t) (iblk m c 24 t) (iblk m c 25 t) (iblk m c 26 t) (iblk m c 27 t) (iblk m c 28 t)
      (iblk m c 29 t) (iblk m c 30 t) (iblk m c 31 t) (iblk m c 32 t) (iblk m c 33 t) (iblk m c 34 t)
      (E21 m c t) (E22 m c t) (E23 m c t) (E24 m c t) (E25 m c t) (E26 m c t) (E27 m c t) (E28 m c t)
      (E29 m c t) (E30 m c t) (E31 m c t) (E32 m c t) (E33 m c t) (E34 m c t), hS2, hS4]
  rfl

/-! ## Along the grid -/

/-- The carried buffers at equal positions are equal. -/
theorem stAt_congr (n n' : ℕ) (e : n = n') (hn : n < cfg0.N) (hn' : n' < cfg0.N) :
    stAt (F := Ideal) m c n hn = stAt (F := Ideal) m c n' hn' := by
  subst e; rfl

theorem lt_N (n : ℕ) (h : n < 20) : n < cfg0.N := lt_of_lt_of_eq h N_0.symm

/-- The first phase, by induction on the point. -/
theorem inv1 : ∀ (n : ℕ) (hn : n < 10), Inv1 m c n (stAt (F := Ideal) m c n (lt_N n (by omega)))
  | 0, _ => by
    have e := stAt_A (F := Ideal) m c ⟨0, lt_N 0 (by decide)⟩ rfl
    exact (congrArg (Inv1 m c 0) e).mpr (stepA_inv m c ⟨0, lt_N 0 (by decide)⟩ rfl)
  | n + 1, hn => by
    have hlt : n + 1 < cfg0.N := lt_N (n + 1) (by omega)
    have ih := inv1 n (by omega)
    have key := stepB_inv m c n hn ⟨n + 1, hlt⟩ rfl ⟨Nat.succ_pos n, hn⟩ _ ih
    have e := stAt_B (F := Ideal) m c ⟨n + 1, hlt⟩ ⟨Nat.succ_pos n, hn⟩
    have ep := stAt_congr m c (n + 1 - 1) n (by omega) (Nat.lt_of_le_of_lt (Nat.sub_le _ _) hlt) (lt_N n (by omega))
    exact (congrArg (Inv1 m c (n + 1)) (e.trans (congrArg (stepB (F := Ideal) m c ⟨n + 1, hlt⟩ ⟨Nat.succ_pos n, hn⟩) ep))).mpr key

/-- The second phase up to the point before the last, by induction on the point. -/
theorem inv2 : ∀ (k : ℕ) (hk : k < 9), Inv2 m c k (stAt (F := Ideal) m c (10 + k) (lt_N (10 + k) (by omega)))
  | 0, _ => by
    have hlt : 10 < cfg0.N := lt_N 10 (by decide)
    have ih := inv1 m c 9 (by decide)
    have key := stepC_inv m c ⟨10, hlt⟩ rfl _ ih
    have e := stAt_C (F := Ideal) m c ⟨10, hlt⟩ rfl
    have ep := stAt_congr m c (10 - 1) 9 (by omega) (Nat.lt_of_le_of_lt (Nat.sub_le _ _) hlt) (lt_N 9 (by omega))
    exact (congrArg (Inv2 m c 0) (e.trans (congrArg (stepC (F := Ideal) m c ⟨10, hlt⟩ rfl) ep))).mpr key
  | k + 1, hk => by
    have hlt : 10 + (k + 1) < cfg0.N := lt_N _ (by omega)
    have hh : 10 < 10 + (k + 1) ∧ 10 + (k + 1) < 19 := ⟨by omega, by omega⟩
    have ih := inv2 k (by omega)
    have key := stepD_inv m c k (by omega) ⟨10 + (k + 1), hlt⟩ rfl hh _ ih
    have e := stAt_D (F := Ideal) m c ⟨10 + (k + 1), hlt⟩ hh
    have ep := stAt_congr m c (10 + (k + 1) - 1) (10 + k) (by omega) (Nat.lt_of_le_of_lt (Nat.sub_le _ _) hlt) (lt_N (10 + k) (by omega))
    exact (congrArg (Inv2 m c (k + 1)) (e.trans (congrArg (stepD (F := Ideal) m c ⟨10 + (k + 1), hlt⟩ hh) ep))).mpr key

/-- The output block after the last point is the specification's padded result of the arguments. -/
theorem kernel_value :
    mat (stAt (F := Ideal) m c 19 (by decide)).out
      = Cert.Spec.kernelWide (mat (m ((c : Thread nD τ).loc main_arg0))) (mat (m ((c : Thread nD τ).loc main_arg1))) (vec (m ((c : Thread nD τ).loc main_arg2))) (vec (m ((c : Thread nD τ).loc main_arg3)))
          (mlp (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
          (mlp (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
          (mlp (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))
          (mlp (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)))
          (mlp (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33))) := by
  have hlt : 19 < cfg0.N := lt_N 19 (by decide)
  have ih := inv2 m c 8 (by decide)
  have key := stepE_out m c ⟨19, hlt⟩ rfl _ ih
  have e := stAt_E (F := Ideal) m c ⟨19, hlt⟩ rfl
  have ep := stAt_congr m c (19 - 1) (10 + 8) (by omega) (Nat.lt_of_le_of_lt (Nat.sub_le _ _) hlt) (lt_N (10 + 8) (by omega))
  exact (congrArg (fun s : St Ideal => mat s.out) (e.trans (congrArg (stepE (F := Ideal) m c ⟨19, hlt⟩ rfl) ep))).trans key

end Cert.KernelIdeal.Value2

end
-- ==== Proof.RefLayers.lean ====
/-
  The reference's fifteen dense layers, each read at an entry.

  A dense layer of the program is a contraction of the rows of its input with the columns of a weight matrix, plus
  a bias row spread over the rows, and (for the first two layers of each perceptron) the maximum with a zero
  array.  Read at the entry (p, q) this is the sum over k of input (p, k) · weight (k, q), plus bias q, and then
  the maximum with 0: the specification's dense layer, rectified or not.  Each statement keeps the layer's
  input as the previous stage of the program, so that the statements chain.
-/
import proofs.«159474_g3393024163881_fold_wed_m_362_30_alg».proof.Proof.Gen.ReferenceIdeal.Read
import proofs.«159474_g3393024163881_fold_wed_m_362_30_alg».proof.Proof.Glue

noncomputable section

namespace Cert.RefValue

open Cert.ReferenceIdeal Cert.ReferenceIdeal.Gen Cert.ReferenceIdeal.Read Idealize.ShloMosaic Idealize.ShloMosaic.ValueIdx Cert.Glue
open scoped BigOperators

variable (x0 x1 : (⟨S100000x128, .f32⟩ : BufTy).Contents (Elt Ideal)) (x2 x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x2, .f32⟩ : BufTy).Contents (Elt Ideal)) (x33 : (⟨S2, .f32⟩ : BufTy).Contents (Elt Ideal))

/-- Stage 4 is the rectified dense layer of the argument x0 with weights x4 and bias x5. -/
theorem layer_v4 : mat (val_main_v4 (F := Ideal) x0 x4 x5) = Cert.Spec.relu (Cert.Spec.dense (mat x0) (mat x4) (vec x5)) := by
  funext p q
  show val_main_v4 (F := Ideal) x0 x4 x5 (ix2 p q) = _
  rw [val_main_v4_apply, val_main_v3_apply, val_main_v0_apply, val_main_v2_apply, val_main_v1_apply, val_main_call0_v0_apply, val_main_call0_cst_apply]
  simp only [Ideal.maximumf_def, Ideal.addf_def, Ideal.ofBits_def, Ideal.ofBits_zero_f32]
  have hl : ∀ k : Fin 128, lidx_main_v0 (ix2 p q) k = ix2 p k := fun k => funext fun a => Fin.ext (by
    match a with | ⟨0, _⟩ => rfl | ⟨1, _⟩ => rfl)
  have hr : ∀ k : Fin 128, ridx_main_v0 (ix2 p q) k = ix2 k q := fun k => funext fun a => Fin.ext (by
    match a with | ⟨0, _⟩ => rfl | ⟨1, _⟩ => rfl)
  have hb : idx_main_v1 (idx_main_v2 (ix2 p q)) = ix1 q := funext fun a => Fin.ext (by
    match a with | ⟨0, _⟩ => rfl)
  simp only [hl, hr, hb]
  rfl

/-- Stage 9 is the rectified dense layer of stage 4 with weights x6 and bias x7. -/
theorem layer_v9 : mat (val_main_v9 (F := Ideal) x0 x4 x5 x6 x7) = Cert.Spec.relu (Cert.Spec.dense (mat (val_main_v4 (F := Ideal) x0 x4 x5)) (mat x6) (vec x7)) := by
  funext p q
  show val_main_v9 (F := Ideal) x0 x4 x5 x6 x7 (ix2 p q) = _
  rw [val_main_v9_apply, val_main_v8_apply, val_main_v5_apply, val_main_v7_apply, val_main_v6_apply, val_main_call1_v0_apply, val_main_call1_cst_apply]
  simp only [Ideal.maximumf_def, Ideal.addf_def, Ideal.ofBits_def, Ideal.ofBits_zero_f32]
  have hl : ∀ k : Fin 128, lidx_main_v5 (ix2 p q) k = ix2 p k := fun k => funext fun a => Fin.ext (by
    match a with | ⟨0, _⟩ => rfl | ⟨1, _⟩ => rfl)
  have hr : ∀ k : Fin 128, ridx_main_v5 (ix2 p q) k = ix2 k q := fun k => funext fun a => Fin.ext (by
    match a with | ⟨0, _⟩ => rfl | ⟨1, _⟩ => rfl)
  have hb : idx_main_v6 (idx_main_v7 (ix2 p q)) = ix1 q := funext fun a => Fin.ext (by
    match a with | ⟨0, _⟩ => rfl)
  simp only [hl, hr, hb]
  rfl

/-- Stage 13 is the dense layer of stage 9 with weights x8 and bias x9. -/
theorem layer_v13 : mat (val_main_v13 (F := Ideal) x0 x4 x5 x6 x7 x8 x9) = Cert.Spec.dense (mat (val_main_v9 (F := Ideal) x0 x4 x5 x6 x7)) (mat x8) (vec x9) := by
  funext p q
  show val_main_v13 (F := Ideal) x0 x4 x5 x6 x7 x8 x9 (ix2 p q) = _
  rw [val_main_v13_apply, val_main_v10_apply, val_main_v12_apply, val_main_v11_apply]
  simp only [Ideal.addf_def]
  have hl : ∀ k : Fin 128, lidx_main_v10 (ix2 p q) k = ix2 p k := fun k => funext fun a => Fin.ext (by
    match a with | ⟨0, _⟩ => rfl | ⟨1, _⟩ => rfl)
  have hr : ∀ k : Fin 128, ridx_main_v10 (ix2 p q) k = ix2 k q := fun k => funext fun a => Fin.ext (by
    match a with | ⟨0, _⟩ => rfl | ⟨1, _⟩ => rfl)
  have hb : idx_main_v11 (idx_main_v12 (ix2 p q)) = ix1 q := funext fun a => Fin.ext (by
    match a with | ⟨0, _⟩ => rfl)
  simp only [hl, hr, hb]
  rfl

/-- Stage 21 is the rectified dense layer of stage 16 with weights x10 and bias x11. -/
theorem layer_v21 : mat (val_main_v21 (F := Ideal) x0 x2 x4 x5 x6 x7 x8 x9 x10 x11) = Cert.Spec.relu (Cert.Spec.dense (mat (val_main_v16 (F := Ideal) x0 x2 x4 x5 x6 x7 x8 x9)) (mat x10) (vec x11)) := by
  funext p q
  show val_main_v21 (F := Ideal) x0 x2 x4 x5 x6 x7 x8 x9 x10 x11 (ix2 p q) = _
  rw [val_main_v21_apply, val_main_v20_apply, val_main_v17_apply, val_main_v19_apply, val_main_v18_apply, val_main_call2_v0_apply, val_main_call2_cst_apply]
  simp only [Ideal.maximumf_def, Ideal.addf_def, Ideal.ofBits_def, Ideal.ofBits_zero_f32]
  have hl : ∀ k : Fin 128, lidx_main_v17 (ix2 p q) k = ix2 p k := fun k => funext fun a => Fin.ext (by
    match a with | ⟨0, _⟩ => rfl | ⟨1, _⟩ => rfl)
  have hr : ∀ k : Fin 128, ridx_main_v17 (ix2 p q) k = ix2 k q := fun k => funext fun a => Fin.ext (by
    match a with | ⟨0, _⟩ => rfl | ⟨1, _⟩ => rfl)
  have hb : idx_main_v18 (idx_main_v19 (ix2 p q)) = ix1 q := funext fun a => Fin.ext (by
    match a with | ⟨0, _⟩ => rfl)
  simp only [hl, hr, hb]
  rfl

/-- Stage 26 is the rectified dense layer of stage 21 with weights x12 and bias x13. -/
theorem layer_v26 : mat (val_main_v26 (F := Ideal) x0 x2 x4 x5 x6 x7 x8 x9 x10 x11 x12 x13) = Cert.Spec.relu (Cert.Spec.dense (mat (val_main_v21 (F := Ideal) x0 x2 x4 x5 x6 x7 x8 x9 x10 x11)) (mat x12) (vec x13)) := by
  funext p q
  show val_main_v26 (F := Ideal) x0 x2 x4 x5 x6 x7 x8 x9 x10 x11 x12 x13 (ix2 p q) = _
  rw [val_main_v26_apply, val_main_v25_apply, val_main_v22_apply, val_main_v24_apply, val_main_v23_apply, val_main_call3_v0_apply, val_main_call3_cst_apply]
  simp only [Ideal.maximumf_def, Ideal.addf_def, Ideal.ofBits_def, Ideal.ofBits_zero_f32]
  have hl : ∀ k : Fin 128, lidx_main_v22 (ix2 p q) k = ix2 p k := fun k => funext fun a => Fin.ext (by
    match a with | ⟨0, _⟩ => rfl | ⟨1, _⟩ => rfl)
  have hr : ∀ k : Fin 128, ridx_main_v22 (ix2 p q) k = ix2 k q := fun k => funext fun a => Fin.ext (by
    match a with | ⟨0, _⟩ => rfl | ⟨1, _⟩ => rfl)
  have hb : idx_main_v23 (idx_main_v24 (ix2 p q)) = ix1 q := funext fun a => Fin.ext (by
    match a with | ⟨0, _⟩ => rfl)
  simp only [hl, hr, hb]
  rfl

/-- Stage 30 is the dense layer of stage 26 with weights x14 and bias x15. -/
theorem layer_v30 : mat (val_main_v30 (F := Ideal) x0 x2 x4 x5 x6 x7 x8 x9 x10 x11 x12 x13 x14 x15) = Cert.Spec.dense (mat (val_main_v26 (F := Ideal) x0 x2 x4 x5 x6 x7 x8 x9 x10 x11 x12 x13)) (mat x14) (vec x15) := by
  funext p q
  show val_main_v30 (F := Ideal) x0 x2 x4 x5 x6 x7 x8 x9 x10 x11 x12 x13 x14 x15 (ix2 p q) = _
  rw [val_main_v30_apply, val_main_v27_apply, val_main_v29_apply, val_main_v28_apply]
  simp only [Ideal.addf_def]
  have hl : ∀ k : Fin 128, lidx_main_v27 (ix2 p q) k = ix2 p k := fun k => funext fun a => Fin.ext (by
    match a with | ⟨0, _⟩ => rfl | ⟨1, _⟩ => rfl)
  have hr : ∀ k : Fin 128, ridx_main_v27 (ix2 p q) k = ix2 k q := fun k => funext fun a => Fin.ext (by
    match a with | ⟨0, _⟩ => rfl | ⟨1, _⟩ => rfl)
  have hb : idx_main_v28 (idx_main_v29 (ix2 p q)) = ix1 q := funext fun a => Fin.ext (by
    match a with | ⟨0, _⟩ => rfl)
  simp only [hl, hr, hb]
  rfl

/-- Stage 43 is the rectified dense layer of stage 38 with weights x16 and bias x17. -/
theorem layer_v43 : mat (val_main_v43 (F := Ideal) x0 x1 x2 x4 x5 x6 x7 x8 x9 x10 x11 x12 x13 x14 x15 x16 x17) = Cert.Spec.relu (Cert.Spec.dense (mat (val_main_v38 (F := Ideal) x0 x1 x2 x4 x5 x6 x7 x8 x9 x10 x11 x12 x13 x14 x15)) (mat x16) (vec x17)) := by
  funext p q
  show val_main_v43 (F := Ideal) x0 x1 x2 x4 x5 x6 x7 x8 x9 x10 x11 x12 x13 x14 x15 x16 x17 (ix2 p q) = _
  rw [val_main_v43_apply, val_main_v42_apply, val_main_v39_apply, val_main_v41_apply, val_main_v40_apply, val_main_call4_v0_apply, val_main_call4_cst_apply]
  simp only [Ideal.maximumf_def, Ideal.addf_def, Ideal.ofBits_def, Ideal.ofBits_zero_f32]
  have hl : ∀ k : Fin 256, lidx_main_v39 (ix2 p q) k = ix2 p k := fun k => funext fun a => Fin.ext (by
    match a with | ⟨0, _⟩ => rfl | ⟨1, _⟩ => rfl)
  have hr : ∀ k : Fin 256, ridx_main_v39 (ix2 p q) k = ix2 k q := fun k => funext fun a => Fin.ext (by
    match a with | ⟨0, _⟩ => rfl | ⟨1, _⟩ => rfl)
  have hb : idx_main_v40 (idx_main_v41 (ix2 p q)) = ix1 q := funext fun a => Fin.ext (by
    match a with | ⟨0, _⟩ => rfl)
  simp only [hl, hr, hb]
  rfl

/-- Stage 48 is the rectified dense layer of stage 43 with weights x18 and bias x19. -/
theorem layer_v48 : mat (val_main_v48 (F := Ideal) x0 x1 x2 x4 x5 x6 x7 x8 x9 x10 x11 x12 x13 x14 x15 x16 x17 x18 x19) = Cert.Spec.relu (Cert.Spec.dense (mat (val_main_v43 (F := Ideal) x0 x1 x2 x4 x5 x6 x7 x8 x9 x10 x11 x12 x13 x14 x15 x16 x17)) (mat x18) (vec x19)) := by
  funext p q
  show val_main_v48 (F := Ideal) x0 x1 x2 x4 x5 x6 x7 x8 x9 x10 x11 x12 x13 x14 x15 x16 x17 x18 x19 (ix2 p q) = _
  rw [val_main_v48_apply, val_main_v47_apply, val_main_v44_apply, val_main_v46_apply, val_main_v45_apply, val_main_call5_v0_apply, val_main_call5_cst_apply]
  simp only [Ideal.maximumf_def, Ideal.addf_def, Ideal.ofBits_def, Ideal.ofBits_zero_f32]
  have hl : ∀ k : Fin 128, lidx_main_v44 (ix2 p q) k = ix2 p k := fun k => funext fun a => Fin.ext (by
    match a with | ⟨0, _⟩ => rfl | ⟨1, _⟩ => rfl)
  have hr : ∀ k : Fin 128, ridx_main_v44 (ix2 p q) k = ix2 k q := fun k => funext fun a => Fin.ext (by
    match a with | ⟨0, _⟩ => rfl | ⟨1, _⟩ => rfl)
  have hb : idx_main_v45 (idx_main_v46 (ix2 p q)) = ix1 q := funext fun a => Fin.ext (by
    match a with | ⟨0, _⟩ => rfl)
  simp only [hl, hr, hb]
  rfl

/-- Stage 52 is the dense layer of stage 48 with weights x20 and bias x21. -/
theorem layer_v52 : mat (val_main_v52 (F := Ideal) x0 x1 x2 x4 x5 x6 x7 x8 x9 x10 x11 x12 x13 x14 x15 x16 x17 x18 x19 x20 x21) = Cert.Spec.dense (mat (val_main_v48 (F := Ideal) x0 x1 x2 x4 x5 x6 x7 x8 x9 x10 x11 x12 x13 x14 x15 x16 x17 x18 x19)) (mat x20) (vec x21) := by
  funext p q
  show val_main_v52 (F := Ideal) x0 x1 x2 x4 x5 x6 x7 x8 x9 x10 x11 x12 x13 x14 x15 x16 x17 x18 x19 x20 x21 (ix2 p q) = _
  rw [val_main_v52_apply, val_main_v49_apply, val_main_v51_apply, val_main_v50_apply]
  simp only [Ideal.addf_def]
  have hl : ∀ k : Fin 128, lidx_main_v49 (ix2 p q) k = ix2 p k := fun k => funext fun a => Fin.ext (by
    match a with | ⟨0, _⟩ => rfl | ⟨1, _⟩ => rfl)
  have hr : ∀ k : Fin 128, ridx_main_v49 (ix2 p q) k = ix2 k q := fun k => funext fun a => Fin.ext (by
    match a with | ⟨0, _⟩ => rfl | ⟨1, _⟩ => rfl)
  have hb : idx_main_v50 (idx_main_v51 (ix2 p q)) = ix1 q := funext fun a => Fin.ext (by
    match a with | ⟨0, _⟩ => rfl)
  simp only [hl, hr, hb]
  rfl

/-- Stage 60 is the rectified dense layer of stage 55 with weights x22 and bias x23. -/
theorem layer_v60 : mat (val_main_v60 (F := Ideal) x0 x1 x2 x3 x4 x5 x6 x7 x8 x9 x10 x11 x12 x13 x14 x15 x16 x17 x18 x19 x20 x21 x22 x23) = Cert.Spec.relu (Cert.Spec.dense (mat (val_main_v55 (F := Ideal) x0 x1 x2 x3 x4 x5 x6 x7 x8 x9 x10 x11 x12 x13 x14 x15 x16 x17 x18 x19 x20 x21)) (mat x22) (vec x23)) := by
  funext p q
  show val_main_v60 (F := Ideal) x0 x1 x2 x3 x4 x5 x6 x7 x8 x9 x10 x11 x12 x13 x14 x15 x16 x17 x18 x19 x20 x21 x22 x23 (ix2 p q) = _
  rw [val_main_v60_apply, val_main_v59_apply, val_main_v56_apply, val_main_v58_apply, val_main_v57_apply, val_main_call6_v0_apply, val_main_call6_cst_apply]
  simp only [Ideal.maximumf_def, Ideal.addf_def, Ideal.ofBits_def, Ideal.ofBits_zero_f32]
  have hl : ∀ k : Fin 128, lidx_main_v56 (ix2 p q) k = ix2 p k := fun k => funext fun a => Fin.ext (by
    match a with | ⟨0, _⟩ => rfl | ⟨1, _⟩ => rfl)
  have hr : ∀ k : Fin 128, ridx_main_v56 (ix2 p q) k = ix2 k q := fun k => funext fun a => Fin.ext (by
    match a with | ⟨0, _⟩ => rfl | ⟨1, _⟩ => rfl)
  have hb : idx_main_v57 (idx_main_v58 (ix2 p q)) = ix1 q := funext fun a => Fin.ext (by
    match a with | ⟨0, _⟩ => rfl)
  simp only [hl, hr, hb]
  rfl

/-- Stage 65 is the rectified dense layer of stage 60 with weights x24 and bias x25. -/
theorem layer_v65 : mat (val_main_v65 (F := Ideal) x0 x1 x2 x3 x4 x5 x6 x7 x8 x9 x10 x11 x12 x13 x14 x15 x16 x17 x18 x19 x20 x21 x22 x23 x24 x25) = Cert.Spec.relu (Cert.Spec.dense (mat (val_main_v60 (F := Ideal) x0 x1 x2 x3 x4 x5 x6 x7 x8 x9 x10 x11 x12 x13 x14 x15 x16 x17 x18 x19 x20 x21 x22 x23)) (mat x24) (vec x25)) := by
  funext p q
  show val_main_v65 (F := Ideal) x0 x1 x2 x3 x4 x5 x6 x7 x8 x9 x10 x11 x12 x13 x14 x15 x16 x17 x18 x19 x20 x21 x22 x23 x24 x25 (ix2 p q) = _
  rw [val_main_v65_apply, val_main_v64_apply, val_main_v61_apply, val_main_v63_apply, val_main_v62_apply, val_main_call7_v0_apply, val_main_call7_cst_apply]
  simp only [Ideal.maximumf_def, Ideal.addf_def, Ideal.ofBits_def, Ideal.ofBits_zero_f32]
  have hl : ∀ k : Fin 128, lidx_main_v61 (ix2 p q) k = ix2 p k := fun k => funext fun a => Fin.ext (by
    match a with | ⟨0, _⟩ => rfl | ⟨1, _⟩ => rfl)
  have hr : ∀ k : Fin 128, ridx_main_v61 (ix2 p q) k = ix2 k q := fun k => funext fun a => Fin.ext (by
    match a with | ⟨0, _⟩ => rfl | ⟨1, _⟩ => rfl)
  have hb : idx_main_v62 (idx_main_v63 (ix2 p q)) = ix1 q := funext fun a => Fin.ext (by
    match a with | ⟨0, _⟩ => rfl)
  simp only [hl, hr, hb]
  rfl

/-- Stage 69 is the dense layer of stage 65 with weights x26 and bias x27. -/
theorem layer_v69 : mat (val_main_v69 (F := Ideal) x0 x1 x2 x3 x4 x5 x6 x7 x8 x9 x10 x11 x12 x13 x14 x15 x16 x17 x18 x19 x20 x21 x22 x23 x24 x25 x26 x27) = Cert.Spec.dense (mat (val_main_v65 (F := Ideal) x0 x1 x2 x3 x4 x5 x6 x7 x8 x9 x10 x11 x12 x13 x14 x15 x16 x17 x18 x19 x20 x21 x22 x23 x24 x25)) (mat x26) (vec x27) := by
  funext p q
  show val_main_v69 (F := Ideal) x0 x1 x2 x3 x4 x5 x6 x7 x8 x9 x10 x11 x12 x13 x14 x15 x16 x17 x18 x19 x20 x21 x22 x23 x24 x25 x26 x27 (ix2 p q) = _
  rw [val_main_v69_apply, val_main_v66_apply, val_main_v68_apply, val_main_v67_apply]
  simp only [Ideal.addf_def]
  have hl : ∀ k : Fin 128, lidx_main_v66 (ix2 p q) k = ix2 p k := fun k => funext fun a => Fin.ext (by
    match a with | ⟨0, _⟩ => rfl | ⟨1, _⟩ => rfl)
  have hr : ∀ k : Fin 128, ridx_main_v66 (ix2 p q) k = ix2 k q := fun k => funext fun a => Fin.ext (by
    match a with | ⟨0, _⟩ => rfl | ⟨1, _⟩ => rfl)
  have hb : idx_main_v67 (idx_main_v68 (ix2 p q)) = ix1 q := funext fun a => Fin.ext (by
    match a with | ⟨0, _⟩ => rfl)
  simp only [hl, hr, hb]
  rfl

/-- Stage 74 is the rectified dense layer of stage 69 with weights x28 and bias x29. -/
theorem layer_v74 : mat (val_main_v74 (F := Ideal) x0 x1 x2 x3 x4 x5 x6 x7 x8 x9 x10 x11 x12 x13 x14 x15 x16 x17 x18 x19 x20 x21 x22 x23 x24 x25 x26 x27 x28 x29) = Cert.Spec.relu (Cert.Spec.dense (mat (val_main_v69 (F := Ideal) x0 x1 x2 x3 x4 x5 x6 x7 x8 x9 x10 x11 x12 x13 x14 x15 x16 x17 x18 x19 x20 x21 x22 x23 x24 x25 x26 x27)) (mat x28) (vec x29)) := by
  funext p q
  show val_main_v74 (F := Ideal) x0 x1 x2 x3 x4 x5 x6 x7 x8 x9 x10 x11 x12 x13 x14 x15 x16 x17 x18 x19 x20 x21 x22 x23 x24 x25 x26 x27 x28 x29 (ix2 p q) = _
  rw [val_main_v74_apply, val_main_v73_apply, val_main_v70_apply, val_main_v72_apply, val_main_v71_apply, val_main_call8_v0_apply, val_main_call8_cst_apply]
  simp only [Ideal.maximumf_def, Ideal.addf_def, Ideal.ofBits_def, Ideal.ofBits_zero_f32]
  have hl : ∀ k : Fin 128, lidx_main_v70 (ix2 p q) k = ix2 p k := fun k => funext fun a => Fin.ext (by
    match a with | ⟨0, _⟩ => rfl | ⟨1, _⟩ => rfl)
  have hr : ∀ k : Fin 128, ridx_main_v70 (ix2 p q) k = ix2 k q := fun k => funext fun a => Fin.ext (by
    match a with | ⟨0, _⟩ => rfl | ⟨1, _⟩ => rfl)
  have hb : idx_main_v71 (idx_main_v72 (ix2 p q)) = ix1 q := funext fun a => Fin.ext (by
    match a with | ⟨0, _⟩ => rfl)
  simp only [hl, hr, hb]
  rfl

/-- Stage 79 is the rectified dense layer of stage 74 with weights x30 and bias x31. -/
theorem layer_v79 : mat (val_main_v79 (F := Ideal) x0 x1 x2 x3 x4 x5 x6 x7 x8 x9 x10 x11 x12 x13 x14 x15 x16 x17 x18 x19 x20 x21 x22 x23 x24 x25 x26 x27 x28 x29 x30 x31) = Cert.Spec.relu (Cert.Spec.dense (mat (val_main_v74 (F := Ideal) x0 x1 x2 x3 x4 x5 x6 x7 x8 x9 x10 x11 x12 x13 x14 x15 x16 x17 x18 x19 x20 x21 x22 x23 x24 x25 x26 x27 x28 x29)) (mat x30) (vec x31)) := by
  funext p q
  show val_main_v79 (F := Ideal) x0 x1 x2 x3 x4 x5 x6 x7 x8 x9 x10 x11 x12 x13 x14 x15 x16 x17 x18 x19 x20 x21 x22 x23 x24 x25 x26 x27 x28 x29 x30 x31 (ix2 p q) = _
  rw [val_main_v79_apply, val_main_v78_apply, val_main_v75_apply, val_main_v77_apply, val_main_v76_apply, val_main_call9_v0_apply, val_main_call9_cst_apply]
  simp only [Ideal.maximumf_def, Ideal.addf_def, Ideal.ofBits_def, Ideal.ofBits_zero_f32]
  have hl : ∀ k : Fin 128, lidx_main_v75 (ix2 p q) k = ix2 p k := fun k => funext fun a => Fin.ext (by
    match a with | ⟨0, _⟩ => rfl | ⟨1, _⟩ => rfl)
  have hr : ∀ k : Fin 128, ridx_main_v75 (ix2 p q) k = ix2 k q := fun k => funext fun a => Fin.ext (by
    match a with | ⟨0, _⟩ => rfl | ⟨1, _⟩ => rfl)
  have hb : idx_main_v76 (idx_main_v77 (ix2 p q)) = ix1 q := funext fun a => Fin.ext (by
    match a with | ⟨0, _⟩ => rfl)
  simp only [hl, hr, hb]
  rfl

/-- Stage 83 is the dense layer of stage 79 with weights x32 and bias x33. -/
theorem layer_v83 : mat (val_main_v83 (F := Ideal) x0 x1 x2 x3 x4 x5 x6 x7 x8 x9 x10 x11 x12 x13 x14 x15 x16 x17 x18 x19 x20 x21 x22 x23 x24 x25 x26 x27 x28 x29 x30 x31 x32 x33) = Cert.Spec.dense (mat (val_main_v79 (F := Ideal) x0 x1 x2 x3 x4 x5 x6 x7 x8 x9 x10 x11 x12 x13 x14 x15 x16 x17 x18 x19 x20 x21 x22 x23 x24 x25 x26 x27 x28 x29 x30 x31)) (mat x32) (vec x33) := by
  funext p q
  show val_main_v83 (F := Ideal) x0 x1 x2 x3 x4 x5 x6 x7 x8 x9 x10 x11 x12 x13 x14 x15 x16 x17 x18 x19 x20 x21 x22 x23 x24 x25 x26 x27 x28 x29 x30 x31 x32 x33 (ix2 p q) = _
  rw [val_main_v83_apply, val_main_v80_apply, val_main_v82_apply, val_main_v81_apply]
  simp only [Ideal.addf_def]
  have hl : ∀ k : Fin 128, lidx_main_v80 (ix2 p q) k = ix2 p k := fun k => funext fun a => Fin.ext (by
    match a with | ⟨0, _⟩ => rfl | ⟨1, _⟩ => rfl)
  have hr : ∀ k : Fin 128, ridx_main_v80 (ix2 p q) k = ix2 k q := fun k => funext fun a => Fin.ext (by
    match a with | ⟨0, _⟩ => rfl | ⟨1, _⟩ => rfl)
  have hb : idx_main_v81 (idx_main_v82 (ix2 p q)) = ix1 q := funext fun a => Fin.ext (by
    match a with | ⟨0, _⟩ => rfl)
  simp only [hl, hr, hb]
  rfl

end Cert.RefValue

end
-- ==== Proof.LibRowScatterAdd.lean ====
import Idealize.ShloMosaic.Lib.ValueIdx
import Idealize.ShloMosaic.PureOps.Ideal

/-!
# Accumulating scatters of whole rows, entry by entry, over the extended reals

An accumulating scatter adds every entry of an update array into the operand entry it lands at. Here the update array
is a stack of rows, `[E, C]` (resp. `[E, H, D]`), the operand is `[N, C]` (resp. `[N, H, D]`), and an `[E, 1]`
array of integer words says, for each update row `e`, which operand row it is added into: update entry `(e, c)` lands
at `(w e, c)`, where `w e` is the word of row `e` read as a SIGNED integer and NOT clamped. An update row whose word is
negative or at least `N` lands nowhere and contributes nothing.

Over the extended reals the order of the additions does not matter, so entry `(n, c)` of the result is

  `x (n, c) + Σ_{e : w e = n} upd (e, c)`,

written below as a sum over all update rows of an `if`. The proof has two steps: the landing index of an update entry
is computed axis by axis (start of the window plus coordinate inside the window), which says exactly when it equals a
given operand index; then the sum over the update entries that land there is split into the sum over the coordinates,
and the sums over the trailing coordinates collapse to the one term whose coordinates agree.
-/

noncomputable section
open scoped BigOperators
open Idealize.ShloMosaic Idealize.ShloMosaic.ValueIdx

namespace Cert.Lib

/-! ## Rank 2: operand `[N, C]`, words `[E, 1]`, updates `[E, C]` -/

/-- dimension numbers of an accumulating row scatter: operand [N, C], scatter indices [E, 1], updates [E, C]: the
    updates' axis 1 is the window axis, the operand's axis 0 is inserted and is the one the index words name. -/
abbrev rowScatter2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section R2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the word of update row `e`, read signed. -/
theorem rowScatter2_start0 :
    (rowScatter2 N E C wf).start (ix2 e c') idx 0 = (idx (ix2 e (0 : Fin 1))).toInt := by
  unfold ScatterDims.start
  rw [dif_pos (show (0 : Fin 2) ∈ (rowScatter2 N E C wf).scatterDimsToOperandDims from List.mem_singleton.mpr rfl)]
  have hsi : (rowScatter2 N E C wf).siIdx (ix2 e c') ⟨List.idxOf (0 : Fin 2) (rowScatter2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at `0`: the index words name rows only. -/
theorem rowScatter2_start1 :
    (rowScatter2 N E C wf).start (ix2 e c') idx 1 = 0 := by
  unfold ScatterDims.start
  rw [dif_neg]
  intro h
  exact absurd (congrArg Fin.val (List.mem_singleton.mp h)) Nat.one_ne_zero

/-- The row axis is inserted: an update entry has window coordinate `0` there. -/
theorem rowScatter2_window0 :
    (rowScatter2 N E C wf).window (ix2 e c') 0 = 0 := by
  unfold ScatterDims.window
  rw [dif_neg]
  intro h
  have := (List.mem_filter.mp h).2
  simp at this

/-- On the column axis the window coordinate of update entry `(e, c')` is its own column `c'`. -/
theorem rowScatter2_window1 :
    (rowScatter2 N E C wf).window (ix2 e c') 1 = c'.val := by
  unfold ScatterDims.window
  rw [dif_pos (show (1 : Fin 2) ∈ (rowScatter2 N E C wf).sKept from
    List.mem_filter.mpr ⟨List.mem_finRange _, by simp⟩)]
  rfl

/-- WHERE AN UPDATE ENTRY LANDS: entry `(e, c')` lands at `(n, c)` exactly when the word of row `e`, read signed, is `n`
    and the columns agree. A word outside `[0, N)` lands nowhere, so it satisfies neither side for any `n`. -/
theorem rowScatter2_resultIdx_iff (n : Fin N) (c : Fin C) :
    (rowScatter2 N E C wf).resultIdx? (ix2 e c') idx = some (ix2 n c)
      ↔ (idx (ix2 e (0 : Fin 1))).toInt = (n.val : ℤ) ∧ c' = c := by
  have s0 := rowScatter2_start0 wf idx e c'
  have s1 := rowScatter2_start1 wf idx e c'
  have w0 := rowScatter2_window0 wf e c'
  have w1 := rowScatter2_window1 wf e c'
  unfold ScatterDims.resultIdx?
  split_ifs with h
  · rw [Option.some.injEq]
    constructor
    · intro heq
      have h0 : ((rowScatter2 N E C wf).start (ix2 e c') idx 0 + (rowScatter2 N E C wf).window (ix2 e c') 0).toNat = n.val :=
        congrArg Fin.val (congrFun heq 0)
      have h1 : ((rowScatter2 N E C wf).start (ix2 e c') idx 1 + (rowScatter2 N E C wf).window (ix2 e c') 1).toNat = c.val :=
        congrArg Fin.val (congrFun heq 1)
      have p0 := (h 0).1
      rw [s0, w0] at h0 p0
      rw [s1, w1] at h1
      refine ⟨by omega, Fin.ext (by omega)⟩
    · rintro ⟨hn, hc⟩
      funext a; refine Fin.ext ?_
      match a with
      | ⟨0, _⟩ =>
        show ((rowScatter2 N E C wf).start (ix2 e c') idx 0 + (rowScatter2 N E C wf).window (ix2 e c') 0).toNat = n.val
        rw [s0, w0]; omega
      | ⟨1, _⟩ =>
        show ((rowScatter2 N E C wf).start (ix2 e c') idx 1 + (rowScatter2 N E C wf).window (ix2 e c') 1).toNat = c.val
        rw [s1, w1, hc]; omega
  · constructor
    · intro heq; exact absurd heq (by simp)
    · rintro ⟨hn, hc⟩
      refine absurd ?_ h
      intro a
      match a with
      | ⟨0, _⟩ =>
        show 0 ≤ (rowScatter2 N E C wf).start (ix2 e c') idx 0 + (rowScatter2 N E C wf).window (ix2 e c') 0
          ∧ (rowScatter2 N E C wf).start (ix2 e c') idx 0 + (rowScatter2 N E C wf).window (ix2 e c') 0 < (N : ℤ)
        rw [s0, w0]; have := n.isLt; omega
      | ⟨1, _⟩ =>
        show 0 ≤ (rowScatter2 N E C wf).start (ix2 e c') idx 1 + (rowScatter2 N E C wf).window (ix2 e c') 1
          ∧ (rowScatter2 N E C wf).start (ix2 e c') idx 1 + (rowScatter2 N E C wf).window (ix2 e c') 1 < (C : ℤ)
        rw [s1, w1]; have := c'.isLt; omega

end R2

/-- THE ROW SCATTER AT `(n, c)`, rank 2: the operand's entry plus the sum, over the update rows `e` whose word read
    signed equals `n`, of `upd (e, c)`. The sum over all update entries that land at `(n, c)` is split by coordinates
    and the column coordinate is fixed to `c` by the characterisation above. -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatter2 N E C wf) x idx upd (ix2 n c)
      = x (ix2 n c) + ∑ e : Fin E, if (idx (ix2 e (0 : Fin 1))).toInt = (n.val : ℤ) then upd (ix2 e c) else 0 := by
  show x (ix2 n c) + ∑ j ∈ Finset.univ.filter (fun j => (rowScatter2 N E C wf).resultIdx? j idx = some (ix2 n c)), upd j = _
  congr 1
  rw [Finset.sum_filter, sum_idx2]
  refine Finset.sum_congr rfl fun e _ => ?_
  have hinner : ∀ c' : Fin C,
      (if (rowScatter2 N E C wf).resultIdx? (ix2 e c') idx = some (ix2 n c) then upd (ix2 e c') else 0)
        = if c' = c then (if (idx (ix2 e (0 : Fin 1))).toInt = (n.val : ℤ) then upd (ix2 e c) else 0) else 0 := by
    intro c'
    by_cases hc : c' = c
    · subst hc
      rw [if_pos rfl]
      exact if_congr ((rowScatter2_resultIdx_iff wf idx e c' n c').trans (and_iff_left rfl)) rfl rfl
    · rw [if_neg hc, if_neg]
      intro hr
      exact hc ((rowScatter2_resultIdx_iff wf idx e c' n c).mp hr).2
  rw [Finset.sum_congr rfl fun c' _ => hinner c', Finset.sum_ite_eq' Finset.univ c]
  rw [if_pos (Finset.mem_univ c)]

/-! ## Rank 3: operand `[N, H, D]`, words `[E, 1]`, updates `[E, H, D]` -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- dimension numbers of an accumulating row scatter: operand [N, H, D], scatter indices [E, 1], updates [E, H, D]: the
    updates' axes 1 and 2 are the window axes, the operand's axis 0 is inserted and is the one the index words name. -/
abbrev rowScatter3 (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section R3
variable {N E H D w : Nat}
  (wf : ScatterDims.WF ⟨3, ![N, H, D]⟩ ⟨2, ![E, 1]⟩ ⟨3, ![E, H, D]⟩ [1, 2] [0] [0] 1)
  (idx : IVec ⟨2, ![E, 1]⟩ w) (e : Fin E) (h' : Fin H) (d' : Fin D)

/-- On the row axis the window of update entry `(e, h', d')` starts at the word of update row `e`, read signed. -/
theorem rowScatter3_start0 :
    (rowScatter3 N E H D wf).start (ix3 e h' d') idx 0 = (idx (ix2 e (0 : Fin 1))).toInt := by
  unfold ScatterDims.start
  rw [dif_pos (show (0 : Fin 3) ∈ (rowScatter3 N E H D wf).scatterDimsToOperandDims from List.mem_singleton.mpr rfl)]
  have hsi : (rowScatter3 N E H D wf).siIdx (ix3 e h' d') ⟨List.idxOf (0 : Fin 3) (rowScatter3 N E H D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis every window starts at `0`. -/
theorem rowScatter3_start1 :
    (rowScatter3 N E H D wf).start (ix3 e h' d') idx 1 = 0 := by
  unfold ScatterDims.start
  rw [dif_neg]
  intro hm
  exact absurd (congrArg Fin.val (List.mem_singleton.mp hm)) Nat.one_ne_zero

/-- On the third axis every window starts at `0`. -/
theorem rowScatter3_start2 :
    (rowScatter3 N E H D wf).start (ix3 e h' d') idx 2 = 0 := by
  unfold ScatterDims.start
  rw [dif_neg]
  intro hm
  exact absurd (congrArg Fin.val (List.mem_singleton.mp hm)) (by norm_num)

/-- The row axis is inserted: an update entry has window coordinate `0` there. -/
theorem rowScatter3_window0 :
    (rowScatter3 N E H D wf).window (ix3 e h' d') 0 = 0 := by
  unfold ScatterDims.window
  rw [dif_neg]
  intro hm
  have := (List.mem_filter.mp hm).2
  simp at this

/-- On the second axis the window coordinate of update entry `(e, h', d')` is `h'`. -/
theorem rowScatter3_window1 :
    (rowScatter3 N E H D wf).window (ix3 e h' d') 1 = h'.val := by
  unfold ScatterDims.window
  rw [dif_pos (show (1 : Fin 3) ∈ (rowScatter3 N E H D wf).sKept from
    List.mem_filter.mpr ⟨List.mem_finRange _, by simp⟩)]
  rfl

/-- On the third axis the window coordinate of update entry `(e, h', d')` is `d'`. -/
theorem rowScatter3_window2 :
    (rowScatter3 N E H D wf).window (ix3 e h' d') 2 = d'.val := by
  unfold ScatterDims.window
  rw [dif_pos (show (2 : Fin 3) ∈ (rowScatter3 N E H D wf).sKept from
    List.mem_filter.mpr ⟨List.mem_finRange _, by simp⟩)]
  rfl

/-- WHERE AN UPDATE ENTRY LANDS: entry `(e, h', d')` lands at `(n, h, d)` exactly when the word of row `e`, read signed,
    is `n` and the two trailing coordinates agree. A word outside `[0, N)` lands nowhere. -/
theorem rowScatter3_resultIdx_iff (n : Fin N) (h : Fin H) (d : Fin D) :
    (rowScatter3 N E H D wf).resultIdx? (ix3 e h' d') idx = some (ix3 n h d)
      ↔ (idx (ix2 e (0 : Fin 1))).toInt = (n.val : ℤ) ∧ h' = h ∧ d' = d := by
  have s0 := rowScatter3_start0 wf idx e h' d'
  have s1 := rowScatter3_start1 wf idx e h' d'
  have s2 := rowScatter3_start2 wf idx e h' d'
  have w0 := rowScatter3_window0 wf e h' d'
  have w1 := rowScatter3_window1 wf e h' d'
  have w2 := rowScatter3_window2 wf e h' d'
  unfold ScatterDims.resultIdx?
  split_ifs with hb
  · rw [Option.some.injEq]
    constructor
    · intro heq
      have h0 : ((rowScatter3 N E H D wf).start (ix3 e h' d') idx 0 + (rowScatter3 N E H D wf).window (ix3 e h' d') 0).toNat = n.val :=
        congrArg Fin.val (congrFun heq 0)
      have h1 : ((rowScatter3 N E H D wf).start (ix3 e h' d') idx 1 + (rowScatter3 N E H D wf).window (ix3 e h' d') 1).toNat = h.val :=
        congrArg Fin.val (congrFun heq 1)
      have h2 : ((rowScatter3 N E H D wf).start (ix3 e h' d') idx 2 + (rowScatter3 N E H D wf).window (ix3 e h' d') 2).toNat = d.val :=
        congrArg Fin.val (congrFun heq 2)
      have p0 := (hb 0).1
      rw [s0, w0] at h0 p0
      rw [s1, w1] at h1
      rw [s2, w2] at h2
      refine ⟨by omega, Fin.ext (by omega), Fin.ext (by omega)⟩
    · rintro ⟨hn, hh, hd⟩
      funext a; refine Fin.ext ?_
      match a with
      | ⟨0, _⟩ =>
        show ((rowScatter3 N E H D wf).start (ix3 e h' d') idx 0 + (rowScatter3 N E H D wf).window (ix3 e h' d') 0).toNat = n.val
        rw [s0, w0]; omega
      | ⟨1, _⟩ =>
        show ((rowScatter3 N E H D wf).start (ix3 e h' d') idx 1 + (rowScatter3 N E H D wf).window (ix3 e h' d') 1).toNat = h.val
        rw [s1, w1, hh]; omega
      | ⟨2, _⟩ =>
        show ((rowScatter3 N E H D wf).start (ix3 e h' d') idx 2 + (rowScatter3 N E H D wf).window (ix3 e h' d') 2).toNat = d.val
        rw [s2, w2, hd]; omega
  · constructor
    · intro heq; exact absurd heq (by simp)
    · rintro ⟨hn, hh, hd⟩
      refine absurd ?_ hb
      intro a
      match a with
      | ⟨0, _⟩ =>
        show 0 ≤ (rowScatter3 N E H D wf).start (ix3 e h' d') idx 0 + (rowScatter3 N E H D wf).window (ix3 e h' d') 0
          ∧ (rowScatter3 N E H D wf).start (ix3 e h' d') idx 0 + (rowScatter3 N E H D wf).window (ix3 e h' d') 0 < (N : ℤ)
        rw [s0, w0]; have := n.isLt; omega
      | ⟨1, _⟩ =>
        show 0 ≤ (rowScatter3 N E H D wf).start (ix3 e h' d') idx 1 + (rowScatter3 N E H D wf).window (ix3 e h' d') 1
          ∧ (rowScatter3 N E H D wf).start (ix3 e h' d') idx 1 + (rowScatter3 N E H D wf).window (ix3 e h' d') 1 < (H : ℤ)
        rw [s1, w1]; have := h'.isLt; omega
      | ⟨2, _⟩ =>
        show 0 ≤ (rowScatter3 N E H D wf).start (ix3 e h' d') idx 2 + (rowScatter3 N E H D wf).window (ix3 e h' d') 2
          ∧ (rowScatter3 N E H D wf).start (ix3 e h' d') idx 2 + (rowScatter3 N E H D wf).window (ix3 e h' d') 2 < (D : ℤ)
        rw [s2, w2]; have := d'.isLt; omega

end R3

/-- THE ROW SCATTER AT `(n, h, d)`, rank 3: the operand's entry plus the sum, over the update rows `e` whose word read
    signed equals `n`, of `upd (e, h, d)`. -/
theorem scatterAdd_rows3_apply {N E H D w : Nat} {φ : FTy}
    (wf : ScatterDims.WF ⟨3, ![N, H, D]⟩ ⟨2, ![E, 1]⟩ ⟨3, ![E, H, D]⟩ [1, 2] [0] [0] 1)
    (x : FVec Ideal ⟨3, ![N, H, D]⟩ φ) (idx : IVec ⟨2, ![E, 1]⟩ w) (upd : FVec Ideal ⟨3, ![E, H, D]⟩ φ)
    (n : Fin N) (h : Fin H) (d : Fin D) :
    Host.scatterAdd (rowScatter3 N E H D wf) x idx upd (ix3 n h d)
      = x (ix3 n h d) + ∑ e : Fin E, if (idx (ix2 e (0 : Fin 1))).toInt = (n.val : ℤ) then upd (ix3 e h d) else 0 := by
  show x (ix3 n h d) + ∑ j ∈ Finset.univ.filter (fun j => (rowScatter3 N E H D wf).resultIdx? j idx = some (ix3 n h d)), upd j = _
  congr 1
  rw [Finset.sum_filter, sum_idx3]
  refine Finset.sum_congr rfl fun e _ => ?_
  have hinner : ∀ (h' : Fin H) (d' : Fin D),
      (if (rowScatter3 N E H D wf).resultIdx? (ix3 e h' d') idx = some (ix3 n h d) then upd (ix3 e h' d') else 0)
        = if d' = d then (if h' = h then (if (idx (ix2 e (0 : Fin 1))).toInt = (n.val : ℤ) then upd (ix3 e h d) else 0) else 0) else 0 := by
    intro h' d'
    by_cases hd : d' = d
    · subst hd
      rw [if_pos rfl]
      by_cases hh : h' = h
      · subst hh
        rw [if_pos rfl]
        exact if_congr ((rowScatter3_resultIdx_iff wf idx e h' d' n h' d').trans
          ((and_congr_right_iff.mpr fun _ => and_iff_left rfl).trans (and_iff_left rfl))) rfl rfl
      · rw [if_neg hh, if_neg]
        intro hr
        exact hh ((rowScatter3_resultIdx_iff wf idx e h' d' n h d').mp hr).2.1
    · rw [if_neg hd, if_neg]
      intro hr
      exact hd ((rowScatter3_resultIdx_iff wf idx e h' d' n h d).mp hr).2.2
  have hrow : ∀ h' : Fin H,
      (∑ d' : Fin D, if (rowScatter3 N E H D wf).resultIdx? (ix3 e h' d') idx = some (ix3 n h d) then upd (ix3 e h' d') else 0)
        = if h' = h then (if (idx (ix2 e (0 : Fin 1))).toInt = (n.val : ℤ) then upd (ix3 e h d) else 0) else 0 := by
    intro h'
    rw [Finset.sum_congr rfl fun d' _ => hinner h' d', Finset.sum_ite_eq' Finset.univ d, if_pos (Finset.mem_univ d)]
  rw [Finset.sum_congr rfl fun h' _ => hrow h', Finset.sum_ite_eq' Finset.univ h, if_pos (Finset.mem_univ h)]

end Cert.Lib

end
-- ==== Proof.RefPool.lean ====
/-
  The reference's two segment sums, read at an entry.

  The program adds every row e of the update array into the row of a zero array that the label of e names
  (the label read as a signed word; a label outside the 128 rows lands nowhere).  Over the extended reals the
  order of the additions does not matter, so entry (g, c) of the result is zero plus the sum, over the rows e
  whose label is g, of update (e, c): the specification's pooling.
-/
import proofs.«159474_g3393024163881_fold_wed_m_362_30_alg».proof.Proof.Gen.ReferenceIdeal.Read
import proofs.«159474_g3393024163881_fold_wed_m_362_30_alg».proof.Proof.Glue
import proofs.«159474_g3393024163881_fold_wed_m_362_30_alg».proof.Proof.LibRowScatterAdd

noncomputable section

namespace Cert.RefValue

open Cert.ReferenceIdeal Cert.ReferenceIdeal.Gen Cert.ReferenceIdeal.Read Idealize.ShloMosaic Idealize.ShloMosaic.ValueIdx Cert.Glue
open scoped BigOperators

variable (x0 x1 : (⟨S100000x128, .f32⟩ : BufTy).Contents (Elt Ideal)) (x2 x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x2, .f32⟩ : BufTy).Contents (Elt Ideal)) (x33 : (⟨S2, .f32⟩ : BufTy).Contents (Elt Ideal))

/-- Stage 16 is the pooling of stage 13 by the labels x2. -/
theorem pool_v16 : mat (val_main_v16 (F := Ideal) x0 x2 x4 x5 x6 x7 x8 x9) = Cert.Spec.pool (G := 128) (vec x2) (mat (val_main_v13 (F := Ideal) x0 x4 x5 x6 x7 x8 x9)) := by
  funext g c
  show Host.scatterAdd (F := Ideal) (Cert.Lib.rowScatter2 128 100000 128 _) (val_main_v14 (F := Ideal)) (val_main_v15 (F := Ideal) x2) (val_main_v13 (F := Ideal) x0 x4 x5 x6 x7 x8 x9) (ix2 g c) = _
  rw [Cert.Lib.scatterAdd_rows2_apply, val_main_v14_apply, val_main_cst_apply]
  simp only [Ideal.ofBits_def, Ideal.ofBits_zero_f32, zero_add, val_main_v15_apply]
  have hi : ∀ e : Fin 100000, idx_main_v15 (ix2 e (0 : Fin 1)) = ix1 e := fun e => funext fun a => Fin.ext (by
    match a with | ⟨0, _⟩ => rfl)
  simp only [hi]
  rfl

/-- Stage 55 is the pooling of stage 52 by the labels x3. -/
theorem pool_v55 : mat (val_main_v55 (F := Ideal) x0 x1 x2 x3 x4 x5 x6 x7 x8 x9 x10 x11 x12 x13 x14 x15 x16 x17 x18 x19 x20 x21) = Cert.Spec.pool (G := 128) (vec x3) (mat (val_main_v52 (F := Ideal) x0 x1 x2 x4 x5 x6 x7 x8 x9 x10 x11 x12 x13 x14 x15 x16 x17 x18 x19 x20 x21)) := by
  funext g c
  show Host.scatterAdd (F := Ideal) (Cert.Lib.rowScatter2 128 100000 128 _) (val_main_v53 (F := Ideal)) (val_main_v54 (F := Ideal) x3) (val_main_v52 (F := Ideal) x0 x1 x2 x4 x5 x6 x7 x8 x9 x10 x11 x12 x13 x14 x15 x16 x17 x18 x19 x20 x21) (ix2 g c) = _
  rw [Cert.Lib.scatterAdd_rows2_apply, val_main_v53_apply, val_main_cst_1_apply]
  simp only [Ideal.ofBits_def, Ideal.ofBits_zero_f32, zero_add, val_main_v54_apply]
  have hi : ∀ e : Fin 100000, idx_main_v54 (ix2 e (0 : Fin 1)) = ix1 e := fun e => funext fun a => Fin.ext (by
    match a with | ⟨0, _⟩ => rfl)
  simp only [hi]
  rfl

end Cert.RefValue

end
-- ==== Proof.LibRowGather.lean ====
import Idealize.ShloMosaic.Lib.ValueIdx

/-!
# A gather of whole rows, read at an index

`stablehlo.gather` with offset axes the result's trailing ones, collapsed slice axis `[0]`, start index map `[0]`,
index vector axis `1` and slice sizes one row: what `x[idx]` lowers to for an operand `x : [N, C]` (or
`[N, H, D]`) and a column `idx : [E, 1]` of row numbers. StableHLO's operand index is, axis by axis, the clamped
start plus the batching coordinate plus the offset coordinate. Here there is no batching axis; on axis 0 (named by the
start index map, collapsed) the start is the word `idx[e, 0]` read as a signed integer, taken as a natural number
(a negative one is `0`) and clamped to `N − 1` so that the one-row slice fits, and the offset coordinate is `0`;
on every other axis (not named by the start index map, kept) the start is `0` and the offset coordinate is the
result's own coordinate on that axis. So result entry `(e, c)` is `x (min idx[e, 0] (N − 1), c)`:
`gather_rows2_apply` for a rank-2 operand, `gather_rows3_apply` for a rank-3 one. The rank-1 case (no kept axis) is
the library's `gather_take_apply`.
-/

noncomputable section
open scoped BigOperators
open Idealize.ShloMosaic Idealize.ShloMosaic.ValueIdx

namespace Cert.Lib
variable {α : Type}

/-- The dimension numbers of a row gather: operand `[N, C]`, start indices `[E, 1]`, result `[E, C]`. Axis 0 of the operand
    is collapsed and is the one the start index names; axis 1 is kept whole (slice sizes `[1, C]`) and becomes the
    result's offset axis 1; the result's axis 0 runs over the start indices. The conditions `wf` are decided on a
    program's literal shapes. -/
abbrev rowGather2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`, rank 2: the operand's entry in column `c` of the row the start index `idx[e, 0]`
    names — read signed, as a natural number, clamped into `[0, N − 1]`. On axis 0 the operand index is the clamped
    start alone (no batching axis; the axis is collapsed, so no offset); on axis 1 it is the offset coordinate `c` alone
    (the start index map does not name the axis, so the start is `0`). -/
theorem gather_rows2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather2 N E C wf).start (ix2 e c) idx 0 + (rowGather2 N E C wf).batchCoord (ix2 e c) 0
      + (rowGather2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N E C wf).startIndexMap from List.mem_singleton.mpr rfl)]
    have hsi : (rowGather2 N E C wf).siIdx (ix2 e c) ⟨List.idxOf (0 : Fin 2) (rowGather2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather2 N E C wf).start (ix2 e c) idx 1 + (rowGather2 N E C wf).batchCoord (ix2 e c) 1
      + (rowGather2 N E C wf).offCoord (ix2 e c) 1 = c.val
    rw [GatherDims.batchCoord_eq_zero _ _ _ List.not_mem_nil]
    unfold GatherDims.start
    have h10 : (1 : Fin 2) ∉ ([0] : List (Fin 2)) := by decide
    rw [dif_neg (show ¬ (1 : Fin 2) ∈ (rowGather2 N E C wf).startIndexMap from h10)]
    unfold GatherDims.offCoord
    rw [dif_pos (show (1 : Fin 2) ∈ (rowGather2 N E C wf).sKept from
      (GatherDims.mem_sKept _ _).mpr ⟨h10, List.not_mem_nil⟩)]
    simp only [Nat.add_zero, Nat.zero_add]
    rfl

/-- The dimension numbers of a row gather of a rank-3 operand: operand `[N, H, D]`, start indices `[E, 1]`, result
    `[E, H, D]`. Axis 0 of the operand is collapsed and is the one the start index names; axes 1 and 2 are kept whole
    (slice sizes `[1, H, D]`) and become the result's offset axes 1 and 2. -/
abbrev rowGather3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- THE ROW GATHER READ AT `(e, h, d)`, rank 3: the operand's entry `(h, d)` of the row the start index `idx[e, 0]`
    names — read signed, as a natural number, clamped into `[0, N − 1]`. Axis 0 as in the rank-2 case; on axes 1 and 2
    the start is `0` and the offset coordinate is the result's coordinate on the offset axis in the same position. -/
theorem gather_rows3_apply {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowGather3 N E H D wf) x idx (ix3 e h d)
      = x (ix3 (⟨min (idx (ix2 e (0 : Fin 1))).toInt.toNat (N - 1), by omega⟩ : Fin N) h d) := by
  unfold Host.gather
  congr 1
  funext a
  refine Fin.ext ?_
  have h10 : (1 : Fin 3) ∉ ([0] : List (Fin 3)) := by decide
  have h20 : (2 : Fin 3) ∉ ([0] : List (Fin 3)) := by decide
  match a with
  | ⟨0, _⟩ =>
    show (rowGather3 N E H D wf).start (ix3 e h d) idx 0 + (rowGather3 N E H D wf).batchCoord (ix3 e h d) 0
      + (rowGather3 N E H D wf).offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 N E H D wf).startIndexMap from List.mem_singleton.mpr rfl)]
    have hsi : (rowGather3 N E H D wf).siIdx (ix3 e h d)
        ⟨List.idxOf (0 : Fin 3) (rowGather3 N E H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather3 N E H D wf).start (ix3 e h d) idx 1 + (rowGather3 N E H D wf).batchCoord (ix3 e h d) 1
      + (rowGather3 N E H D wf).offCoord (ix3 e h d) 1 = h.val
    rw [GatherDims.batchCoord_eq_zero _ _ _ List.not_mem_nil]
    unfold GatherDims.start
    rw [dif_neg (show ¬ (1 : Fin 3) ∈ (rowGather3 N E H D wf).startIndexMap from h10)]
    unfold GatherDims.offCoord
    rw [dif_pos (show (1 : Fin 3) ∈ (rowGather3 N E H D wf).sKept from
      (GatherDims.mem_sKept _ _).mpr ⟨h10, List.not_mem_nil⟩)]
    simp only [Nat.add_zero, Nat.zero_add]
    rfl
  | ⟨2, _⟩ =>
    show (rowGather3 N E H D wf).start (ix3 e h d) idx 2 + (rowGather3 N E H D wf).batchCoord (ix3 e h d) 2
      + (rowGather3 N E H D wf).offCoord (ix3 e h d) 2 = d.val
    rw [GatherDims.batchCoord_eq_zero _ _ _ List.not_mem_nil]
    unfold GatherDims.start
    rw [dif_neg (show ¬ (2 : Fin 3) ∈ (rowGather3 N E H D wf).startIndexMap from h20)]
    unfold GatherDims.offCoord
    rw [dif_pos (show (2 : Fin 3) ∈ (rowGather3 N E H D wf).sKept from
      (GatherDims.mem_sKept _ _).mpr ⟨h20, List.not_mem_nil⟩)]
    simp only [Nat.add_zero, Nat.zero_add]
    rfl

end Cert.Lib
end
-- ==== Proof.LibConcat2.lean ====
/-
  Two arrays laid side by side along the columns, read at an entry.

  The concatenation along axis 1 of `y0 : [B, n0]` and `y1 : [B, n1]` is an `[B, N]` array, `N = n0 + n1`. At row `b`
  and column `n` it reads `y0 (b, n)` for `n < n0` and `y1 (b, n - n0)` for the remaining `n1` columns.
-/
import Idealize.ShloMosaic.Lib.Pipeline.Value
import Idealize.ShloMosaic.Lib.ValueIdx

noncomputable section

namespace Cert.Lib

open Idealize.ShloMosaic Idealize.ShloMosaic.ValueIdx

section
variable {α : Type} {B N n0 n1 : ℕ}
  (y0 : (⟨2, ![B, n0]⟩ : Shape).Idx → α) (y1 : (⟨2, ![B, n1]⟩ : Shape).Idx → α)
  (h : Shape.Concatenates [(⟨2, ![B, n0]⟩ : Shape), ⟨2, ![B, n1]⟩] ⟨2, ![B, N]⟩ 1)

/-- A column among the first `n0` reads the first array. -/
theorem concat2_apply_first (b : Fin B) (n : Fin N) (q : Fin n0) (hn : n.val = q.val) :
    concatenate ⟨2, ![B, N]⟩ 1 [⟨⟨2, ![B, n0]⟩, y0⟩, ⟨⟨2, ![B, n1]⟩, y1⟩] h (ix2 b n) = y0 (ix2 b q) := by
  refine concatenate_apply_piece (t := ⟨2, ![B, N]⟩) (1 : Fin 2) [(⟨⟨2, ![B, n0]⟩, y0⟩ : (s : Shape) × (s.Idx → α)), ⟨⟨2, ![B, n1]⟩, y1⟩] h (ix2 b n) 0
    (by show (0 : ℕ) < 2; decide) ⟨2, ![B, n0]⟩ y0 rfl rfl 0 rfl (ix2 b q) ?_ ?_
  · intro b' hb'
    match b' with
    | ⟨0, _⟩ => rfl
    | ⟨1, _⟩ => exact absurd rfl hb'
  · show 0 + q.val = n.val
    omega

/-- A column among the last `n1` reads the second array, `n0` columns back. -/
theorem concat2_apply_second (b : Fin B) (n : Fin N) (j : Fin n1) (hn : n.val = n0 + j.val) :
    concatenate ⟨2, ![B, N]⟩ 1 [⟨⟨2, ![B, n0]⟩, y0⟩, ⟨⟨2, ![B, n1]⟩, y1⟩] h (ix2 b n) = y1 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩] h (ix2 b n) 1
    (by show (1 : ℕ) < 2; decide) ⟨2, ![B, n1]⟩ y1 rfl rfl n0 ?_ (ix2 b j) ?_ ?_
  · show n0 + 0 = n0
    rfl
  · intro b' hb'
    match b' with
    | ⟨0, _⟩ => rfl
    | ⟨1, _⟩ => exact absurd rfl hb'
  · show n0 + j.val = n.val
    omega

end

end Cert.Lib

end
-- ==== Proof.RefFetch.lean ====
/-
  The pooled rows handed to the nodes, and the node features beside them, read at an entry.

  The program first replaces a negative label v by v + 128 and keeps a non-negative one; then it copies, for each
  node, the row of the pooled array that the label names, the label read as a signed word, taken as a natural
  number and kept below 128; then it writes each node's own 128 features and the 128 copied entries side by side.
  For a label that is not negative the replacement does nothing, so column k of node n is the node's own feature
  k when k is below 128, and otherwise entry k − 128 of the pooled row its label names.
-/
import proofs.«159474_g3393024163881_fold_wed_m_362_30_alg».proof.Proof.Gen.ReferenceIdeal.Read
import proofs.«159474_g3393024163881_fold_wed_m_362_30_alg».proof.Proof.Glue
import proofs.«159474_g3393024163881_fold_wed_m_362_30_alg».proof.Proof.LibRowGather
import proofs.«159474_g3393024163881_fold_wed_m_362_30_alg».proof.Proof.LibConcat2

noncomputable section

namespace Cert.RefValue

open Cert.ReferenceIdeal Cert.ReferenceIdeal.Gen Cert.ReferenceIdeal.Read Idealize.ShloMosaic Idealize.ShloMosaic.ValueIdx Cert.Glue
open scoped BigOperators

variable (x0 x1 : (⟨S100000x128, .f32⟩ : BufTy).Contents (Elt Ideal)) (x2 x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x2, .f32⟩ : BufTy).Contents (Elt Ideal)) (x33 : (⟨S2, .f32⟩ : BufTy).Contents (Elt Ideal))

/-- A word that is not negative as a signed number is kept by the replacement of negative words v by v + 128. -/
theorem wrap_of_nonneg (v : BitVec 32) (h : 0 ≤ v.toInt) :
    Scalar.select (IntOp.cmpi .slt v 0#32) (IntOp.addi v 128#32) v = v := by
  have hs : v.slt 0#32 = false := by
    rw [BitVec.slt_eq_decide]
    simp only [BitVec.toInt_zero, decide_eq_false_iff_not, not_lt]
    exact h
  unfold Scalar.select IntOp.cmpi
  simp only [hs]
  rfl

/-- The column of labels the copy reads: for labels that are not negative, the labels themselves. -/
theorem labels_v36 (hrange : ∀ n : Fin 100000, 0 ≤ (vec x2 n).toInt ∧ (vec x2 n).toInt < 128) (e : Fin 100000) :
    val_main_v36 (F := Ideal) x2 (ix2 e (0 : Fin 1)) = vec x2 e := by
  rw [val_main_v36_apply, val_main_v35_apply, val_main_v32_apply, val_main_v34_apply, val_main_v31_apply, val_main_v33_apply,
    val_main_c_apply, val_main_c_0_apply]
  have hi : idx_main_v36 (ix2 e (0 : Fin 1)) = ix1 e := funext fun a => Fin.ext (by
    match a with | ⟨0, _⟩ => rfl)
  rw [hi]
  exact wrap_of_nonneg (x2 (ix1 e)) (hrange e).1

/-- Stage 37 hands node n the row of stage 30 that its label names. -/
theorem fetch_v37 (hrange : ∀ n : Fin 100000, 0 ≤ (vec x2 n).toInt ∧ (vec x2 n).toInt < 128) (n : Fin 100000) (c : Fin 128) :
    val_main_v37 (F := Ideal) x0 x2 x4 x5 x6 x7 x8 x9 x10 x11 x12 x13 x14 x15 (ix2 n c) = mat (val_main_v30 (F := Ideal) x0 x2 x4 x5 x6 x7 x8 x9 x10 x11 x12 x13 x14 x15) (rowOf (vec x2 n)) c := by
  show Host.gather (Cert.Lib.rowGather2 128 100000 128 _) (val_main_v30 (F := Ideal) x0 x2 x4 x5 x6 x7 x8 x9 x10 x11 x12 x13 x14 x15) (val_main_v36 (F := Ideal) x2) (ix2 n c) = _
  rw [Cert.Lib.gather_rows2_apply (by decide)]
  simp only [labels_v36 x2 hrange n]
  rfl

/-- Stage 38 is each node's own features beside the pooled row its label names. -/
theorem beside_v38 (hrange : ∀ n : Fin 100000, 0 ≤ (vec x2 n).toInt ∧ (vec x2 n).toInt < 128) :
    mat (val_main_v38 (F := Ideal) x0 x1 x2 x4 x5 x6 x7 x8 x9 x10 x11 x12 x13 x14 x15) = Cert.Spec.beside (mat x1) (mat (val_main_v30 (F := Ideal) x0 x2 x4 x5 x6 x7 x8 x9 x10 x11 x12 x13 x14 x15)) (fun n => rowOf (vec x2 n)) := by
  funext n k
  show val_main_v38 (F := Ideal) x0 x1 x2 x4 x5 x6 x7 x8 x9 x10 x11 x12 x13 x14 x15 (ix2 n k) = _
  unfold val_main_v38 Cert.Spec.beside
  have hk : k.val < 256 := k.isLt
  by_cases h : k.val < 128
  · rw [dif_pos h]
    exact Cert.Lib.concat2_apply_first x1 _ concatenates_S100000x128_S100000x128_S100000x256_d1 n k ⟨k.val, h⟩ rfl
  · rw [dif_neg h]
    exact (Cert.Lib.concat2_apply_second x1 _ concatenates_S100000x128_S100000x128_S100000x256_d1 n k ⟨k.val - 128, by omega⟩
      (by show k.val = 128 + (k.val - 128); omega)).trans (fetch_v37 x0 x2 x4 x5 x6 x7 x8 x9 x10 x11 x12 x13 x14 x15 hrange n _)

end Cert.RefValue

end
-- ==== Proof.RefValue.lean ====
/-
  The reference program's result is the specification's reference function of the arguments.

  The program is five three-layer perceptrons in a row: the first on the node features of the first stage, pooled
  per segment; the second on the pooled rows; the third on the second stage's node features beside the pooled
  embedding of the segment each node's first label names, pooled per segment by the second labels; the fourth on
  those pooled rows; and the head.  Each stage has been read at an entry as the specification's operation on the
  stage before it; chaining the readings from the result back to the arguments gives the specification's
  composition.  The labels of the first stage are assumed to name one of the 128 segments, which makes the
  replacement of negative labels do nothing.
-/
import proofs.«159474_g3393024163881_fold_wed_m_362_30_alg».proof.Proof.RefLayers
import proofs.«159474_g3393024163881_fold_wed_m_362_30_alg».proof.Proof.RefPool
import proofs.«159474_g3393024163881_fold_wed_m_362_30_alg».proof.Proof.RefFetch

noncomputable section

namespace Cert.RefValue

open Cert.ReferenceIdeal Cert.ReferenceIdeal.Gen Cert.ReferenceIdeal.Read Idealize.ShloMosaic Idealize.ShloMosaic.ValueIdx Cert.Glue
open scoped BigOperators

variable (x0 x1 : (⟨S100000x128, .f32⟩ : BufTy).Contents (Elt Ideal)) (x2 x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x2, .f32⟩ : BufTy).Contents (Elt Ideal)) (x33 : (⟨S2, .f32⟩ : BufTy).Contents (Elt Ideal))

/-- The result array, as a function of its two coordinates, is the specification's reference function. -/
theorem reference_mat (hrange : ∀ n : Fin 100000, 0 ≤ (vec x2 n).toInt ∧ (vec x2 n).toInt < 128) :
    mat (val_main_v83 (F := Ideal) x0 x1 x2 x3 x4 x5 x6 x7 x8 x9 x10 x11 x12 x13 x14 x15 x16 x17 x18 x19 x20 x21 x22 x23 x24 x25 x26 x27 x28 x29 x30 x31 x32 x33)
      = Cert.Spec.referenceOut (mat x0) (mat x1) (vec x2) (vec x3) (fun n => rowOf (vec x2 n))
      (mlp x4 x5 x6 x7 x8 x9) (mlp x10 x11 x12 x13 x14 x15) (mlp x16 x17 x18 x19 x20 x21) (mlp x22 x23 x24 x25 x26 x27)
      (mlp x28 x29 x30 x31 x32 x33) := by
  rw [layer_v83, layer_v79, layer_v74, layer_v69, layer_v65, layer_v60, pool_v55, layer_v52, layer_v48, layer_v43,
    beside_v38 x0 x1 x2 x4 x5 x6 x7 x8 x9 x10 x11 x12 x13 x14 x15 hrange, layer_v30, layer_v26, layer_v21, pool_v16, layer_v13, layer_v9, layer_v4]
  rfl

/-- The reference program's result at an index is the specification's reference function at its coordinates. -/
theorem reference_value (hrange : ∀ n : Fin 100000, 0 ≤ (vec x2 n).toInt ∧ (vec x2 n).toInt < 128) :
    val_main_v83 (F := Ideal) x0 x1 x2 x3 x4 x5 x6 x7 x8 x9 x10 x11 x12 x13 x14 x15 x16 x17 x18 x19 x20 x21 x22 x23 x24 x25 x26 x27 x28 x29 x30 x31 x32 x33
      = fun i => Cert.Spec.referenceOut (mat x0) (mat x1) (vec x2) (vec x3) (fun n => rowOf (vec x2 n))
      (mlp x4 x5 x6 x7 x8 x9) (mlp x10 x11 x12 x13 x14 x15) (mlp x16 x17 x18 x19 x20 x21) (mlp x22 x23 x24 x25 x26 x27)
      (mlp x28 x29 x30 x31 x32 x33) (i 0) (i 1) := by
  funext i
  rw [← reference_mat x0 x1 x2 x3 x4 x5 x6 x7 x8 x9 x10 x11 x12 x13 x14 x15 x16 x17 x18 x19 x20 x21 x22 x23 x24 x25 x26 x27 x28 x29 x30 x31 x32 x33 hrange]
  exact congrArg (val_main_v83 (F := Ideal) x0 x1 x2 x3 x4 x5 x6 x7 x8 x9 x10 x11 x12 x13 x14 x15 x16 x17 x18 x19 x20 x21 x22 x23 x24 x25 x26 x27 x28 x29 x30 x31 x32 x33) (eq_ix2 (n0 := 128) (n1 := 2) i)

end Cert.RefValue

end
-- ==== Proof.LibRealEntries.lean ====
/-
  Entries of a float array that passes the test `all(|x| < +∞)` are real numbers.

  Floats are read here as extended reals. The test takes the absolute value `max x (-x)` of every entry,
  compares it (strictly) with the word `0x7F800000`, whose value is `+∞`, and folds the resulting bits with
  `and` into one scalar bit. If that bit is 1 then every comparison bit is 1, so `max x (-x) < +∞` at every
  entry; an extended real with that property is neither `+∞` nor `-∞` (at either infinity the maximum is `+∞`),
  hence it is the image of a real number.
-/
import Idealize.ShloMosaic.Lib.ReduceAll
import Idealize.ShloMosaic.Lib.ValueIdx
import Idealize.ShloMosaic.PureOps.Ideal.Laws

namespace Cert.LibRealEntries

open Idealize.ShloMosaic

/-- The rank-0 shape has exactly one index: there is no axis to choose a coordinate on. -/
instance subsingleton_scalar_idx : Subsingleton (⟨0, ![]⟩ : Shape).Idx :=
  ⟨fun a b => funext fun d => d.elim0⟩

/-- The 32-bit word `0x7F800000` (sign 0, exponent all ones, mantissa 0) denotes `+∞`. -/
theorem ofBits_pos_inf : Ideal.ofBits .f32 0x7F800000#32 = (⊤ : EReal) := by
  simp [Ideal.ofBits, Ideal.ieee]

/-- An extended real whose absolute value `max x (-x)` is strictly below `+∞` is a real number:
    at `x = +∞` the maximum is `x` itself, at `x = -∞` it is `-x = +∞`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry: if the comparison bit of `|x| < +∞` is 1, then `x` is a real number. -/
theorem exists_real_of_cmp_bit (x : Ideal .f32)
    (h : FloatOps.cmpf .olt (FloatOps.hostAbsf x) (FloatOps.ofBits (F := Ideal) .f32 0x7F800000#32) = 1#1) :
    ∃ r : ℝ, (x : EReal) = (r : EReal) := by
  change Ideal.cmp .olt (max (x : EReal) (-(x : EReal))) (Ideal.ofBits .f32 0x7F800000#32) = 1#1 at h
  rw [ofBits_pos_inf] at h
  unfold Ideal.cmp at h
  refine exists_real_of_abs_lt_top x ?_
  by_contra hn
  simp [hn] at h

/-- A whole array: if the `and`-fold over all axes of the bits `|x i| < +∞` is 1, every entry of `x` is real. -/
theorem exists_real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1)
    (i : s.Idx) : ∃ r : ℝ, x i = (r : EReal) :=
  exists_real_of_cmp_bit (x i) (Host.reduce_andi_all _ _ hr hu _ e i)

end Cert.LibRealEntries
-- ==== Proof.PreFacts.lean ====
/-
  The precondition, decoded.

  The test is one bit: the conjunction of `all(|x| < +∞)` over the thirty-two float arrays and of
  `all(0 ≤ w ∧ w < 128)` over the first label array, the comparisons signed. When the bit is 1 every conjunct is 1;
  a float array whose conjunct is 1 has only real entries, and a conjunct `all` over the labels that is 1 says
  each label, read as a signed word, lies between 0 and 127.
-/
import proofs.«159474_g3393024163881_fold_wed_m_362_30_alg».proof.Pre_finite_inputs
import proofs.«159474_g3393024163881_fold_wed_m_362_30_alg».proof.Proof.Gen.Pre_finite_inputs
import proofs.«159474_g3393024163881_fold_wed_m_362_30_alg».proof.Proof.Glue
import proofs.«159474_g3393024163881_fold_wed_m_362_30_alg».proof.Proof.LibRealEntries
import Idealize.ShloMosaic.Lib.ReduceAll

set_option maxRecDepth 16384

noncomputable section

namespace Cert.PreFacts

open Idealize.ShloMosaic Idealize.ShloMosaic.ValueIdx
open Cert.Pre_finite_inputs Cert.Spec Cert.Glue Cert.LibRealEntries

/-- One label: if the bit `0 ≤ w ∧ w < 128` (both comparisons signed) is 1, the signed value of `w` is in range. -/
theorem label_in_range (w : BitVec 32)
    (h : IntOp.andi (IntOp.cmpi .sge w 0#32) (IntOp.cmpi .slt w 128#32) = 1#1) : 0 ≤ w.toInt ∧ w.toInt < 128 := by
  have z : (0#32 : BitVec 32).toInt = 0 := by decide
  have c : (128#32 : BitVec 32).toInt = 128 := by decide
  rw [IntOp.andi_eq_one, IntOp.cmpi_sge, IntOp.cmpi_slt, z, c] at h
  exact h

/-- If the precondition's bit is 1, every float input has only real entries and every label of the first label
    array is one of the 128 segments. -/
theorem pre_facts [Cert.Pre_finite_inputs.Facts] (x0 : FVec Ideal S100000x128 .f32) (x1 : FVec Ideal S100000x128 .f32) (x2 : IVec S100000 32) (x3 : IVec S100000 32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x128 .f32) (x13 : FVec Ideal S128 .f32) (x14 : FVec Ideal S128x128 .f32) (x15 : FVec Ideal S128 .f32) (x16 : FVec Ideal S256x128 .f32) (x17 : FVec Ideal S128 .f32) (x18 : FVec Ideal S128x128 .f32) (x19 : FVec Ideal S128 .f32) (x20 : FVec Ideal S128x128 .f32) (x21 : FVec Ideal S128 .f32) (x22 : FVec Ideal S128x128 .f32) (x23 : FVec Ideal S128 .f32) (x24 : FVec Ideal S128x128 .f32) (x25 : FVec Ideal S128 .f32) (x26 : FVec Ideal S128x128 .f32) (x27 : FVec Ideal S128 .f32) (x28 : FVec Ideal S128x128 .f32) (x29 : FVec Ideal S128 .f32) (x30 : FVec Ideal S128x128 .f32) (x31 : FVec Ideal S128 .f32) (x32 : FVec Ideal S128x2 .f32) (x33 : FVec Ideal S2 .f32)
    (h : Cert.Pre_finite_inputs.fn (F := Ideal) x0 x1 x2 x3 x4 x5 x6 x7 x8 x9 x10 x11 x12 x13 x14 x15 x16 x17 x18 x19 x20 x21 x22 x23 x24 x25 x26 x27 x28 x29 x30 x31 x32 x33 = fun _ => 1#1) :
    IsRealM (mat x0) ∧ IsRealM (mat x1) ∧ (∀ n : Fin 100000, 0 ≤ (vec x2 n).toInt ∧ (vec x2 n).toInt < 128)
    ∧ (mlp x4 x5 x6 x7 x8 x9).IsReal ∧ (mlp x10 x11 x12 x13 x14 x15).IsReal ∧ (mlp x16 x17 x18 x19 x20 x21).IsReal
    ∧ (mlp x22 x23 x24 x25 x26 x27).IsReal ∧ (mlp x28 x29 x30 x31 x32 x33).IsReal := by
  -- the one bit, as the conjunction of its thirty-three conjuncts
  have e := congrFun h ValueIdx.ix0
  dsimp only [Cert.Pre_finite_inputs.fn, fn_part1, fn_part2, fn_part3, fn_part4, fn_part5, fn_part6, fn_part7, fn_part8,
    fn_part9] at e
  simp only [andi] at e
  simp only [IntOp.andi_eq_one] at e
  obtain ⟨⟨⟨⟨⟨⟨⟨⟨⟨⟨⟨⟨⟨⟨⟨⟨⟨⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, hI⟩ := e
  refine ⟨fun p q => exists_real_of_all x0 _ _ _ h0 (ix2 p q), fun p q => exists_real_of_all x1 _ _ _ h1 (ix2 p q), ?_,
    ⟨fun p q => exists_real_of_all x4 _ _ _ h4 (ix2 p q),
      fun q => exists_real_of_all x5 _ _ _ h5 (ix1 q),
      fun p q => exists_real_of_all x6 _ _ _ h6 (ix2 p q),
      fun q => exists_real_of_all x7 _ _ _ h7 (ix1 q),
      fun p q => exists_real_of_all x8 _ _ _ h8 (ix2 p q),
      fun q => exists_real_of_all x9 _ _ _ h9 (ix1 q)⟩,
    ⟨fun p q => exists_real_of_all x10 _ _ _ h10 (ix2 p q),
      fun q => exists_real_of_all x11 _ _ _ h11 (ix1 q),
      fun p q => exists_real_of_all x12 _ _ _ h12 (ix2 p q),
      fun q => exists_real_of_all x13 _ _ _ h13 (ix1 q),
      fun p q => exists_real_of_all x14 _ _ _ h14 (ix2 p q),
      fun q => exists_real_of_all x15 _ _ _ h15 (ix1 q)⟩,
    ⟨fun p q => exists_real_of_all x16 _ _ _ h16 (ix2 p q),
      fun q => exists_real_of_all x17 _ _ _ h17 (ix1 q),
      fun p q => exists_real_of_all x18 _ _ _ h18 (ix2 p q),
      fun q => exists_real_of_all x19 _ _ _ h19 (ix1 q),
      fun p q => exists_real_of_all x20 _ _ _ h20 (ix2 p q),
      fun q => exists_real_of_all x21 _ _ _ h21 (ix1 q)⟩,
    ⟨fun p q => exists_real_of_all x22 _ _ _ h22 (ix2 p q),
      fun q => exists_real_of_all x23 _ _ _ h23 (ix1 q),
      fun p q => exists_real_of_all x24 _ _ _ h24 (ix2 p q),
      fun q => exists_real_of_all x25 _ _ _ h25 (ix1 q),
      fun p q => exists_real_of_all x26 _ _ _ h26 (ix2 p q),
      fun q => exists_real_of_all x27 _ _ _ h27 (ix1 q)⟩,
    ⟨fun p q => exists_real_of_all x28 _ _ _ h28 (ix2 p q),
      fun q => exists_real_of_all x29 _ _ _ h29 (ix1 q),
      fun p q => exists_real_of_all x30 _ _ _ h30 (ix2 p q),
      fun q => exists_real_of_all x31 _ _ _ h31 (ix1 q),
      fun p q => exists_real_of_all x32 _ _ _ h32 (ix2 p q),
      fun q => exists_real_of_all x33 _ _ _ h33 (ix1 q)⟩⟩
  -- the labels: every bit under the `all` is 1
  intro n
  exact label_in_range (x2 (ix1 n)) (Host.reduce_andi_all _ _ _ _ _ hI (ix1 n))

end Cert.PreFacts

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.LibExtReal.lean ====
/-
  Real numbers inside the extended reals.

  An extended real is called real when it is the image of a real number. Sums, products, the maximum with
  zero, choices and finite sums of real values are real, and a real value minus itself is zero, which fails
  at the two infinities. The inclusion of the reals commutes with finite sums, the maximum and choices, so
  an identity between finite sums of products of real values can be proved over the reals and carried over.
-/
import Mathlib.Data.EReal.Operations
import Mathlib.Algebra.BigOperators.Fin

noncomputable section

open scoped BigOperators

namespace Cert.Lib.ExtReal

/-- An extended real that is a real number. -/
def IsR (a : EReal) : Prop := ∃ r : ℝ, a = (r : EReal)

/-- The image of a real number is real. -/
theorem isR_coe (r : ℝ) : IsR (r : EReal) := ⟨r, rfl⟩

/-- Zero is real. -/
theorem isR_zero : IsR (0 : EReal) := ⟨0, rfl⟩

/-- One is real. -/
theorem isR_one : IsR (1 : EReal) := ⟨1, rfl⟩

/-- The sum of two real values is real. -/
theorem IsR.add {a b : EReal} (ha : IsR a) (hb : IsR b) : IsR (a + b) := by
  obtain ⟨r, rfl⟩ := ha
  obtain ⟨s, rfl⟩ := hb
  exact ⟨r + s, (EReal.coe_add r s).symm⟩

/-- The product of two real values is real. -/
theorem IsR.mul {a b : EReal} (ha : IsR a) (hb : IsR b) : IsR (a * b) := by
  obtain ⟨r, rfl⟩ := ha
  obtain ⟨s, rfl⟩ := hb
  exact ⟨r * s, (EReal.coe_mul r s).symm⟩

/-- The inclusion of the reals commutes with the maximum. -/
theorem coe_max' (r s : ℝ) : ((max r s : ℝ) : EReal) = max (r : EReal) (s : EReal) :=
  (EReal.coe_strictMono.monotone).map_max

/-- The maximum of a real value and zero is real. -/
theorem IsR.max0 {a : EReal} (ha : IsR a) : IsR (max a 0) := by
  obtain ⟨r, rfl⟩ := ha
  exact ⟨max r 0, by rw [coe_max', EReal.coe_zero]⟩

/-- A choice between two real values is real. -/
theorem IsR.ite {c : Prop} [Decidable c] {a b : EReal} (ha : IsR a) (hb : IsR b) :
    IsR (if c then a else b) := by
  split_ifs <;> assumption

/-- A finite sum of real values is real. -/
theorem IsR.sum {ι : Type*} (s : Finset ι) (f : ι → EReal) (h : ∀ i ∈ s, IsR (f i)) :
    IsR (∑ i ∈ s, f i) :=
  Finset.sum_induction f IsR (fun _ _ => IsR.add) isR_zero h

/-- A real value minus itself is zero (false at the two infinities). -/
theorem IsR.sub_self {a : EReal} (ha : IsR a) : a - a = 0 := by
  obtain ⟨r, rfl⟩ := ha
  rw [← EReal.coe_sub, _root_.sub_self, EReal.coe_zero]

/-- The inclusion of the reals commutes with finite sums. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with a choice. -/
theorem coe_ite' (c : Prop) [Decidable c] (a b : ℝ) :
    ((if c then a else b : ℝ) : EReal) = if c then (a : EReal) else (b : EReal) := by
  split_ifs <;> rfl

end Cert.Lib.ExtReal

end
-- ==== Proof.SpecLaw.lean ====
/-
  The two programs of the specification agree on real inputs and weights.

  Every intermediate value is real because the inputs and weights are, and that is needed twice: a pooled
  sum minus itself is zero, so the second and third passes of the last layer add nothing, and a product
  distributes over the pooled sums, so pooling the activations and applying the last layer once (with the
  bias once per row of the segment) gives the pooled rows of the perceptron. The rest holds for all extended
  reals: the blocks' nodes are all the nodes; the transposed one-hot product reads the row a node's label
  names; a product with concatenated rows is the sum of the products with the two halves; and the first two
  columns of the zero-padded head are the head's columns.
-/
import proofs.«159474_g3393024163881_fold_wed_m_362_30_alg».proof.Proof.Spec
import proofs.«159474_g3393024163881_fold_wed_m_362_30_alg».proof.Proof.LibSumRegroup
import proofs.«159474_g3393024163881_fold_wed_m_362_30_alg».proof.Proof.LibExtReal
import Mathlib.Data.EReal.Operations
import Mathlib.Algebra.BigOperators.Fin

noncomputable section

namespace Cert.Spec

open scoped BigOperators
open Cert.Lib.ExtReal

/-! ## Every stage keeps real entries real -/

variable {M K N : ℕ}

theorem IsRealM.mm {x : Fin M → Fin K → EReal} {w : Fin K → Fin N → EReal} (hx : IsRealM x) (hw : IsRealM w) :
    IsRealM (mm x w) := fun p q =>
  IsR.sum _ _ fun k _ => IsR.mul (hx p k) (hw k q)

theorem IsRealM.dense {x : Fin M → Fin K → EReal} {w : Fin K → Fin N → EReal} {b : Fin N → EReal}
    (hx : IsRealM x) (hw : IsRealM w) (hb : IsRealV b) : IsRealM (dense x w b) := fun p q =>
  IsR.add (hx.mm hw p q) (hb q)

theorem IsRealM.relu {x : Fin M → Fin N → EReal} (hx : IsRealM x) : IsRealM (relu x) := fun p q =>
  IsR.max0 (hx p q)

variable {I H1 H2 O : ℕ}

theorem Mlp.IsReal.hid {p : Mlp I H1 H2 O} (hp : p.IsReal) {x : Fin M → Fin I → EReal} (hx : IsRealM x) :
    IsRealM (p.hid x) :=
  ((hx.dense hp.1 hp.2.1).relu.dense hp.2.2.1 hp.2.2.2.1).relu

theorem Mlp.IsReal.apply {p : Mlp I H1 H2 O} (hp : p.IsReal) {x : Fin M → Fin I → EReal} (hx : IsRealM x) :
    IsRealM (p.apply x) :=
  (hp.hid hx).dense hp.2.2.2.2.1 hp.2.2.2.2.2

theorem IsRealM.pool {E G C : ℕ} (ids : Fin E → BitVec 32) {h : Fin E → Fin C → EReal} (hh : IsRealM h) :
    IsRealM (pool (G := G) ids h) := fun g c =>
  IsR.sum _ _ fun e _ => IsR.ite (hh e c) isR_zero

theorem IsRealM.beside {x2 : Fin 100000 → Fin 128 → EReal} {u : Fin 128 → Fin 128 → EReal}
    (hx : IsRealM x2) (hu : IsRealM u) (row : Fin 100000 → Fin 128) : IsRealM (beside x2 u row) := by
  intro n k
  unfold Cert.Spec.beside
  split_ifs
  · exact hx _ _
  · exact hu _ _

theorem isR_onehot {E G : ℕ} (ids : Fin E → BitVec 32) (g : Fin G) (e : Fin E) : IsR (onehot ids g e) :=
  IsR.ite isR_one isR_zero

/-! ## Fetching, the split first layer, and the padded head -/

/-- The transposed one-hot product reads the row the label names. -/
theorem fetch_eq (ids : Fin 100000 → BitVec 32) (row : Fin 100000 → Fin 128)
    (hrow : ∀ n, (ids n).toInt = ((row n).val : ℤ)) (u : Fin 128 → Fin 128 → EReal) :
    fetch ids u = fun n k => u (row n) k := by
  funext n k
  unfold fetch
  rw [Finset.sum_eq_single (row n)]
  · unfold onehot
    rw [if_pos (hrow n), one_mul]
  · intro g _ hg
    unfold onehot
    rw [if_neg, zero_mul]
    intro h
    apply hg
    rw [hrow n] at h
    exact Fin.ext (by exact_mod_cast h.symm)
  · intro h
    exact absurd (Finset.mem_univ _) h

/-- A product with the concatenated rows is the sum of the products with the two halves. -/
theorem mm_beside (x2 : Fin 100000 → Fin 128 → EReal) (u : Fin 128 → Fin 128 → EReal) (row : Fin 100000 → Fin 128)
    (w0 : Fin 256 → Fin 128 → EReal) (n : Fin 100000) (q : Fin 128) :
    mm (beside x2 u row) w0 n q
      = mm x2 (fun k q => w0 ⟨k.val, by omega⟩ q) n q
        + mm (fun n k => u (row n) k) (fun k q => w0 ⟨128 + k.val, by omega⟩ q) n q := by
  unfold mm
  show (∑ k : Fin (128 + 128), beside x2 u row n k * w0 k q) = _
  rw [Fin.sum_univ_add]
  congr 1

/-- The second stage's activations: the two halves of the first weight matrix against the concatenation. -/
theorem hid2_eq (e2 : Mlp 256 128 128 128) (x2 : Fin 100000 → Fin 128 → EReal) (u : Fin 128 → Fin 128 → EReal)
    (row : Fin 100000 → Fin 128) :
    hid2 e2 x2 (fun n k => u (row n) k) = e2.hid (beside x2 u row) := by
  have h : (fun (n : Fin 100000) (q : Fin 128) =>
      (mm x2 (fun k q => e2.w0 ⟨k.val, by omega⟩ q) n q
        + mm (fun n k => u (row n) k) (fun k q => e2.w0 ⟨128 + k.val, by omega⟩ q) n q) + e2.b0 q)
      = dense (beside x2 u row) e2.w0 e2.b0 := by
    funext n q
    unfold dense
    rw [mm_beside]
  unfold hid2 Mlp.hid
  rw [h]

/-- The first two columns of the padded head are the head's two columns. -/
theorem dense_pad {M : ℕ} (h : Fin M → Fin 128 → EReal) (w : Fin 128 → Fin 2 → EReal) (b : Fin 2 → EReal)
    (g : Fin M) (j : Fin 2) :
    dense h (padW w) (padB b) g ⟨j.val, by omega⟩ = dense h w b g j := by
  unfold dense mm padW padB
  simp only [dif_pos j.isLt]

/-! ## Pooling commutes with the last linear layer -/

/-- The blocks' nodes, one block after the other, are all the nodes. -/
theorem sum_nodes {A : Type*} [AddCommMonoid A] (f : Fin 100000 → A) :
    ∑ i : Fin 10, ∑ r : Fin 10000, f (node i r) = ∑ e, f e := by
  rw [Cert.Lib.SumRegroup.sum_fin_mul 10 10000 100000 (by norm_num) f]
  refine Finset.sum_congr rfl fun i _ => Finset.sum_congr rfl fun r _ => ?_
  congr 1
  apply Fin.ext
  simp only [node, Fin.coe_cast, finProdFinEquiv_apply_val]
  omega

theorem blockPool_eq (ids : Fin 100000 → BitVec 32) (y : Fin 100000 → Fin 128 → EReal) (g k : Fin 128) :
    blockPool ids y g k = ∑ e, onehot ids g e * y e k :=
  sum_nodes fun e => onehot ids g e * y e k

theorem blockCount_eq (ids : Fin 100000 → BitVec 32) (g : Fin 128) :
    blockCount ids g = ∑ e, onehot ids g e :=
  sum_nodes fun e => onehot ids g e

theorem IsRealM.blockPool (ids : Fin 100000 → BitVec 32) {y : Fin 100000 → Fin 128 → EReal} (hy : IsRealM y) :
    IsRealM (blockPool ids y) := fun g k => by
  rw [blockPool_eq]
  exact IsR.sum _ _ fun e _ => IsR.mul (isR_onehot ids g e) (hy e k)

/-- Over the reals: the sum, over the selected rows, of a row's product with a column plus a constant is the
    column's product with the selected rows' sum plus the constant once per selected row. -/
theorem real_pool_last {E K : ℕ} (c : Fin E → Prop) [DecidablePred c] (y : Fin E → Fin K → ℝ) (w : Fin K → ℝ) (b : ℝ) :
    (∑ e, if c e then (∑ k, y e k * w k + b) else 0)
      = ∑ k, (∑ e, (if c e then (1 : ℝ) else 0) * y e k) * w k + (∑ e, if c e then (1 : ℝ) else 0) * b := by
  simp only [Finset.sum_mul]
  rw [Finset.sum_comm, ← Finset.sum_add_distrib]
  refine Finset.sum_congr rfl fun e _ => ?_
  split_ifs
  · simp only [one_mul]
  · simp only [zero_mul, Finset.sum_const_zero, add_zero]

/-- The same over the extended reals, for real entries. -/
theorem pool_dense_sum {E K G C : ℕ} (ids : Fin E → BitVec 32) {y : Fin E → Fin K → EReal}
    {w : Fin K → Fin C → EReal} {b : Fin C → EReal} (hy : IsRealM y) (hw : IsRealM w) (hb : IsRealV b)
    (g : Fin G) (q : Fin C) :
    pool ids (dense y w b) g q
      = ∑ k, (∑ e, onehot ids g e * y e k) * w k q + (∑ e, onehot ids g e) * b q := by
  choose y' hy using hy
  choose w' hw using hw
  choose b' hb using hb
  have h := congrArg (fun r : ℝ => (r : EReal))
    (real_pool_last (fun e => (ids e).toInt = (g.val : ℤ)) y' (fun k => w' k q) (b' q))
  simp only [coe_sum', EReal.coe_add, EReal.coe_mul, coe_ite', EReal.coe_zero, EReal.coe_one] at h
  unfold pool dense mm onehot
  simp only [hy, hw, hb]
  exact h

/-- Pooling the activations first and applying the last layer once to the pooled sums gives the pooled rows
    of the perceptron: the second and third passes add sums of zeros. -/
theorem applyLast_blockPool (ids : Fin 100000 → BitVec 32) {y : Fin 100000 → Fin 128 → EReal}
    {w : Fin 128 → Fin 128 → EReal} {b : Fin 128 → EReal} (hy : IsRealM y) (hw : IsRealM w) (hb : IsRealV b) :
    applyLast (blockPool ids y) (blockCount ids) w b = pool ids (dense y w b) := by
  funext g q
  have hz : ∀ a k, blockPool ids y a k - blockPool ids y a k = 0 := fun a k =>
    IsR.sub_self (hy.blockPool ids a k)
  have h00 : (0 : EReal) - 0 = 0 := IsR.sub_self isR_zero
  rw [pool_dense_sum ids hy hw hb]
  unfold applyLast mm
  simp only [hz, h00, zero_mul, Finset.sum_const_zero, add_zero]
  simp only [blockPool_eq, blockCount_eq]

/-! ## The two programs agree -/

/-- The kernel's result is the reference's, for real inputs and weights, when every node's first label names
    the segment `row` gives it. -/
theorem kernelOut_eq_referenceOut (x1 x2 : Fin 100000 → Fin 128 → EReal) (ids1 ids2 : Fin 100000 → BitVec 32)
    (row : Fin 100000 → Fin 128)
    (e1 r1 : Mlp 128 128 128 128) (e2 : Mlp 256 128 128 128) (r2 : Mlp 128 128 128 128) (hd : Mlp 128 128 128 2)
    (hx1 : IsRealM x1) (hx2 : IsRealM x2) (he1 : e1.IsReal) (hr1 : r1.IsReal) (he2 : e2.IsReal) (hr2 : r2.IsReal)
    (hhd : hd.IsReal)
    (hrow : ∀ n, (ids1 n).toInt = ((row n).val : ℤ)) :
    kernelOut x1 x2 ids1 ids2 e1 r1 e2 r2 hd = referenceOut x1 x2 ids1 ids2 row e1 r1 e2 r2 hd := by
  -- the first stage: pooled activations through the last layer are the pooled rows
  have h1 : applyLast (blockPool ids1 (e1.hid x1)) (blockCount ids1) e1.w2 e1.b2
      = pool ids1 (e1.apply x1) :=
    applyLast_blockPool ids1 (he1.hid hx1) he1.2.2.2.2.1 he1.2.2.2.2.2
  -- the segment embeddings are real, so the second stage's rows are
  have hu1 : IsRealM (r1.apply (pool (G := 128) ids1 (e1.apply x1))) :=
    hr1.apply ((he1.apply hx1).pool ids1)
  have h2 : applyLast (blockPool ids2 (e2.hid (beside x2 (r1.apply (pool (G := 128) ids1 (e1.apply x1))) row)))
        (blockCount ids2) e2.w2 e2.b2
      = pool ids2 (e2.apply (beside x2 (r1.apply (pool (G := 128) ids1 (e1.apply x1))) row)) :=
    applyLast_blockPool ids2 (he2.hid (hx2.beside hu1 row)) he2.2.2.2.2.1 he2.2.2.2.2.2
  have hwide : kernelWide x1 x2 ids1 ids2 e1 r1 e2 r2 hd
      = dense (hd.hid (r2.apply (pool (G := 128) ids2
          (e2.apply (beside x2 (r1.apply (pool (G := 128) ids1 (e1.apply x1))) row)))))
        (padW hd.w2) (padB hd.b2) := by
    unfold kernelWide
    dsimp only
    rw [h1, fetch_eq ids1 row hrow, hid2_eq, h2]
  funext g j
  show kernelWide x1 x2 ids1 ids2 e1 r1 e2 r2 hd g ⟨j.val, by omega⟩ = _
  rw [hwide, dense_pad]
  rfl

end Cert.Spec

end
-- ==== Proof.Claims.lean ====
/-
  The five claims.

  Both kernels run and leave their arguments as they were (the frames of the word-level kernel and of the kernel
  over the extended reals); so does the reference, whose frame is its run with the result dropped; each rewrite of
  the idealization drops a narrowing followed by a widening, the identity over the extended reals; and on
  arguments that agree and pass the precondition the two idealized programs end with equal results: the
  reference's is the specification's reference function, the precondition makes the inputs real and the first
  labels segment numbers, on such inputs the specification's two functions agree, and the kernel's result is the
  first two columns of the specification's padded kernel function.
-/
import proofs.«159474_g3393024163881_fold_wed_m_362_30_alg».proof.Defs
import proofs.«159474_g3393024163881_fold_wed_m_362_30_alg».proof.Proof.Gen.Kernel
import proofs.«159474_g3393024163881_fold_wed_m_362_30_alg».proof.Proof.Gen.KernelIdeal
import proofs.«159474_g3393024163881_fold_wed_m_362_30_alg».proof.Proof.Gen.ReferenceIdeal
import proofs.«159474_g3393024163881_fold_wed_m_362_30_alg».proof.Proof.Gen.Pre_finite_inputs
import proofs.«159474_g3393024163881_fold_wed_m_362_30_alg».proof.Proof.Gen.Kernel.Frame
import proofs.«159474_g3393024163881_fold_wed_m_362_30_alg».proof.Proof.Gen.KernelIdeal.Frame
import proofs.«159474_g3393024163881_fold_wed_m_362_30_alg».proof.Proof.Gen.ReferenceIdeal.Run
import proofs.«159474_g3393024163881_fold_wed_m_362_30_alg».proof.Proof.Gen.ReferenceIdeal.Read
import proofs.«159474_g3393024163881_fold_wed_m_362_30_alg».proof.Proof.K.Body
import proofs.«159474_g3393024163881_fold_wed_m_362_30_alg».proof.Proof.KI.Body
import proofs.«159474_g3393024163881_fold_wed_m_362_30_alg».proof.Proof.KI.Tail
import proofs.«159474_g3393024163881_fold_wed_m_362_30_alg».proof.Proof.KI.KernelValue
import proofs.«159474_g3393024163881_fold_wed_m_362_30_alg».proof.Proof.RefValue
import proofs.«159474_g3393024163881_fold_wed_m_362_30_alg».proof.Proof.PreFacts
import proofs.«159474_g3393024163881_fold_wed_m_362_30_alg».proof.Proof.SpecLaw
import proofs.«159474_g3393024163881_fold_wed_m_362_30_alg».proof.Proof.Glue

set_option maxRecDepth 16384

noncomputable section

namespace Cert.Proof.Claims

open Idealize.ShloMosaic Idealize.SL.Sem Cert.Glue

/-! ## The reference -/

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each of the five rewrites drops a narrowing followed by a widening, which over the extended reals is the identity. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16⟩

/-- On arguments that pass the precondition the reference's result at an index is the specification's kernel
    function at its coordinates: the reference computes the specification's reference function, the precondition
    makes every input real and every first label one of the 128 segments, and on such inputs the two
    specifications agree. -/
theorem ref_core (x0 : FVec Ideal Cert.Pre_finite_inputs.S100000x128 .f32) (x1 : FVec Ideal Cert.Pre_finite_inputs.S100000x128 .f32) (x2 : IVec Cert.Pre_finite_inputs.S100000 32) (x3 : IVec Cert.Pre_finite_inputs.S100000 32) (x4 : FVec Ideal Cert.Pre_finite_inputs.S128x128 .f32) (x5 : FVec Ideal Cert.Pre_finite_inputs.S128 .f32) (x6 : FVec Ideal Cert.Pre_finite_inputs.S128x128 .f32) (x7 : FVec Ideal Cert.Pre_finite_inputs.S128 .f32) (x8 : FVec Ideal Cert.Pre_finite_inputs.S128x128 .f32) (x9 : FVec Ideal Cert.Pre_finite_inputs.S128 .f32) (x10 : FVec Ideal Cert.Pre_finite_inputs.S128x128 .f32) (x11 : FVec Ideal Cert.Pre_finite_inputs.S128 .f32) (x12 : FVec Ideal Cert.Pre_finite_inputs.S128x128 .f32) (x13 : FVec Ideal Cert.Pre_finite_inputs.S128 .f32) (x14 : FVec Ideal Cert.Pre_finite_inputs.S128x128 .f32) (x15 : FVec Ideal Cert.Pre_finite_inputs.S128 .f32) (x16 : FVec Ideal Cert.Pre_finite_inputs.S256x128 .f32) (x17 : FVec Ideal Cert.Pre_finite_inputs.S128 .f32) (x18 : FVec Ideal Cert.Pre_finite_inputs.S128x128 .f32) (x19 : FVec Ideal Cert.Pre_finite_inputs.S128 .f32) (x20 : FVec Ideal Cert.Pre_finite_inputs.S128x128 .f32) (x21 : FVec Ideal Cert.Pre_finite_inputs.S128 .f32) (x22 : FVec Ideal Cert.Pre_finite_inputs.S128x128 .f32) (x23 : FVec Ideal Cert.Pre_finite_inputs.S128 .f32) (x24 : FVec Ideal Cert.Pre_finite_inputs.S128x128 .f32) (x25 : FVec Ideal Cert.Pre_finite_inputs.S128 .f32) (x26 : FVec Ideal Cert.Pre_finite_inputs.S128x128 .f32) (x27 : FVec Ideal Cert.Pre_finite_inputs.S128 .f32) (x28 : FVec Ideal Cert.Pre_finite_inputs.S128x128 .f32) (x29 : FVec Ideal Cert.Pre_finite_inputs.S128 .f32) (x30 : FVec Ideal Cert.Pre_finite_inputs.S128x128 .f32) (x31 : FVec Ideal Cert.Pre_finite_inputs.S128 .f32) (x32 : FVec Ideal Cert.Pre_finite_inputs.S128x2 .f32) (x33 : FVec Ideal Cert.Pre_finite_inputs.S2 .f32)
    (hp : Cert.Pre_finite_inputs.fn (F := Ideal) x0 x1 x2 x3 x4 x5 x6 x7 x8 x9 x10 x11 x12 x13 x14 x15 x16 x17 x18 x19 x20 x21 x22 x23 x24 x25 x26 x27 x28 x29 x30 x31 x32 x33 = fun _ => 1#1) :
    Cert.ReferenceIdeal.Read.val_main_v83 (F := Ideal) x0 x1 x2 x3 x4 x5 x6 x7 x8 x9 x10 x11 x12 x13 x14 x15 x16 x17 x18 x19 x20 x21 x22 x23 x24 x25 x26 x27 x28 x29 x30 x31 x32 x33
      = fun i => Cert.Spec.kernelOut (mat x0) (mat x1) (vec x2) (vec x3) (mlp x4 x5 x6 x7 x8 x9) (mlp x10 x11 x12 x13 x14 x15)
      (mlp x16 x17 x18 x19 x20 x21) (mlp x22 x23 x24 x25 x26 x27) (mlp x28 x29 x30 x31 x32 x33) (i 0) (i 1) := by
  obtain ⟨r0, r1, hrange, e1, e2, e3, e4, e5⟩ := Cert.PreFacts.pre_facts x0 x1 x2 x3 x4 x5 x6 x7 x8 x9 x10 x11 x12 x13 x14 x15 x16 x17 x18 x19 x20 x21 x22 x23 x24 x25 x26 x27 x28 x29 x30 x31 x32 x33 hp
  rw [Cert.RefValue.reference_value x0 x1 x2 x3 x4 x5 x6 x7 x8 x9 x10 x11 x12 x13 x14 x15 x16 x17 x18 x19 x20 x21 x22 x23 x24 x25 x26 x27 x28 x29 x30 x31 x32 x33 hrange,
    Cert.Spec.kernelOut_eq_referenceOut _ _ _ _ (fun n => rowOf (vec x2 n)) _ _ _ _ _ r0 r1 e1 e2 e3 e4 e5
      (fun n => rowOf_spec _ (hrange n).1 (hrange n).2)]

/-- The same for arguments equal, one by one, to arguments that pass the precondition. -/
theorem ref_core_of_eq (x0 : FVec Ideal Cert.Pre_finite_inputs.S100000x128 .f32) (x1 : FVec Ideal Cert.Pre_finite_inputs.S100000x128 .f32) (x2 : IVec Cert.Pre_finite_inputs.S100000 32) (x3 : IVec Cert.Pre_finite_inputs.S100000 32) (x4 : FVec Ideal Cert.Pre_finite_inputs.S128x128 .f32) (x5 : FVec Ideal Cert.Pre_finite_inputs.S128 .f32) (x6 : FVec Ideal Cert.Pre_finite_inputs.S128x128 .f32) (x7 : FVec Ideal Cert.Pre_finite_inputs.S128 .f32) (x8 : FVec Ideal Cert.Pre_finite_inputs.S128x128 .f32) (x9 : FVec Ideal Cert.Pre_finite_inputs.S128 .f32) (x10 : FVec Ideal Cert.Pre_finite_inputs.S128x128 .f32) (x11 : FVec Ideal Cert.Pre_finite_inputs.S128 .f32) (x12 : FVec Ideal Cert.Pre_finite_inputs.S128x128 .f32) (x13 : FVec Ideal Cert.Pre_finite_inputs.S128 .f32) (x14 : FVec Ideal Cert.Pre_finite_inputs.S128x128 .f32) (x15 : FVec Ideal Cert.Pre_finite_inputs.S128 .f32) (x16 : FVec Ideal Cert.Pre_finite_inputs.S256x128 .f32) (x17 : FVec Ideal Cert.Pre_finite_inputs.S128 .f32) (x18 : FVec Ideal Cert.Pre_finite_inputs.S128x128 .f32) (x19 : FVec Ideal Cert.Pre_finite_inputs.S128 .f32) (x20 : FVec Ideal Cert.Pre_finite_inputs.S128x128 .f32) (x21 : FVec Ideal Cert.Pre_finite_inputs.S128 .f32) (x22 : FVec Ideal Cert.Pre_finite_inputs.S128x128 .f32) (x23 : FVec Ideal Cert.Pre_finite_inputs.S128 .f32) (x24 : FVec Ideal Cert.Pre_finite_inputs.S128x128 .f32) (x25 : FVec Ideal Cert.Pre_finite_inputs.S128 .f32) (x26 : FVec Ideal Cert.Pre_finite_inputs.S128x128 .f32) (x27 : FVec Ideal Cert.Pre_finite_inputs.S128 .f32) (x28 : FVec Ideal Cert.Pre_finite_inputs.S128x128 .f32) (x29 : FVec Ideal Cert.Pre_finite_inputs.S128 .f32) (x30 : FVec Ideal Cert.Pre_finite_inputs.S128x128 .f32) (x31 : FVec Ideal Cert.Pre_finite_inputs.S128 .f32) (x32 : FVec Ideal Cert.Pre_finite_inputs.S128x2 .f32) (x33 : FVec Ideal Cert.Pre_finite_inputs.S2 .f32)
    (y0 : FVec Ideal Cert.Pre_finite_inputs.S100000x128 .f32) (y1 : FVec Ideal Cert.Pre_finite_inputs.S100000x128 .f32) (y2 : IVec Cert.Pre_finite_inputs.S100000 32) (y3 : IVec Cert.Pre_finite_inputs.S100000 32) (y4 : FVec Ideal Cert.Pre_finite_inputs.S128x128 .f32) (y5 : FVec Ideal Cert.Pre_finite_inputs.S128 .f32) (y6 : FVec Ideal Cert.Pre_finite_inputs.S128x128 .f32) (y7 : FVec Ideal Cert.Pre_finite_inputs.S128 .f32) (y8 : FVec Ideal Cert.Pre_finite_inputs.S128x128 .f32) (y9 : FVec Ideal Cert.Pre_finite_inputs.S128 .f32) (y10 : FVec Ideal Cert.Pre_finite_inputs.S128x128 .f32) (y11 : FVec Ideal Cert.Pre_finite_inputs.S128 .f32) (y12 : FVec Ideal Cert.Pre_finite_inputs.S128x128 .f32) (y13 : FVec Ideal Cert.Pre_finite_inputs.S128 .f32) (y14 : FVec Ideal Cert.Pre_finite_inputs.S128x128 .f32) (y15 : FVec Ideal Cert.Pre_finite_inputs.S128 .f32) (y16 : FVec Ideal Cert.Pre_finite_inputs.S256x128 .f32) (y17 : FVec Ideal Cert.Pre_finite_inputs.S128 .f32) (y18 : FVec Ideal Cert.Pre_finite_inputs.S128x128 .f32) (y19 : FVec Ideal Cert.Pre_finite_inputs.S128 .f32) (y20 : FVec Ideal Cert.Pre_finite_inputs.S128x128 .f32) (y21 : FVec Ideal Cert.Pre_finite_inputs.S128 .f32) (y22 : FVec Ideal Cert.Pre_finite_inputs.S128x128 .f32) (y23 : FVec Ideal Cert.Pre_finite_inputs.S128 .f32) (y24 : FVec Ideal Cert.Pre_finite_inputs.S128x128 .f32) (y25 : FVec Ideal Cert.Pre_finite_inputs.S128 .f32) (y26 : FVec Ideal Cert.Pre_finite_inputs.S128x128 .f32) (y27 : FVec Ideal Cert.Pre_finite_inputs.S128 .f32) (y28 : FVec Ideal Cert.Pre_finite_inputs.S128x128 .f32) (y29 : FVec Ideal Cert.Pre_finite_inputs.S128 .f32) (y30 : FVec Ideal Cert.Pre_finite_inputs.S128x128 .f32) (y31 : FVec Ideal Cert.Pre_finite_inputs.S128 .f32) (y32 : FVec Ideal Cert.Pre_finite_inputs.S128x2 .f32) (y33 : FVec Ideal Cert.Pre_finite_inputs.S2 .f32)
    (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) (h15 : y15 = x15) (h16 : y16 = x16) (h17 : y17 = x17) (h18 : y18 = x18) (h19 : y19 = x19) (h20 : y20 = x20) (h21 : y21 = x21) (h22 : y22 = x22) (h23 : y23 = x23) (h24 : y24 = x24) (h25 : y25 = x25) (h26 : y26 = x26) (h27 : y27 = x27) (h28 : y28 = x28) (h29 : y29 = x29) (h30 : y30 = x30) (h31 : y31 = x31) (h32 : y32 = x32) (h33 : y33 = x33)
    (hp : Cert.Pre_finite_inputs.fn (F := Ideal) x0 x1 x2 x3 x4 x5 x6 x7 x8 x9 x10 x11 x12 x13 x14 x15 x16 x17 x18 x19 x20 x21 x22 x23 x24 x25 x26 x27 x28 x29 x30 x31 x32 x33 = fun _ => 1#1) :
    Cert.ReferenceIdeal.Read.val_main_v83 (F := Ideal) y0 y1 y2 y3 y4 y5 y6 y7 y8 y9 y10 y11 y12 y13 y14 y15 y16 y17 y18 y19 y20 y21 y22 y23 y24 y25 y26 y27 y28 y29 y30 y31 y32 y33
      = fun i => Cert.Spec.kernelOut (mat x0) (mat x1) (vec x2) (vec x3) (mlp x4 x5 x6 x7 x8 x9) (mlp x10 x11 x12 x13 x14 x15)
      (mlp x16 x17 x18 x19 x20 x21) (mlp x22 x23 x24 x25 x26 x27) (mlp x28 x29 x30 x31 x32 x33) (i 0) (i 1) := by
  subst h0 h1 h2 h3 h4 h5 h6 h7 h8 h9 h10 h11 h12 h13 h14 h15 h16 h17 h18 h19 h20 h21 h22 h23 h24 h25 h26 h27 h28 h29 h30 h31 h32 h33
  exact ref_core y0 y1 y2 y3 y4 y5 y6 y7 y8 y9 y10 y11 y12 y13 y14 y15 y16 y17 y18 y19 y20 y21 y22 y23 y24 y25 y26 y27 y28 y29 y30 y31 y32 y33 hp

/-- The reference's result on a memory whose arguments agree with the kernel's, when the kernel's pass the
    precondition. -/
theorem ref_result (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))
      ∧ (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25))
      ∧ (m' ((c.tc : Thread Cert.ReferenceIdeal.nD Cert.ReferenceIdeal.τ).loc Cert.ReferenceIdeal.main_arg26)) = (m ((c.tc : Thread Cert.KernelIdeal.nD Cert.KernelIdeal.τ).loc Cert.KernelIdeal.main_arg26))
      ∧ (m' ((c.tc : Thread Cert.ReferenceIdeal.nD Cert.ReferenceIdeal.τ).loc Cert.ReferenceIdeal.main_arg27)) = (m ((c.tc : Thread Cert.KernelIdeal.nD Cert.KernelIdeal.τ).loc Cert.KernelIdeal.main_arg27))
      ∧ (m' ((c.tc : Thread Cert.ReferenceIdeal.nD Cert.ReferenceIdeal.τ).loc Cert.ReferenceIdeal.main_arg28)) = (m ((c.tc : Thread Cert.KernelIdeal.nD Cert.KernelIdeal.τ).loc Cert.KernelIdeal.main_arg28))
      ∧ (m' ((c.tc : Thread Cert.ReferenceIdeal.nD Cert.ReferenceIdeal.τ).loc Cert.ReferenceIdeal.main_arg29)) = (m ((c.tc : Thread Cert.KernelIdeal.nD Cert.KernelIdeal.τ).loc Cert.KernelIdeal.main_arg29))
      ∧ (m' ((c.tc : Thread Cert.ReferenceIdeal.nD Cert.ReferenceIdeal.τ).loc Cert.ReferenceIdeal.main_arg30)) = (m ((c.tc : Thread Cert.KernelIdeal.nD Cert.KernelIdeal.τ).loc Cert.KernelIdeal.main_arg30))
      ∧ (m' ((c.tc : Thread Cert.ReferenceIdeal.nD Cert.ReferenceIdeal.τ).loc Cert.ReferenceIdeal.main_arg31)) = (m ((c.tc : Thread Cert.KernelIdeal.nD Cert.KernelIdeal.τ).loc Cert.KernelIdeal.main_arg31))
      ∧ (m' ((c.tc : Thread Cert.ReferenceIdeal.nD Cert.ReferenceIdeal.τ).loc Cert.ReferenceIdeal.main_arg32)) = (m ((c.tc : Thread Cert.KernelIdeal.nD Cert.KernelIdeal.τ).loc Cert.KernelIdeal.main_arg32))
      ∧ (m' ((c.tc : Thread Cert.ReferenceIdeal.nD Cert.ReferenceIdeal.τ).loc Cert.ReferenceIdeal.main_arg33)) = (m ((c.tc : Thread Cert.KernelIdeal.nD Cert.KernelIdeal.τ).loc Cert.KernelIdeal.main_arg33))) :
    Cert.ReferenceIdeal.Value.res_main_v83 m' c = fun i => Cert.Spec.kernelOut (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (vec (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3)))
      (mlp (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (mlp (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
      (mlp (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
      (mlp (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)))
      (mlp (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) (i 0) (i 1) := by
  obtain ⟨h0, h1, h2, h3, h4, h5, h6, h7, h8, h9, h10, h11, h12, h13, h14, h15, h16, h17, h18, h19, h20, h21, h22, h23, h24, h25, h26, h27, h28, h29, h30, h31, h32, h33⟩ := hagree
  exact (Cert.ReferenceIdeal.Read.val_main_v83_eq m' c).trans
    (ref_core_of_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h0 h1 h2 h3 h4 h5 h6 h7 h8 h9 h10 h11 h12 h13 h14 h15 h16 h17 h18 h19 h20 h21 h22 h23 h24 h25 h26 h27 h28 h29 h30 h31 h32 h33 (hpre c))

/-! ## The two results are equal -/

/-- The first two columns of an array read entry by entry are the first two columns of the function it is. -/
theorem first_cols (W : Fin 128 → Fin 128 → EReal) (x : Vec Ideal Cert.KernelIdeal.S128x128 .f32) (hx : mat x = W) :
    (fun i : Cert.KernelIdeal.S128x2.Idx => W (i 0) ⟨(i 1).val, lt_of_lt_of_le (i 1).isLt (by decide)⟩)
      = fun i : Cert.KernelIdeal.S128x2.Idx => x (ValueIdx.ix2 (i 0) ⟨(i 1).val, lt_of_lt_of_le (i 1).isLt (by decide)⟩) := by
  subst hx
  rfl

section
open Cert.KernelIdeal Cert.KernelIdeal.Gen
open Idealize.ShloMosaic.TcCoe Idealize.ShloMosaic.Rounds
open Idealize.ShloMosaic.Pipeline (Dat Cfg Window BodyObligation cellOf)

/-- Both programs run. From a frame run of the kernel whose output block after the last grid point is `X m c`,
    the kernel's result is the first two columns of that block; the reference's result is the specification's
    kernel function of the same arguments (`ref_result`); and when the block is the specification's padded
    kernel function (`kv`) its first two columns are that function. -/
theorem algebraic_of_dats
    (dats : (m : (ℓ : Loc Cert.KernelIdeal.nD Cert.KernelIdeal.τ Cert.KernelIdeal.sig) → Buf (Elt Ideal) ℓ) → (p : Fin 1) → (c : Dev nD) → Dat τ (Elt Ideal) Unit ℕ (UR sig nD τ) ℕ (cfgs p) c)
    (hA : ∀ (m : (ℓ : Loc Cert.KernelIdeal.nD Cert.KernelIdeal.τ Cert.KernelIdeal.sig) → Buf (Elt Ideal) ℓ) c w, (dats m 0 c).A w = V m c (Pipeline.arrRef spec0 w))
    (X : (m : (ℓ : Loc Cert.KernelIdeal.nD Cert.KernelIdeal.τ Cert.KernelIdeal.sig) → Buf (Elt Ideal) ℓ) → Dev nD → Vec Ideal S128x128 .f32)
    (hX : ∀ (m : (ℓ : Loc Cert.KernelIdeal.nD Cert.KernelIdeal.τ Cert.KernelIdeal.sig) → Buf (Elt Ideal) ℓ) c, (dats m 0 c).after 35 ⟨19, by decide⟩ = X m c)
    (h : ∀ (m : (ℓ : Loc Cert.KernelIdeal.nD Cert.KernelIdeal.τ Cert.KernelIdeal.sig) → Buf (Elt Ideal) ℓ) (ρ : Dev nD → PrngReg), θ_run defs (onTc (τ := τ) (main (F := Ideal))) (s₀ m ρ)
      (Pipeline.FramePost cfgs (dats m) 0 (Pipeline.afterTail₀ cfgs (dats m) 0 (V0 m) [hostOps1])))
    (kv : ∀ (m : (ℓ : Loc Cert.KernelIdeal.nD Cert.KernelIdeal.τ Cert.KernelIdeal.sig) → Buf (Elt Ideal) ℓ) (c : Dev nD), mat (X m c)
        = Cert.Spec.kernelWide (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (vec (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3)))
      (mlp (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (mlp (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
      (mlp (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
      (mlp (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)))
      (mlp (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)))) :
    Cert.algebraic_KernelIdeal_ReferenceIdeal := by
  intro m ρ m' ρ' hpre hagree
  refine ⟨fun c => fun i : S128x2.Idx => X m c
      (ValueIdx.ix2 (i 0) ⟨(i 1).val, lt_of_lt_of_le (i 1).isLt (by decide)⟩), ?_, ?_⟩
  · exact Cert.KernelIdeal.Tail.result_of_run m ρ (dats m) (hA m) (X m) (hX m) (h m ρ)
  · refine (θ_run Cert.ReferenceIdeal.defs _ _).mono (fun _ h c => ⟨(h c).1.trans ?_, (h c).2⟩)
      (Cert.ReferenceIdeal.Value.run (F := Ideal) m' ρ')
    rw [ref_result m m' c hpre (hagree c)]
    exact first_cols _ _ (kv m c)

end

/-! ## The kernels' frames and the last claim -/

/-- The word-level kernel runs and leaves its arguments as they were. -/
theorem frame_k : Cert.frame_Kernel := fun m ρ _ =>
  Cert.Kernel.Gen.frame_of m ρ (Cert.Kernel.Body.dats m) (Cert.Kernel.Body.A_eq m) (Cert.Kernel.Body.run_main (F := Bits) m ρ)

/-- So does the kernel over the extended reals. -/
theorem frame_ki : Cert.frame_KernelIdeal := fun m ρ _ =>
  Cert.KernelIdeal.Gen.frame_of m ρ (Cert.KernelIdeal.Body.dats m) (Cert.KernelIdeal.Body.A_eq m) (Cert.KernelIdeal.Body.run_main (F := Ideal) m ρ)

/-- The last grid point is point 19 of 20. -/
theorem last_point : 19 < Cert.KernelIdeal.cfg0.N :=
  lt_of_lt_of_eq (by decide : (19 : ℕ) < 20) (show (20 : ℕ) = Cert.KernelIdeal.cfg0.N from Cert.KernelIdeal.Gen.N_0.symm)

/-- The last claim, from the fact that the block the last grid point stores is the specification's padded kernel
    function of the arguments. -/
theorem algebraic_of
    (kv : ∀ (m : (ℓ : Loc Cert.KernelIdeal.nD Cert.KernelIdeal.τ Cert.KernelIdeal.sig) → Buf (Elt Ideal) ℓ) (c : Dev Cert.KernelIdeal.nD),
      mat (Cert.KernelIdeal.Body.stAt (F := Ideal) m c 19 last_point).out
        = Cert.Spec.kernelWide (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (vec (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3)))
      (mlp (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (mlp (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
      (mlp (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
      (mlp (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)))
      (mlp (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)))) :
    Cert.algebraic_KernelIdeal_ReferenceIdeal :=
  algebraic_of_dats (fun m => Cert.KernelIdeal.Body.dats m) (fun m => Cert.KernelIdeal.Body.A_eq m)
    (fun m c => (Cert.KernelIdeal.Body.stAt (F := Ideal) m c 19 last_point).out)
    (fun m c => Cert.KernelIdeal.Body.after35 m c ⟨19, last_point⟩) (fun m ρ => Cert.KernelIdeal.Body.run_main m ρ) kv

/-- The two idealized programs end with equal results: the output block after the last grid point is the
    specification's function of the argument arrays, whose first two columns the reference's result equals. -/
theorem algebraic : Cert.algebraic_KernelIdeal_ReferenceIdeal :=
  algebraic_of (fun m c => Cert.KernelIdeal.Value2.kernel_value m c)

end Cert.Proof.Claims

end
-- ==== Proof.lean ====
/-
  The certificate of a fused two-stage DeepSet network: the kernel against its jnp reference.

  The reference runs a three-layer perceptron on every node, sums the rows of each segment (a node joins segment g
  when its label, read as a signed word, is g), runs a graph-level perceptron on the sums, hands every node of the
  second stage the embedding of the segment its FIRST label names beside its own features, and repeats; a final
  perceptron gives two columns per segment.  The kernel streams the nodes in ten blocks per stage over a grid of
  twenty points and keeps per-segment sums in scratch buffers: it pools the activations BEFORE each per-node
  perceptron's last, linear layer with a one-hot matrix, counts each segment's rows, and applies the last layer
  once to the pooled sums (pooling commutes with a linear layer: the sum of y·W + b over a segment is the pooled
  y times W plus the segment's size times b); it fetches a node's segment embedding by the transposed one-hot
  product, splits the second stage's first weight matrix in two instead of concatenating, and pads the head to
  128 columns, of which the first two are the result.

  Over the extended reals the two agree when every float input is finite (distributivity and x - x = 0 need real
  numbers) and every first label lies in 0..127: outside that range the reference's gather wraps and clamps the
  label to a row while the one-hot product fetches a zero row.  The second labels need no bound: both programs
  drop a row whose label names no segment.

  Modules: Spec (both programs as plain functions), SpecLaw (they agree), RefValue (the reference's result is the
  specification's), PreFacts (the precondition read as realness and the label range), KI/ and K/ (the kernel's
  frame at the ideal and the word-level instance: the body run case by case, the scratch contents by recursion on
  the grid point), KI/Pieces, KI/PayVal, KI/EntryVals, KI/KernelValue (what the scratch buffers and the output block
  hold, as the specification's function), KI/Tail (the result buffer after the final slice), Claims (the five claims).
-/
import proofs.«159474_g3393024163881_fold_wed_m_362_30_alg».proof.Defs
import proofs.«159474_g3393024163881_fold_wed_m_362_30_alg».proof.Proof.Gen.Kernel
import proofs.«159474_g3393024163881_fold_wed_m_362_30_alg».proof.Proof.Gen.Kernel.Skeleton
import proofs.«159474_g3393024163881_fold_wed_m_362_30_alg».proof.Proof.Gen.Kernel.Launch
import proofs.«159474_g3393024163881_fold_wed_m_362_30_alg».proof.Proof.Gen.Kernel.Points
import proofs.«159474_g3393024163881_fold_wed_m_362_30_alg».proof.Proof.Gen.Kernel.Frame
import proofs.«159474_g3393024163881_fold_wed_m_362_30_alg».proof.Proof.Gen.KernelIdeal
import proofs.«159474_g3393024163881_fold_wed_m_362_30_alg».proof.Proof.Gen.KernelIdeal.Skeleton
import proofs.«159474_g3393024163881_fold_wed_m_362_30_alg».proof.Proof.Gen.KernelIdeal.Launch
import proofs.«159474_g3393024163881_fold_wed_m_362_30_alg».proof.Proof.Gen.KernelIdeal.Points
import proofs.«159474_g3393024163881_fold_wed_m_362_30_alg».proof.Proof.Gen.KernelIdeal.Frame
import proofs.«159474_g3393024163881_fold_wed_m_362_30_alg».proof.Proof.Gen.ReferenceIdeal
import proofs.«159474_g3393024163881_fold_wed_m_362_30_alg».proof.Proof.Gen.Pre_finite_inputs
import proofs.«159474_g3393024163881_fold_wed_m_362_30_alg».proof.Proof.Gen.ReferenceIdeal.Run
import proofs.«159474_g3393024163881_fold_wed_m_362_30_alg».proof.Proof.Gen.ReferenceIdeal.Read
import proofs.«159474_g3393024163881_fold_wed_m_362_30_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
